-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v106_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v106_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x4096 : Shape := ⟨2, ![10000, 4096]⟩
abbrev S1x64 : Shape := ⟨2, ![1, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S64x64 : Shape := ⟨2, ![64, 64]⟩
abbrev S128x1 : Shape := ⟨2, ![128, 1]⟩
abbrev S1 : Shape := ⟨1, ![1]⟩
abbrev S64x1 : Shape := ⟨2, ![64, 1]⟩
abbrev S_ : Shape := ⟨0, ![]⟩

class Facts : Prop where
  bcast_S_S10000x4096 : S_.BroadcastsInDim S10000x4096 (![] : Fin 0 → Fin S10000x4096.rank)
  reducesTo_S10000x4096_S_d0_1 : S10000x4096.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x1 : S_.BroadcastsInDim S64x1 (![] : Fin 0 → Fin S64x1.rank)
  reducesTo_S64x1_S_d0_1 : S64x1.ReducesTo [0, 1] S_

variable [Facts]

def fn_part6 {F : FTy → Type} [FloatOps F] (main_arg21 : FVec F S64 .f32) (main_arg22 : FVec F S64x1 .f32) (main_arg23 : FVec F S1 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg22
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg18 : FVec F S128x1 .f32) (main_arg19 : FVec F S1 .f32) (main_arg20 : FVec F S64x64 .f32) (main_arg21 : FVec F S64 .f32) (main_arg22 : FVec F S64x1 .f32) (main_arg23 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg18
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S64x64 .f32 := Host.absf main_arg20
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S128x1 .f32) (main_arg15 : FVec F S1 .f32) (main_arg16 : FVec F S128x128 .f32) (main_arg17 : FVec F S128 .f32) (main_arg18 : FVec F S128x1 .f32) (main_arg19 : FVec F S1 .f32) (main_arg20 : FVec F S64x64 .f32) (main_arg21 : FVec F S64 .f32) (main_arg22 : FVec F S64x1 .f32) (main_arg23 : FVec F S1 .f32) (main_v63 : IVec S_ 1) (main_v67 : IVec S_ 1) : IVec S_ 1 :=
  let main_v68 : IVec S_ 1 := andi main_v63 main_v67
  let main_v69 : FVec F S128x1 .f32 := Host.absf main_arg14
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S64 .f32) (main_arg12 : FVec F S128x128 .f32) (main_arg13 : FVec F S128 .f32) (main_arg14 : FVec F S128x1 .f32) (main_arg15 : FVec F S1 .f32) (main_arg16 : FVec F S128x128 .f32) (main_arg17 : FVec F S128 .f32) (main_arg18 : FVec F S128x1 .f32) (main_arg19 : FVec F S1 .f32) (main_arg20 : FVec F S64x64 .f32) (main_arg21 : FVec F S64 .f32) (main_arg22 : FVec F S64x1 .f32) (main_arg23 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S128x128 .f32) (main_arg13 : FVec F S128 .f32) (main_arg14 : FVec F S128x1 .f32) (main_arg15 : FVec F S1 .f32) (main_arg16 : FVec F S128x128 .f32) (main_arg17 : FVec F S128 .f32) (main_arg18 : FVec F S128x1 .f32) (main_arg19 : FVec F S1 .f32) (main_arg20 : FVec F S64x64 .f32) (main_arg21 : FVec F S64 .f32) (main_arg22 : FVec F S64x1 .f32) (main_arg23 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S128x128 .f32) (main_arg13 : FVec F S128 .f32) (main_arg14 : FVec F S128x1 .f32) (main_arg15 : FVec F S1 .f32) (main_arg16 : FVec F S128x128 .f32) (main_arg17 : FVec F S128 .f32) (main_arg18 : FVec F S128x1 .f32) (main_arg19 : FVec F S1 .f32) (main_arg20 : FVec F S64x64 .f32) (main_arg21 : FVec F S64 .f32) (main_arg22 : FVec F S64x1 .f32) (main_arg23 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S10000x4096 .f32) (main_arg1 : FVec F S1x64 .f32) (main_arg2 : FVec F S64 .f32) (main_arg3 : FVec F S64 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S128x128 .f32) (main_arg13 : FVec F S128 .f32) (main_arg14 : FVec F S128x1 .f32) (main_arg15 : FVec F S1 .f32) (main_arg16 : FVec F S128x128 .f32) (main_arg17 : FVec F S128 .f32) (main_arg18 : FVec F S128x1 .f32) (main_arg19 : FVec F S1 .f32) (main_arg20 : FVec F S64x64 .f32) (main_arg21 : FVec F S64 .f32) (main_arg22 : FVec F S64x1 .f32) (main_arg23 : FVec F S1 .f32) : IVec S_ 1 :=
  let main_v0 : FVec F S10000x4096 .f32 := Host.absf main_arg0
  let main_cst : FVec F S_ .f32 := constant S_ .f32 0x7F800000#32
  let main_v1 : FVec F S10000x4096 .f32 := broadcastInDim S10000x4096 ![] bcast_S_S10000x4096 main_cst
  let main_v2 : IVec S10000x4096 1 := cmpf .olt main_v0 main_v1
  let main_c : IVec S_ 1 := constantI S_ 1 1#1
  let main_v3 : IVec S_ 1 := (fun x v => Host.reduce IntOp.andi x v reducesTo_S10000x4096_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S10000x4096 : Shape := ⟨2, ![10000, 4096]⟩
abbrev S1x64 : Shape := ⟨2, ![1, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S64x64 : Shape := ⟨2, ![64, 64]⟩
abbrev S128x1 : Shape := ⟨2, ![128, 1]⟩
abbrev S1 : Shape := ⟨1, ![1]⟩
abbrev S64x1 : Shape := ⟨2, ![64, 1]⟩
abbrev S1x1x1x64 : Shape := ⟨4, ![1, 1, 1, 64]⟩
abbrev S4096x1x1x64 : Shape := ⟨4, ![4096, 1, 1, 64]⟩
abbrev S4096x64 : Shape := ⟨2, ![4096, 64]⟩
abbrev S2048x64 : Shape := ⟨2, ![2048, 64]⟩
abbrev S4096x128 : Shape := ⟨2, ![4096, 128]⟩
abbrev S10000x128 : Shape := ⟨2, ![10000, 128]⟩
abbrev S1x128 : Shape := ⟨2, ![1, 128]⟩
abbrev S_ : Shape := ⟨0, ![]⟩
abbrev S10000x64 : Shape := ⟨2, ![10000, 64]⟩
abbrev S4096x10000 : Shape := ⟨2, ![4096, 10000]⟩
abbrev S4096 : Shape := ⟨1, ![4096]⟩
abbrev S4096x1 : Shape := ⟨2, ![4096, 1]⟩
abbrev S64x4096 : Shape := ⟨2, ![64, 4096]⟩
abbrev S64x10000 : Shape := ⟨2, ![64, 10000]⟩
abbrev S1x1 : Shape := ⟨2, ![1, 1]⟩
abbrev S2048x1 : Shape := ⟨2, ![2048, 1]⟩
abbrev S10000x1 : Shape := ⟨2, ![10000, 1]⟩
abbrev S1000x4096 : Shape := ⟨2, ![1000, 4096]⟩
abbrev S1000x1 : Shape := ⟨2, ![1000, 1]⟩
abbrev S1000x64 : Shape := ⟨2, ![1000, 64]⟩
abbrev S2048x128 : Shape := ⟨2, ![2048, 128]⟩

abbrev nBuf : Space → Nat
  | .hbm => 198
  | .vmem => 28
  | .smem => 0
  | _ => 0

abbrev hbmTy0_0 (i : Nat) : BufTy := match i % 128 with
  | 0 => ⟨S10000x4096, .f32⟩
  | 1 => ⟨S1x64, .f32⟩
  | 2 => ⟨S64, .f32⟩
  | 3 => ⟨S64, .f32⟩
  | 4 => ⟨S128x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S128x128, .f32⟩
  | 13 => ⟨S128, .f32⟩
  | 14 => ⟨S128x1, .f32⟩
  | 15 => ⟨S1, .f32⟩
  | 16 => ⟨S128x128, .f32⟩
  | 17 => ⟨S128, .f32⟩
  | 18 => ⟨S128x1, .f32⟩
  | 19 => ⟨S1, .f32⟩
  | 20 => ⟨S64x64, .f32⟩
  | 21 => ⟨S64, .f32⟩
  | 22 => ⟨S64x1, .f32⟩
  | 23 => ⟨S1, .f32⟩
  | 24 => ⟨S1x1x1x64, .f32⟩
  | 25 => ⟨S4096x1x1x64, .f32⟩
  | 26 => ⟨S4096x64, .f32⟩
  | 27 => ⟨S2048x64, .f32⟩
  | 28 => ⟨S2048x64, .f32⟩
  | 29 => ⟨S4096x64, .f32⟩
  | 30 => ⟨S4096x128, .f32⟩
  | 31 => ⟨S10000x128, .f32⟩
  | 32 => ⟨S10000x128, .f32⟩
  | 33 => ⟨S1x128, .f32⟩
  | 34 => ⟨S10000x128, .f32⟩
  | 35 => ⟨S10000x128, .f32⟩
  | 36 => ⟨S_, .f32⟩
  | 37 => ⟨S10000x128, .f32⟩
  | 38 => ⟨S10000x128, .f32⟩
  | 39 => ⟨S10000x64, .f32⟩
  | 40 => ⟨S1x64, .f32⟩
  | 41 => ⟨S10000x64, .f32⟩
  | 42 => ⟨S10000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S10000x64, .f32⟩
  | 50 => ⟨S10000x64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S10000x64, .f32⟩
  | 59 => ⟨S10000x64, .f32⟩
  | 60 => ⟨S10000x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S64, .f32⟩
  | 77 => ⟨S64, .f32⟩
  | 78 => ⟨S1x64, .f32⟩
  | 79 => ⟨S10000x64, .f32⟩
  | 80 => ⟨S10000x64, .f32⟩
  | 81 => ⟨S4096x10000, .f32⟩
  | 82 => ⟨S4096x64, .f32⟩
  | 83 => ⟨S4096x64, .f32⟩
  | 84 => ⟨S1x64, .f32⟩
  | 85 => ⟨S4096x64, .f32⟩
  | 86 => ⟨S4096x64, .f32⟩
  | 87 => ⟨S_, .f32⟩
  | 88 => ⟨S4096x64, .f32⟩
  | 89 => ⟨S4096x64, .f32⟩
  | 90 => ⟨S4096x64, .f32⟩
  | 91 => ⟨S1x64, .f32⟩
  | 92 => ⟨S4096x64, .f32⟩
  | 93 => ⟨S4096x64, .f32⟩
  | 94 => ⟨S_, .f32⟩
  | 95 => ⟨S4096x64, .f32⟩
  | 96 => ⟨S4096x64, .f32⟩
  | 97 => ⟨S4096x64, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x64, .f32⟩
  | 105 => ⟨S4096x64, .f32⟩
  | 106 => ⟨S4096x64, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S4096x64, .f32⟩
  | 114 => ⟨S4096x64, .f32⟩
  | 115 => ⟨S_, .f32⟩
  | 116 => ⟨S4096x1, .f32⟩
  | 117 => ⟨S4096x1, .f32⟩
  | 118 => ⟨S4096x1, .f32⟩
  | 119 => ⟨S4096x64, .f32⟩
  | 120 => ⟨S4096x64, .f32⟩
  | 121 => ⟨S1x64, .f32⟩
  | 122 => ⟨S4096x64, .f32⟩
  | 123 => ⟨S4096x64, .f32⟩
  | 124 => ⟨S1x64, .f32⟩
  | 125 => ⟨S4096x64, .f32⟩
  | 126 => ⟨S4096x64, .f32⟩
  | 127 => ⟨S2048x64, .f32⟩
  | _ => ⟨S10000x4096, .f32⟩

abbrev hbmTy0_1 (i : Nat) : BufTy := match i % 128 with
  | 0 => ⟨S2048x64, .f32⟩
  | 1 => ⟨S4096x64, .f32⟩
  | 2 => ⟨S4096x128, .f32⟩
  | 3 => ⟨S10000x128, .f32⟩
  | 4 => ⟨S10000x128, .f32⟩
  | 5 => ⟨S1x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x64, .f32⟩
  | 12 => ⟨S1x64, .f32⟩
  | 13 => ⟨S10000x64, .f32⟩
  | 14 => ⟨S10000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S10000x64, .f32⟩
  | 22 => ⟨S10000x64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S10000x64, .f32⟩
  | 31 => ⟨S10000x64, .f32⟩
  | 32 => ⟨S10000x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S64, .f32⟩
  | 47 => ⟨S_, .f32⟩
  | 48 => ⟨S64, .f32⟩
  | 49 => ⟨S64, .f32⟩
  | 50 => ⟨S1x64, .f32⟩
  | 51 => ⟨S10000x64, .f32⟩
  | 52 => ⟨S10000x64, .f32⟩
  | 53 => ⟨S4096x64, .f32⟩
  | 54 => ⟨S10000x64, .f32⟩
  | 55 => ⟨S64x4096, .f32⟩
  | 56 => ⟨S64x10000, .f32⟩
  | 57 => ⟨S1x64, .f32⟩
  | 58 => ⟨S1x64, .f32⟩
  | 59 => ⟨S1x64, .f32⟩
  | 60 => ⟨S1x64, .f32⟩
  | 61 => ⟨S1x128, .f32⟩
  | 62 => ⟨S1x1, .f32⟩
  | 63 => ⟨S1x128, .f32⟩
  | 64 => ⟨S1x1, .f32⟩
  | 65 => ⟨S1x64, .f32⟩
  | 66 => ⟨S1x1, .f32⟩
  | 67 => ⟨S2048x1, .f32⟩
  | 68 => ⟨S2048x1, .f32⟩
  | 69 => ⟨S10000x1, .f32⟩
  | _ => ⟨S10000x4096, .f32⟩

abbrev hbmTy (i : Nat) : BufTy := match i / 128 with
  | 0 => hbmTy0_0 i
  | 1 => hbmTy0_1 i
  | _ => ⟨S10000x4096, .f32⟩

abbrev bufTy : (tb : Table) → Fin (tcTables nBuf tb) → BufTy
  | .hbm, ⟨i, _⟩ => hbmTy i
  | .local _ .vmem, ⟨0, _⟩ => ⟨S1000x4096, .f32⟩
  | .local _ .vmem, ⟨1, _⟩ => ⟨S1000x4096, .f32⟩
  | .local _ .vmem, ⟨2, _⟩ => ⟨S64x10000, .f32⟩
  | .local _ .vmem, ⟨3, _⟩ => ⟨S64x4096, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S64x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S2048x1, .f32⟩
  | .local _ .vmem, ⟨23, _⟩ => ⟨S2048x1, .f32⟩
  | .local _ .vmem, ⟨24, _⟩ => ⟨S1000x1, .f32⟩
  | .local _ .vmem, ⟨25, _⟩ => ⟨S1000x1, .f32⟩
  | .local _ .vmem, ⟨26, _⟩ => ⟨S64x4096, .f32⟩
  | .local _ .vmem, ⟨27, _⟩ => ⟨S10000x64, .f32⟩
  | _, _ => ⟨S10000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_call0_cst : Ref sig .tc := ⟨.hbm, 36, rfl⟩
abbrev main_call0_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_cst_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_cst_0 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_cst_1 : Ref sig .tc := ⟨.hbm, 62, rfl⟩
abbrev main_call1_call0_v8 : Ref sig .tc := ⟨.hbm, 63, rfl⟩
abbrev main_call1_call0_cst_2 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_call0_cst_3 : Ref sig .tc := ⟨.hbm, 68, rfl⟩
abbrev main_call1_call0_v12 : Ref sig .tc := ⟨.hbm, 69, rfl⟩
abbrev main_call1_call0_cst_4 : Ref sig .tc := ⟨.hbm, 70, rfl⟩
abbrev main_call1_call0_call0_v0 : Ref sig .tc := ⟨.hbm, 71, rfl⟩
abbrev main_call1_call0_call0_v1 : Ref sig .tc := ⟨.hbm, 72, rfl⟩
abbrev main_call1_v0 : Ref sig .tc := ⟨.hbm, 73, rfl⟩
abbrev main_v23 : Ref sig .tc := ⟨.hbm, 74, rfl⟩
abbrev main_cst_1 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_call2_cst : Ref sig .tc := ⟨.hbm, 87, rfl⟩
abbrev main_call2_v0 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_2 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_3 : Ref sig .tc := ⟨.hbm, 98, rfl⟩
abbrev main_v43 : Ref sig .tc := ⟨.hbm, 99, rfl⟩
abbrev main_v44 : Ref sig .tc := ⟨.hbm, 100, rfl⟩
abbrev main_cst_4 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_5 : Ref sig .tc := ⟨.hbm, 107, rfl⟩
abbrev main_v50 : Ref sig .tc := ⟨.hbm, 108, rfl⟩
abbrev main_v51 : Ref sig .tc := ⟨.hbm, 109, rfl⟩
abbrev main_cst_6 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_7 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_call3_cst : Ref sig .tc := ⟨.hbm, 136, rfl⟩
abbrev main_call3_v0 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_cst_8 : Ref sig .tc := ⟨.hbm, 143, rfl⟩
abbrev main_v81 : Ref sig .tc := ⟨.hbm, 144, rfl⟩
abbrev main_cst_9 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_c_10 : Ref sig .tc := ⟨.hbm, 151, rfl⟩
abbrev main_call4_call0_cst : Ref sig .tc := ⟨.hbm, 152, rfl⟩
abbrev main_call4_call0_v0 : Ref sig .tc := ⟨.hbm, 153, rfl⟩
abbrev main_call4_call0_v1 : Ref sig .tc := ⟨.hbm, 154, rfl⟩
abbrev main_call4_call0_cst_0 : Ref sig .tc := ⟨.hbm, 155, rfl⟩
abbrev main_call4_call0_v2 : Ref sig .tc := ⟨.hbm, 156, rfl⟩
abbrev main_call4_call0_v3 : Ref sig .tc := ⟨.hbm, 157, rfl⟩
abbrev main_call4_call0_v4 : Ref sig .tc := ⟨.hbm, 158, rfl⟩
abbrev main_call4_call0_v5 : Ref sig .tc := ⟨.hbm, 159, rfl⟩
abbrev main_call4_call0_v6 : Ref sig .tc := ⟨.hbm, 160, rfl⟩
abbrev main_call4_call0_v7 : Ref sig .tc := ⟨.hbm, 161, rfl⟩
abbrev main_call4_call0_cst_1 : Ref sig .tc := ⟨.hbm, 162, rfl⟩
abbrev main_call4_call0_v8 : Ref sig .tc := ⟨.hbm, 163, rfl⟩
abbrev main_call4_call0_cst_2 : Ref sig .tc := ⟨.hbm, 164, rfl⟩
abbrev main_call4_call0_v9 : Ref sig .tc := ⟨.hbm, 165, rfl⟩
abbrev main_call4_call0_v10 : Ref sig .tc := ⟨.hbm, 166, rfl⟩
abbrev main_call4_call0_v11 : Ref sig .tc := ⟨.hbm, 167, rfl⟩
abbrev main_call4_call0_cst_3 : Ref sig .tc := ⟨.hbm, 168, rfl⟩
abbrev main_call4_call0_v12 : Ref sig .tc := ⟨.hbm, 169, rfl⟩
abbrev main_call4_call0_cst_4 : Ref sig .tc := ⟨.hbm, 170, rfl⟩
abbrev main_call4_call0_call0_v0 : Ref sig .tc := ⟨.hbm, 171, rfl⟩
abbrev main_call4_call0_call0_v1 : Ref sig .tc := ⟨.hbm, 172, rfl⟩
abbrev main_call4_v0 : Ref sig .tc := ⟨.hbm, 173, rfl⟩
abbrev main_v87 : Ref sig .tc := ⟨.hbm, 174, rfl⟩
abbrev main_cst_11 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93_0 : Ref sig .tc := ⟨.hbm, 181, rfl⟩
abbrev main_v93_1 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106_0 : Ref sig .tc := ⟨.hbm, 195, rfl⟩
abbrev main_v106_1 : Ref sig .tc := ⟨.hbm, 196, rfl⟩
abbrev main_v106_2 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![10], ![false]⟩

def k0_off1 (i : grid0.Coords) : Fin 2 → Nat :=
  let arg0 : BitVec 32 := BitVec.ofNat 32 (i 0).val
  let c1000_i32 : BitVec 32 := 1000#32
  let v4 : BitVec 32 := Scalar.muli arg0 c1000_i32
  let v5 : Index := Scalar.indexCast v4
  let c0_2 : Index := 0#32
  ![v5.toNat, 0]
def k0_cond4 (i : grid0.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_20 : BitVec 32 := 0#32
  let v37 : BitVec 1 := Scalar.cmpi .ne v36 c0_i32_20
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2048x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2048x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1000x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  shapeCasts_S1x64_S1x1x1x64 : S1x64.ShapeCasts S1x1x1x64
  bcast_S1x1x1x64_S4096x1x1x64_0_1_2_3 : S1x1x1x64.BroadcastsInDim S4096x1x1x64 (![0, 1, 2, 3] : Fin 4 → Fin S4096x1x1x64.rank)
  shapeCasts_S4096x1x1x64_S4096x64 : S4096x1x1x64.ShapeCasts S4096x64
  slices_S4096x64_S2048x64_2048_0 : S4096x64.Slices ![2048, 0] S2048x64
  slices_S4096x64_S2048x64_0_0 : S4096x64.Slices ![0, 0] S2048x64
  concatenates_S2048x64_S2048x64_S4096x64_d0 : Shape.Concatenates [S2048x64, S2048x64] S4096x64 0
  concatenates_S4096x64_S4096x64_S4096x128_d1 : Shape.Concatenates [S4096x64, S4096x64] S4096x128 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  transposes_S10000x4096_S4096x10000_1_0 : S10000x4096.Transposes [1, 0] S4096x10000
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  transposes_S10000x64_S64x10000_1_0 : S10000x64.Transposes [1, 0] S64x10000
  shapeCasts_S64_S1x64 : S64.ShapeCasts S1x64
  shapeCasts_S128_S1x128 : S128.ShapeCasts S1x128
  shapeCasts_S1_S1x1 : S1.ShapeCasts S1x1
  inb_S64x10000_S64x10000_0_0 : ∀ a, (![0, 0] : Fin 2 → Nat) a + S64x10000.size a ≤ S64x10000.size a
  h_S64x10000 : 0 < S64x10000.numel
  shapeCasts_S64x10000_S64x10000 : S64x10000.ShapeCasts S64x10000
  transposes_S64x10000_p1_0_S10000x64 : S64x10000.Transposes [1, 0] S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1000x4096_S1000x4096_0_0 : ∀ a, (![0, 0] : Fin 2 → Nat) a + S1000x4096.size a ≤ S1000x4096.size a
  h_S1000x4096 : 0 < S1000x4096.numel
  h_S1000x64 : 0 < S1000x64.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S1000x64 : S1x64.Broadcasts S1000x64
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  transposes_S64x4096_p1_0_S4096x64 : S64x4096.Transposes [1, 0] S4096x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  slices_S4096x64_o0_0_S2048x64 : S4096x64.Slices ![0, 0] S2048x64
  slices_S4096x64_o2048_0_S2048x64 : S4096x64.Slices ![2048, 0] S2048x64
  concatenates_S2048x64_S2048x64_S2048x128_d1 : Shape.Concatenates [S2048x64, S2048x64] S2048x128 1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x1_S128x1_0_0 : ∀ a, (![0, 0] : Fin 2 → Nat) a + S128x1.size a ≤ S128x1.size a
  h_S128x1 : 0 < S128x1.numel
  broadcasts_S1x128_S2048x128 : S1x128.Broadcasts S2048x128
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S10000x4096_S4096x128_S10000x128_1_0_0_1_n_n_wf : DotDims.WF S10000x4096 S4096x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S4096x10000_S10000x64_S4096x64_1_0_0_1_n_n_wf : DotDims.WF S4096x10000 S10000x64 S4096x64 [1] [0] [0] [1] [] []
  dot_S4096x64_S64x64_S4096x64_1_0_0_1_n_n_wf : DotDims.WF S4096x64 S64x64 S4096x64 [1] [0] [0] [1] [] []
  dot_S1000x64_S1000x4096_S64x4096_0_0_1_1_n_n_wf : DotDims.WF S1000x64 S1000x4096 S64x4096 [0] [0] [1] [1] [] []
  dot_S1000x64_S64x64_S1000x64_1_0_0_1_n_n_wf : DotDims.WF S1000x64 S64x64 S1000x64 [1] [0] [0] [1] [] []
  dot_S1000x64_S64x1_S1000x1_1_0_0_1_n_n_wf : DotDims.WF S1000x64 S64x1 S1000x1 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  k0_off1_inb : ∀ i : grid0.Coords, ∀ a, (k0_off1 i) a + S1000x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4096.size a ≤ S10000x4096.size a
  hwx0_0 : ∀ i : grid0.Coords, EltTy.bits .f32 = 32 ∨ (Rect.block (s := S10000x4096) S1000x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x10000.size a ≤ S64x10000.size a
  hwx0_1 : ∀ i : grid0.Coords, EltTy.bits .f32 = 32 ∨ (Rect.block (s := S64x10000) S64x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .f32 = 32 ∨ (Rect.block (s := S128x1) S128x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x64.size a ≤ S64x64.size a
  hwx0_17 : ∀ i : grid0.Coords, EltTy.bits .f32 = 32 ∨ (Rect.block (s := S64x64) S64x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x1.size a ≤ S64x1.size a
  hwx0_19 : ∀ i : grid0.Coords, EltTy.bits .f32 = 32 ∨ (Rect.block (s := S64x1) S64x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S2048x1.size a ≤ S2048x1.size a
  hwx0_21 : ∀ i : grid0.Coords, EltTy.bits .f32 = 32 ∨ (Rect.block (s := S2048x1) S2048x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S2048x1.size a ≤ S2048x1.size a
  hwx0_22 : ∀ i : grid0.Coords, EltTy.bits .f32 = 32 ∨ (Rect.block (s := S2048x1) S2048x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1000x1.size a ≤ S10000x1.size a
  hwx0_23 : ∀ i : grid0.Coords, EltTy.bits .f32 = 32 ∨ (Rect.block (s := S10000x1) S1000x1.size (cc0_transform_23 i) (hinb0_23 i)).WholeWords (EltTy.packing .f32)

variable [Facts₀]

def dot_S10000x4096_S4096x128_S10000x128_1_0_0_1_n_n : DotDims S10000x4096 S4096x128 S10000x128 where
  lhsContracting := [1]
  rhsContracting := [0]
  lhsNonContracting := [0]
  rhsNonContracting := [1]
  lhsBatch := []
  rhsBatch := []
  wf := dot_S10000x4096_S4096x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S4096x10000_S10000x64_S4096x64_1_0_0_1_n_n : DotDims S4096x10000 S10000x64 S4096x64 where
  lhsContracting := [1]
  rhsContracting := [0]
  lhsNonContracting := [0]
  rhsNonContracting := [1]
  lhsBatch := []
  rhsBatch := []
  wf := dot_S4096x10000_S10000x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S1000x64_S1000x4096_S64x4096_0_0_1_1_n_n : DotDims S1000x64 S1000x4096 S64x4096 where
  lhsContracting := [0]
  rhsContracting := [0]
  lhsNonContracting := [1]
  rhsNonContracting := [1]
  lhsBatch := []
  rhsBatch := []
  wf := dot_S1000x64_S1000x4096_S64x4096_0_0_1_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S1000x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v95) S64x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v94) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v96) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v97) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v98) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v99) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v100) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v101) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v102) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg18) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v103) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg20) S64x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v104) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg22) S64x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v105) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v106_0) S2048x1.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v106_1) S2048x1.size cc0_transform_22 reads0_22 true true 1 stage0_22 sem0_22
    hrank0 hreads0_22 hinb0_22 nbuf0_22 (Memref.isWhole_whole _) hwx0_22 hstage0_22

abbrev win0_23 : Pipeline.Window sig grid0 :=
  Pipeline.Window.ofSpec (Memref.whole main_v106_2) S1000x1.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

abbrev idle0 : Fin 24 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun i => !(k0_cond4 i == 1#1) | 22 => fun i => !(k0_cond4 i == 1#1) | 23 => fun _ => false | ⟨_ + 24, h⟩ => absurd h (Nat.not_lt.2 (Nat.le_add_left _ _))

class Facts : Prop extends Facts₀ where

variable [Facts]
-- ==== ReferenceIdeal.lean ====
abbrev S10000x4096 : Shape := ⟨2, ![10000, 4096]⟩
abbrev S1x64 : Shape := ⟨2, ![1, 64]⟩
abbrev S64 : Shape := ⟨1, ![64]⟩
abbrev S128x128 : Shape := ⟨2, ![128, 128]⟩
abbrev S128 : Shape := ⟨1, ![128]⟩
abbrev S128x64 : Shape := ⟨2, ![128, 64]⟩
abbrev S64x64 : Shape := ⟨2, ![64, 64]⟩
abbrev S128x1 : Shape := ⟨2, ![128, 1]⟩
abbrev S1 : Shape := ⟨1, ![1]⟩
abbrev S64x1 : Shape := ⟨2, ![64, 1]⟩
abbrev S1x1x1x64 : Shape := ⟨4, ![1, 1, 1, 64]⟩
abbrev S4096x1x1x64 : Shape := ⟨4, ![4096, 1, 1, 64]⟩
abbrev S4096x64 : Shape := ⟨2, ![4096, 64]⟩
abbrev S2048x64 : Shape := ⟨2, ![2048, 64]⟩
abbrev S4096x128 : Shape := ⟨2, ![4096, 128]⟩
abbrev S10000x128 : Shape := ⟨2, ![10000, 128]⟩
abbrev S1x128 : Shape := ⟨2, ![1, 128]⟩
abbrev S_ : Shape := ⟨0, ![]⟩
abbrev S10000x64 : Shape := ⟨2, ![10000, 64]⟩
abbrev S4096x10000 : Shape := ⟨2, ![4096, 10000]⟩
abbrev S4096 : Shape := ⟨1, ![4096]⟩
abbrev S4096x1 : Shape := ⟨2, ![4096, 1]⟩
abbrev S2048x128 : Shape := ⟨2, ![2048, 128]⟩
abbrev S2048x1 : Shape := ⟨2, ![2048, 1]⟩
abbrev S1x1 : Shape := ⟨2, ![1, 1]⟩
abbrev S10000x1 : Shape := ⟨2, ![10000, 1]⟩

abbrev nBuf : Space → Nat
  | .hbm => 263
  | .vmem => 0
  | .smem => 0
  | _ => 0

abbrev hbmTy0_0 (i : Nat) : BufTy := match i % 128 with
  | 0 => ⟨S10000x4096, .f32⟩
  | 1 => ⟨S1x64, .f32⟩
  | 2 => ⟨S64, .f32⟩
  | 3 => ⟨S64, .f32⟩
  | 4 => ⟨S128x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S128x128, .f32⟩
  | 13 => ⟨S128, .f32⟩
  | 14 => ⟨S128x1, .f32⟩
  | 15 => ⟨S1, .f32⟩
  | 16 => ⟨S128x128, .f32⟩
  | 17 => ⟨S128, .f32⟩
  | 18 => ⟨S128x1, .f32⟩
  | 19 => ⟨S1, .f32⟩
  | 20 => ⟨S64x64, .f32⟩
  | 21 => ⟨S64, .f32⟩
  | 22 => ⟨S64x1, .f32⟩
  | 23 => ⟨S1, .f32⟩
  | 24 => ⟨S1x1x1x64, .f32⟩
  | 25 => ⟨S4096x1x1x64, .f32⟩
  | 26 => ⟨S4096x64, .f32⟩
  | 27 => ⟨S2048x64, .f32⟩
  | 28 => ⟨S2048x64, .f32⟩
  | 29 => ⟨S4096x64, .f32⟩
  | 30 => ⟨S4096x128, .f32⟩
  | 31 => ⟨S10000x128, .f32⟩
  | 32 => ⟨S10000x128, .f32⟩
  | 33 => ⟨S1x128, .f32⟩
  | 34 => ⟨S10000x128, .f32⟩
  | 35 => ⟨S10000x128, .f32⟩
  | 36 => ⟨S_, .f32⟩
  | 37 => ⟨S10000x128, .f32⟩
  | 38 => ⟨S10000x128, .f32⟩
  | 39 => ⟨S10000x64, .f32⟩
  | 40 => ⟨S1x64, .f32⟩
  | 41 => ⟨S10000x64, .f32⟩
  | 42 => ⟨S10000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S10000x64, .f32⟩
  | 50 => ⟨S10000x64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S10000x64, .f32⟩
  | 59 => ⟨S10000x64, .f32⟩
  | 60 => ⟨S10000x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S64, .f32⟩
  | 77 => ⟨S64, .f32⟩
  | 78 => ⟨S1x64, .f32⟩
  | 79 => ⟨S10000x64, .f32⟩
  | 80 => ⟨S10000x64, .f32⟩
  | 81 => ⟨S4096x10000, .f32⟩
  | 82 => ⟨S4096x64, .f32⟩
  | 83 => ⟨S4096x64, .f32⟩
  | 84 => ⟨S1x64, .f32⟩
  | 85 => ⟨S4096x64, .f32⟩
  | 86 => ⟨S4096x64, .f32⟩
  | 87 => ⟨S_, .f32⟩
  | 88 => ⟨S4096x64, .f32⟩
  | 89 => ⟨S4096x64, .f32⟩
  | 90 => ⟨S4096x64, .f32⟩
  | 91 => ⟨S1x64, .f32⟩
  | 92 => ⟨S4096x64, .f32⟩
  | 93 => ⟨S4096x64, .f32⟩
  | 94 => ⟨S_, .f32⟩
  | 95 => ⟨S4096x64, .f32⟩
  | 96 => ⟨S4096x64, .f32⟩
  | 97 => ⟨S4096x64, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x64, .f32⟩
  | 105 => ⟨S4096x64, .f32⟩
  | 106 => ⟨S4096x64, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S4096x64, .f32⟩
  | 114 => ⟨S4096x64, .f32⟩
  | 115 => ⟨S_, .f32⟩
  | 116 => ⟨S4096x1, .f32⟩
  | 117 => ⟨S4096x1, .f32⟩
  | 118 => ⟨S4096x1, .f32⟩
  | 119 => ⟨S4096x64, .f32⟩
  | 120 => ⟨S4096x64, .f32⟩
  | 121 => ⟨S1x64, .f32⟩
  | 122 => ⟨S4096x64, .f32⟩
  | 123 => ⟨S4096x64, .f32⟩
  | 124 => ⟨S1x64, .f32⟩
  | 125 => ⟨S4096x64, .f32⟩
  | 126 => ⟨S4096x64, .f32⟩
  | 127 => ⟨S2048x64, .f32⟩
  | _ => ⟨S10000x4096, .f32⟩

abbrev hbmTy0_1 (i : Nat) : BufTy := match i % 128 with
  | 0 => ⟨S2048x64, .f32⟩
  | 1 => ⟨S4096x64, .f32⟩
  | 2 => ⟨S4096x128, .f32⟩
  | 3 => ⟨S10000x128, .f32⟩
  | 4 => ⟨S10000x128, .f32⟩
  | 5 => ⟨S1x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x64, .f32⟩
  | 12 => ⟨S1x64, .f32⟩
  | 13 => ⟨S10000x64, .f32⟩
  | 14 => ⟨S10000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S10000x64, .f32⟩
  | 22 => ⟨S10000x64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S10000x64, .f32⟩
  | 31 => ⟨S10000x64, .f32⟩
  | 32 => ⟨S10000x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S64, .f32⟩
  | 47 => ⟨S_, .f32⟩
  | 48 => ⟨S64, .f32⟩
  | 49 => ⟨S64, .f32⟩
  | 50 => ⟨S1x64, .f32⟩
  | 51 => ⟨S10000x64, .f32⟩
  | 52 => ⟨S10000x64, .f32⟩
  | 53 => ⟨S4096x10000, .f32⟩
  | 54 => ⟨S4096x64, .f32⟩
  | 55 => ⟨S4096x64, .f32⟩
  | 56 => ⟨S1x64, .f32⟩
  | 57 => ⟨S4096x64, .f32⟩
  | 58 => ⟨S4096x64, .f32⟩
  | 59 => ⟨S_, .f32⟩
  | 60 => ⟨S4096x64, .f32⟩
  | 61 => ⟨S4096x64, .f32⟩
  | 62 => ⟨S4096x64, .f32⟩
  | 63 => ⟨S1x64, .f32⟩
  | 64 => ⟨S4096x64, .f32⟩
  | 65 => ⟨S4096x64, .f32⟩
  | 66 => ⟨S_, .f32⟩
  | 67 => ⟨S4096x64, .f32⟩
  | 68 => ⟨S4096x64, .f32⟩
  | 69 => ⟨S4096x64, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x64, .f32⟩
  | 77 => ⟨S4096x64, .f32⟩
  | 78 => ⟨S4096x64, .f32⟩
  | 79 => ⟨S_, .f32⟩
  | 80 => ⟨S4096, .f32⟩
  | 81 => ⟨S4096x1, .f32⟩
  | 82 => ⟨S_, .f32⟩
  | 83 => ⟨S4096x1, .f32⟩
  | 84 => ⟨S4096x1, .f32⟩
  | 85 => ⟨S4096x64, .f32⟩
  | 86 => ⟨S4096x64, .f32⟩
  | 87 => ⟨S_, .f32⟩
  | 88 => ⟨S4096x1, .f32⟩
  | 89 => ⟨S4096x1, .f32⟩
  | 90 => ⟨S4096x1, .f32⟩
  | 91 => ⟨S4096x64, .f32⟩
  | 92 => ⟨S4096x64, .f32⟩
  | 93 => ⟨S1x64, .f32⟩
  | 94 => ⟨S4096x64, .f32⟩
  | 95 => ⟨S4096x64, .f32⟩
  | 96 => ⟨S1x64, .f32⟩
  | 97 => ⟨S4096x64, .f32⟩
  | 98 => ⟨S4096x64, .f32⟩
  | 99 => ⟨S2048x64, .f32⟩
  | 100 => ⟨S2048x64, .f32⟩
  | 101 => ⟨S2048x128, .f32⟩
  | 102 => ⟨S2048x128, .f32⟩
  | 103 => ⟨S1x128, .f32⟩
  | 104 => ⟨S2048x128, .f32⟩
  | 105 => ⟨S2048x128, .f32⟩
  | 106 => ⟨S_, .f32⟩
  | 107 => ⟨S2048x128, .f32⟩
  | 108 => ⟨S2048x128, .f32⟩
  | 109 => ⟨S2048x1, .f32⟩
  | 110 => ⟨S1x1, .f32⟩
  | 111 => ⟨S2048x1, .f32⟩
  | 112 => ⟨S2048x1, .f32⟩
  | 113 => ⟨S2048x128, .f32⟩
  | 114 => ⟨S1x128, .f32⟩
  | 115 => ⟨S2048x128, .f32⟩
  | 116 => ⟨S2048x128, .f32⟩
  | 117 => ⟨S_, .f32⟩
  | 118 => ⟨S2048x128, .f32⟩
  | 119 => ⟨S2048x128, .f32⟩
  | 120 => ⟨S2048x1, .f32⟩
  | 121 => ⟨S1x1, .f32⟩
  | 122 => ⟨S2048x1, .f32⟩
  | 123 => ⟨S2048x1, .f32⟩
  | 124 => ⟨S10000x64, .f32⟩
  | 125 => ⟨S1x64, .f32⟩
  | 126 => ⟨S10000x64, .f32⟩
  | 127 => ⟨S10000x64, .f32⟩
  | _ => ⟨S10000x4096, .f32⟩

abbrev hbmTy0_2 (i : Nat) : BufTy := match i % 128 with
  | 0 => ⟨S_, .f32⟩
  | 1 => ⟨S10000x64, .f32⟩
  | 2 => ⟨S10000x64, .f32⟩
  | 3 => ⟨S10000x1, .f32⟩
  | 4 => ⟨S1x1, .f32⟩
  | 5 => ⟨S10000x1, .f32⟩
  | 6 => ⟨S10000x1, .f32⟩
  | _ => ⟨S10000x4096, .f32⟩

abbrev hbmTy (i : Nat) : BufTy := match i / 128 with
  | 0 => hbmTy0_0 i
  | 1 => hbmTy0_1 i
  | 2 => hbmTy0_2 i
  | _ => ⟨S10000x4096, .f32⟩

abbrev bufTy : (tb : Table) → Fin (tcTables nBuf tb) → BufTy
  | .hbm, ⟨i, _⟩ => hbmTy i
  | _, _ => ⟨S10000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_call0_cst : Ref sig .tc := ⟨.hbm, 36, rfl⟩
abbrev main_call0_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst : Ref sig .tc := ⟨.hbm, 43, rfl⟩
abbrev main_v17 : Ref sig .tc := ⟨.hbm, 44, rfl⟩
abbrev main_cst_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_cst_0 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_cst_1 : Ref sig .tc := ⟨.hbm, 62, rfl⟩
abbrev main_call1_call0_v8 : Ref sig .tc := ⟨.hbm, 63, rfl⟩
abbrev main_call1_call0_cst_2 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_call0_cst_3 : Ref sig .tc := ⟨.hbm, 68, rfl⟩
abbrev main_call1_call0_v12 : Ref sig .tc := ⟨.hbm, 69, rfl⟩
abbrev main_call1_call0_cst_4 : Ref sig .tc := ⟨.hbm, 70, rfl⟩
abbrev main_call1_call0_call0_v0 : Ref sig .tc := ⟨.hbm, 71, rfl⟩
abbrev main_call1_call0_call0_v1 : Ref sig .tc := ⟨.hbm, 72, rfl⟩
abbrev main_call1_v0 : Ref sig .tc := ⟨.hbm, 73, rfl⟩
abbrev main_v23 : Ref sig .tc := ⟨.hbm, 74, rfl⟩
abbrev main_cst_1 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_call2_cst : Ref sig .tc := ⟨.hbm, 87, rfl⟩
abbrev main_call2_v0 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_2 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_3 : Ref sig .tc := ⟨.hbm, 98, rfl⟩
abbrev main_v43 : Ref sig .tc := ⟨.hbm, 99, rfl⟩
abbrev main_v44 : Ref sig .tc := ⟨.hbm, 100, rfl⟩
abbrev main_cst_4 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_5 : Ref sig .tc := ⟨.hbm, 107, rfl⟩
abbrev main_v50 : Ref sig .tc := ⟨.hbm, 108, rfl⟩
abbrev main_v51 : Ref sig .tc := ⟨.hbm, 109, rfl⟩
abbrev main_cst_6 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_7 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_call3_cst : Ref sig .tc := ⟨.hbm, 136, rfl⟩
abbrev main_call3_v0 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_cst_8 : Ref sig .tc := ⟨.hbm, 143, rfl⟩
abbrev main_v81 : Ref sig .tc := ⟨.hbm, 144, rfl⟩
abbrev main_cst_9 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_c_10 : Ref sig .tc := ⟨.hbm, 151, rfl⟩
abbrev main_call4_call0_cst : Ref sig .tc := ⟨.hbm, 152, rfl⟩
abbrev main_call4_call0_v0 : Ref sig .tc := ⟨.hbm, 153, rfl⟩
abbrev main_call4_call0_v1 : Ref sig .tc := ⟨.hbm, 154, rfl⟩
abbrev main_call4_call0_cst_0 : Ref sig .tc := ⟨.hbm, 155, rfl⟩
abbrev main_call4_call0_v2 : Ref sig .tc := ⟨.hbm, 156, rfl⟩
abbrev main_call4_call0_v3 : Ref sig .tc := ⟨.hbm, 157, rfl⟩
abbrev main_call4_call0_v4 : Ref sig .tc := ⟨.hbm, 158, rfl⟩
abbrev main_call4_call0_v5 : Ref sig .tc := ⟨.hbm, 159, rfl⟩
abbrev main_call4_call0_v6 : Ref sig .tc := ⟨.hbm, 160, rfl⟩
abbrev main_call4_call0_v7 : Ref sig .tc := ⟨.hbm, 161, rfl⟩
abbrev main_call4_call0_cst_1 : Ref sig .tc := ⟨.hbm, 162, rfl⟩
abbrev main_call4_call0_v8 : Ref sig .tc := ⟨.hbm, 163, rfl⟩
abbrev main_call4_call0_cst_2 : Ref sig .tc := ⟨.hbm, 164, rfl⟩
abbrev main_call4_call0_v9 : Ref sig .tc := ⟨.hbm, 165, rfl⟩
abbrev main_call4_call0_v10 : Ref sig .tc := ⟨.hbm, 166, rfl⟩
abbrev main_call4_call0_v11 : Ref sig .tc := ⟨.hbm, 167, rfl⟩
abbrev main_call4_call0_cst_3 : Ref sig .tc := ⟨.hbm, 168, rfl⟩
abbrev main_call4_call0_v12 : Ref sig .tc := ⟨.hbm, 169, rfl⟩
abbrev main_call4_call0_cst_4 : Ref sig .tc := ⟨.hbm, 170, rfl⟩
abbrev main_call4_call0_call0_v0 : Ref sig .tc := ⟨.hbm, 171, rfl⟩
abbrev main_call4_call0_call0_v1 : Ref sig .tc := ⟨.hbm, 172, rfl⟩
abbrev main_call4_v0 : Ref sig .tc := ⟨.hbm, 173, rfl⟩
abbrev main_v87 : Ref sig .tc := ⟨.hbm, 174, rfl⟩
abbrev main_cst_11 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_call5_cst : Ref sig .tc := ⟨.hbm, 187, rfl⟩
abbrev main_call5_v0 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_cst_12 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_cst_13 : Ref sig .tc := ⟨.hbm, 198, rfl⟩
abbrev main_v107 : Ref sig .tc := ⟨.hbm, 199, rfl⟩
abbrev main_v108 : Ref sig .tc := ⟨.hbm, 200, rfl⟩
abbrev main_cst_14 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_cst_15 : Ref sig .tc := ⟨.hbm, 207, rfl⟩
abbrev main_v114 : Ref sig .tc := ⟨.hbm, 208, rfl⟩
abbrev main_v115 : Ref sig .tc := ⟨.hbm, 209, rfl⟩
abbrev main_cst_16 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_cst_17 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_call6_cst : Ref sig .tc := ⟨.hbm, 234, rfl⟩
abbrev main_call6_v0 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_call7_cst : Ref sig .tc := ⟨.hbm, 245, rfl⟩
abbrev main_call7_v0 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_call8_cst : Ref sig .tc := ⟨.hbm, 256, rfl⟩
abbrev main_call8_v0 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩

abbrev nD : Nat := 1
abbrev τ : Topo := Topo.v7x

variable {F : FTy → Type} [FloatOps F]

class Facts₀ : Prop where
  shapeCasts_S1x64_S1x1x1x64 : S1x64.ShapeCasts S1x1x1x64
  bcast_S1x1x1x64_S4096x1x1x64_0_1_2_3 : S1x1x1x64.BroadcastsInDim S4096x1x1x64 (![0, 1, 2, 3] : Fin 4 → Fin S4096x1x1x64.rank)
  shapeCasts_S4096x1x1x64_S4096x64 : S4096x1x1x64.ShapeCasts S4096x64
  slices_S4096x64_S2048x64_2048_0 : S4096x64.Slices ![2048, 0] S2048x64
  slices_S4096x64_S2048x64_0_0 : S4096x64.Slices ![0, 0] S2048x64
  concatenates_S2048x64_S2048x64_S4096x64_d0 : Shape.Concatenates [S2048x64, S2048x64] S4096x64 0
  concatenates_S4096x64_S4096x64_S4096x128_d1 : Shape.Concatenates [S4096x64, S4096x64] S4096x128 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S64_d0 : S10000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  transposes_S10000x4096_S4096x10000_1_0 : S10000x4096.Transposes [1, 0] S4096x10000
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  concatenates_S2048x64_S2048x64_S2048x128_d1 : Shape.Concatenates [S2048x64, S2048x64] S2048x128 1
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S10000x64 : S_.BroadcastsInDim S10000x64 (![] : Fin 0 → Fin S10000x64.rank)
  bcast_S1x1_S10000x1_0_1 : S1x1.BroadcastsInDim S10000x1 (![0, 1] : Fin 2 → Fin S10000x1.rank)
  dot_S10000x4096_S4096x128_S10000x128_1_0_0_1_n_n_wf : DotDims.WF S10000x4096 S4096x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S4096x10000_S10000x64_S4096x64_1_0_0_1_n_n_wf : DotDims.WF S4096x10000 S10000x64 S4096x64 [1] [0] [0] [1] [] []
  dot_S4096x64_S64x64_S4096x64_1_0_0_1_n_n_wf : DotDims.WF S4096x64 S64x64 S4096x64 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []

variable [Facts₀]

def dot_S10000x4096_S4096x128_S10000x128_1_0_0_1_n_n : DotDims S10000x4096 S4096x128 S10000x128 where
  lhsContracting := [1]
  rhsContracting := [0]
  lhsNonContracting := [0]
  rhsNonContracting := [1]
  lhsBatch := []
  rhsBatch := []
  wf := dot_S10000x4096_S4096x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S4096x10000_S10000x64_S4096x64_1_0_0_1_n_n : DotDims S4096x10000 S10000x64 S4096x64 where
  lhsContracting := [1]
  rhsContracting := [0]
  lhsNonContracting := [0]
  rhsNonContracting := [1]
  lhsBatch := []
  rhsBatch := []
  wf := dot_S4096x10000_S10000x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.KerDefs.lean ====
/-
  What the kernel body leaves at one grid point, as pure terms of the blocks it reads: the names used below.
  rowsAt: the thousand rows of the clause state the point reads (rows i·1000 … i·1000+999).
  dratK / coreK: the two score heads the last point stores, from the accumulated product acc (64×4096), the previous
  literal state (transposed), the literal-update weights, the layer-norm scale and shift, and the head's weights.
-/
import proofs.«170097_g26499948216398_cont_9to1_1103_19_alg».proof.Proof.Gen.KernelIdeal.Skeleton
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 whole-array rectangle. -/
theorem hz2 : (![0, 0] : Fin 2 → ℕ) = fun _ => 0 := by
  funext a; match a with | ⟨0, _⟩ => rfl | ⟨1, _⟩ => rfl

/-- The block of a thousand rows of a clause array `X` that grid point `i` reads: rows `1000·i …`. -/
def rowsAt (i : grid0.Coords) (X : Vec F S10000x64 .f32) : Vec F S1000x64 .f32 :=
  View.ld X (Rect.unit (s := S10000x64) (k0_off1 i) S1000x64.size (k0_off1_inb i))

/-- The first score head as the last point computes it from the accumulated product `acc`. -/
def dratK (acc : Vec F S64x4096 .f32) (x2 : Vec F S64x4096 .f32) (x3 : Vec F S64x64 .f32) (x4 : Vec F S1x64 .f32) (x5 : Vec F S64x64 .f32)
    (x6 x7 x8 : Vec F S1x64 .f32) (x9 : Vec F S128x128 .f32) (x10 : Vec F S1x128 .f32) (x11 : Vec F S128x1 .f32) (x12 : Vec F S1x1 .f32) :
    Vec F S2048x1 .f32 :=
  k0_pay8 (k0_pay2 acc x2 x3 x4 x5 x6) (k0_pay3 x7) (k0_pay4 x8) (k0_pay5 acc x2 x3 x4 x5 x6) (k0_pay6 acc x2 x3 x4 x5 x6) x9 x10 x11 x12

/-- The second score head as the last point computes it from the accumulated product `acc`. -/
def coreK (acc : Vec F S64x4096 .f32) (x2 : Vec F S64x4096 .f32) (x3 : Vec F S64x64 .f32) (x4 : Vec F S1x64 .f32) (x5 : Vec F S64x64 .f32)
    (x6 x7 x8 : Vec F S1x64 .f32) (x13 : Vec F S128x128 .f32) (x14 : Vec F S1x128 .f32) (x15 : Vec F S128x1 .f32) (x16 : Vec F S1x1 .f32) :
    Vec F S2048x1 .f32 :=
  k0_pay1 (k0_pay7 (k0_pay2 acc x2 x3 x4 x5 x6) (k0_pay3 x7) (k0_pay4 x8) (k0_pay5 acc x2 x3 x4 x5 x6) (k0_pay6 acc x2 x3 x4 x5 x6)) x13 (k0_pay9 x14) x15 x16

end Cert.KernelIdeal.Gen

end
-- ==== Proof.KerPieces.lean ====
/-
  What each control case of the kernel body leaves in its outputs and in the two carried scratch arrays, read back as
  one pure term of the blocks the point reads: the first point stores the transposed clause state and the first product;
  a middle point adds its product; the last point adds its product and computes both score heads from the total; every
  point computes the clause score of its own thousand rows.
-/
import proofs.«170097_g26499948216398_cont_9to1_1103_19_alg».proof.Proof.Gen.KernelIdeal.Frame
import Idealize.ShloMosaic.Lib.Pipeline.Value
import proofs.«170097_g26499948216398_cont_9to1_1103_19_alg».proof.Proof.KerDefs
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- First point: the accumulator holds the first block's product. -/
theorem sA0 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : cond0_0 i) (hc1 : cond0_1 i) (hc2 : ¬cond0_2 i) (hc3 : ¬cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 = k0_pay12 x0 (rowsAt i (k0_pay10 x1)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20)]
  unfold kernelRun0_A
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- First point: the clause scratch holds the transposed clause state. -/
theorem sA1 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : cond0_0 i) (hc1 : cond0_1 i) (hc2 : ¬cond0_2 i) (hc3 : ¬cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 = k0_pay10 x1 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20)]
  unfold kernelRun0_A
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- First point: the clause score of its rows. -/
theorem oA23 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : cond0_0 i) (hc1 : cond0_1 i) (hc2 : ¬cond0_2 i) (hc3 : ¬cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 = k0_pay14 (rowsAt i (k0_pay10 x1)) x17 x18 x19 x20 := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20)]
  unfold kernelRun0_A
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- Middle point: the accumulator gains the block's product. -/
theorem sB0 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : ¬cond0_0 i) (hc1 : ¬cond0_1 i) (hc2 : cond0_2 i) (hc3 : ¬cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) (xs0 : Vec F S64x4096 .f32) (xs1 : Vec F S10000x64 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1 = k0_pay13 x0 (rowsAt i xs1) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1)]
  unfold kernelRun0_B
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- Middle point: the clause score of its rows. -/
theorem oB23 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : ¬cond0_0 i) (hc1 : ¬cond0_1 i) (hc2 : cond0_2 i) (hc3 : ¬cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) (xs0 : Vec F S64x4096 .f32) (xs1 : Vec F S10000x64 .f32) :
    out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1 = k0_pay14 (rowsAt i xs1) x17 x18 x19 x20 := by
  unfold out0_B_23
  rw [View.read_writes_eq_canon _ _ _ (cover0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1)]
  unfold kernelRun0_B
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- Last point: the accumulator gains the block's product. -/
theorem sC0 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : ¬cond0_0 i) (hc1 : ¬cond0_1 i) (hc2 : cond0_2 i) (hc3 : cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) (xs0 : Vec F S64x4096 .f32) (xs1 : Vec F S10000x64 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1 = k0_pay13 x0 (rowsAt i xs1) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1)]
  unfold kernelRun0_C
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- Last point: the clause score of its rows. -/
theorem oC23 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : ¬cond0_0 i) (hc1 : ¬cond0_1 i) (hc2 : cond0_2 i) (hc3 : cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) (xs0 : Vec F S64x4096 .f32) (xs1 : Vec F S10000x64 .f32) :
    out0_C_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1 = k0_pay14 (rowsAt i xs1) x17 x18 x19 x20 := by
  unfold out0_C_23
  rw [View.read_writes_eq_canon _ _ _ (cover0_C_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1)]
  unfold kernelRun0_C
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- Last point: the first score head from the total. -/
theorem oC21 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : ¬cond0_0 i) (hc1 : ¬cond0_1 i) (hc2 : cond0_2 i) (hc3 : cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) (xs0 : Vec F S64x4096 .f32) (xs1 : Vec F S10000x64 .f32) :
    out0_C_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1 = dratK (k0_pay13 x0 (rowsAt i xs1) xs0) x2 x3 x4 x5 x6 x7 x8 x9 x10 x11 x12 := by
  unfold out0_C_21
  rw [View.read_writes_eq_canon _ _ _ (cover0_C_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1)]
  unfold kernelRun0_C
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

/-- Last point: the second score head from the total. -/
theorem oC22 (c : Dev nD) (i : grid0.Coords) (arg1 : Memref sig .tc .vmem S1000x4096 .f32) (harg1 : arg1.IsWhole) (arg2 : Memref sig .tc .vmem S64x10000 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S64x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x1 .f32) (harg21 : arg21.IsWhole) (arg22 : Memref sig .tc .vmem S2048x1 .f32) (harg22 : arg22.IsWhole) (arg23 : Memref sig .tc .vmem S2048x1 .f32) (harg23 : arg23.IsWhole) (arg24 : Memref sig .tc .vmem S1000x1 .f32) (harg24 : arg24.IsWhole) (arg25 : Memref sig .tc .vmem S64x4096 .f32) (harg25 : arg25.IsWhole) (arg26 : Memref sig .tc .vmem S10000x64 .f32) (harg26 : arg26.IsWhole) (hc0 : ¬cond0_0 i) (hc1 : ¬cond0_1 i) (hc2 : cond0_2 i) (hc3 : cond0_3 i) (x0 : Vec F S1000x4096 .f32) (x1 : Vec F S64x10000 .f32) (x2 : Vec F S64x4096 .f32) (x3 : Vec F S64x64 .f32) (x4 : Vec F S1x64 .f32) (x5 : Vec F S64x64 .f32) (x6 : Vec F S1x64 .f32) (x7 : Vec F S1x64 .f32) (x8 : Vec F S1x64 .f32) (x9 : Vec F S128x128 .f32) (x10 : Vec F S1x128 .f32) (x11 : Vec F S128x1 .f32) (x12 : Vec F S1x1 .f32) (x13 : Vec F S128x128 .f32) (x14 : Vec F S1x128 .f32) (x15 : Vec F S128x1 .f32) (x16 : Vec F S1x1 .f32) (x17 : Vec F S64x64 .f32) (x18 : Vec F S1x64 .f32) (x19 : Vec F S64x1 .f32) (x20 : Vec F S1x1 .f32) (xs0 : Vec F S64x4096 .f32) (xs1 : Vec F S10000x64 .f32) :
    out0_C_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1 = coreK (k0_pay13 x0 (rowsAt i xs1) xs0) x2 x3 x4 x5 x6 x7 x8 x13 x14 x15 x16 := by
  unfold out0_C_22
  rw [View.read_writes_eq_canon _ _ _ (cover0_C_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 x13 x14 x15 x16 x17 x18 x19 x20 xs0 xs1)]
  unfold kernelRun0_C
  dsimp only
  sl_unfold_run_names
  simp only [View.readAt_writes_junk_eq_canon, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S1000x4096) hz2, View.ld_unit_zero (S := S64x10000) hz2, View.ld_unit_zero (S := S64x4096) hz2, View.ld_unit_zero (S := S64x64) hz2, View.ld_unit_zero (S := S1x64) hz2, View.ld_unit_zero (S := S128x128) hz2, View.ld_unit_zero (S := S1x128) hz2, View.ld_unit_zero (S := S128x1) hz2, View.ld_unit_zero (S := S1x1) hz2, View.ld_unit_zero (S := S64x1) hz2, View.ld_unit_zero (S := S10000x64) hz2, View.canon_unit_zero (S := S64x4096) hz2, View.canon_unit_zero (S := S1000x1) hz2, View.canon_unit_zero (S := S2048x1) hz2, View.canon_unit_zero (S := S10000x64) hz2, View.readCov_unit_zero (S := S64x4096) _ hz2] <;> rfl

end Cert.KernelIdeal.Gen

end
-- ==== Proof.KerInv.lean ====
/-
  What the kernel's run holds point by point. The clause scratch holds, from the first point on, the clause state C2
  (the staged transposed array transposed back); the accumulator holds after point n the sum of the first n+1 block
  products, in point order: accK 0 = the first product, accK (n+1) = accK n + the next. Every point's clause-score block
  is the head applied to its thousand rows of C2; the last point's two score heads are computed from accK at that point.
-/
import proofs.«170097_g26499948216398_cont_9to1_1103_19_alg».proof.Proof.Gen.KernelIdeal.Frame
import Idealize.ShloMosaic.Lib.Pipeline.Value
import proofs.«170097_g26499948216398_cont_9to1_1103_19_alg».proof.Proof.KerPieces
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem N_pos : 0 < cfg0.N := by rw [show cfg0.N = 10 from N_0]; decide

/-- The clause state as the kernel holds it: the staged array (clause state transposed) transposed back. -/
def c2K (c : Dev nD) : Vec F S10000x64 .f32 := k0_pay10 (iblk m c 1 ⟨0, N_pos⟩)

/-- The accumulated product after point `n`, in point order. -/
def accK (c : Dev nD) : (n : ℕ) → n < cfg0.N → Vec F S64x4096 .f32
  | 0, h => k0_pay12 (iblk m c 0 ⟨0, h⟩) (rowsAt (grid0.coords (⟨0, h⟩ : Fin cfg0.N)) (c2K m c))
  | n + 1, h => k0_pay13 (iblk m c 0 ⟨n + 1, h⟩) (rowsAt (grid0.coords (⟨n + 1, h⟩ : Fin cfg0.N)) (c2K m c)) (accK c n (Nat.lt_of_succ_lt h))

/-- After every point the two carried scratch arrays hold the running product and the clause state. -/
theorem scr_eq (c : Dev nD) : ∀ (n : ℕ) (h : n < cfg0.N),
    (outsAt0 m c n h).2.2.2.1 = accK m c n h ∧ (outsAt0 m c n h).2.2.2.2 = c2K m c
  | 0, h => by
    have h0 : (⟨0, h⟩ : Fin cfg0.N).val % 10 = 0 := rfl
    have h1 : (⟨0, h⟩ : Fin cfg0.N).val % 10 = 0 := rfl
    have h2 : ¬1 ≤ (⟨0, h⟩ : Fin cfg0.N).val := by show ¬1 ≤ 0; decide
    have h3 : ¬(⟨0, h⟩ : Fin cfg0.N).val % 10 = 9 := by show ¬(0 % 10 = 9); decide
    rw [outsAt0_A m c (⟨0, h⟩ : Fin cfg0.N) h0 h1 h2 h3]
    dsimp only
    exact ⟨sA0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) scM0_0 (Memref.isWhole_whole _) scM0_1 (Memref.isWhole_whole _) ((hcond0_0 (⟨0, h⟩ : Fin cfg0.N)).mpr h0) ((hcond0_1 (⟨0, h⟩ : Fin cfg0.N)).mpr h1) (fun hx => h2 ((hcond0_2 (⟨0, h⟩ : Fin cfg0.N)).mp hx)) (fun hx => h3 ((hcond0_3 (⟨0, h⟩ : Fin cfg0.N)).mp hx)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N)), sA1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) scM0_0 (Memref.isWhole_whole _) scM0_1 (Memref.isWhole_whole _) ((hcond0_0 (⟨0, h⟩ : Fin cfg0.N)).mpr h0) ((hcond0_1 (⟨0, h⟩ : Fin cfg0.N)).mpr h1) (fun hx => h2 ((hcond0_2 (⟨0, h⟩ : Fin cfg0.N)).mp hx)) (fun hx => h3 ((hcond0_3 (⟨0, h⟩ : Fin cfg0.N)).mp hx)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N))⟩
  | n + 1, h => by
    have hN : n + 1 < 10 := lt_of_lt_of_eq h (show cfg0.N = 10 from N_0)
    have ih := scr_eq c n (Nat.lt_of_succ_lt h)
    have h0 : ¬(⟨n + 1, h⟩ : Fin cfg0.N).val % 10 = 0 := by dsimp only; omega
    have h1 : ¬(⟨n + 1, h⟩ : Fin cfg0.N).val % 10 = 0 := h0
    have h2 : 1 ≤ (⟨n + 1, h⟩ : Fin cfg0.N).val := by dsimp only; omega
    by_cases h3 : (⟨n + 1, h⟩ : Fin cfg0.N).val % 10 = 9
    · rw [outsAt0_C m c (⟨n + 1, h⟩ : Fin cfg0.N) h0 h1 h2 h3]
      dsimp only
      refine ⟨(sC0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) scM0_0 (Memref.isWhole_whole _) scM0_1 (Memref.isWhole_whole _) (fun hx => h0 ((hcond0_0 (⟨n + 1, h⟩ : Fin cfg0.N)).mp hx)) (fun hx => h1 ((hcond0_1 (⟨n + 1, h⟩ : Fin cfg0.N)).mp hx)) ((hcond0_2 (⟨n + 1, h⟩ : Fin cfg0.N)).mpr h2) ((hcond0_3 (⟨n + 1, h⟩ : Fin cfg0.N)).mpr h3) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2).trans ?_, ih.2⟩
      exact congrArg₂ (fun a b => k0_pay13 (iblk m c 0 (⟨n + 1, h⟩ : Fin cfg0.N)) (rowsAt (grid0.coords (⟨n + 1, h⟩ : Fin cfg0.N)) b) a) ih.1 ih.2
    · rw [outsAt0_B m c (⟨n + 1, h⟩ : Fin cfg0.N) h0 h1 h2 h3]
      dsimp only
      refine ⟨(sB0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) scM0_0 (Memref.isWhole_whole _) scM0_1 (Memref.isWhole_whole _) (fun hx => h0 ((hcond0_0 (⟨n + 1, h⟩ : Fin cfg0.N)).mp hx)) (fun hx => h1 ((hcond0_1 (⟨n + 1, h⟩ : Fin cfg0.N)).mp hx)) ((hcond0_2 (⟨n + 1, h⟩ : Fin cfg0.N)).mpr h2) (fun hx => h3 ((hcond0_3 (⟨n + 1, h⟩ : Fin cfg0.N)).mp hx)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2).trans ?_, ih.2⟩
      exact congrArg₂ (fun a b => k0_pay13 (iblk m c 0 (⟨n + 1, h⟩ : Fin cfg0.N)) (rowsAt (grid0.coords (⟨n + 1, h⟩ : Fin cfg0.N)) b) a) ih.1 ih.2

/-- Every point leaves in the clause-score block the head of its thousand rows of the clause state. -/
theorem out23_eq (c : Dev nD) : ∀ (n : ℕ) (h : n < cfg0.N),
    (outsAt0 m c n h).2.2.1 = k0_pay14 (rowsAt (grid0.coords (⟨n, h⟩ : Fin cfg0.N)) (c2K m c)) (iblk m c 17 ⟨n, h⟩) (iblk m c 18 ⟨n, h⟩) (iblk m c 19 ⟨n, h⟩) (iblk m c 20 ⟨n, h⟩)
  | 0, h => by
    have h0 : (⟨0, h⟩ : Fin cfg0.N).val % 10 = 0 := rfl
    have h1 : (⟨0, h⟩ : Fin cfg0.N).val % 10 = 0 := rfl
    have h2 : ¬1 ≤ (⟨0, h⟩ : Fin cfg0.N).val := by show ¬1 ≤ 0; decide
    have h3 : ¬(⟨0, h⟩ : Fin cfg0.N).val % 10 = 9 := by show ¬(0 % 10 = 9); decide
    rw [outsAt0_A m c (⟨0, h⟩ : Fin cfg0.N) h0 h1 h2 h3]
    dsimp only
    exact oA23 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) (ms0_11 (⟨0, h⟩ : Fin cfg0.N)) (hs0_11 (⟨0, h⟩ : Fin cfg0.N)) (ms0_12 (⟨0, h⟩ : Fin cfg0.N)) (hs0_12 (⟨0, h⟩ : Fin cfg0.N)) (ms0_13 (⟨0, h⟩ : Fin cfg0.N)) (hs0_13 (⟨0, h⟩ : Fin cfg0.N)) (ms0_14 (⟨0, h⟩ : Fin cfg0.N)) (hs0_14 (⟨0, h⟩ : Fin cfg0.N)) (ms0_15 (⟨0, h⟩ : Fin cfg0.N)) (hs0_15 (⟨0, h⟩ : Fin cfg0.N)) (ms0_16 (⟨0, h⟩ : Fin cfg0.N)) (hs0_16 (⟨0, h⟩ : Fin cfg0.N)) (ms0_17 (⟨0, h⟩ : Fin cfg0.N)) (hs0_17 (⟨0, h⟩ : Fin cfg0.N)) (ms0_18 (⟨0, h⟩ : Fin cfg0.N)) (hs0_18 (⟨0, h⟩ : Fin cfg0.N)) (ms0_19 (⟨0, h⟩ : Fin cfg0.N)) (hs0_19 (⟨0, h⟩ : Fin cfg0.N)) (ms0_20 (⟨0, h⟩ : Fin cfg0.N)) (hs0_20 (⟨0, h⟩ : Fin cfg0.N)) (ms0_21 (⟨0, h⟩ : Fin cfg0.N)) (hs0_21 (⟨0, h⟩ : Fin cfg0.N)) (ms0_22 (⟨0, h⟩ : Fin cfg0.N)) (hs0_22 (⟨0, h⟩ : Fin cfg0.N)) (ms0_23 (⟨0, h⟩ : Fin cfg0.N)) (hs0_23 (⟨0, h⟩ : Fin cfg0.N)) scM0_0 (Memref.isWhole_whole _) scM0_1 (Memref.isWhole_whole _) ((hcond0_0 (⟨0, h⟩ : Fin cfg0.N)).mpr h0) ((hcond0_1 (⟨0, h⟩ : Fin cfg0.N)).mpr h1) (fun hx => h2 ((hcond0_2 (⟨0, h⟩ : Fin cfg0.N)).mp hx)) (fun hx => h3 ((hcond0_3 (⟨0, h⟩ : Fin cfg0.N)).mp hx)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N)) (iblk m c 9 (⟨0, h⟩ : Fin cfg0.N)) (iblk m c 10 (⟨0, h⟩ : Fin cfg0.N)) (iblk m c 11 (⟨0, h⟩ : Fin cfg0.N)) (iblk m c 12 (⟨0, h⟩ : Fin cfg0.N)) (iblk m c 13 (⟨0, h⟩ : Fin cfg0.N)) (iblk m c 14 (⟨0, h⟩ : Fin cfg0.N)) (iblk m c 15 (⟨0, h⟩ : Fin cfg0.N)) (iblk m c 16 (⟨0, h⟩ : Fin cfg0.N)) (iblk m c 17 (⟨0, h⟩ : Fin cfg0.N)) (iblk m c 18 (⟨0, h⟩ : Fin cfg0.N)) (iblk m c 19 (⟨0, h⟩ : Fin cfg0.N)) (iblk m c 20 (⟨0, h⟩ : Fin cfg0.N))
  | n + 1, h => by
    have hN : n + 1 < 10 := lt_of_lt_of_eq h (show cfg0.N = 10 from N_0)
    have ih := scr_eq m c n (Nat.lt_of_succ_lt h)
    have h0 : ¬(⟨n + 1, h⟩ : Fin cfg0.N).val % 10 = 0 := by dsimp only; omega
    have h1 : ¬(⟨n + 1, h⟩ : Fin cfg0.N).val % 10 = 0 := h0
    have h2 : 1 ≤ (⟨n + 1, h⟩ : Fin cfg0.N).val := by dsimp only; omega
    by_cases h3 : (⟨n + 1, h⟩ : Fin cfg0.N).val % 10 = 9
    · rw [outsAt0_C m c (⟨n + 1, h⟩ : Fin cfg0.N) h0 h1 h2 h3]
      dsimp only
      refine (oC23 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) scM0_0 (Memref.isWhole_whole _) scM0_1 (Memref.isWhole_whole _) (fun hx => h0 ((hcond0_0 (⟨n + 1, h⟩ : Fin cfg0.N)).mp hx)) (fun hx => h1 ((hcond0_1 (⟨n + 1, h⟩ : Fin cfg0.N)).mp hx)) ((hcond0_2 (⟨n + 1, h⟩ : Fin cfg0.N)).mpr h2) ((hcond0_3 (⟨n + 1, h⟩ : Fin cfg0.N)).mpr h3) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2).trans ?_
      exact congrArg (fun b => k0_pay14 (rowsAt (grid0.coords (⟨n + 1, h⟩ : Fin cfg0.N)) b) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N))) ih.2
    · rw [outsAt0_B m c (⟨n + 1, h⟩ : Fin cfg0.N) h0 h1 h2 h3]
      dsimp only
      refine (oB23 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) scM0_0 (Memref.isWhole_whole _) scM0_1 (Memref.isWhole_whole _) (fun hx => h0 ((hcond0_0 (⟨n + 1, h⟩ : Fin cfg0.N)).mp hx)) (fun hx => h1 ((hcond0_1 (⟨n + 1, h⟩ : Fin cfg0.N)).mp hx)) ((hcond0_2 (⟨n + 1, h⟩ : Fin cfg0.N)).mpr h2) (fun hx => h3 ((hcond0_3 (⟨n + 1, h⟩ : Fin cfg0.N)).mp hx)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2).trans ?_
      exact congrArg (fun b => k0_pay14 (rowsAt (grid0.coords (⟨n + 1, h⟩ : Fin cfg0.N)) b) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N))) ih.2

/-- The last point leaves the two score heads computed from the accumulated product at that point. -/
theorem out21_eq (c : Dev nD) (n : ℕ) (h : n + 1 < cfg0.N) (h3 : (⟨n + 1, h⟩ : Fin cfg0.N).val % 10 = 9) :
    (outsAt0 m c (n + 1) h).1 = dratK (accK m c (n + 1) h) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) := by
  have hN : n + 1 < 10 := lt_of_lt_of_eq h (show cfg0.N = 10 from N_0)
  have ih := scr_eq m c n (Nat.lt_of_succ_lt h)
  have h0 : ¬(⟨n + 1, h⟩ : Fin cfg0.N).val % 10 = 0 := by dsimp only; omega
  have h1 : ¬(⟨n + 1, h⟩ : Fin cfg0.N).val % 10 = 0 := h0
  have h2 : 1 ≤ (⟨n + 1, h⟩ : Fin cfg0.N).val := by dsimp only; omega
  rw [outsAt0_C m c (⟨n + 1, h⟩ : Fin cfg0.N) h0 h1 h2 h3]
  dsimp only
  refine (oC21 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) scM0_0 (Memref.isWhole_whole _) scM0_1 (Memref.isWhole_whole _) (fun hx => h0 ((hcond0_0 (⟨n + 1, h⟩ : Fin cfg0.N)).mp hx)) (fun hx => h1 ((hcond0_1 (⟨n + 1, h⟩ : Fin cfg0.N)).mp hx)) ((hcond0_2 (⟨n + 1, h⟩ : Fin cfg0.N)).mpr h2) ((hcond0_3 (⟨n + 1, h⟩ : Fin cfg0.N)).mpr h3) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2).trans ?_
  exact congrArg₂ (fun a b => dratK (k0_pay13 (iblk m c 0 (⟨n + 1, h⟩ : Fin cfg0.N)) (rowsAt (grid0.coords (⟨n + 1, h⟩ : Fin cfg0.N)) b) a) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N))) ih.1 ih.2

theorem out22_eq (c : Dev nD) (n : ℕ) (h : n + 1 < cfg0.N) (h3 : (⟨n + 1, h⟩ : Fin cfg0.N).val % 10 = 9) :
    (outsAt0 m c (n + 1) h).2.1 = coreK (accK m c (n + 1) h) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) := by
  have hN : n + 1 < 10 := lt_of_lt_of_eq h (show cfg0.N = 10 from N_0)
  have ih := scr_eq m c n (Nat.lt_of_succ_lt h)
  have h0 : ¬(⟨n + 1, h⟩ : Fin cfg0.N).val % 10 = 0 := by dsimp only; omega
  have h1 : ¬(⟨n + 1, h⟩ : Fin cfg0.N).val % 10 = 0 := h0
  have h2 : 1 ≤ (⟨n + 1, h⟩ : Fin cfg0.N).val := by dsimp only; omega
  rw [outsAt0_C m c (⟨n + 1, h⟩ : Fin cfg0.N) h0 h1 h2 h3]
  dsimp only
  refine (oC22 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) (ms0_9 (⟨n + 1, h⟩ : Fin cfg0.N)) (hs0_9 (⟨n + 1, h⟩ : Fin cfg0.N)) (ms0_10 (⟨n + 1, h⟩ : Fin cfg0.N)) (hs0_10 (⟨n + 1, h⟩ : Fin cfg0.N)) (ms0_11 (⟨n + 1, h⟩ : Fin cfg0.N)) (hs0_11 (⟨n + 1, h⟩ : Fin cfg0.N)) (ms0_12 (⟨n + 1, h⟩ : Fin cfg0.N)) (hs0_12 (⟨n + 1, h⟩ : Fin cfg0.N)) (ms0_13 (⟨n + 1, h⟩ : Fin cfg0.N)) (hs0_13 (⟨n + 1, h⟩ : Fin cfg0.N)) (ms0_14 (⟨n + 1, h⟩ : Fin cfg0.N)) (hs0_14 (⟨n + 1, h⟩ : Fin cfg0.N)) (ms0_15 (⟨n + 1, h⟩ : Fin cfg0.N)) (hs0_15 (⟨n + 1, h⟩ : Fin cfg0.N)) (ms0_16 (⟨n + 1, h⟩ : Fin cfg0.N)) (hs0_16 (⟨n + 1, h⟩ : Fin cfg0.N)) (ms0_17 (⟨n + 1, h⟩ : Fin cfg0.N)) (hs0_17 (⟨n + 1, h⟩ : Fin cfg0.N)) (ms0_18 (⟨n + 1, h⟩ : Fin cfg0.N)) (hs0_18 (⟨n + 1, h⟩ : Fin cfg0.N)) (ms0_19 (⟨n + 1, h⟩ : Fin cfg0.N)) (hs0_19 (⟨n + 1, h⟩ : Fin cfg0.N)) (ms0_20 (⟨n + 1, h⟩ : Fin cfg0.N)) (hs0_20 (⟨n + 1, h⟩ : Fin cfg0.N)) (ms0_21 (⟨n + 1, h⟩ : Fin cfg0.N)) (hs0_21 (⟨n + 1, h⟩ : Fin cfg0.N)) (ms0_22 (⟨n + 1, h⟩ : Fin cfg0.N)) (hs0_22 (⟨n + 1, h⟩ : Fin cfg0.N)) (ms0_23 (⟨n + 1, h⟩ : Fin cfg0.N)) (hs0_23 (⟨n + 1, h⟩ : Fin cfg0.N)) scM0_0 (Memref.isWhole_whole _) scM0_1 (Memref.isWhole_whole _) (fun hx => h0 ((hcond0_0 (⟨n + 1, h⟩ : Fin cfg0.N)).mp hx)) (fun hx => h1 ((hcond0_1 (⟨n + 1, h⟩ : Fin cfg0.N)).mp hx)) ((hcond0_2 (⟨n + 1, h⟩ : Fin cfg0.N)).mpr h2) ((hcond0_3 (⟨n + 1, h⟩ : Fin cfg0.N)).mpr h3) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 9 (⟨n + 1, h⟩ : Fin cfg0.N)) (iblk m c 10 (⟨n + 1, h⟩ : Fin cfg0.N)) (iblk m c 11 (⟨n + 1, h⟩ : Fin cfg0.N)) (iblk m c 12 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N)) (iblk m c 17 (⟨n + 1, h⟩ : Fin cfg0.N)) (iblk m c 18 (⟨n + 1, h⟩ : Fin cfg0.N)) (iblk m c 19 (⟨n + 1, h⟩ : Fin cfg0.N)) (iblk m c 20 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.1 (outsAt0 m c ((⟨n + 1, h⟩ : Fin cfg0.N).val - 1) (Nat.lt_of_le_of_lt (Nat.sub_le _ _) (⟨n + 1, h⟩ : Fin cfg0.N).isLt)).2.2.2.2).trans ?_
  exact congrArg₂ (fun a b => coreK (k0_pay13 (iblk m c 0 (⟨n + 1, h⟩ : Fin cfg0.N)) (rowsAt (grid0.coords (⟨n + 1, h⟩ : Fin cfg0.N)) b) a) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N)) (iblk m c 7 (⟨n + 1, h⟩ : Fin cfg0.N)) (iblk m c 8 (⟨n + 1, h⟩ : Fin cfg0.N)) (iblk m c 13 (⟨n + 1, h⟩ : Fin cfg0.N)) (iblk m c 14 (⟨n + 1, h⟩ : Fin cfg0.N)) (iblk m c 15 (⟨n + 1, h⟩ : Fin cfg0.N)) (iblk m c 16 (⟨n + 1, h⟩ : Fin cfg0.N))) ih.1 ih.2

end Cert.KernelIdeal.Gen

end
-- ==== Proof.KerBlocks.lean ====
/-
  How the blocks a grid point reads sit in the arrays: every weight, bias and state window stages its whole array at
  every point (block index (0,0)); the window over G stages rows 1000·t … 1000·t+999 at point t; and the rows of the
  clause scratch a point reads start at 1000·t.
-/
import proofs.«170097_g26499948216398_cont_9to1_1103_19_alg».proof.Proof.Gen.KernelIdeal.Frame
import Idealize.ShloMosaic.Lib.Pipeline.Value
import proofs.«170097_g26499948216398_cont_9to1_1103_19_alg».proof.Proof.KerDefs
import Idealize.ShloMosaic.Lib.ValueIdx
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The printed block index maps, decided over the ten points. -/
theorem idx0 : ∀ t : Fin cfg0.N, win0_0.index t (0 : Fin 2) = t.val ∧ win0_0.index t (1 : Fin 2) = 0 :=
  (by decide +kernel : ∀ t : Fin grid0.N, _)
theorem idx23 : ∀ t : Fin cfg0.N, win0_23.index t (0 : Fin 2) = t.val ∧ win0_23.index t (1 : Fin 2) = 0 :=
  (by decide +kernel : ∀ t : Fin grid0.N, _)
theorem off1 : ∀ t : Fin cfg0.N, k0_off1 (grid0.coords t) (0 : Fin 2) = 1000 * t.val ∧ k0_off1 (grid0.coords t) (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
/-- Window 1 stages its whole array at every point. -/
theorem iblk1 (c : Dev nD) (t : Fin cfg0.N) : (iblk m c 1 t : Vec F S64x10000 .f32) = V m c main_v95 := by
  funext j
  unfold iblk
  rw [View.read_apply]
  show V m c main_v95 _ = V m c main_v95 j
  refine congrArg _ ?_
  funext a; apply Fin.ext
  match a with
  | ⟨0, _⟩ => show win0_1.index t (0 : Fin 2) * 64 + 1 * (j 0).val = (j 0).val; rw [(idx1 t).1]; omega
  | ⟨1, _⟩ => show win0_1.index t (1 : Fin 2) * 10000 + 1 * (j 1).val = (j 1).val; rw [(idx1 t).2]; omega
theorem idx2 : ∀ t : Fin cfg0.N, win0_2.index t (0 : Fin 2) = 0 ∧ win0_2.index t (1 : Fin 2) = 0 :=
  (by decide +kernel : ∀ t : Fin grid0.N, _)
/-- Window 2 stages its whole array at every point. -/
theorem iblk2 (c : Dev nD) (t : Fin cfg0.N) : (iblk m c 2 t : Vec F S64x4096 .f32) = V m c main_v94 := by
  funext j
  unfold iblk
  rw [View.read_apply]
  show V m c main_v94 _ = V m c main_v94 j
  refine congrArg _ ?_
  funext a; apply Fin.ext
  match a with
  | ⟨0, _⟩ => show win0_2.index t (0 : Fin 2) * 64 + 1 * (j 0).val = (j 0).val; rw [(idx2 t).1]; omega
  | ⟨1, _⟩ => show win0_2.index t (1 : Fin 2) * 4096 + 1 * (j 1).val = (j 1).val; rw [(idx2 t).2]; omega
theorem idx3 : ∀ t : Fin cfg0.N, win0_3.index t (0 : Fin 2) = 0 ∧ win0_3.index t (1 : Fin 2) = 0 :=
  (by decide +kernel : ∀ t : Fin grid0.N, _)
/-- Window 3 stages its whole array at every point. -/
theorem iblk3 (c : Dev nD) (t : Fin cfg0.N) : (iblk m c 3 t : Vec F S64x64 .f32) = V m c main_arg8 := by
  funext j
  unfold iblk
  rw [View.read_apply]
  show V m c main_arg8 _ = V m c main_arg8 j
  refine congrArg _ ?_
  funext a; apply Fin.ext
  match a with
  | ⟨0, _⟩ => show win0_3.index t (0 : Fin 2) * 64 + 1 * (j 0).val = (j 0).val; rw [(idx3 t).1]; omega
  | ⟨1, _⟩ => show win0_3.index t (1 : Fin 2) * 64 + 1 * (j 1).val = (j 1).val; rw [(idx3 t).2]; omega
theorem idx4 : ∀ t : Fin cfg0.N, win0_4.index t (0 : Fin 2) = 0 ∧ win0_4.index t (1 : Fin 2) = 0 :=
  (by decide +kernel : ∀ t : Fin grid0.N, _)
/-- Window 4 stages its whole array at every point. -/
theorem iblk4 (c : Dev nD) (t : Fin cfg0.N) : (iblk m c 4 t : Vec F S1x64 .f32) = V m c main_v96 := by
  funext j
  unfold iblk
  rw [View.read_apply]
  show V m c main_v96 _ = V m c main_v96 j
  refine congrArg _ ?_
  funext a; apply Fin.ext
  match a with
  | ⟨0, _⟩ => show win0_4.index t (0 : Fin 2) * 1 + 1 * (j 0).val = (j 0).val; rw [(idx4 t).1]; omega
  | ⟨1, _⟩ => show win0_4.index t (1 : Fin 2) * 64 + 1 * (j 1).val = (j 1).val; rw [(idx4 t).2]; omega
theorem idx5 : ∀ t : Fin cfg0.N, win0_5.index t (0 : Fin 2) = 0 ∧ win0_5.index t (1 : Fin 2) = 0 :=
  (by decide +kernel : ∀ t : Fin grid0.N, _)
/-- Window 5 stages its whole array at every point. -/
theorem iblk5 (c : Dev nD) (t : Fin cfg0.N) : (iblk m c 5 t : Vec F S64x64 .f32) = V m c main_arg10 := by
  funext j
  unfold iblk
  rw [View.read_apply]
  show V m c main_arg10 _ = V m c main_arg10 j
  refine congrArg _ ?_
  funext a; apply Fin.ext
  match a with
  | ⟨0, _⟩ => show win0_5.index t (0 : Fin 2) * 64 + 1 * (j 0).val = (j 0).val; rw [(idx5 t).1]; omega
  | ⟨1, _⟩ => show win0_5.index t (1 : Fin 2) * 64 + 1 * (j 1).val = (j 1).val; rw [(idx5 t).2]; omega
theorem idx6 : ∀ t : Fin cfg0.N, win0_6.index t (0 : Fin 2) = 0 ∧ win0_6.index t (1 : Fin 2) = 0 :=
  (by decide +kernel : ∀ t : Fin grid0.N, _)
/-- Window 6 stages its whole array at every point. -/
theorem iblk6 (c : Dev nD) (t : Fin cfg0.N) : (iblk m c 6 t : Vec F S1x64 .f32) = V m c main_v97 := by
  funext j
  unfold iblk
  rw [View.read_apply]
  show V m c main_v97 _ = V m c main_v97 j
  refine congrArg _ ?_
  funext a; apply Fin.ext
  match a with
  | ⟨0, _⟩ => show win0_6.index t (0 : Fin 2) * 1 + 1 * (j 0).val = (j 0).val; rw [(idx6 t).1]; omega
  | ⟨1, _⟩ => show win0_6.index t (1 : Fin 2) * 64 + 1 * (j 1).val = (j 1).val; rw [(idx6 t).2]; omega
theorem idx7 : ∀ t : Fin cfg0.N, win0_7.index t (0 : Fin 2) = 0 ∧ win0_7.index t (1 : Fin 2) = 0 :=
  (by decide +kernel : ∀ t : Fin grid0.N, _)
/-- Window 7 stages its whole array at every point. -/
theorem iblk7 (c : Dev nD) (t : Fin cfg0.N) : (iblk m c 7 t : Vec F S1x64 .f32) = V m c main_v98 := by
  funext j
  unfold iblk
  rw [View.read_apply]
  show V m c main_v98 _ = V m c main_v98 j
  refine congrArg _ ?_
  funext a; apply Fin.ext
  match a with
  | ⟨0, _⟩ => show win0_7.index t (0 : Fin 2) * 1 + 1 * (j 0).val = (j 0).val; rw [(idx7 t).1]; omega
  | ⟨1, _⟩ => show win0_7.index t (1 : Fin 2) * 64 + 1 * (j 1).val = (j 1).val; rw [(idx7 t).2]; omega
theorem idx8 : ∀ t : Fin cfg0.N, win0_8.index t (0 : Fin 2) = 0 ∧ win0_8.index t (1 : Fin 2) = 0 :=
  (by decide +kernel : ∀ t : Fin grid0.N, _)
/-- Window 8 stages its whole array at every point. -/
theorem iblk8 (c : Dev nD) (t : Fin cfg0.N) : (iblk m c 8 t : Vec F S1x64 .f32) = V m c main_v99 := by
  funext j
  unfold iblk
  rw [View.read_apply]
  show V m c main_v99 _ = V m c main_v99 j
  refine congrArg _ ?_
  funext a; apply Fin.ext
  match a with
  | ⟨0, _⟩ => show win0_8.index t (0 : Fin 2) * 1 + 1 * (j 0).val = (j 0).val; rw [(idx8 t).1]; omega
  | ⟨1, _⟩ => show win0_8.index t (1 : Fin 2) * 64 + 1 * (j 1).val = (j 1).val; rw [(idx8 t).2]; omega
theorem idx9 : ∀ t : Fin cfg0.N, win0_9.index t (0 : Fin 2) = 0 ∧ win0_9.index t (1 : Fin 2) = 0 :=
  (by decide +kernel : ∀ t : Fin grid0.N, _)
/-- Window 9 stages its whole array at every point. -/
theorem iblk9 (c : Dev nD) (t : Fin cfg0.N) : (iblk m c 9 t : Vec F S128x128 .f32) = V m c main_arg12 := by
  funext j
  unfold iblk
  rw [View.read_apply]
  show V m c main_arg12 _ = V m c main_arg12 j
  refine congrArg _ ?_
  funext a; apply Fin.ext
  match a with
  | ⟨0, _⟩ => show win0_9.index t (0 : Fin 2) * 128 + 1 * (j 0).val = (j 0).val; rw [(idx9 t).1]; omega
  | ⟨1, _⟩ => show win0_9.index t (1 : Fin 2) * 128 + 1 * (j 1).val = (j 1).val; rw [(idx9 t).2]; omega
theorem idx10 : ∀ t : Fin cfg0.N, win0_10.index t (0 : Fin 2) = 0 ∧ win0_10.index t (1 : Fin 2) = 0 :=
  (by decide +kernel : ∀ t : Fin grid0.N, _)
/-- Window 10 stages its whole array at every point. -/
theorem iblk10 (c : Dev nD) (t : Fin cfg0.N) : (iblk m c 10 t : Vec F S1x128 .f32) = V m c main_v100 := by
  funext j
  unfold iblk
  rw [View.read_apply]
  show V m c main_v100 _ = V m c main_v100 j
  refine congrArg _ ?_
  funext a; apply Fin.ext
  match a with
  | ⟨0, _⟩ => show win0_10.index t (0 : Fin 2) * 1 + 1 * (j 0).val = (j 0).val; rw [(idx10 t).1]; omega
  | ⟨1, _⟩ => show win0_10.index t (1 : Fin 2) * 128 + 1 * (j 1).val = (j 1).val; rw [(idx10 t).2]; omega
theorem idx11 : ∀ t : Fin cfg0.N, win0_11.index t (0 : Fin 2) = 0 ∧ win0_11.index t (1 : Fin 2) = 0 :=
  (by decide +kernel : ∀ t : Fin grid0.N, _)
/-- Window 11 stages its whole array at every point. -/
theorem iblk11 (c : Dev nD) (t : Fin cfg0.N) : (iblk m c 11 t : Vec F S128x1 .f32) = V m c main_arg14 := by
  funext j
  unfold iblk
  rw [View.read_apply]
  show V m c main_arg14 _ = V m c main_arg14 j
  refine congrArg _ ?_
  funext a; apply Fin.ext
  match a with
  | ⟨0, _⟩ => show win0_11.index t (0 : Fin 2) * 128 + 1 * (j 0).val = (j 0).val; rw [(idx11 t).1]; omega
  | ⟨1, _⟩ => show win0_11.index t (1 : Fin 2) * 1 + 1 * (j 1).val = (j 1).val; rw [(idx11 t).2]; omega
theorem idx12 : ∀ t : Fin cfg0.N, win0_12.index t (0 : Fin 2) = 0 ∧ win0_12.index t (1 : Fin 2) = 0 :=
  (by decide +kernel : ∀ t : Fin grid0.N, _)
/-- Window 12 stages its whole array at every point. -/
theorem iblk12 (c : Dev nD) (t : Fin cfg0.N) : (iblk m c 12 t : Vec F S1x1 .f32) = V m c main_v101 := by
  funext j
  unfold iblk
  rw [View.read_apply]
  show V m c main_v101 _ = V m c main_v101 j
  refine congrArg _ ?_
  funext a; apply Fin.ext
  match a with
  | ⟨0, _⟩ => show win0_12.index t (0 : Fin 2) * 1 + 1 * (j 0).val = (j 0).val; rw [(idx12 t).1]; omega
  | ⟨1, _⟩ => show win0_12.index t (1 : Fin 2) * 1 + 1 * (j 1).val = (j 1).val; rw [(idx12 t).2]; omega
theorem idx13 : ∀ t : Fin cfg0.N, win0_13.index t (0 : Fin 2) = 0 ∧ win0_13.index t (1 : Fin 2) = 0 :=
  (by decide +kernel : ∀ t : Fin grid0.N, _)
/-- Window 13 stages its whole array at every point. -/
theorem iblk13 (c : Dev nD) (t : Fin cfg0.N) : (iblk m c 13 t : Vec F S128x128 .f32) = V m c main_arg16 := by
  funext j
  unfold iblk
  rw [View.read_apply]
  show V m c main_arg16 _ = V m c main_arg16 j
  refine congrArg _ ?_
  funext a; apply Fin.ext
  match a with
  | ⟨0, _⟩ => show win0_13.index t (0 : Fin 2) * 128 + 1 * (j 0).val = (j 0).val; rw [(idx13 t).1]; omega
  | ⟨1, _⟩ => show win0_13.index t (1 : Fin 2) * 128 + 1 * (j 1).val = (j 1).val; rw [(idx13 t).2]; omega
theorem idx14 : ∀ t : Fin cfg0.N, win0_14.index t (0 : Fin 2) = 0 ∧ win0_14.index t (1 : Fin 2) = 0 :=
  (by decide +kernel : ∀ t : Fin grid0.N, _)
/-- Window 14 stages its whole array at every point. -/
theorem iblk14 (c : Dev nD) (t : Fin cfg0.N) : (iblk m c 14 t : Vec F S1x128 .f32) = V m c main_v102 := by
  funext j
  unfold iblk
  rw [View.read_apply]
  show V m c main_v102 _ = V m c main_v102 j
  refine congrArg _ ?_
  funext a; apply Fin.ext
  match a with
  | ⟨0, _⟩ => show win0_14.index t (0 : Fin 2) * 1 + 1 * (j 0).val = (j 0).val; rw [(idx14 t).1]; omega
  | ⟨1, _⟩ => show win0_14.index t (1 : Fin 2) * 128 + 1 * (j 1).val = (j 1).val; rw [(idx14 t).2]; omega
theorem idx15 : ∀ t : Fin cfg0.N, win0_15.index t (0 : Fin 2) = 0 ∧ win0_15.index t (1 : Fin 2) = 0 :=
  (by decide +kernel : ∀ t : Fin grid0.N, _)
/-- Window 15 stages its whole array at every point. -/
theorem iblk15 (c : Dev nD) (t : Fin cfg0.N) : (iblk m c 15 t : Vec F S128x1 .f32) = V m c main_arg18 := by
  funext j
  unfold iblk
  rw [View.read_apply]
  show V m c main_arg18 _ = V m c main_arg18 j
  refine congrArg _ ?_
  funext a; apply Fin.ext
  match a with
  | ⟨0, _⟩ => show win0_15.index t (0 : Fin 2) * 128 + 1 * (j 0).val = (j 0).val; rw [(idx15 t).1]; omega
  | ⟨1, _⟩ => show win0_15.index t (1 : Fin 2) * 1 + 1 * (j 1).val = (j 1).val; rw [(idx15 t).2]; omega
theorem idx16 : ∀ t : Fin cfg0.N, win0_16.index t (0 : Fin 2) = 0 ∧ win0_16.index t (1 : Fin 2) = 0 :=
  (by decide +kernel : ∀ t : Fin grid0.N, _)
/-- Window 16 stages its whole array at every point. -/
theorem iblk16 (c : Dev nD) (t : Fin cfg0.N) : (iblk m c 16 t : Vec F S1x1 .f32) = V m c main_v103 := by
  funext j
  unfold iblk
  rw [View.read_apply]
  show V m c main_v103 _ = V m c main_v103 j
  refine congrArg _ ?_
  funext a; apply Fin.ext
  match a with
  | ⟨0, _⟩ => show win0_16.index t (0 : Fin 2) * 1 + 1 * (j 0).val = (j 0).val; rw [(idx16 t).1]; omega
  | ⟨1, _⟩ => show win0_16.index t (1 : Fin 2) * 1 + 1 * (j 1).val = (j 1).val; rw [(idx16 t).2]; omega
theorem idx17 : ∀ t : Fin cfg0.N, win0_17.index t (0 : Fin 2) = 0 ∧ win0_17.index t (1 : Fin 2) = 0 :=
  (by decide +kernel : ∀ t : Fin grid0.N, _)
/-- Window 17 stages its whole array at every point. -/
theorem iblk17 (c : Dev nD) (t : Fin cfg0.N) : (iblk m c 17 t : Vec F S64x64 .f32) = V m c main_arg20 := by
  funext j
  unfold iblk
  rw [View.read_apply]
  show V m c main_arg20 _ = V m c main_arg20 j
  refine congrArg _ ?_
  funext a; apply Fin.ext
  match a with
  | ⟨0, _⟩ => show win0_17.index t (0 : Fin 2) * 64 + 1 * (j 0).val = (j 0).val; rw [(idx17 t).1]; omega
  | ⟨1, _⟩ => show win0_17.index t (1 : Fin 2) * 64 + 1 * (j 1).val = (j 1).val; rw [(idx17 t).2]; omega
theorem idx18 : ∀ t : Fin cfg0.N, win0_18.index t (0 : Fin 2) = 0 ∧ win0_18.index t (1 : Fin 2) = 0 :=
  (by decide +kernel : ∀ t : Fin grid0.N, _)
/-- Window 18 stages its whole array at every point. -/
theorem iblk18 (c : Dev nD) (t : Fin cfg0.N) : (iblk m c 18 t : Vec F S1x64 .f32) = V m c main_v104 := by
  funext j
  unfold iblk
  rw [View.read_apply]
  show V m c main_v104 _ = V m c main_v104 j
  refine congrArg _ ?_
  funext a; apply Fin.ext
  match a with
  | ⟨0, _⟩ => show win0_18.index t (0 : Fin 2) * 1 + 1 * (j 0).val = (j 0).val; rw [(idx18 t).1]; omega
  | ⟨1, _⟩ => show win0_18.index t (1 : Fin 2) * 64 + 1 * (j 1).val = (j 1).val; rw [(idx18 t).2]; omega
theorem idx19 : ∀ t : Fin cfg0.N, win0_19.index t (0 : Fin 2) = 0 ∧ win0_19.index t (1 : Fin 2) = 0 :=
  (by decide +kernel : ∀ t : Fin grid0.N, _)
/-- Window 19 stages its whole array at every point. -/
theorem iblk19 (c : Dev nD) (t : Fin cfg0.N) : (iblk m c 19 t : Vec F S64x1 .f32) = V m c main_arg22 := by
  funext j
  unfold iblk
  rw [View.read_apply]
  show V m c main_arg22 _ = V m c main_arg22 j
  refine congrArg _ ?_
  funext a; apply Fin.ext
  match a with
  | ⟨0, _⟩ => show win0_19.index t (0 : Fin 2) * 64 + 1 * (j 0).val = (j 0).val; rw [(idx19 t).1]; omega
  | ⟨1, _⟩ => show win0_19.index t (1 : Fin 2) * 1 + 1 * (j 1).val = (j 1).val; rw [(idx19 t).2]; omega
theorem idx20 : ∀ t : Fin cfg0.N, win0_20.index t (0 : Fin 2) = 0 ∧ win0_20.index t (1 : Fin 2) = 0 :=
  (by decide +kernel : ∀ t : Fin grid0.N, _)
/-- Window 20 stages its whole array at every point. -/
theorem iblk20 (c : Dev nD) (t : Fin cfg0.N) : (iblk m c 20 t : Vec F S1x1 .f32) = V m c main_v105 := by
  funext j
  unfold iblk
  rw [View.read_apply]
  show V m c main_v105 _ = V m c main_v105 j
  refine congrArg _ ?_
  funext a; apply Fin.ext
  match a with
  | ⟨0, _⟩ => show win0_20.index t (0 : Fin 2) * 1 + 1 * (j 0).val = (j 0).val; rw [(idx20 t).1]; omega
  | ⟨1, _⟩ => show win0_20.index t (1 : Fin 2) * 1 + 1 * (j 1).val = (j 1).val; rw [(idx20 t).2]; omega

/-- The window over G stages rows 1000·t … at point t. -/
theorem iblk0 (c : Dev nD) (t : Fin cfg0.N) (r : Fin 1000) (p : Fin 4096) :
    (iblk m c 0 t : Vec F S1000x4096 .f32) (ValueIdx.ix2 r p) = V m c main_arg0 (ValueIdx.ix2 ⟨1000 * t.val + r.val, by have := t.isLt; have : cfg0.N = 10 := N_0; omega⟩ p) := by
  unfold iblk
  rw [View.read_apply]
  show V m c main_arg0 _ = V m c main_arg0 _
  refine congrArg _ ?_
  funext a; apply Fin.ext
  match a with
  | ⟨0, _⟩ => show win0_0.index t (0 : Fin 2) * 1000 + 1 * r.val = 1000 * t.val + r.val; rw [(idx0 t).1]; omega
  | ⟨1, _⟩ => show win0_0.index t (1 : Fin 2) * 4096 + 1 * p.val = p.val; rw [(idx0 t).2]; omega

/-- The rows of a clause array a point reads are rows 1000·t … of it. -/
theorem rowsAt_apply (t : Fin cfg0.N) (X : Vec F S10000x64 .f32) (r : Fin 1000) (k : Fin 64) :
    rowsAt (grid0.coords t) X (ValueIdx.ix2 r k) = X (ValueIdx.ix2 ⟨1000 * t.val + r.val, by have := t.isLt; have : cfg0.N = 10 := N_0; omega⟩ k) := by
  unfold rowsAt
  show X _ = X _
  refine congrArg _ ?_
  funext a; apply Fin.ext
  match a with
  | ⟨0, _⟩ => show k0_off1 (grid0.coords t) (0 : Fin 2) + 1 * r.val = 1000 * t.val + r.val; rw [(off1 t).1]; omega
  | ⟨1, _⟩ => show k0_off1 (grid0.coords t) (1 : Fin 2) + 1 * k.val = k.val; rw [(off1 t).2]; omega

end Cert.KernelIdeal.Gen

end
-- ==== Proof.KerHostOps.lean ====
/-
  The kernel program's host operations before its region, regrouped into five stretches: the literal tile, the first
  clause hop, the first literal hop, the second clause hop, and the closing stretch (the two copies, the two
  transpositions, the ten one-row views of the bias vectors). The regrouping is an equation between two literal lists.
-/
import proofs.«170097_g26499948216398_cont_9to1_1103_19_alg».proof.Proof.Gen.KernelIdeal.Frame.Runs
import Idealize.ShloMosaic.Lib.StableHlo.Run

set_option maxRecDepth 16384

noncomputable section

namespace Cert.KernelIdeal.KerHost

open Idealize.ShloMosaic Idealize.ShloMosaic.TcCoe Idealize.ShloMosaic.StableHlo Idealize.SL.Sem

variable {F : FTy → Type} [FloatOps F] [Cert.KernelIdeal.Facts]

open Cert.KernelIdeal.Facts₀ Cert.KernelIdeal.Facts

/-- The literal tile: 3 operations, the last writing main_v2. -/
abbrev tileK : List (HloOp τ sig (Elt F)) :=
  [
    StableHlo.reshape main_arg1 main_v0 rfl shapeCasts_S1x64_S1x1x1x64,
    StableHlo.unary main_v0 main_v1 (broadcastInDim S4096x1x1x64 ![0, 1, 2, 3] bcast_S1x1x1x64_S4096x1x1x64_0_1_2_3 : (⟨S1x1x1x64, .f32⟩ : BufTy).Contents (Elt F) → (⟨S4096x1x1x64, .f32⟩ : BufTy).Contents (Elt F)),
    StableHlo.reshape main_v1 main_v2 rfl shapeCasts_S4096x1x1x64_S4096x64 ]

/-- The first clause hop: 54 operations, the last writing main_v28. -/
abbrev c1K : List (HloOp τ sig (Elt F)) :=
  [
    StableHlo.unary main_v2 main_v3 ((extractStridedSlice S2048x64 ![2048, 0] · slices_S4096x64_S2048x64_2048_0) : (⟨S4096x64, .f32⟩ : BufTy).Contents (Elt F) → (⟨S2048x64, .f32⟩ : BufTy).Contents (Elt F)),
    StableHlo.unary main_v2 main_v4 ((extractStridedSlice S2048x64 ![0, 0] · slices_S4096x64_S2048x64_0_0) : (⟨S4096x64, .f32⟩ : BufTy).Contents (Elt F) → (⟨S2048x64, .f32⟩ : BufTy).Contents (Elt F)),
    StableHlo.binary main_v3 main_v4 main_v5 ((fun a b => concatenate S4096x64 0 [⟨S2048x64, a⟩, ⟨S2048x64, b⟩] concatenates_S2048x64_S2048x64_S4096x64_d0) : (⟨S2048x64, .f32⟩ : BufTy).Contents (Elt F) → (⟨S2048x64, .f32⟩ : BufTy).Contents (Elt F) → (⟨S4096x64, .f32⟩ : BufTy).Contents (Elt F)),
    StableHlo.binary main_v2 main_v5 main_v6 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)),
    StableHlo.binary main_arg0 main_v6 main_v7 ((fun l r => Host.dotGeneral dot_S10000x4096_S4096x128_S10000x128_1_0_0_1_n_n none l r) : (⟨S10000x4096, .f32⟩ : BufTy).Contents (Elt F) → (⟨S4096x128, .f32⟩ : BufTy).Contents (Elt F) → (⟨S10000x128, .f32⟩ : BufTy).Contents (Elt F)),
    StableHlo.binary main_v7 main_arg4 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S10000x128 ![0, 1] bcast_S1x128_S10000x128_0_1 : (⟨S1x128, .f32⟩ : BufTy).Contents (Elt F) → (⟨S10000x128, .f32⟩ : BufTy).Contents (Elt F)),
    StableHlo.binary main_v8 main_v10 main_v11 (addf : (⟨S10000x128, .f32⟩ : BufTy).Contents (Elt F) → (⟨S10000x128, .f32⟩ : BufTy).Contents (Elt F) → (⟨S10000x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S10000x128, .f32⟩) (broadcastInDim S10000x128 ![] bcast_S_S10000x128),
    StableHlo.TRef.binary (.of main_v11 : StableHlo.TRef sig ⟨S10000x128, .f32⟩) (.of main_call0_v0 : StableHlo.TRef sig ⟨S10000x128, .f32⟩) (.of main_v12 : StableHlo.TRef sig ⟨S10000x128, .f32⟩) maximumf,
    StableHlo.binary main_v12 main_arg6 main_v13 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    StableHlo.unary main_arg7 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S10000x64 ![0, 1] bcast_S1x64_S10000x64_0_1 : (⟨S1x64, .f32⟩ : BufTy).Contents (Elt F) → (⟨S10000x64, .f32⟩ : BufTy).Contents (Elt F)),
    StableHlo.binary main_v13 main_v15 main_v16 (addf : (⟨S10000x64, .f32⟩ : BufTy).Contents (Elt F) → (⟨S10000x64, .f32⟩ : BufTy).Contents (Elt F) → (⟨S10000x64, .f32⟩ : BufTy).Contents (Elt F)),
    StableHlo.nullary main_cst (constant S_ .f32 0x00000000#32),
    StableHlo.binary main_v16 main_cst main_v17 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_0 (constant S_ .f32 0x461C4000#32),
    StableHlo.unary main_cst_0 main_v18 (broadcastInDim S64 ![] bcast_S_S64 : (⟨S_, .f32⟩ : BufTy).Contents (Elt F) → (⟨S64, .f32⟩ : BufTy).Contents (Elt F)),
    StableHlo.binary main_v17 main_v18 main_v19 (Host.divf : (⟨S64, .f32⟩ : BufTy).Contents (Elt F) → (⟨S64, .f32⟩ : BufTy).Contents (Elt F) → (⟨S64, .f32⟩ : BufTy).Contents (Elt F)),
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S10000x64 ![0, 1] bcast_S1x64_S10000x64_0_1 : (⟨S1x64, .f32⟩ : BufTy).Contents (Elt F) → (⟨S10000x64, .f32⟩ : BufTy).Contents (Elt F)),
    StableHlo.binary main_v16 main_v21 main_v22 (subf : (⟨S10000x64, .f32⟩ : BufTy).Contents (Elt F) → (⟨S10000x64, .f32⟩ : BufTy).Contents (Elt F) → (⟨S10000x64, .f32⟩ : BufTy).Contents (Elt F)),
    StableHlo.nullary main_c (constantI S_ 32 1#32),
    StableHlo.TRef.nullary (.of main_call1_call0_cst : StableHlo.TRef sig ⟨S_, .f32⟩) (constant S_ .f32 0x00000000#32),
    StableHlo.TRef.binary (.of main_v22 : StableHlo.TRef sig ⟨S10000x64, .f32⟩) (.of main_call1_call0_cst : StableHlo.TRef sig ⟨S_, .f32⟩) (.of main_call1_call0_v0 : StableHlo.TRef sig ⟨S64, .f32⟩) (fun x v => Host.reduceAdd x v reducesTo_S10000x64_S64_d0 h_S_),
    StableHlo.TRef.unary (.of main_call1_call0_v0 : StableHlo.TRef sig ⟨S64, .f32⟩) (.of main_call1_call0_v1 : StableHlo.TRef sig ⟨S1x64, .f32⟩) (broadcastInDim S1x64 ![1] bcast_S64_S1x64_1),
    StableHlo.TRef.nullary (.of main_call1_call0_cst_0 : StableHlo.TRef sig ⟨S_, .f32⟩) (constant S_ .f32 0x461C4000#32),
    StableHlo.TRef.unary (.of main_call1_call0_cst_0 : StableHlo.TRef sig ⟨S_, .f32⟩) (.of main_call1_call0_v2 : StableHlo.TRef sig ⟨S1x64, .f32⟩) (broadcastInDim S1x64 ![] bcast_S_S1x64),
    StableHlo.TRef.binary (.of main_call1_call0_v1 : StableHlo.TRef sig ⟨S1x64, .f32⟩) (.of main_call1_call0_v2 : StableHlo.TRef sig ⟨S1x64, .f32⟩) (.of main_call1_call0_v3 : StableHlo.TRef sig ⟨S1x64, .f32⟩) Host.divf,
    StableHlo.TRef.unary (.of main_call1_call0_v3 : StableHlo.TRef sig ⟨S1x64, .f32⟩) (.of main_call1_call0_v4 : StableHlo.TRef sig ⟨S10000x64, .f32⟩) (broadcastInDim S10000x64 ![0, 1] bcast_S1x64_S10000x64_0_1),
    StableHlo.TRef.binary (.of main_v22 : StableHlo.TRef sig ⟨S10000x64, .f32⟩) (.of main_call1_call0_v4 : StableHlo.TRef sig ⟨S10000x64, .f32⟩) (.of main_call1_call0_v5 : StableHlo.TRef sig ⟨S10000x64, .f32⟩) subf,
    StableHlo.TRef.binary (.of main_call1_call0_v5 : StableHlo.TRef sig ⟨S10000x64, .f32⟩) (.of main_call1_call0_v5 : StableHlo.TRef sig ⟨S10000x64, .f32⟩) (.of main_call1_call0_v6 : StableHlo.TRef sig ⟨S10000x64, .f32⟩) mulf,
    StableHlo.TRef.unary (.of main_c : StableHlo.TRef sig ⟨S_, .i32⟩) (.of main_call1_call0_v7 : StableHlo.TRef sig ⟨S_, .f32⟩) (sitofp .f32),
    StableHlo.TRef.nullary (.of main_call1_call0_cst_1 : StableHlo.TRef sig ⟨S_, .f32⟩) (constant S_ .f32 0x461C4000#32),
    StableHlo.TRef.binary (.of main_call1_call0_cst_1 : StableHlo.TRef sig ⟨S_, .f32⟩) (.of main_call1_call0_v7 : StableHlo.TRef sig ⟨S_, .f32⟩) (.of main_call1_call0_v8 : StableHlo.TRef sig ⟨S_, .f32⟩) subf,
    StableHlo.TRef.nullary (.of main_call1_call0_cst_2 : StableHlo.TRef sig ⟨S_, .f32⟩) (constant S_ .f32 0x00000000#32),
    StableHlo.TRef.binary (.of main_call1_call0_v6 : StableHlo.TRef sig ⟨S10000x64, .f32⟩) (.of main_call1_call0_cst_2 : StableHlo.TRef sig ⟨S_, .f32⟩) (.of main_call1_call0_v9 : StableHlo.TRef sig ⟨S64, .f32⟩) (fun x v => Host.reduceAdd x v reducesTo_S10000x64_S64_d0 h_S_),
    StableHlo.TRef.unary (.of main_call1_call0_v8 : StableHlo.TRef sig ⟨S_, .f32⟩) (.of main_call1_call0_v10 : StableHlo.TRef sig ⟨S64, .f32⟩) (broadcastInDim S64 ![] bcast_S_S64),
    StableHlo.TRef.binary (.of main_call1_call0_v9 : StableHlo.TRef sig ⟨S64, .f32⟩) (.of main_call1_call0_v10 : StableHlo.TRef sig ⟨S64, .f32⟩) (.of main_call1_call0_v11 : StableHlo.TRef sig ⟨S64, .f32⟩) Host.divf,
    StableHlo.TRef.nullary (.of main_call1_call0_cst_3 : StableHlo.TRef sig ⟨S_, .f32⟩) (constant S_ .f32 0x00000000#32),
    StableHlo.TRef.binary (.of main_call1_call0_v8 : StableHlo.TRef sig ⟨S_, .f32⟩) (.of main_call1_call0_cst_3 : StableHlo.TRef sig ⟨S_, .f32⟩) (.of main_call1_call0_v12 : StableHlo.TRef sig ⟨S_, .i1⟩) (cmpf .ogt),
    StableHlo.TRef.nullary (.of main_call1_call0_cst_4 : StableHlo.TRef sig ⟨S_, .f32⟩) (constant S_ .f32 0x7FC00000#32),
    StableHlo.TRef.unary (.of main_call1_call0_cst_4 : StableHlo.TRef sig ⟨S_, .f32⟩) (.of main_call1_call0_call0_v0 : StableHlo.TRef sig ⟨S_, .f32⟩) id,
    StableHlo.TRef.unary (.of main_call1_call0_call0_v0 : StableHlo.TRef sig ⟨S_, .f32⟩) (.of main_call1_call0_call0_v1 : StableHlo.TRef sig ⟨S64, .f32⟩) (broadcastInDim S64 ![] bcast_S_S64),
    StableHlo.TRef.ternary (.of main_call1_call0_v12 : StableHlo.TRef sig ⟨S_, .i1⟩) (.of main_call1_call0_v11 : StableHlo.TRef sig ⟨S64, .f32⟩) (.of main_call1_call0_call0_v1 : StableHlo.TRef sig ⟨S64, .f32⟩) (.of main_call1_v0 : StableHlo.TRef sig ⟨S64, .f32⟩) (fun p a b => select (broadcastInDim S64 ![] bcast_S_S64 p) a b),
    StableHlo.TRef.unary main_call1_call0.call0.v2 (.of main_v23 : StableHlo.TRef sig ⟨S64, .f32⟩) Host.sqrt,
    StableHlo.nullary main_cst_1 (constant S_ .f32 0x2EDBE6FF#32),
    StableHlo.unary main_cst_1 main_v24 (broadcastInDim S64 ![] bcast_S_S64 : (⟨S_, .f32⟩ : BufTy).Contents (Elt F) → (⟨S64, .f32⟩ : BufTy).Contents (Elt F)),
    StableHlo.binary main_v23 main_v24 main_v25 (addf : (⟨S64, .f32⟩ : BufTy).Contents (Elt F) → (⟨S64, .f32⟩ : BufTy).Contents (Elt F) → (⟨S64, .f32⟩ : BufTy).Contents (Elt F)),
    StableHlo.unary main_v25 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S10000x64 ![0, 1] bcast_S1x64_S10000x64_0_1 : (⟨S1x64, .f32⟩ : BufTy).Contents (Elt F) → (⟨S10000x64, .f32⟩ : BufTy).Contents (Elt F)),
    StableHlo.binary main_v22 main_v27 main_v28 (Host.divf : (⟨S10000x64, .f32⟩ : BufTy).Contents (Elt F) → (⟨S10000x64, .f32⟩ : BufTy).Contents (Elt F) → (⟨S10000x64, .f32⟩ : BufTy).Contents (Elt F)) ]

/-- The first literal hop: 46 operations, the last writing main_v66. -/
abbrev l1K : List (HloOp τ sig (Elt F)) :=
  [
    StableHlo.unary main_arg0 main_v29 ((transpose S4096x10000 [1, 0] · transposes_S10000x4096_S4096x10000_1_0) : (⟨S10000x4096, .f32⟩ : BufTy).Contents (Elt F) → (⟨S4096x10000, .f32⟩ : BufTy).Contents (Elt F)),
    StableHlo.binary main_v29 main_v28 main_v30 ((fun l r => Host.dotGeneral dot_S4096x10000_S10000x64_S4096x64_1_0_0_1_n_n none l r) : (⟨S4096x10000, .f32⟩ : BufTy).Contents (Elt F) → (⟨S10000x64, .f32⟩ : BufTy).Contents (Elt F) → (⟨S4096x64, .f32⟩ : BufTy).Contents (Elt F)),
    StableHlo.binary main_v30 main_arg8 main_v31 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg9 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S4096x64 ![0, 1] bcast_S1x64_S4096x64_0_1 : (⟨S1x64, .f32⟩ : BufTy).Contents (Elt F) → (⟨S4096x64, .f32⟩ : BufTy).Contents (Elt F)),
    StableHlo.binary main_v31 main_v33 main_v34 (addf : (⟨S4096x64, .f32⟩ : BufTy).Contents (Elt F) → (⟨S4096x64, .f32⟩ : BufTy).Contents (Elt F) → (⟨S4096x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4096x64, .f32⟩) (broadcastInDim S4096x64 ![] bcast_S_S4096x64),
    StableHlo.TRef.binary (.of main_v34 : StableHlo.TRef sig ⟨S4096x64, .f32⟩) (.of main_call2_v0 : StableHlo.TRef sig ⟨S4096x64, .f32⟩) (.of main_v35 : StableHlo.TRef sig ⟨S4096x64, .f32⟩) maximumf,
    StableHlo.binary main_v35 main_arg10 main_v36 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg11 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S4096x64 ![0, 1] bcast_S1x64_S4096x64_0_1 : (⟨S1x64, .f32⟩ : BufTy).Contents (Elt F) → (⟨S4096x64, .f32⟩ : BufTy).Contents (Elt F)),
    StableHlo.binary main_v36 main_v38 main_v39 (addf : (⟨S4096x64, .f32⟩ : BufTy).Contents (Elt F) → (⟨S4096x64, .f32⟩ : BufTy).Contents (Elt F) → (⟨S4096x64, .f32⟩ : BufTy).Contents (Elt F)),
    StableHlo.nullary main_cst_2 (constant S_ .f32 0x3DCCCCCD#32),
    StableHlo.unary main_cst_2 main_v40 (broadcastInDim S4096x64 ![] bcast_S_S4096x64 : (⟨S_, .f32⟩ : BufTy).Contents (Elt F) → (⟨S4096x64, .f32⟩ : BufTy).Contents (Elt F)),
    StableHlo.binary main_v40 main_v2 main_v41 (mulf : (⟨S4096x64, .f32⟩ : BufTy).Contents (Elt F) → (⟨S4096x64, .f32⟩ : BufTy).Contents (Elt F) → (⟨S4096x64, .f32⟩ : BufTy).Contents (Elt F)),
    StableHlo.binary main_v39 main_v41 main_v42 (addf : (⟨S4096x64, .f32⟩ : BufTy).Contents (Elt F) → (⟨S4096x64, .f32⟩ : BufTy).Contents (Elt F) → (⟨S4096x64, .f32⟩ : BufTy).Contents (Elt F)),
    StableHlo.nullary main_cst_3 (constant S_ .f32 0x00000000#32),
    StableHlo.binary main_v42 main_cst_3 main_v43 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v43 main_v44 (broadcastInDim S4096x1 ![0] bcast_S4096_S4096x1_0 : (⟨S4096, .f32⟩ : BufTy).Contents (Elt F) → (⟨S4096x1, .f32⟩ : BufTy).Contents (Elt F)),
    StableHlo.nullary main_cst_4 (constant S_ .f32 0x42800000#32),
    StableHlo.unary main_cst_4 main_v45 (broadcastInDim S4096x1 ![] bcast_S_S4096x1 : (⟨S_, .f32⟩ : BufTy).Contents (Elt F) → (⟨S4096x1, .f32⟩ : BufTy).Contents (Elt F)),
    StableHlo.binary main_v44 main_v45 main_v46 (Host.divf : (⟨S4096x1, .f32⟩ : BufTy).Contents (Elt F) → (⟨S4096x1, .f32⟩ : BufTy).Contents (Elt F) → (⟨S4096x1, .f32⟩ : BufTy).Contents (Elt F)),
    StableHlo.unary main_v46 main_v47 (broadcastInDim S4096x64 ![0, 1] bcast_S4096x1_S4096x64_0_1 : (⟨S4096x1, .f32⟩ : BufTy).Contents (Elt F) → (⟨S4096x64, .f32⟩ : BufTy).Contents (Elt F)),
    StableHlo.binary main_v42 main_v47 main_v48 (subf : (⟨S4096x64, .f32⟩ : BufTy).Contents (Elt F) → (⟨S4096x64, .f32⟩ : BufTy).Contents (Elt F) → (⟨S4096x64, .f32⟩ : BufTy).Contents (Elt F)),
    StableHlo.binary main_v48 main_v48 main_v49 (mulf : (⟨S4096x64, .f32⟩ : BufTy).Contents (Elt F) → (⟨S4096x64, .f32⟩ : BufTy).Contents (Elt F) → (⟨S4096x64, .f32⟩ : BufTy).Contents (Elt F)),
    StableHlo.nullary main_cst_5 (constant S_ .f32 0x00000000#32),
    StableHlo.binary main_v49 main_cst_5 main_v50 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v50 main_v51 (broadcastInDim S4096x1 ![0] bcast_S4096_S4096x1_0 : (⟨S4096, .f32⟩ : BufTy).Contents (Elt F) → (⟨S4096x1, .f32⟩ : BufTy).Contents (Elt F)),
    StableHlo.nullary main_cst_6 (constant S_ .f32 0x42800000#32),
    StableHlo.unary main_cst_6 main_v52 (broadcastInDim S4096x1 ![] bcast_S_S4096x1 : (⟨S_, .f32⟩ : BufTy).Contents (Elt F) → (⟨S4096x1, .f32⟩ : BufTy).Contents (Elt F)),
    StableHlo.binary main_v51 main_v52 main_v53 (Host.divf : (⟨S4096x1, .f32⟩ : BufTy).Contents (Elt F) → (⟨S4096x1, .f32⟩ : BufTy).Contents (Elt F) → (⟨S4096x1, .f32⟩ : BufTy).Contents (Elt F)),
    StableHlo.unary main_v46 main_v54 (broadcastInDim S4096x64 ![0, 1] bcast_S4096x1_S4096x64_0_1 : (⟨S4096x1, .f32⟩ : BufTy).Contents (Elt F) → (⟨S4096x64, .f32⟩ : BufTy).Contents (Elt F)),
    StableHlo.binary main_v42 main_v54 main_v55 (subf : (⟨S4096x64, .f32⟩ : BufTy).Contents (Elt F) → (⟨S4096x64, .f32⟩ : BufTy).Contents (Elt F) → (⟨S4096x64, .f32⟩ : BufTy).Contents (Elt F)),
    StableHlo.nullary main_cst_7 (constant S_ .f32 0x3727C5AC#32),
    StableHlo.unary main_cst_7 main_v56 (broadcastInDim S4096x1 ![] bcast_S_S4096x1 : (⟨S_, .f32⟩ : BufTy).Contents (Elt F) → (⟨S4096x1, .f32⟩ : BufTy).Contents (Elt F)),
    StableHlo.binary main_v53 main_v56 main_v57 (addf : (⟨S4096x1, .f32⟩ : BufTy).Contents (Elt F) → (⟨S4096x1, .f32⟩ : BufTy).Contents (Elt F) → (⟨S4096x1, .f32⟩ : BufTy).Contents (Elt F)),
    StableHlo.unary main_v57 main_v58 (Host.sqrt : (⟨S4096x1, .f32⟩ : BufTy).Contents (Elt F) → (⟨S4096x1, .f32⟩ : BufTy).Contents (Elt F)),
    StableHlo.unary main_v58 main_v59 (broadcastInDim S4096x64 ![0, 1] bcast_S4096x1_S4096x64_0_1 : (⟨S4096x1, .f32⟩ : BufTy).Contents (Elt F) → (⟨S4096x64, .f32⟩ : BufTy).Contents (Elt F)),
    StableHlo.binary main_v55 main_v59 main_v60 (Host.divf : (⟨S4096x64, .f32⟩ : BufTy).Contents (Elt F) → (⟨S4096x64, .f32⟩ : BufTy).Contents (Elt F) → (⟨S4096x64, .f32⟩ : BufTy).Contents (Elt F)),
    StableHlo.unary main_arg2 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S4096x64 ![0, 1] bcast_S1x64_S4096x64_0_1 : (⟨S1x64, .f32⟩ : BufTy).Contents (Elt F) → (⟨S4096x64, .f32⟩ : BufTy).Contents (Elt F)),
    StableHlo.binary main_v60 main_v62 main_v63 (mulf : (⟨S4096x64, .f32⟩ : BufTy).Contents (Elt F) → (⟨S4096x64, .f32⟩ : BufTy).Contents (Elt F) → (⟨S4096x64, .f32⟩ : BufTy).Contents (Elt F)),
    StableHlo.unary main_arg3 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S4096x64 ![0, 1] bcast_S1x64_S4096x64_0_1 : (⟨S1x64, .f32⟩ : BufTy).Contents (Elt F) → (⟨S4096x64, .f32⟩ : BufTy).Contents (Elt F)),
    StableHlo.binary main_v63 main_v65 main_v66 (addf : (⟨S4096x64, .f32⟩ : BufTy).Contents (Elt F) → (⟨S4096x64, .f32⟩ : BufTy).Contents (Elt F) → (⟨S4096x64, .f32⟩ : BufTy).Contents (Elt F)) ]

/-- The second clause hop: 54 operations, the last writing main_v92. -/
abbrev c2K : List (HloOp τ sig (Elt F)) :=
  [
    StableHlo.unary main_v66 main_v67 ((extractStridedSlice S2048x64 ![2048, 0] · slices_S4096x64_S2048x64_2048_0) : (⟨S4096x64, .f32⟩ : BufTy).Contents (Elt F) → (⟨S2048x64, .f32⟩ : BufTy).Contents (Elt F)),
    StableHlo.unary main_v66 main_v68 ((extractStridedSlice S2048x64 ![0, 0] · slices_S4096x64_S2048x64_0_0) : (⟨S4096x64, .f32⟩ : BufTy).Contents (Elt F) → (⟨S2048x64, .f32⟩ : BufTy).Contents (Elt F)),
    StableHlo.binary main_v67 main_v68 main_v69 ((fun a b => concatenate S4096x64 0 [⟨S2048x64, a⟩, ⟨S2048x64, b⟩] concatenates_S2048x64_S2048x64_S4096x64_d0) : (⟨S2048x64, .f32⟩ : BufTy).Contents (Elt F) → (⟨S2048x64, .f32⟩ : BufTy).Contents (Elt F) → (⟨S4096x64, .f32⟩ : BufTy).Contents (Elt F)),
    StableHlo.binary main_v66 main_v69 main_v70 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)),
    StableHlo.binary main_arg0 main_v70 main_v71 ((fun l r => Host.dotGeneral dot_S10000x4096_S4096x128_S10000x128_1_0_0_1_n_n none l r) : (⟨S10000x4096, .f32⟩ : BufTy).Contents (Elt F) → (⟨S4096x128, .f32⟩ : BufTy).Contents (Elt F) → (⟨S10000x128, .f32⟩ : BufTy).Contents (Elt F)),
    StableHlo.binary main_v71 main_arg4 main_v72 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S10000x128 ![0, 1] bcast_S1x128_S10000x128_0_1 : (⟨S1x128, .f32⟩ : BufTy).Contents (Elt F) → (⟨S10000x128, .f32⟩ : BufTy).Contents (Elt F)),
    StableHlo.binary main_v72 main_v74 main_v75 (addf : (⟨S10000x128, .f32⟩ : BufTy).Contents (Elt F) → (⟨S10000x128, .f32⟩ : BufTy).Contents (Elt F) → (⟨S10000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S10000x128, .f32⟩) (broadcastInDim S10000x128 ![] bcast_S_S10000x128),
    StableHlo.TRef.binary (.of main_v75 : StableHlo.TRef sig ⟨S10000x128, .f32⟩) (.of main_call3_v0 : StableHlo.TRef sig ⟨S10000x128, .f32⟩) (.of main_v76 : StableHlo.TRef sig ⟨S10000x128, .f32⟩) maximumf,
    StableHlo.binary main_v76 main_arg6 main_v77 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    StableHlo.unary main_arg7 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S10000x64 ![0, 1] bcast_S1x64_S10000x64_0_1 : (⟨S1x64, .f32⟩ : BufTy).Contents (Elt F) → (⟨S10000x64, .f32⟩ : BufTy).Contents (Elt F)),
    StableHlo.binary main_v77 main_v79 main_v80 (addf : (⟨S10000x64, .f32⟩ : BufTy).Contents (Elt F) → (⟨S10000x64, .f32⟩ : BufTy).Contents (Elt F) → (⟨S10000x64, .f32⟩ : BufTy).Contents (Elt F)),
    StableHlo.nullary main_cst_8 (constant S_ .f32 0x00000000#32),
    StableHlo.binary main_v80 main_cst_8 main_v81 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_9 (constant S_ .f32 0x461C4000#32),
    StableHlo.unary main_cst_9 main_v82 (broadcastInDim S64 ![] bcast_S_S64 : (⟨S_, .f32⟩ : BufTy).Contents (Elt F) → (⟨S64, .f32⟩ : BufTy).Contents (Elt F)),
    StableHlo.binary main_v81 main_v82 main_v83 (Host.divf : (⟨S64, .f32⟩ : BufTy).Contents (Elt F) → (⟨S64, .f32⟩ : BufTy).Contents (Elt F) → (⟨S64, .f32⟩ : BufTy).Contents (Elt F)),
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S10000x64 ![0, 1] bcast_S1x64_S10000x64_0_1 : (⟨S1x64, .f32⟩ : BufTy).Contents (Elt F) → (⟨S10000x64, .f32⟩ : BufTy).Contents (Elt F)),
    StableHlo.binary main_v80 main_v85 main_v86 (subf : (⟨S10000x64, .f32⟩ : BufTy).Contents (Elt F) → (⟨S10000x64, .f32⟩ : BufTy).Contents (Elt F) → (⟨S10000x64, .f32⟩ : BufTy).Contents (Elt F)),
    StableHlo.nullary main_c_10 (constantI S_ 32 1#32),
    StableHlo.TRef.nullary (.of main_call4_call0_cst : StableHlo.TRef sig ⟨S_, .f32⟩) (constant S_ .f32 0x00000000#32),
    StableHlo.TRef.binary (.of main_v86 : StableHlo.TRef sig ⟨S10000x64, .f32⟩) (.of main_call4_call0_cst : StableHlo.TRef sig ⟨S_, .f32⟩) (.of main_call4_call0_v0 : StableHlo.TRef sig ⟨S64, .f32⟩) (fun x v => Host.reduceAdd x v reducesTo_S10000x64_S64_d0 h_S_),
    StableHlo.TRef.unary (.of main_call4_call0_v0 : StableHlo.TRef sig ⟨S64, .f32⟩) (.of main_call4_call0_v1 : StableHlo.TRef sig ⟨S1x64, .f32⟩) (broadcastInDim S1x64 ![1] bcast_S64_S1x64_1),
    StableHlo.TRef.nullary (.of main_call4_call0_cst_0 : StableHlo.TRef sig ⟨S_, .f32⟩) (constant S_ .f32 0x461C4000#32),
    StableHlo.TRef.unary (.of main_call4_call0_cst_0 : StableHlo.TRef sig ⟨S_, .f32⟩) (.of main_call4_call0_v2 : StableHlo.TRef sig ⟨S1x64, .f32⟩) (broadcastInDim S1x64 ![] bcast_S_S1x64),
    StableHlo.TRef.binary (.of main_call4_call0_v1 : StableHlo.TRef sig ⟨S1x64, .f32⟩) (.of main_call4_call0_v2 : StableHlo.TRef sig ⟨S1x64, .f32⟩) (.of main_call4_call0_v3 : StableHlo.TRef sig ⟨S1x64, .f32⟩) Host.divf,
    StableHlo.TRef.unary (.of main_call4_call0_v3 : StableHlo.TRef sig ⟨S1x64, .f32⟩) (.of main_call4_call0_v4 : StableHlo.TRef sig ⟨S10000x64, .f32⟩) (broadcastInDim S10000x64 ![0, 1] bcast_S1x64_S10000x64_0_1),
    StableHlo.TRef.binary (.of main_v86 : StableHlo.TRef sig ⟨S10000x64, .f32⟩) (.of main_call4_call0_v4 : StableHlo.TRef sig ⟨S10000x64, .f32⟩) (.of main_call4_call0_v5 : StableHlo.TRef sig ⟨S10000x64, .f32⟩) subf,
    StableHlo.TRef.binary (.of main_call4_call0_v5 : StableHlo.TRef sig ⟨S10000x64, .f32⟩) (.of main_call4_call0_v5 : StableHlo.TRef sig ⟨S10000x64, .f32⟩) (.of main_call4_call0_v6 : StableHlo.TRef sig ⟨S10000x64, .f32⟩) mulf,
    StableHlo.TRef.unary (.of main_c_10 : StableHlo.TRef sig ⟨S_, .i32⟩) (.of main_call4_call0_v7 : StableHlo.TRef sig ⟨S_, .f32⟩) (sitofp .f32),
    StableHlo.TRef.nullary (.of main_call4_call0_cst_1 : StableHlo.TRef sig ⟨S_, .f32⟩) (constant S_ .f32 0x461C4000#32),
    StableHlo.TRef.binary (.of main_call4_call0_cst_1 : StableHlo.TRef sig ⟨S_, .f32⟩) (.of main_call4_call0_v7 : StableHlo.TRef sig ⟨S_, .f32⟩) (.of main_call4_call0_v8 : StableHlo.TRef sig ⟨S_, .f32⟩) subf,
    StableHlo.TRef.nullary (.of main_call4_call0_cst_2 : StableHlo.TRef sig ⟨S_, .f32⟩) (constant S_ .f32 0x00000000#32),
    StableHlo.TRef.binary (.of main_call4_call0_v6 : StableHlo.TRef sig ⟨S10000x64, .f32⟩) (.of main_call4_call0_cst_2 : StableHlo.TRef sig ⟨S_, .f32⟩) (.of main_call4_call0_v9 : StableHlo.TRef sig ⟨S64, .f32⟩) (fun x v => Host.reduceAdd x v reducesTo_S10000x64_S64_d0 h_S_),
    StableHlo.TRef.unary (.of main_call4_call0_v8 : StableHlo.TRef sig ⟨S_, .f32⟩) (.of main_call4_call0_v10 : StableHlo.TRef sig ⟨S64, .f32⟩) (broadcastInDim S64 ![] bcast_S_S64),
    StableHlo.TRef.binary (.of main_call4_call0_v9 : StableHlo.TRef sig ⟨S64, .f32⟩) (.of main_call4_call0_v10 : StableHlo.TRef sig ⟨S64, .f32⟩) (.of main_call4_call0_v11 : StableHlo.TRef sig ⟨S64, .f32⟩) Host.divf,
    StableHlo.TRef.nullary (.of main_call4_call0_cst_3 : StableHlo.TRef sig ⟨S_, .f32⟩) (constant S_ .f32 0x00000000#32),
    StableHlo.TRef.binary (.of main_call4_call0_v8 : StableHlo.TRef sig ⟨S_, .f32⟩) (.of main_call4_call0_cst_3 : StableHlo.TRef sig ⟨S_, .f32⟩) (.of main_call4_call0_v12 : StableHlo.TRef sig ⟨S_, .i1⟩) (cmpf .ogt),
    StableHlo.TRef.nullary (.of main_call4_call0_cst_4 : StableHlo.TRef sig ⟨S_, .f32⟩) (constant S_ .f32 0x7FC00000#32),
    StableHlo.TRef.unary (.of main_call4_call0_cst_4 : StableHlo.TRef sig ⟨S_, .f32⟩) (.of main_call4_call0_call0_v0 : StableHlo.TRef sig ⟨S_, .f32⟩) id,
    StableHlo.TRef.unary (.of main_call4_call0_call0_v0 : StableHlo.TRef sig ⟨S_, .f32⟩) (.of main_call4_call0_call0_v1 : StableHlo.TRef sig ⟨S64, .f32⟩) (broadcastInDim S64 ![] bcast_S_S64),
    StableHlo.TRef.ternary (.of main_call4_call0_v12 : StableHlo.TRef sig ⟨S_, .i1⟩) (.of main_call4_call0_v11 : StableHlo.TRef sig ⟨S64, .f32⟩) (.of main_call4_call0_call0_v1 : StableHlo.TRef sig ⟨S64, .f32⟩) (.of main_call4_v0 : StableHlo.TRef sig ⟨S64, .f32⟩) (fun p a b => select (broadcastInDim S64 ![] bcast_S_S64 p) a b),
    StableHlo.TRef.unary main_call4_call0.call0.v2 (.of main_v87 : StableHlo.TRef sig ⟨S64, .f32⟩) Host.sqrt,
    StableHlo.nullary main_cst_11 (constant S_ .f32 0x2EDBE6FF#32),
    StableHlo.unary main_cst_11 main_v88 (broadcastInDim S64 ![] bcast_S_S64 : (⟨S_, .f32⟩ : BufTy).Contents (Elt F) → (⟨S64, .f32⟩ : BufTy).Contents (Elt F)),
    StableHlo.binary main_v87 main_v88 main_v89 (addf : (⟨S64, .f32⟩ : BufTy).Contents (Elt F) → (⟨S64, .f32⟩ : BufTy).Contents (Elt F) → (⟨S64, .f32⟩ : BufTy).Contents (Elt F)),
    StableHlo.unary main_v89 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S10000x64 ![0, 1] bcast_S1x64_S10000x64_0_1 : (⟨S1x64, .f32⟩ : BufTy).Contents (Elt F) → (⟨S10000x64, .f32⟩ : BufTy).Contents (Elt F)),
    StableHlo.binary main_v86 main_v91 main_v92 (Host.divf : (⟨S10000x64, .f32⟩ : BufTy).Contents (Elt F) → (⟨S10000x64, .f32⟩ : BufTy).Contents (Elt F) → (⟨S10000x64, .f32⟩ : BufTy).Contents (Elt F)) ]

/-- The closing stretch: 14 operations. -/
abbrev glueK : List (HloOp τ sig (Elt F)) :=
  [
    StableHlo.unary main_v66 main_v93_0 (id : (⟨S4096x64, .f32⟩ : BufTy).Contents (Elt F) → (⟨S4096x64, .f32⟩ : BufTy).Contents (Elt F)),
    StableHlo.unary main_v92 main_v93_1 (id : (⟨S10000x64, .f32⟩ : BufTy).Contents (Elt F) → (⟨S10000x64, .f32⟩ : BufTy).Contents (Elt F)),
    StableHlo.unary main_v93_0 main_v94 ((transpose S64x4096 [1, 0] · transposes_S4096x64_S64x4096_1_0) : (⟨S4096x64, .f32⟩ : BufTy).Contents (Elt F) → (⟨S64x4096, .f32⟩ : BufTy).Contents (Elt F)),
    StableHlo.unary main_v93_1 main_v95 ((transpose S64x10000 [1, 0] · transposes_S10000x64_S64x10000_1_0) : (⟨S10000x64, .f32⟩ : BufTy).Contents (Elt F) → (⟨S64x10000, .f32⟩ : BufTy).Contents (Elt F)),
    StableHlo.reshape main_arg9 main_v96 rfl shapeCasts_S64_S1x64,
    StableHlo.reshape main_arg11 main_v97 rfl shapeCasts_S64_S1x64,
    StableHlo.reshape main_arg2 main_v98 rfl shapeCasts_S64_S1x64,
    StableHlo.reshape main_arg3 main_v99 rfl shapeCasts_S64_S1x64,
    StableHlo.reshape main_arg13 main_v100 rfl shapeCasts_S128_S1x128,
    StableHlo.reshape main_arg15 main_v101 rfl shapeCasts_S1_S1x1,
    StableHlo.reshape main_arg17 main_v102 rfl shapeCasts_S128_S1x128,
    StableHlo.reshape main_arg19 main_v103 rfl shapeCasts_S1_S1x1,
    StableHlo.reshape main_arg21 main_v104 rfl shapeCasts_S64_S1x64,
    StableHlo.reshape main_arg23 main_v105 rfl shapeCasts_S1_S1x1 ]

/-- The host operations before the region are the five stretches one after the other. -/
theorem flat_eq :
    (List.flatten [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10] : List (HloOp τ sig (Elt F)))
      = tileK ++ (c1K ++ (l1K ++ (c2K ++ glueK))) := rfl

end Cert.KernelIdeal.KerHost

end
-- ==== Proof.Spec.lean ====
/- The composed pure term of each stretch of the reference's host program, as a chain of named intermediate values
   (one have per operation, in program order). -/
import proofs.«170097_g26499948216398_cont_9to1_1103_19_alg».proof.ReferenceIdeal

noncomputable section

namespace Cert.Spec

open Idealize.ShloMosaic Idealize.SL.Sem Cert.ReferenceIdeal

variable {F : FTy → Type} [FloatOps F] [Cert.ReferenceIdeal.Facts]

open Cert.ReferenceIdeal.Facts₀ Cert.ReferenceIdeal.Facts

/-- The initial literal state: the one row repeated 4096 times. Parameters, in order: main_arg1. -/
noncomputable def tile (arg1 : (⟨S1x64, .f32⟩ : BufTy).Contents (Elt F)) : (⟨S4096x64, .f32⟩ : BufTy).Contents (Elt F) :=
  have v0 : (⟨S1x1x1x64, .f32⟩ : BufTy).Contents (Elt F) := shapeCast S1x1x1x64 arg1 shapeCasts_S1x64_S1x1x1x64
  have v1 : (⟨S4096x1x1x64, .f32⟩ : BufTy).Contents (Elt F) := ((broadcastInDim S4096x1x1x64 ![0, 1, 2, 3] bcast_S1x1x1x64_S4096x1x1x64_0_1_2_3 : (⟨S1x1x1x64, .f32⟩ : BufTy).Contents (Elt F) → (⟨S4096x1x1x64, .f32⟩ : BufTy).Contents (Elt F))) v0
  have v2 : (⟨S4096x64, .f32⟩ : BufTy).Contents (Elt F) := shapeCast S4096x64 v1 shapeCasts_S4096x1x1x64_S4096x64
  v2

/-- One clause hop: messages from the literals and their flipped halves, the clause update, the per-feature normalisation over the clauses. Parameters, in order: main_v2, main_arg0, main_arg4, main_arg5, main_arg6, main_arg7. -/
noncomputable def hopC (v2 : (⟨S4096x64, .f32⟩ : BufTy).Contents (Elt F)) (arg0 : (⟨S10000x4096, .f32⟩ : BufTy).Contents (Elt F)) (arg4 : (⟨S128x128, .f32⟩ : BufTy).Contents (Elt F)) (arg5 : (⟨S128, .f32⟩ : BufTy).Contents (Elt F)) (arg6 : (⟨S128x64, .f32⟩ : BufTy).Contents (Elt F)) (arg7 : (⟨S64, .f32⟩ : BufTy).Contents (Elt F)) : (⟨S10000x64, .f32⟩ : BufTy).Contents (Elt F) :=
  have v3 : (⟨S2048x64, .f32⟩ : BufTy).Contents (Elt F) := (((extractStridedSlice S2048x64 ![2048, 0] · slices_S4096x64_S2048x64_2048_0) : (⟨S4096x64, .f32⟩ : BufTy).Contents (Elt F) → (⟨S2048x64, .f32⟩ : BufTy).Contents (Elt F))) v2
  have v4 : (⟨S2048x64, .f32⟩ : BufTy).Contents (Elt F) := (((extractStridedSlice S2048x64 ![0, 0] · slices_S4096x64_S2048x64_0_0) : (⟨S4096x64, .f32⟩ : BufTy).Contents (Elt F) → (⟨S2048x64, .f32⟩ : BufTy).Contents (Elt F))) v2
  have v5 : (⟨S4096x64, .f32⟩ : BufTy).Contents (Elt F) := (((fun a b => concatenate S4096x64 0 [⟨S2048x64, a⟩, ⟨S2048x64, b⟩] concatenates_S2048x64_S2048x64_S4096x64_d0) : (⟨S2048x64, .f32⟩ : BufTy).Contents (Elt F) → (⟨S2048x64, .f32⟩ : BufTy).Contents (Elt F) → (⟨S4096x64, .f32⟩ : BufTy).Contents (Elt F))) v3 v4
  have v6 : (⟨S4096x128, .f32⟩ : BufTy).Contents (Elt F) := (((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F))) v2 v5
  have v7 : (⟨S10000x128, .f32⟩ : BufTy).Contents (Elt F) := (((fun l r => Host.dotGeneral dot_S10000x4096_S4096x128_S10000x128_1_0_0_1_n_n none l r) : (⟨S10000x4096, .f32⟩ : BufTy).Contents (Elt F) → (⟨S4096x128, .f32⟩ : BufTy).Contents (Elt F) → (⟨S10000x128, .f32⟩ : BufTy).Contents (Elt F))) arg0 v6
  have v8 : (⟨S10000x128, .f32⟩ : BufTy).Contents (Elt F) := (((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))) v7 arg4
  have v9 : (⟨S1x128, .f32⟩ : BufTy).Contents (Elt F) := ((broadcastInDim S1x128 ![1] bcast_S128_S1x128_1 : (⟨S128, .f32⟩ : BufTy).Contents (Elt F) → (⟨S1x128, .f32⟩ : BufTy).Contents (Elt F))) arg5
  have v10 : (⟨S10000x128, .f32⟩ : BufTy).Contents (Elt F) := ((broadcastInDim S10000x128 ![0, 1] bcast_S1x128_S10000x128_0_1 : (⟨S1x128, .f32⟩ : BufTy).Contents (Elt F) → (⟨S10000x128, .f32⟩ : BufTy).Contents (Elt F))) v9
  have v11 : (⟨S10000x128, .f32⟩ : BufTy).Contents (Elt F) := ((addf : (⟨S10000x128, .f32⟩ : BufTy).Contents (Elt F) → (⟨S10000x128, .f32⟩ : BufTy).Contents (Elt F) → (⟨S10000x128, .f32⟩ : BufTy).Contents (Elt F))) v8 v10
  have call0_cst : (⟨S_, .f32⟩ : BufTy).Contents (Elt F) := (constant S_ .f32 0x00000000#32)
  have call0_v0 : (⟨S10000x128, .f32⟩ : BufTy).Contents (Elt F) := ((broadcastInDim S10000x128 ![] bcast_S_S10000x128)) call0_cst
  have v12 : (⟨S10000x128, .f32⟩ : BufTy).Contents (Elt F) := (maximumf) v11 call0_v0
  have v13 : (⟨S10000x64, .f32⟩ : BufTy).Contents (Elt F) := (((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F))) v12 arg6
  have v14 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) arg7
  have v15 : (⟨S10000x64, .f32⟩ : BufTy).Contents (Elt F) := ((broadcastInDim S10000x64 ![0, 1] bcast_S1x64_S10000x64_0_1 : (⟨S1x64, .f32⟩ : BufTy).Contents (Elt F) → (⟨S10000x64, .f32⟩ : BufTy).Contents (Elt F))) v14
  have v16 : (⟨S10000x64, .f32⟩ : BufTy).Contents (Elt F) := ((addf : (⟨S10000x64, .f32⟩ : BufTy).Contents (Elt F) → (⟨S10000x64, .f32⟩ : BufTy).Contents (Elt F) → (⟨S10000x64, .f32⟩ : BufTy).Contents (Elt F))) v13 v15
  have cst : (⟨S_, .f32⟩ : BufTy).Contents (Elt F) := (constant S_ .f32 0x00000000#32)
  have v17 : (⟨S64, .f32⟩ : BufTy).Contents (Elt F) := (((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F))) v16 cst
  have cst_0 : (⟨S_, .f32⟩ : BufTy).Contents (Elt F) := (constant S_ .f32 0x461C4000#32)
  have v18 : (⟨S64, .f32⟩ : BufTy).Contents (Elt F) := ((broadcastInDim S64 ![] bcast_S_S64 : (⟨S_, .f32⟩ : BufTy).Contents (Elt F) → (⟨S64, .f32⟩ : BufTy).Contents (Elt F))) cst_0
  have v19 : (⟨S64, .f32⟩ : BufTy).Contents (Elt F) := ((Host.divf : (⟨S64, .f32⟩ : BufTy).Contents (Elt F) → (⟨S64, .f32⟩ : BufTy).Contents (Elt F) → (⟨S64, .f32⟩ : BufTy).Contents (Elt F))) v17 v18
  have v20 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) v19
  have v21 : (⟨S10000x64, .f32⟩ : BufTy).Contents (Elt F) := ((broadcastInDim S10000x64 ![0, 1] bcast_S1x64_S10000x64_0_1 : (⟨S1x64, .f32⟩ : BufTy).Contents (Elt F) → (⟨S10000x64, .f32⟩ : BufTy).Contents (Elt F))) v20
  have v22 : (⟨S10000x64, .f32⟩ : BufTy).Contents (Elt F) := ((subf : (⟨S10000x64, .f32⟩ : BufTy).Contents (Elt F) → (⟨S10000x64, .f32⟩ : BufTy).Contents (Elt F) → (⟨S10000x64, .f32⟩ : BufTy).Contents (Elt F))) v16 v21
  have c : (⟨S_, .i32⟩ : BufTy).Contents (Elt F) := (constantI S_ 32 1#32)
  have call1_call0_cst : (⟨S_, .f32⟩ : BufTy).Contents (Elt F) := (constant S_ .f32 0x00000000#32)
  have call1_call0_v0 : (⟨S64, .f32⟩ : BufTy).Contents (Elt F) := ((fun x v => Host.reduceAdd x v reducesTo_S10000x64_S64_d0 h_S_)) v22 call1_call0_cst
  have call1_call0_v1 : (⟨S1x64, .f32⟩ : BufTy).Contents (Elt F) := ((broadcastInDim S1x64 ![1] bcast_S64_S1x64_1)) call1_call0_v0
  have call1_call0_cst_0 : (⟨S_, .f32⟩ : BufTy).Contents (Elt F) := (constant S_ .f32 0x461C4000#32)
  have call1_call0_v2 : (⟨S1x64, .f32⟩ : BufTy).Contents (Elt F) := ((broadcastInDim S1x64 ![] bcast_S_S1x64)) call1_call0_cst_0
  have call1_call0_v3 : (⟨S1x64, .f32⟩ : BufTy).Contents (Elt F) := (Host.divf) call1_call0_v1 call1_call0_v2
  have call1_call0_v4 : (⟨S10000x64, .f32⟩ : BufTy).Contents (Elt F) := ((broadcastInDim S10000x64 ![0, 1] bcast_S1x64_S10000x64_0_1)) call1_call0_v3
  have call1_call0_v5 : (⟨S10000x64, .f32⟩ : BufTy).Contents (Elt F) := (subf) v22 call1_call0_v4
  have call1_call0_v6 : (⟨S10000x64, .f32⟩ : BufTy).Contents (Elt F) := (mulf) call1_call0_v5 call1_call0_v5
  have call1_call0_v7 : (⟨S_, .f32⟩ : BufTy).Contents (Elt F) := ((sitofp .f32)) c
  have call1_call0_cst_1 : (⟨S_, .f32⟩ : BufTy).Contents (Elt F) := (constant S_ .f32 0x461C4000#32)
  have call1_call0_v8 : (⟨S_, .f32⟩ : BufTy).Contents (Elt F) := (subf) call1_call0_cst_1 call1_call0_v7
  have call1_call0_cst_2 : (⟨S_, .f32⟩ : BufTy).Contents (Elt F) := (constant S_ .f32 0x00000000#32)
  have call1_call0_v9 : (⟨S64, .f32⟩ : BufTy).Contents (Elt F) := ((fun x v => Host.reduceAdd x v reducesTo_S10000x64_S64_d0 h_S_)) call1_call0_v6 call1_call0_cst_2
  have call1_call0_v10 : (⟨S64, .f32⟩ : BufTy).Contents (Elt F) := ((broadcastInDim S64 ![] bcast_S_S64)) call1_call0_v8
  have call1_call0_v11 : (⟨S64, .f32⟩ : BufTy).Contents (Elt F) := (Host.divf) call1_call0_v9 call1_call0_v10
  have call1_call0_cst_3 : (⟨S_, .f32⟩ : BufTy).Contents (Elt F) := (constant S_ .f32 0x00000000#32)
  have call1_call0_v12 : (⟨S_, .i1⟩ : BufTy).Contents (Elt F) := ((cmpf .ogt)) call1_call0_v8 call1_call0_cst_3
  have call1_call0_cst_4 : (⟨S_, .f32⟩ : BufTy).Contents (Elt F) := (constant S_ .f32 0x7FC00000#32)
  have call1_call0_call0_v0 : (⟨S_, .f32⟩ : BufTy).Contents (Elt F) := (id) call1_call0_cst_4
  have call1_call0_call0_v1 : (⟨S64, .f32⟩ : BufTy).Contents (Elt F) := ((broadcastInDim S64 ![] bcast_S_S64)) call1_call0_call0_v0
  have call1_v0 : (⟨S64, .f32⟩ : BufTy).Contents (Elt F) := ((fun p a b => select (broadcastInDim S64 ![] bcast_S_S64 p) a b)) call1_call0_v12 call1_call0_v11 call1_call0_call0_v1
  have v23 : (⟨S64, .f32⟩ : BufTy).Contents (Elt F) := (Host.sqrt) call1_v0
  have cst_1 : (⟨S_, .f32⟩ : BufTy).Contents (Elt F) := (constant S_ .f32 0x2EDBE6FF#32)
  have v24 : (⟨S64, .f32⟩ : BufTy).Contents (Elt F) := ((broadcastInDim S64 ![] bcast_S_S64 : (⟨S_, .f32⟩ : BufTy).Contents (Elt F) → (⟨S64, .f32⟩ : BufTy).Contents (Elt F))) cst_1
  have v25 : (⟨S64, .f32⟩ : BufTy).Contents (Elt F) := ((addf : (⟨S64, .f32⟩ : BufTy).Contents (Elt F) → (⟨S64, .f32⟩ : BufTy).Contents (Elt F) → (⟨S64, .f32⟩ : BufTy).Contents (Elt F))) v23 v24
  have v26 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) v25
  have v27 : (⟨S10000x64, .f32⟩ : BufTy).Contents (Elt F) := ((broadcastInDim S10000x64 ![0, 1] bcast_S1x64_S10000x64_0_1 : (⟨S1x64, .f32⟩ : BufTy).Contents (Elt F) → (⟨S10000x64, .f32⟩ : BufTy).Contents (Elt F))) v26
  have v28 : (⟨S10000x64, .f32⟩ : BufTy).Contents (Elt F) := ((Host.divf : (⟨S10000x64, .f32⟩ : BufTy).Contents (Elt F) → (⟨S10000x64, .f32⟩ : BufTy).Contents (Elt F) → (⟨S10000x64, .f32⟩ : BufTy).Contents (Elt F))) v22 v27
  v28

/-- One literal hop: messages from the clauses, the literal update plus a tenth of the previous state, the row layer-norm. Parameters, in order: main_arg0, main_v28, main_arg8, main_arg9, main_arg10, main_arg11, main_v2, main_arg2, main_arg3. -/
noncomputable def hopL (arg0 : (⟨S10000x4096, .f32⟩ : BufTy).Contents (Elt F)) (v28 : (⟨S10000x64, .f32⟩ : BufTy).Contents (Elt F)) (arg8 : (⟨S64x64, .f32⟩ : BufTy).Contents (Elt F)) (arg9 : (⟨S64, .f32⟩ : BufTy).Contents (Elt F)) (arg10 : (⟨S64x64, .f32⟩ : BufTy).Contents (Elt F)) (arg11 : (⟨S64, .f32⟩ : BufTy).Contents (Elt F)) (v2 : (⟨S4096x64, .f32⟩ : BufTy).Contents (Elt F)) (arg2 : (⟨S64, .f32⟩ : BufTy).Contents (Elt F)) (arg3 : (⟨S64, .f32⟩ : BufTy).Contents (Elt F)) : (⟨S4096x64, .f32⟩ : BufTy).Contents (Elt F) :=
  have v29 : (⟨S4096x10000, .f32⟩ : BufTy).Contents (Elt F) := (((transpose S4096x10000 [1, 0] · transposes_S10000x4096_S4096x10000_1_0) : (⟨S10000x4096, .f32⟩ : BufTy).Contents (Elt F) → (⟨S4096x10000, .f32⟩ : BufTy).Contents (Elt F))) arg0
  have v30 : (⟨S4096x64, .f32⟩ : BufTy).Contents (Elt F) := (((fun l r => Host.dotGeneral dot_S4096x10000_S10000x64_S4096x64_1_0_0_1_n_n none l r) : (⟨S4096x10000, .f32⟩ : BufTy).Contents (Elt F) → (⟨S10000x64, .f32⟩ : BufTy).Contents (Elt F) → (⟨S4096x64, .f32⟩ : BufTy).Contents (Elt F))) v29 v28
  have v31 : (⟨S4096x64, .f32⟩ : BufTy).Contents (Elt F) := (((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F))) v30 arg8
  have v32 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) arg9
  have v33 : (⟨S4096x64, .f32⟩ : BufTy).Contents (Elt F) := ((broadcastInDim S4096x64 ![0, 1] bcast_S1x64_S4096x64_0_1 : (⟨S1x64, .f32⟩ : BufTy).Contents (Elt F) → (⟨S4096x64, .f32⟩ : BufTy).Contents (Elt F))) v32
  have v34 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) v31 v33
  have call2_cst : (⟨S_, .f32⟩ : BufTy).Contents (Elt F) := (constant S_ .f32 0x00000000#32)
  have call2_v0 : (⟨S4096x64, .f32⟩ : BufTy).Contents (Elt F) := ((broadcastInDim S4096x64 ![] bcast_S_S4096x64)) call2_cst
  have v35 : (⟨S4096x64, .f32⟩ : BufTy).Contents (Elt F) := (maximumf) v34 call2_v0
  have v36 : (⟨S4096x64, .f32⟩ : BufTy).Contents (Elt F) := (((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F))) v35 arg10
  have v37 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) arg11
  have v38 : (⟨S4096x64, .f32⟩ : BufTy).Contents (Elt F) := ((broadcastInDim S4096x64 ![0, 1] bcast_S1x64_S4096x64_0_1 : (⟨S1x64, .f32⟩ : BufTy).Contents (Elt F) → (⟨S4096x64, .f32⟩ : BufTy).Contents (Elt F))) v37
  have v39 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) v36 v38
  have cst_2 : (⟨S_, .f32⟩ : BufTy).Contents (Elt F) := (constant S_ .f32 0x3DCCCCCD#32)
  have v40 : (⟨S4096x64, .f32⟩ : BufTy).Contents (Elt F) := ((broadcastInDim S4096x64 ![] bcast_S_S4096x64 : (⟨S_, .f32⟩ : BufTy).Contents (Elt F) → (⟨S4096x64, .f32⟩ : BufTy).Contents (Elt F))) cst_2
  have v41 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) v40 v2
  have v42 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) v39 v41
  have cst_3 : (⟨S_, .f32⟩ : BufTy).Contents (Elt F) := (constant S_ .f32 0x00000000#32)
  have v43 : (⟨S4096, .f32⟩ : BufTy).Contents (Elt F) := (((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) v42 cst_3
  have v44 : (⟨S4096x1, .f32⟩ : BufTy).Contents (Elt F) := ((broadcastInDim S4096x1 ![0] bcast_S4096_S4096x1_0 : (⟨S4096, .f32⟩ : BufTy).Contents (Elt F) → (⟨S4096x1, .f32⟩ : BufTy).Contents (Elt F))) v43
  have cst_4 : (⟨S_, .f32⟩ : BufTy).Contents (Elt F) := (constant S_ .f32 0x42800000#32)
  have v45 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) cst_4
  have v46 : (⟨S4096x1, .f32⟩ : BufTy).Contents (Elt F) := ((Host.divf : (⟨S4096x1, .f32⟩ : BufTy).Contents (Elt F) → (⟨S4096x1, .f32⟩ : BufTy).Contents (Elt F) → (⟨S4096x1, .f32⟩ : BufTy).Contents (Elt F))) v44 v45
  have v47 : (⟨S4096x64, .f32⟩ : BufTy).Contents (Elt F) := ((broadcastInDim S4096x64 ![0, 1] bcast_S4096x1_S4096x64_0_1 : (⟨S4096x1, .f32⟩ : BufTy).Contents (Elt F) → (⟨S4096x64, .f32⟩ : BufTy).Contents (Elt F))) v46
  have v48 : (⟨S4096x64, .f32⟩ : BufTy).Contents (Elt F) := ((subf : (⟨S4096x64, .f32⟩ : BufTy).Contents (Elt F) → (⟨S4096x64, .f32⟩ : BufTy).Contents (Elt F) → (⟨S4096x64, .f32⟩ : BufTy).Contents (Elt F))) v42 v47
  have v49 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) v48 v48
  have cst_5 : (⟨S_, .f32⟩ : BufTy).Contents (Elt F) := (constant S_ .f32 0x00000000#32)
  have v50 : (⟨S4096, .f32⟩ : BufTy).Contents (Elt F) := (((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F))) v49 cst_5
  have v51 : (⟨S4096x1, .f32⟩ : BufTy).Contents (Elt F) := ((broadcastInDim S4096x1 ![0] bcast_S4096_S4096x1_0 : (⟨S4096, .f32⟩ : BufTy).Contents (Elt F) → (⟨S4096x1, .f32⟩ : BufTy).Contents (Elt F))) v50
  have cst_6 : (⟨S_, .f32⟩ : BufTy).Contents (Elt F) := (constant S_ .f32 0x42800000#32)
  have v52 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) cst_6
  have v53 : (⟨S4096x1, .f32⟩ : BufTy).Contents (Elt F) := ((Host.divf : (⟨S4096x1, .f32⟩ : BufTy).Contents (Elt F) → (⟨S4096x1, .f32⟩ : BufTy).Contents (Elt F) → (⟨S4096x1, .f32⟩ : BufTy).Contents (Elt F))) v51 v52
  have v54 : (⟨S4096x64, .f32⟩ : BufTy).Contents (Elt F) := ((broadcastInDim S4096x64 ![0, 1] bcast_S4096x1_S4096x64_0_1 : (⟨S4096x1, .f32⟩ : BufTy).Contents (Elt F) → (⟨S4096x64, .f32⟩ : BufTy).Contents (Elt F))) v46
  have v55 : (⟨S4096x64, .f32⟩ : BufTy).Contents (Elt F) := ((subf : (⟨S4096x64, .f32⟩ : BufTy).Contents (Elt F) → (⟨S4096x64, .f32⟩ : BufTy).Contents (Elt F) → (⟨S4096x64, .f32⟩ : BufTy).Contents (Elt F))) v42 v54
  have cst_7 : (⟨S_, .f32⟩ : BufTy).Contents (Elt F) := (constant S_ .f32 0x3727C5AC#32)
  have v56 : (⟨S4096x1, .f32⟩ : BufTy).Contents (Elt F) := ((broadcastInDim S4096x1 ![] bcast_S_S4096x1 : (⟨S_, .f32⟩ : BufTy).Contents (Elt F) → (⟨S4096x1, .f32⟩ : BufTy).Contents (Elt F))) cst_7
  have v57 : (⟨S4096x1, .f32⟩ : BufTy).Contents (Elt F) := ((addf : (⟨S4096x1, .f32⟩ : BufTy).Contents (Elt F) → (⟨S4096x1, .f32⟩ : BufTy).Contents (Elt F) → (⟨S4096x1, .f32⟩ : BufTy).Contents (Elt F))) v53 v56
  have v58 : (⟨S4096x1, .f32⟩ : BufTy).Contents (Elt F) := ((Host.sqrt : (⟨S4096x1, .f32⟩ : BufTy).Contents (Elt F) → (⟨S4096x1, .f32⟩ : BufTy).Contents (Elt F))) v57
  have v59 : (⟨S4096x64, .f32⟩ : BufTy).Contents (Elt F) := ((broadcastInDim S4096x64 ![0, 1] bcast_S4096x1_S4096x64_0_1 : (⟨S4096x1, .f32⟩ : BufTy).Contents (Elt F) → (⟨S4096x64, .f32⟩ : BufTy).Contents (Elt F))) v58
  have v60 : (⟨S4096x64, .f32⟩ : BufTy).Contents (Elt F) := ((Host.divf : (⟨S4096x64, .f32⟩ : BufTy).Contents (Elt F) → (⟨S4096x64, .f32⟩ : BufTy).Contents (Elt F) → (⟨S4096x64, .f32⟩ : BufTy).Contents (Elt F))) v55 v59
  have v61 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) arg2
  have v62 : (⟨S4096x64, .f32⟩ : BufTy).Contents (Elt F) := ((broadcastInDim S4096x64 ![0, 1] bcast_S1x64_S4096x64_0_1 : (⟨S1x64, .f32⟩ : BufTy).Contents (Elt F) → (⟨S4096x64, .f32⟩ : BufTy).Contents (Elt F))) v61
  have v63 : (⟨S4096x64, .f32⟩ : BufTy).Contents (Elt F) := ((mulf : (⟨S4096x64, .f32⟩ : BufTy).Contents (Elt F) → (⟨S4096x64, .f32⟩ : BufTy).Contents (Elt F) → (⟨S4096x64, .f32⟩ : BufTy).Contents (Elt F))) v60 v62
  have v64 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) arg3
  have v65 : (⟨S4096x64, .f32⟩ : BufTy).Contents (Elt F) := ((broadcastInDim S4096x64 ![0, 1] bcast_S1x64_S4096x64_0_1 : (⟨S1x64, .f32⟩ : BufTy).Contents (Elt F) → (⟨S4096x64, .f32⟩ : BufTy).Contents (Elt F))) v64
  have v66 : (⟨S4096x64, .f32⟩ : BufTy).Contents (Elt F) := ((addf : (⟨S4096x64, .f32⟩ : BufTy).Contents (Elt F) → (⟨S4096x64, .f32⟩ : BufTy).Contents (Elt F) → (⟨S4096x64, .f32⟩ : BufTy).Contents (Elt F))) v63 v65
  v66

/-- The first score head over the paired literal halves. Parameters, in order: main_v130, main_arg12, main_arg13, main_arg14, main_arg15. -/
noncomputable def headD (v130 : (⟨S4096x64, .f32⟩ : BufTy).Contents (Elt F)) (arg12 : (⟨S128x128, .f32⟩ : BufTy).Contents (Elt F)) (arg13 : (⟨S128, .f32⟩ : BufTy).Contents (Elt F)) (arg14 : (⟨S128x1, .f32⟩ : BufTy).Contents (Elt F)) (arg15 : (⟨S1, .f32⟩ : BufTy).Contents (Elt F)) : (⟨S2048x1, .f32⟩ : BufTy).Contents (Elt F) :=
  have v131 : (⟨S2048x64, .f32⟩ : BufTy).Contents (Elt F) := (((extractStridedSlice S2048x64 ![0, 0] · slices_S4096x64_S2048x64_0_0) : (⟨S4096x64, .f32⟩ : BufTy).Contents (Elt F) → (⟨S2048x64, .f32⟩ : BufTy).Contents (Elt F))) v130
  have v132 : (⟨S2048x64, .f32⟩ : BufTy).Contents (Elt F) := (((extractStridedSlice S2048x64 ![2048, 0] · slices_S4096x64_S2048x64_2048_0) : (⟨S4096x64, .f32⟩ : BufTy).Contents (Elt F) → (⟨S2048x64, .f32⟩ : BufTy).Contents (Elt F))) v130
  have v133 : (⟨S2048x128, .f32⟩ : BufTy).Contents (Elt F) := (((fun a b => concatenate S2048x128 1 [⟨S2048x64, a⟩, ⟨S2048x64, b⟩] concatenates_S2048x64_S2048x64_S2048x128_d1) : (⟨S2048x64, .f32⟩ : BufTy).Contents (Elt F) → (⟨S2048x64, .f32⟩ : BufTy).Contents (Elt F) → (⟨S2048x128, .f32⟩ : BufTy).Contents (Elt F))) v131 v132
  have v134 : (⟨S2048x128, .f32⟩ : BufTy).Contents (Elt F) := (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F))) v133 arg12
  have v135 : (⟨S1x128, .f32⟩ : BufTy).Contents (Elt F) := ((broadcastInDim S1x128 ![1] bcast_S128_S1x128_1 : (⟨S128, .f32⟩ : BufTy).Contents (Elt F) → (⟨S1x128, .f32⟩ : BufTy).Contents (Elt F))) arg13
  have v136 : (⟨S2048x128, .f32⟩ : BufTy).Contents (Elt F) := ((broadcastInDim S2048x128 ![0, 1] bcast_S1x128_S2048x128_0_1 : (⟨S1x128, .f32⟩ : BufTy).Contents (Elt F) → (⟨S2048x128, .f32⟩ : BufTy).Contents (Elt F))) v135
  have v137 : (⟨S2048x128, .f32⟩ : BufTy).Contents (Elt F) := ((addf : (⟨S2048x128, .f32⟩ : BufTy).Contents (Elt F) → (⟨S2048x128, .f32⟩ : BufTy).Contents (Elt F) → (⟨S2048x128, .f32⟩ : BufTy).Contents (Elt F))) v134 v136
  have call6_cst : (⟨S_, .f32⟩ : BufTy).Contents (Elt F) := (constant S_ .f32 0x00000000#32)
  have call6_v0 : (⟨S2048x128, .f32⟩ : BufTy).Contents (Elt F) := ((broadcastInDim S2048x128 ![] bcast_S_S2048x128)) call6_cst
  have v138 : (⟨S2048x128, .f32⟩ : BufTy).Contents (Elt F) := (maximumf) v137 call6_v0
  have v139 : (⟨S2048x1, .f32⟩ : BufTy).Contents (Elt F) := (((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F))) v138 arg14
  have v140 : (⟨S1x1, .f32⟩ : BufTy).Contents (Elt F) := ((broadcastInDim S1x1 ![1] bcast_S1_S1x1_1 : (⟨S1, .f32⟩ : BufTy).Contents (Elt F) → (⟨S1x1, .f32⟩ : BufTy).Contents (Elt F))) arg15
  have v141 : (⟨S2048x1, .f32⟩ : BufTy).Contents (Elt F) := ((broadcastInDim S2048x1 ![0, 1] bcast_S1x1_S2048x1_0_1 : (⟨S1x1, .f32⟩ : BufTy).Contents (Elt F) → (⟨S2048x1, .f32⟩ : BufTy).Contents (Elt F))) v140
  have v142 : (⟨S2048x1, .f32⟩ : BufTy).Contents (Elt F) := ((addf : (⟨S2048x1, .f32⟩ : BufTy).Contents (Elt F) → (⟨S2048x1, .f32⟩ : BufTy).Contents (Elt F) → (⟨S2048x1, .f32⟩ : BufTy).Contents (Elt F))) v139 v141
  v142

/-- The second score head over the paired literal halves. Parameters, in order: main_v130, main_arg16, main_arg17, main_arg18, main_arg19. -/
noncomputable def headC (v130 : (⟨S4096x64, .f32⟩ : BufTy).Contents (Elt F)) (arg16 : (⟨S128x128, .f32⟩ : BufTy).Contents (Elt F)) (arg17 : (⟨S128, .f32⟩ : BufTy).Contents (Elt F)) (arg18 : (⟨S128x1, .f32⟩ : BufTy).Contents (Elt F)) (arg19 : (⟨S1, .f32⟩ : BufTy).Contents (Elt F)) : (⟨S2048x1, .f32⟩ : BufTy).Contents (Elt F) :=
  have v131 : (⟨S2048x64, .f32⟩ : BufTy).Contents (Elt F) := (((extractStridedSlice S2048x64 ![0, 0] · slices_S4096x64_S2048x64_0_0) : (⟨S4096x64, .f32⟩ : BufTy).Contents (Elt F) → (⟨S2048x64, .f32⟩ : BufTy).Contents (Elt F))) v130
  have v132 : (⟨S2048x64, .f32⟩ : BufTy).Contents (Elt F) := (((extractStridedSlice S2048x64 ![2048, 0] · slices_S4096x64_S2048x64_2048_0) : (⟨S4096x64, .f32⟩ : BufTy).Contents (Elt F) → (⟨S2048x64, .f32⟩ : BufTy).Contents (Elt F))) v130
  have v133 : (⟨S2048x128, .f32⟩ : BufTy).Contents (Elt F) := (((fun a b => concatenate S2048x128 1 [⟨S2048x64, a⟩, ⟨S2048x64, b⟩] concatenates_S2048x64_S2048x64_S2048x128_d1) : (⟨S2048x64, .f32⟩ : BufTy).Contents (Elt F) → (⟨S2048x64, .f32⟩ : BufTy).Contents (Elt F) → (⟨S2048x128, .f32⟩ : BufTy).Contents (Elt F))) v131 v132
  have v143 : (⟨S2048x128, .f32⟩ : BufTy).Contents (Elt F) := (((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F))) v133 arg16
  have v144 : (⟨S1x128, .f32⟩ : BufTy).Contents (Elt F) := ((broadcastInDim S1x128 ![1] bcast_S128_S1x128_1 : (⟨S128, .f32⟩ : BufTy).Contents (Elt F) → (⟨S1x128, .f32⟩ : BufTy).Contents (Elt F))) arg17
  have v145 : (⟨S2048x128, .f32⟩ : BufTy).Contents (Elt F) := ((broadcastInDim S2048x128 ![0, 1] bcast_S1x128_S2048x128_0_1 : (⟨S1x128, .f32⟩ : BufTy).Contents (Elt F) → (⟨S2048x128, .f32⟩ : BufTy).Contents (Elt F))) v144
  have v146 : (⟨S2048x128, .f32⟩ : BufTy).Contents (Elt F) := ((addf : (⟨S2048x128, .f32⟩ : BufTy).Contents (Elt F) → (⟨S2048x128, .f32⟩ : BufTy).Contents (Elt F) → (⟨S2048x128, .f32⟩ : BufTy).Contents (Elt F))) v143 v145
  have call7_cst : (⟨S_, .f32⟩ : BufTy).Contents (Elt F) := (constant S_ .f32 0x00000000#32)
  have call7_v0 : (⟨S2048x128, .f32⟩ : BufTy).Contents (Elt F) := ((broadcastInDim S2048x128 ![] bcast_S_S2048x128)) call7_cst
  have v147 : (⟨S2048x128, .f32⟩ : BufTy).Contents (Elt F) := (maximumf) v146 call7_v0
  have v148 : (⟨S2048x1, .f32⟩ : BufTy).Contents (Elt F) := (((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F))) v147 arg18
  have v149 : (⟨S1x1, .f32⟩ : BufTy).Contents (Elt F) := ((broadcastInDim S1x1 ![1] bcast_S1_S1x1_1 : (⟨S1, .f32⟩ : BufTy).Contents (Elt F) → (⟨S1x1, .f32⟩ : BufTy).Contents (Elt F))) arg19
  have v150 : (⟨S2048x1, .f32⟩ : BufTy).Contents (Elt F) := ((broadcastInDim S2048x1 ![0, 1] bcast_S1x1_S2048x1_0_1 : (⟨S1x1, .f32⟩ : BufTy).Contents (Elt F) → (⟨S2048x1, .f32⟩ : BufTy).Contents (Elt F))) v149
  have v151 : (⟨S2048x1, .f32⟩ : BufTy).Contents (Elt F) := ((addf : (⟨S2048x1, .f32⟩ : BufTy).Contents (Elt F) → (⟨S2048x1, .f32⟩ : BufTy).Contents (Elt F) → (⟨S2048x1, .f32⟩ : BufTy).Contents (Elt F))) v148 v150
  v151

/-- The clause score head. Parameters, in order: main_v92, main_arg20, main_arg21, main_arg22, main_arg23. -/
noncomputable def headS (v92 : (⟨S10000x64, .f32⟩ : BufTy).Contents (Elt F)) (arg20 : (⟨S64x64, .f32⟩ : BufTy).Contents (Elt F)) (arg21 : (⟨S64, .f32⟩ : BufTy).Contents (Elt F)) (arg22 : (⟨S64x1, .f32⟩ : BufTy).Contents (Elt F)) (arg23 : (⟨S1, .f32⟩ : BufTy).Contents (Elt F)) : (⟨S10000x1, .f32⟩ : BufTy).Contents (Elt F) :=
  have v152 : (⟨S10000x64, .f32⟩ : BufTy).Contents (Elt F) := (((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F))) v92 arg20
  have v153 : (⟨S1x64, .f32⟩ : BufTy).Contents (Elt F) := ((broadcastInDim S1x64 ![1] bcast_S64_S1x64_1 : (⟨S64, .f32⟩ : BufTy).Contents (Elt F) → (⟨S1x64, .f32⟩ : BufTy).Contents (Elt F))) arg21
  have v154 : (⟨S10000x64, .f32⟩ : BufTy).Contents (Elt F) := ((broadcastInDim S10000x64 ![0, 1] bcast_S1x64_S10000x64_0_1 : (⟨S1x64, .f32⟩ : BufTy).Contents (Elt F) → (⟨S10000x64, .f32⟩ : BufTy).Contents (Elt F))) v153
  have v155 : (⟨S10000x64, .f32⟩ : BufTy).Contents (Elt F) := ((addf : (⟨S10000x64, .f32⟩ : BufTy).Contents (Elt F) → (⟨S10000x64, .f32⟩ : BufTy).Contents (Elt F) → (⟨S10000x64, .f32⟩ : BufTy).Contents (Elt F))) v152 v154
  have call8_cst : (⟨S_, .f32⟩ : BufTy).Contents (Elt F) := (constant S_ .f32 0x00000000#32)
  have call8_v0 : (⟨S10000x64, .f32⟩ : BufTy).Contents (Elt F) := ((broadcastInDim S10000x64 ![] bcast_S_S10000x64)) call8_cst
  have v156 : (⟨S10000x64, .f32⟩ : BufTy).Contents (Elt F) := (maximumf) v155 call8_v0
  have v157 : (⟨S10000x1, .f32⟩ : BufTy).Contents (Elt F) := (((fun l r => Host.dotGeneral dot_S10000x64_S64x1_S10000x1_1_0_0_1_n_n none l r) : (⟨S10000x64, .f32⟩ : BufTy).Contents (Elt F) → (⟨S64x1, .f32⟩ : BufTy).Contents (Elt F) → (⟨S10000x1, .f32⟩ : BufTy).Contents (Elt F))) v156 arg22
  have v158 : (⟨S1x1, .f32⟩ : BufTy).Contents (Elt F) := ((broadcastInDim S1x1 ![1] bcast_S1_S1x1_1 : (⟨S1, .f32⟩ : BufTy).Contents (Elt F) → (⟨S1x1, .f32⟩ : BufTy).Contents (Elt F))) arg23
  have v159 : (⟨S10000x1, .f32⟩ : BufTy).Contents (Elt F) := ((broadcastInDim S10000x1 ![0, 1] bcast_S1x1_S10000x1_0_1 : (⟨S1x1, .f32⟩ : BufTy).Contents (Elt F) → (⟨S10000x1, .f32⟩ : BufTy).Contents (Elt F))) v158
  have v160 : (⟨S10000x1, .f32⟩ : BufTy).Contents (Elt F) := ((addf : (⟨S10000x1, .f32⟩ : BufTy).Contents (Elt F) → (⟨S10000x1, .f32⟩ : BufTy).Contents (Elt F) → (⟨S10000x1, .f32⟩ : BufTy).Contents (Elt F))) v157 v159
  v160

end Cert.Spec

end
-- ==== Proof.Net.lean ====
/-
  The whole network as functions of the twenty-four argument arrays, composed from the stretches of
  Spec.lean: the literal state L starts as one row tiled; a clause hop turns a literal state into a
  normalised clause state; a literal hop turns a clause state and the previous literal state into the
  next literal state. Two hops of each give L1, C2 and L2 below; the three results are the two score heads
  over the paired halves of L2 and the clause score head over C2.
-/
import proofs.«170097_g26499948216398_cont_9to1_1103_19_alg».proof.Proof.Spec

noncomputable section

namespace Cert.Spec

open Idealize.ShloMosaic Idealize.SL.Sem Cert.ReferenceIdeal

variable {F : FTy → Type} [FloatOps F] [Cert.ReferenceIdeal.Facts]

/-- The argument arrays, by position. -/
structure Args (F : FTy → Type) where
  a0 : (⟨S10000x4096, .f32⟩ : BufTy).Contents (Elt F)
  a1 : (⟨S1x64, .f32⟩ : BufTy).Contents (Elt F)
  a2 : (⟨S64, .f32⟩ : BufTy).Contents (Elt F)
  a3 : (⟨S64, .f32⟩ : BufTy).Contents (Elt F)
  a4 : (⟨S128x128, .f32⟩ : BufTy).Contents (Elt F)
  a5 : (⟨S128, .f32⟩ : BufTy).Contents (Elt F)
  a6 : (⟨S128x64, .f32⟩ : BufTy).Contents (Elt F)
  a7 : (⟨S64, .f32⟩ : BufTy).Contents (Elt F)
  a8 : (⟨S64x64, .f32⟩ : BufTy).Contents (Elt F)
  a9 : (⟨S64, .f32⟩ : BufTy).Contents (Elt F)
  a10 : (⟨S64x64, .f32⟩ : BufTy).Contents (Elt F)
  a11 : (⟨S64, .f32⟩ : BufTy).Contents (Elt F)
  a12 : (⟨S128x128, .f32⟩ : BufTy).Contents (Elt F)
  a13 : (⟨S128, .f32⟩ : BufTy).Contents (Elt F)
  a14 : (⟨S128x1, .f32⟩ : BufTy).Contents (Elt F)
  a15 : (⟨S1, .f32⟩ : BufTy).Contents (Elt F)
  a16 : (⟨S128x128, .f32⟩ : BufTy).Contents (Elt F)
  a17 : (⟨S128, .f32⟩ : BufTy).Contents (Elt F)
  a18 : (⟨S128x1, .f32⟩ : BufTy).Contents (Elt F)
  a19 : (⟨S1, .f32⟩ : BufTy).Contents (Elt F)
  a20 : (⟨S64x64, .f32⟩ : BufTy).Contents (Elt F)
  a21 : (⟨S64, .f32⟩ : BufTy).Contents (Elt F)
  a22 : (⟨S64x1, .f32⟩ : BufTy).Contents (Elt F)
  a23 : (⟨S1, .f32⟩ : BufTy).Contents (Elt F)

/-- The literal state before the first hop. -/
def L0 (A : Args F) : (⟨S4096x64, .f32⟩ : BufTy).Contents (Elt F) := tile A.a1
/-- The clause state after the first clause hop. -/
def C1 (A : Args F) : (⟨S10000x64, .f32⟩ : BufTy).Contents (Elt F) := hopC (L0 A) A.a0 A.a4 A.a5 A.a6 A.a7
/-- The literal state after the first literal hop. -/
def L1 (A : Args F) : (⟨S4096x64, .f32⟩ : BufTy).Contents (Elt F) := hopL A.a0 (C1 A) A.a8 A.a9 A.a10 A.a11 (L0 A) A.a2 A.a3
/-- The clause state after the second clause hop. -/
def C2 (A : Args F) : (⟨S10000x64, .f32⟩ : BufTy).Contents (Elt F) := hopC (L1 A) A.a0 A.a4 A.a5 A.a6 A.a7
/-- The literal state after the second literal hop. -/
def L2 (A : Args F) : (⟨S4096x64, .f32⟩ : BufTy).Contents (Elt F) := hopL A.a0 (C2 A) A.a8 A.a9 A.a10 A.a11 (L1 A) A.a2 A.a3
/-- The three results. -/
def out0 (A : Args F) : (⟨S2048x1, .f32⟩ : BufTy).Contents (Elt F) := headD (L2 A) A.a12 A.a13 A.a14 A.a15
def out1 (A : Args F) : (⟨S2048x1, .f32⟩ : BufTy).Contents (Elt F) := headC (L2 A) A.a16 A.a17 A.a18 A.a19
def out2 (A : Args F) : (⟨S10000x1, .f32⟩ : BufTy).Contents (Elt F) := headS (C2 A) A.a20 A.a21 A.a22 A.a23

end Cert.Spec

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.LibPadSplit.lean ====
/-
  Two general facts for reading a host program back.

  Splitting a line of host operations: the buffer contents after two stretches of host operations run one after the
  other are the second stretch's contents from the first's. This lets a long line be read stretch by stretch, each
  stretch over an arbitrary starting valuation — in particular around a many-operand operation (a concatenation), whose
  operands a read-back of the whole line leaves indexed by a bound variable.

  Reading a padding: a rank-3 array padded on the RIGHT of its LAST axis only (no padding before, none between the
  elements, none on the other axes), read at an index whose last coordinate is inside the operand's extent, is the
  operand at that index — whatever the padding value is.
-/
import Idealize.ShloMosaic.Lib.StableHlo.Run
import Idealize.ShloMosaic.Lib.ValueIdx
import Idealize.ShloMosaic.PureOps

noncomputable section

namespace Cert.PadSplit

open Idealize.ShloMosaic Idealize.ShloMosaic.StableHlo Idealize.ShloMosaic.ValueIdx

/-- The contents after the stretch A followed by the stretch B are B's contents from A's. -/
theorem after_append {τ : Topo} {sig : RefSig} {Val : EltTy → Type} (A B : List (HloOp τ sig Val)) (W : Valuation τ sig Val) :
    after (A ++ B) W = after B (after A W) := by
  induction A generalizing W with
  | nil => rfl
  | cons a A ih => exact ih _

/-- A rank-3 array [n0, n1, n2] padded to [n0, n1, n3] on the right of its last axis, read at (a, b, c) with c < n2, is the
    operand at (a, b, c). -/
theorem pad_last3_apply {α : Type} {n0 n1 n2 n3 hi : ℕ} {u : Shape} (x : (⟨3, ![n0, n1, n2]⟩ : Shape).Idx → α) (v : u.Idx → α)
    (h : (⟨3, ![n0, n1, n2]⟩ : Shape).Pads ![0, 0, 0] ![0, 0, hi] ![0, 0, 0] ⟨3, ![n0, n1, n3]⟩) (hu : 0 < u.numel)
    (a : Fin n0) (b : Fin n1) (c : Fin n3) (hc : c.val < n2) :
    pad ⟨3, ![n0, n1, n3]⟩ ![0, 0, 0] ![0, 0, hi] ![0, 0, 0] x v h hu (ix3 a b c) = x (ix3 a b ⟨c.val, hc⟩) := by
  have ha := a.isLt; have hb := b.isLt
  have hin : ∀ d : Fin (⟨3, ![n0, n1, n2]⟩ : Shape).rank, (![0, 0, 0] : Fin 3 → ℕ) d ≤ ((ix3 a b c) (d.cast h.1)).val
      ∧ (((ix3 a b c) (d.cast h.1)).val - (![0, 0, 0] : Fin 3 → ℕ) d) % ((![0, 0, 0] : Fin 3 → ℕ) d + 1) = 0
      ∧ (((ix3 a b c) (d.cast h.1)).val - (![0, 0, 0] : Fin 3 → ℕ) d) / ((![0, 0, 0] : Fin 3 → ℕ) d + 1) < (⟨3, ![n0, n1, n2]⟩ : Shape).size d := by
    intro d
    match d with
    | ⟨0, _⟩ => exact ⟨Nat.zero_le _, by show (a.val - 0) % (0 + 1) = 0; omega, by show (a.val - 0) / (0 + 1) < n0; omega⟩
    | ⟨1, _⟩ => exact ⟨Nat.zero_le _, by show (b.val - 0) % (0 + 1) = 0; omega, by show (b.val - 0) / (0 + 1) < n1; omega⟩
    | ⟨2, _⟩ => exact ⟨Nat.zero_le _, by show (c.val - 0) % (0 + 1) = 0; omega, by show (c.val - 0) / (0 + 1) < n2; omega⟩
  unfold pad
  rw [dif_pos hin]
  refine congrArg x (funext fun d => Fin.ext ?_)
  match d with
  | ⟨0, _⟩ => show (a.val - 0) / (0 + 1) = a.val; omega
  | ⟨1, _⟩ => show (b.val - 0) / (0 + 1) = b.val; omega
  | ⟨2, _⟩ => show (c.val - 0) / (0 + 1) = c.val; omega

end Cert.PadSplit

end
-- ==== Proof.KerHost.lean ====
/-
  What the kernel program's host operations leave in the arrays its region stages.

  The host operations before the region are read stretch by stretch, each over an arbitrary starting valuation: the
  literal tile leaves the tiled row; a clause hop leaves the clause hop of the literal state it starts from; a literal
  hop leaves the literal hop of the clause state and the previous literal state; a stretch keeps every buffer it does
  not write. Composed from the last stretch to the first: the region finds the first literal state transposed, the
  second clause state transposed, and ten bias vectors as one-row arrays, all as functions of the argument arrays.
-/
import proofs.«170097_g26499948216398_cont_9to1_1103_19_alg».proof.Proof.KerHostOps
import proofs.«170097_g26499948216398_cont_9to1_1103_19_alg».proof.Proof.Net
import proofs.«170097_g26499948216398_cont_9to1_1103_19_alg».proof.Proof.LibTypedRef
import proofs.«170097_g26499948216398_cont_9to1_1103_19_alg».proof.Proof.LibPadSplit

set_option maxRecDepth 16384

noncomputable section

namespace Cert.KernelIdeal.KerHost

open Idealize.ShloMosaic Idealize.ShloMosaic.TcCoe Idealize.ShloMosaic.StableHlo Idealize.SL.Sem

variable {F : FTy → Type} [FloatOps F] [Cert.KernelIdeal.Facts] [Cert.ReferenceIdeal.Facts]

open Cert.KernelIdeal.Facts₀ Cert.KernelIdeal.Facts

/-! ## What each stretch writes and keeps -/

/-- The references the literal tile writes. -/
abbrev tileW : List (Ref sig .tc) :=
  [main_v0, main_v1, main_v2]

theorem tileK_writes : (tileK : List (HloOp τ sig (Elt F))).Forall fun op => op.writes ⊆ (tileW.map (Proc.devRef (τ := τ) .tc)).toFinset := by
  unfold tileK
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem tileK_keeps (W : Valuation τ sig (Elt F)) {r : Ref sig .tc} (h : r ∉ tileW) :
    after tileK W (Proc.devRef .tc r) = W (Proc.devRef .tc r) :=
  StableHlo.after_of_writes_sub tileK W tileK_writes h

/-- The references the first clause hop writes. -/
abbrev c1W : List (Ref sig .tc) :=
  [main_v3, main_v4, main_v5, main_v6, main_v7, main_v8, main_v9, main_v10, main_v11, main_call0_cst, main_call0_v0, main_v12, main_v13, main_v14, main_v15, main_v16, main_cst, main_v17, main_cst_0, main_v18, main_v19, main_v20, main_v21, main_v22, main_c, main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_v11, main_call1_call0_cst_3, main_call1_call0_v12, main_call1_call0_cst_4, main_call1_call0_call0_v0, main_call1_call0_call0_v1, main_call1_v0, main_v23, main_cst_1, main_v24, main_v25, main_v26, main_v27, main_v28]

theorem c1K_writes : (c1K : List (HloOp τ sig (Elt F))).Forall fun op => op.writes ⊆ (c1W.map (Proc.devRef (τ := τ) .tc)).toFinset := by
  unfold c1K
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem c1K_keeps (W : Valuation τ sig (Elt F)) {r : Ref sig .tc} (h : r ∉ c1W) :
    after c1K W (Proc.devRef .tc r) = W (Proc.devRef .tc r) :=
  StableHlo.after_of_writes_sub c1K W c1K_writes h

/-- The references the first literal hop writes. -/
abbrev l1W : List (Ref sig .tc) :=
  [main_v29, main_v30, main_v31, main_v32, main_v33, main_v34, main_call2_cst, main_call2_v0, main_v35, main_v36, main_v37, main_v38, main_v39, main_cst_2, main_v40, main_v41, main_v42, main_cst_3, main_v43, main_v44, main_cst_4, main_v45, main_v46, main_v47, main_v48, main_v49, main_cst_5, main_v50, main_v51, main_cst_6, main_v52, main_v53, main_v54, main_v55, main_cst_7, main_v56, main_v57, main_v58, main_v59, main_v60, main_v61, main_v62, main_v63, main_v64, main_v65, main_v66]

theorem l1K_writes : (l1K : List (HloOp τ sig (Elt F))).Forall fun op => op.writes ⊆ (l1W.map (Proc.devRef (τ := τ) .tc)).toFinset := by
  unfold l1K
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem l1K_keeps (W : Valuation τ sig (Elt F)) {r : Ref sig .tc} (h : r ∉ l1W) :
    after l1K W (Proc.devRef .tc r) = W (Proc.devRef .tc r) :=
  StableHlo.after_of_writes_sub l1K W l1K_writes h

/-- The references the second clause hop writes. -/
abbrev c2W : List (Ref sig .tc) :=
  [main_v67, main_v68, main_v69, main_v70, main_v71, main_v72, main_v73, main_v74, main_v75, main_call3_cst, main_call3_v0, main_v76, main_v77, main_v78, main_v79, main_v80, main_cst_8, main_v81, main_cst_9, main_v82, main_v83, main_v84, main_v85, main_v86, main_c_10, main_call4_call0_cst, main_call4_call0_v0, main_call4_call0_v1, main_call4_call0_cst_0, main_call4_call0_v2, main_call4_call0_v3, main_call4_call0_v4, main_call4_call0_v5, main_call4_call0_v6, main_call4_call0_v7, main_call4_call0_cst_1, main_call4_call0_v8, main_call4_call0_cst_2, main_call4_call0_v9, main_call4_call0_v10, main_call4_call0_v11, main_call4_call0_cst_3, main_call4_call0_v12, main_call4_call0_cst_4, main_call4_call0_call0_v0, main_call4_call0_call0_v1, main_call4_v0, main_v87, main_cst_11, main_v88, main_v89, main_v90, main_v91, main_v92]

theorem c2K_writes : (c2K : List (HloOp τ sig (Elt F))).Forall fun op => op.writes ⊆ (c2W.map (Proc.devRef (τ := τ) .tc)).toFinset := by
  unfold c2K
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem c2K_keeps (W : Valuation τ sig (Elt F)) {r : Ref sig .tc} (h : r ∉ c2W) :
    after c2K W (Proc.devRef .tc r) = W (Proc.devRef .tc r) :=
  StableHlo.after_of_writes_sub c2K W c2K_writes h

/-! ## What each stretch leaves -/

/-- The literal tile leaves the tiled row in main_v2. -/
theorem tileK_v2 (W : Valuation τ sig (Elt F)) :
    after tileK W (Proc.devRef .tc main_v2) = Cert.Spec.tile (W (Proc.devRef .tc main_arg1)) := by
  unfold tileK
  after_results_simp
  rfl

/-- The first clause hop leaves the clause hop of main_v2 in main_v28. -/
theorem c1K_v28 (W : Valuation τ sig (Elt F)) :
    after c1K W (Proc.devRef .tc main_v28) = Cert.Spec.hopC (W (Proc.devRef .tc main_v2)) (W (Proc.devRef .tc main_arg0)) (W (Proc.devRef .tc main_arg4)) (W (Proc.devRef .tc main_arg5)) (W (Proc.devRef .tc main_arg6)) (W (Proc.devRef .tc main_arg7)) := by
  unfold c1K
  after_results_simp
  simp only [Cert.TypedRef.ofBuf_toBuf]
  rfl

/-- The first literal hop leaves the literal hop of main_v28 and main_v2 in main_v66. -/
theorem l1K_v66 (W : Valuation τ sig (Elt F)) :
    after l1K W (Proc.devRef .tc main_v66) = Cert.Spec.hopL (W (Proc.devRef .tc main_arg0)) (W (Proc.devRef .tc main_v28)) (W (Proc.devRef .tc main_arg8)) (W (Proc.devRef .tc main_arg9)) (W (Proc.devRef .tc main_arg10)) (W (Proc.devRef .tc main_arg11)) (W (Proc.devRef .tc main_v2)) (W (Proc.devRef .tc main_arg2)) (W (Proc.devRef .tc main_arg3)) := by
  unfold l1K
  after_results_simp
  simp only [Cert.TypedRef.ofBuf_toBuf]
  rfl

/-- The second clause hop leaves the clause hop of main_v66 in main_v92. -/
theorem c2K_v92 (W : Valuation τ sig (Elt F)) :
    after c2K W (Proc.devRef .tc main_v92) = Cert.Spec.hopC (W (Proc.devRef .tc main_v66)) (W (Proc.devRef .tc main_arg0)) (W (Proc.devRef .tc main_arg4)) (W (Proc.devRef .tc main_arg5)) (W (Proc.devRef .tc main_arg6)) (W (Proc.devRef .tc main_arg7)) := by
  unfold c2K
  after_results_simp
  simp only [Cert.TypedRef.ofBuf_toBuf]
  rfl

/-- The closing stretch leaves the transposed main_v66 in main_v94. -/
theorem glueK_v94 (W : Valuation τ sig (Elt F)) :
    after glueK W (Proc.devRef .tc main_v94) = transpose S64x4096 [1, 0] (W (Proc.devRef .tc main_v66)) transposes_S4096x64_S64x4096_1_0 := by
  unfold glueK
  after_results_simp
  rfl
/-- The closing stretch leaves the transposed main_v92 in main_v95. -/
theorem glueK_v95 (W : Valuation τ sig (Elt F)) :
    after glueK W (Proc.devRef .tc main_v95) = transpose S64x10000 [1, 0] (W (Proc.devRef .tc main_v92)) transposes_S10000x64_S64x10000_1_0 := by
  unfold glueK
  after_results_simp
  rfl
/-- The closing stretch leaves main_arg9 as one row in main_v96. -/
theorem glueK_v96 (W : Valuation τ sig (Elt F)) :
    after glueK W (Proc.devRef .tc main_v96) = shapeCast S1x64 (W (Proc.devRef .tc main_arg9)) shapeCasts_S64_S1x64 := by
  unfold glueK
  after_results_simp
  rfl
/-- The closing stretch leaves main_arg11 as one row in main_v97. -/
theorem glueK_v97 (W : Valuation τ sig (Elt F)) :
    after glueK W (Proc.devRef .tc main_v97) = shapeCast S1x64 (W (Proc.devRef .tc main_arg11)) shapeCasts_S64_S1x64 := by
  unfold glueK
  after_results_simp
  rfl
/-- The closing stretch leaves main_arg2 as one row in main_v98. -/
theorem glueK_v98 (W : Valuation τ sig (Elt F)) :
    after glueK W (Proc.devRef .tc main_v98) = shapeCast S1x64 (W (Proc.devRef .tc main_arg2)) shapeCasts_S64_S1x64 := by
  unfold glueK
  after_results_simp
  rfl
/-- The closing stretch leaves main_arg3 as one row in main_v99. -/
theorem glueK_v99 (W : Valuation τ sig (Elt F)) :
    after glueK W (Proc.devRef .tc main_v99) = shapeCast S1x64 (W (Proc.devRef .tc main_arg3)) shapeCasts_S64_S1x64 := by
  unfold glueK
  after_results_simp
  rfl
/-- The closing stretch leaves main_arg13 as one row in main_v100. -/
theorem glueK_v100 (W : Valuation τ sig (Elt F)) :
    after glueK W (Proc.devRef .tc main_v100) = shapeCast S1x128 (W (Proc.devRef .tc main_arg13)) shapeCasts_S128_S1x128 := by
  unfold glueK
  after_results_simp
  rfl
/-- The closing stretch leaves main_arg15 as one row in main_v101. -/
theorem glueK_v101 (W : Valuation τ sig (Elt F)) :
    after glueK W (Proc.devRef .tc main_v101) = shapeCast S1x1 (W (Proc.devRef .tc main_arg15)) shapeCasts_S1_S1x1 := by
  unfold glueK
  after_results_simp
  rfl
/-- The closing stretch leaves main_arg17 as one row in main_v102. -/
theorem glueK_v102 (W : Valuation τ sig (Elt F)) :
    after glueK W (Proc.devRef .tc main_v102) = shapeCast S1x128 (W (Proc.devRef .tc main_arg17)) shapeCasts_S128_S1x128 := by
  unfold glueK
  after_results_simp
  rfl
/-- The closing stretch leaves main_arg19 as one row in main_v103. -/
theorem glueK_v103 (W : Valuation τ sig (Elt F)) :
    after glueK W (Proc.devRef .tc main_v103) = shapeCast S1x1 (W (Proc.devRef .tc main_arg19)) shapeCasts_S1_S1x1 := by
  unfold glueK
  after_results_simp
  rfl
/-- The closing stretch leaves main_arg21 as one row in main_v104. -/
theorem glueK_v104 (W : Valuation τ sig (Elt F)) :
    after glueK W (Proc.devRef .tc main_v104) = shapeCast S1x64 (W (Proc.devRef .tc main_arg21)) shapeCasts_S64_S1x64 := by
  unfold glueK
  after_results_simp
  rfl
/-- The closing stretch leaves main_arg23 as one row in main_v105. -/
theorem glueK_v105 (W : Valuation τ sig (Elt F)) :
    after glueK W (Proc.devRef .tc main_v105) = shapeCast S1x1 (W (Proc.devRef .tc main_arg23)) shapeCasts_S1_S1x1 := by
  unfold glueK
  after_results_simp
  rfl

/-! ## The stretches composed -/

/-- The argument arrays as a valuation holds them. -/
def argsW (W : Valuation τ sig (Elt F)) : Cert.Spec.Args F :=
  ⟨W (Proc.devRef .tc main_arg0), W (Proc.devRef .tc main_arg1), W (Proc.devRef .tc main_arg2), W (Proc.devRef .tc main_arg3), W (Proc.devRef .tc main_arg4), W (Proc.devRef .tc main_arg5), W (Proc.devRef .tc main_arg6), W (Proc.devRef .tc main_arg7), W (Proc.devRef .tc main_arg8), W (Proc.devRef .tc main_arg9), W (Proc.devRef .tc main_arg10), W (Proc.devRef .tc main_arg11), W (Proc.devRef .tc main_arg12), W (Proc.devRef .tc main_arg13), W (Proc.devRef .tc main_arg14), W (Proc.devRef .tc main_arg15), W (Proc.devRef .tc main_arg16), W (Proc.devRef .tc main_arg17), W (Proc.devRef .tc main_arg18), W (Proc.devRef .tc main_arg19), W (Proc.devRef .tc main_arg20), W (Proc.devRef .tc main_arg21), W (Proc.devRef .tc main_arg22), W (Proc.devRef .tc main_arg23)⟩

/-- The argument arrays as the launch memory holds them on core c. -/
def argsOf (m : (ℓ : Loc nD τ sig) → Buf (Elt F) ℓ) (c : Dev nD) : Cert.Spec.Args F :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23)⟩

/-- The two agree at the launch memory's valuation of core c. -/
theorem argsW_launch (m : (ℓ : Loc nD τ sig) → Buf (Elt F) ℓ) (c : Dev nD) : argsW (fun b => m (c, b)) = argsOf m c := rfl

/-- A reference none of the first k stretches writes keeps its contents through them. -/
theorem keep1 (W : Valuation τ sig (Elt F)) {r : Ref sig .tc} (h0 : r ∉ tileW) :
    after tileK W (Proc.devRef .tc r) = W (Proc.devRef .tc r) := tileK_keeps W h0
theorem keep2 (W : Valuation τ sig (Elt F)) {r : Ref sig .tc} (h0 : r ∉ tileW) (h1 : r ∉ c1W) :
    after c1K (after tileK W) (Proc.devRef .tc r) = W (Proc.devRef .tc r) := (c1K_keeps _ h1).trans (keep1 W h0)
theorem keep3 (W : Valuation τ sig (Elt F)) {r : Ref sig .tc} (h0 : r ∉ tileW) (h1 : r ∉ c1W) (h2 : r ∉ l1W) :
    after l1K (after c1K (after tileK W)) (Proc.devRef .tc r) = W (Proc.devRef .tc r) := (l1K_keeps _ h2).trans (keep2 W h0 h1)
theorem keep4 (W : Valuation τ sig (Elt F)) {r : Ref sig .tc} (h0 : r ∉ tileW) (h1 : r ∉ c1W) (h2 : r ∉ l1W) (h3 : r ∉ c2W) :
    after c2K (after l1K (after c1K (after tileK W))) (Proc.devRef .tc r) = W (Proc.devRef .tc r) := (c2K_keeps _ h3).trans (keep3 W h0 h1 h2)

/-- After the tile, main_v2 holds the initial literal state. -/
theorem W1_v2 (W : Valuation τ sig (Elt F)) :
    after tileK W (Proc.devRef .tc main_v2) = Cert.Spec.L0 (argsW W) := tileK_v2 W

/-- After the first clause hop, main_v28 holds the first clause state. -/
theorem W2_v28 (W : Valuation τ sig (Elt F)) :
    after c1K (after tileK W) (Proc.devRef .tc main_v28) = Cert.Spec.C1 (argsW W) := by
  rw [c1K_v28, W1_v2, keep1 W (r := main_arg0) (by decide),
    keep1 W (r := main_arg4) (by decide),
    keep1 W (r := main_arg5) (by decide),
    keep1 W (r := main_arg6) (by decide),
    keep1 W (r := main_arg7) (by decide)]
  rfl

/-- After the first literal hop, main_v66 holds the first literal state. -/
theorem W3_v66 (W : Valuation τ sig (Elt F)) :
    after l1K (after c1K (after tileK W)) (Proc.devRef .tc main_v66) = Cert.Spec.L1 (argsW W) := by
  rw [l1K_v66, W2_v28, c1K_keeps (after tileK W) (r := main_v2) (by decide), W1_v2,
    keep2 W (r := main_arg0) (by decide) (by decide),
    keep2 W (r := main_arg8) (by decide) (by decide),
    keep2 W (r := main_arg9) (by decide) (by decide),
    keep2 W (r := main_arg10) (by decide) (by decide),
    keep2 W (r := main_arg11) (by decide) (by decide),
    keep2 W (r := main_arg2) (by decide) (by decide),
    keep2 W (r := main_arg3) (by decide) (by decide)]
  rfl

/-- The second clause hop keeps main_v66. -/
theorem W4_v66 (W : Valuation τ sig (Elt F)) :
    after c2K (after l1K (after c1K (after tileK W))) (Proc.devRef .tc main_v66) = Cert.Spec.L1 (argsW W) :=
  (c2K_keeps _ (by decide)).trans (W3_v66 W)

/-- After the second clause hop, main_v92 holds the second clause state. -/
theorem W4_v92 (W : Valuation τ sig (Elt F)) :
    after c2K (after l1K (after c1K (after tileK W))) (Proc.devRef .tc main_v92) = Cert.Spec.C2 (argsW W) := by
  rw [c2K_v92, W3_v66, keep3 W (r := main_arg0) (by decide) (by decide) (by decide),
    keep3 W (r := main_arg4) (by decide) (by decide) (by decide),
    keep3 W (r := main_arg5) (by decide) (by decide) (by decide),
    keep3 W (r := main_arg6) (by decide) (by decide) (by decide),
    keep3 W (r := main_arg7) (by decide) (by decide) (by decide)]
  rfl

/-! ## What the region finds -/

variable (m : (ℓ : Loc nD τ sig) → Buf (Elt F) ℓ)

/-- Core c's buffers when the region is entered, stretch by stretch. -/
theorem V_eq (c : Dev nD) (b : Ref sig .tc) :
    Gen.V m c b = after glueK (after c2K (after l1K (after c1K (after tileK (fun b => m (c, b)))))) (Proc.devRef .tc b) := by
  show after (List.flatten _) _ _ = _
  rw [flat_eq]
  simp only [Cert.PadSplit.after_append]

/-- The region finds the first literal state, transposed, in main_v94. -/
theorem V_v94 (c : Dev nD) :
    Gen.V m c main_v94 = transpose S64x4096 [1, 0] (Cert.Spec.L1 (argsOf m c)) transposes_S4096x64_S64x4096_1_0 :=
  (V_eq m c main_v94).trans ((glueK_v94 _).trans
    (congrArg (fun x : (⟨S4096x64, .f32⟩ : BufTy).Contents (Elt F) => transpose S64x4096 [1, 0] x transposes_S4096x64_S64x4096_1_0)
      (W4_v66 (fun b => m (c, b)))))

/-- The region finds the second clause state, transposed, in main_v95. -/
theorem V_v95 (c : Dev nD) :
    Gen.V m c main_v95 = transpose S64x10000 [1, 0] (Cert.Spec.C2 (argsOf m c)) transposes_S10000x64_S64x10000_1_0 :=
  (V_eq m c main_v95).trans ((glueK_v95 _).trans
    (congrArg (fun x : (⟨S10000x64, .f32⟩ : BufTy).Contents (Elt F) => transpose S64x10000 [1, 0] x transposes_S10000x64_S64x10000_1_0)
      (W4_v92 (fun b => m (c, b)))))

/-- The region finds main_arg9 as one row in main_v96. -/
theorem V_v96 (c : Dev nD) :
    Gen.V m c main_v96 = shapeCast S1x64 (m ((c : Thread nD τ).loc main_arg9)) shapeCasts_S64_S1x64 :=
  (V_eq m c main_v96).trans ((glueK_v96 _).trans
    (congrArg (fun x : (⟨S64, .f32⟩ : BufTy).Contents (Elt F) => shapeCast S1x64 x shapeCasts_S64_S1x64)
      (keep4 (fun b => m (c, b)) (r := main_arg9) (by decide) (by decide) (by decide) (by decide))))

/-- The region finds main_arg11 as one row in main_v97. -/
theorem V_v97 (c : Dev nD) :
    Gen.V m c main_v97 = shapeCast S1x64 (m ((c : Thread nD τ).loc main_arg11)) shapeCasts_S64_S1x64 :=
  (V_eq m c main_v97).trans ((glueK_v97 _).trans
    (congrArg (fun x : (⟨S64, .f32⟩ : BufTy).Contents (Elt F) => shapeCast S1x64 x shapeCasts_S64_S1x64)
      (keep4 (fun b => m (c, b)) (r := main_arg11) (by decide) (by decide) (by decide) (by decide))))

/-- The region finds main_arg2 as one row in main_v98. -/
theorem V_v98 (c : Dev nD) :
    Gen.V m c main_v98 = shapeCast S1x64 (m ((c : Thread nD τ).loc main_arg2)) shapeCasts_S64_S1x64 :=
  (V_eq m c main_v98).trans ((glueK_v98 _).trans
    (congrArg (fun x : (⟨S64, .f32⟩ : BufTy).Contents (Elt F) => shapeCast S1x64 x shapeCasts_S64_S1x64)
      (keep4 (fun b => m (c, b)) (r := main_arg2) (by decide) (by decide) (by decide) (by decide))))

/-- The region finds main_arg3 as one row in main_v99. -/
theorem V_v99 (c : Dev nD) :
    Gen.V m c main_v99 = shapeCast S1x64 (m ((c : Thread nD τ).loc main_arg3)) shapeCasts_S64_S1x64 :=
  (V_eq m c main_v99).trans ((glueK_v99 _).trans
    (congrArg (fun x : (⟨S64, .f32⟩ : BufTy).Contents (Elt F) => shapeCast S1x64 x shapeCasts_S64_S1x64)
      (keep4 (fun b => m (c, b)) (r := main_arg3) (by decide) (by decide) (by decide) (by decide))))

/-- The region finds main_arg13 as one row in main_v100. -/
theorem V_v100 (c : Dev nD) :
    Gen.V m c main_v100 = shapeCast S1x128 (m ((c : Thread nD τ).loc main_arg13)) shapeCasts_S128_S1x128 :=
  (V_eq m c main_v100).trans ((glueK_v100 _).trans
    (congrArg (fun x : (⟨S128, .f32⟩ : BufTy).Contents (Elt F) => shapeCast S1x128 x shapeCasts_S128_S1x128)
      (keep4 (fun b => m (c, b)) (r := main_arg13) (by decide) (by decide) (by decide) (by decide))))

/-- The region finds main_arg15 as one row in main_v101. -/
theorem V_v101 (c : Dev nD) :
    Gen.V m c main_v101 = shapeCast S1x1 (m ((c : Thread nD τ).loc main_arg15)) shapeCasts_S1_S1x1 :=
  (V_eq m c main_v101).trans ((glueK_v101 _).trans
    (congrArg (fun x : (⟨S1, .f32⟩ : BufTy).Contents (Elt F) => shapeCast S1x1 x shapeCasts_S1_S1x1)
      (keep4 (fun b => m (c, b)) (r := main_arg15) (by decide) (by decide) (by decide) (by decide))))

/-- The region finds main_arg17 as one row in main_v102. -/
theorem V_v102 (c : Dev nD) :
    Gen.V m c main_v102 = shapeCast S1x128 (m ((c : Thread nD τ).loc main_arg17)) shapeCasts_S128_S1x128 :=
  (V_eq m c main_v102).trans ((glueK_v102 _).trans
    (congrArg (fun x : (⟨S128, .f32⟩ : BufTy).Contents (Elt F) => shapeCast S1x128 x shapeCasts_S128_S1x128)
      (keep4 (fun b => m (c, b)) (r := main_arg17) (by decide) (by decide) (by decide) (by decide))))

/-- The region finds main_arg19 as one row in main_v103. -/
theorem V_v103 (c : Dev nD) :
    Gen.V m c main_v103 = shapeCast S1x1 (m ((c : Thread nD τ).loc main_arg19)) shapeCasts_S1_S1x1 :=
  (V_eq m c main_v103).trans ((glueK_v103 _).trans
    (congrArg (fun x : (⟨S1, .f32⟩ : BufTy).Contents (Elt F) => shapeCast S1x1 x shapeCasts_S1_S1x1)
      (keep4 (fun b => m (c, b)) (r := main_arg19) (by decide) (by decide) (by decide) (by decide))))

/-- The region finds main_arg21 as one row in main_v104. -/
theorem V_v104 (c : Dev nD) :
    Gen.V m c main_v104 = shapeCast S1x64 (m ((c : Thread nD τ).loc main_arg21)) shapeCasts_S64_S1x64 :=
  (V_eq m c main_v104).trans ((glueK_v104 _).trans
    (congrArg (fun x : (⟨S64, .f32⟩ : BufTy).Contents (Elt F) => shapeCast S1x64 x shapeCasts_S64_S1x64)
      (keep4 (fun b => m (c, b)) (r := main_arg21) (by decide) (by decide) (by decide) (by decide))))

/-- The region finds main_arg23 as one row in main_v105. -/
theorem V_v105 (c : Dev nD) :
    Gen.V m c main_v105 = shapeCast S1x1 (m ((c : Thread nD τ).loc main_arg23)) shapeCasts_S1_S1x1 :=
  (V_eq m c main_v105).trans ((glueK_v105 _).trans
    (congrArg (fun x : (⟨S1, .f32⟩ : BufTy).Contents (Elt F) => shapeCast S1x1 x shapeCasts_S1_S1x1)
      (keep4 (fun b => m (c, b)) (r := main_arg23) (by decide) (by decide) (by decide) (by decide))))

end Cert.KernelIdeal.KerHost

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.BraAtb.lean ====
/-
  A contraction of the FIRST axes of two rank-2 arrays, on the extended reals, at any extents.

  The product lᵀ · r — the first axes of both operands contracted, no batch axis — reads at (q, p) the sum over k of
  l (k, q) · r (k, p).  The vector unit's matmul into a zero accumulator with these dimension numbers is that sum.
  A quantity that starts as the first block's partial sum and at each later block adds that block's partial sum holds,
  after the last block, the sum over all rows; only commutativity and associativity of addition are used.
-/
import proofs.«170097_g26499948216398_cont_9to1_1103_19_alg».proof.Proof.LibRowBlocks
import proofs.«170097_g26499948216398_cont_9to1_1103_19_alg».proof.Proof.LibFoldSum

noncomputable section

open scoped BigOperators

namespace Cert.Bridge

open Idealize.ShloMosaic Idealize.ShloMosaic.ValueIdx

/-- lᵀ · r at rank 2: the first axes contracted, at (q, p) the sum over k of l (k, q) · r (k, p). -/
theorem aTb_sum {M K N : ℕ} (D : DotDims ⟨2, ![K, M]⟩ ⟨2, ![K, N]⟩ ⟨2, ![M, N]⟩)
    (h1 : D.lhsContracting = [0]) (h2 : D.rhsContracting = [0]) (h3 : D.lhsNonContracting = [1])
    (h4 : D.rhsNonContracting = [1]) (h5 : D.lhsBatch = []) (h6 : D.rhsBatch = [])
    (l : (⟨2, ![K, M]⟩ : Shape).Idx → EReal) (r : (⟨2, ![K, N]⟩ : Shape).Idx → EReal) (q : Fin M) (p : Fin N) :
    ∑ k : D.contr.Idx, l (D.lhsIdx (ix2 q p) k) * r (D.rhsIdx (ix2 q p) k) = ∑ k : Fin K, l (ix2 k q) * r (ix2 k p) := by
  obtain ⟨lc, rc, ln, rn, lb, rb, wf⟩ := D
  dsimp only at h1 h2 h3 h4 h5 h6
  subst h1 h2 h3 h4 h5 h6
  generalize hD : (⟨[0], [0], [1], [1], [], [], wf⟩ : DotDims ⟨2, ![K, M]⟩ ⟨2, ![K, N]⟩ ⟨2, ![M, N]⟩) = D
  have hrank : D.contr.rank = 1 := by subst hD; rfl
  have hs : D.contr.size ⟨0, by omega⟩ = K := by subst hD; rfl
  have hlc : D.lhsContracting = [0] := by subst hD; rfl
  have hrc : D.rhsContracting = [0] := by subst hD; rfl
  refine Cert.RowBlocks.contr_sum D K hrank hs l r (ix2 q p) (fun k => ix2 k q) (fun k => ix2 k p) (fun k => ?_) (fun k => ?_)
  · have hk := contrEquiv1_symm_val D K hrank hs k
    exact funext fun a => Fin.ext (by
      match a with
      | ⟨0, _⟩ => exact (D.lhsIdx_val_of_single hlc _ _).trans hk
      | ⟨1, _⟩ =>
        subst hD
        rfl)
  · have hk := contrEquiv1_symm_val D K hrank hs k
    exact funext fun a => Fin.ext (by
      match a with
      | ⟨0, _⟩ => exact (D.rhsIdx_val_of_single hrc _ _).trans hk
      | ⟨1, _⟩ =>
        subst hD
        rfl)

/-- The vector unit's lᵀ · r into a zero accumulator, read at (q, p). -/
theorem matmul_aTb_apply {M K N : ℕ} {φ₁ φ₂ : FTy} (D : DotDims ⟨2, ![K, M]⟩ ⟨2, ![K, N]⟩ ⟨2, ![M, N]⟩)
    (h1 : D.lhsContracting = [0]) (h2 : D.rhsContracting = [0]) (h3 : D.lhsNonContracting = [1])
    (h4 : D.rhsNonContracting = [1]) (h5 : D.lhsBatch = []) (h6 : D.rhsBatch = [])
    (prec : Option ContractPrecision) (l : FVec Ideal ⟨2, ![K, M]⟩ φ₁) (r : FVec Ideal ⟨2, ![K, N]⟩ φ₂)
    (q : Fin M) (p : Fin N) :
    matmul (F := Ideal) D prec l r (constant ⟨2, ![M, N]⟩ .f32 0x00000000#32) (ix2 q p)
      = ∑ k : Fin K, l (ix2 k q) * r (ix2 k p) :=
  (Ideal.matmul_constant_zero_apply D prec l r (ix2 q p)).trans (aTb_sum D h1 h2 h3 h4 h5 h6 l r q p)

/-- A sum over A·B rows as A blocks of B consecutive rows, the block index outermost. -/
theorem sum_blocksAB {α : Type*} [AddCommMonoid α] (A B : ℕ) (f : Fin (A * B) → α) :
    (∑ r : Fin (A * B), f r) = ∑ t : Fin A, ∑ r : Fin B, f ⟨B * t.val + r.val, by
      have h1 := t.isLt
      have h2 := r.isLt
      calc B * t.val + r.val < B * t.val + B := by omega
        _ = B * (t.val + 1) := by ring
        _ ≤ B * A := Nat.mul_le_mul_left _ h1
        _ = A * B := Nat.mul_comm _ _⟩ :=
  Cert.FoldSum.sum_blocks rfl f

/-- A quantity that starts as block 0's share and at each later block adds the block's share holds, after block n, the sum
    of the shares of blocks 0 … n. -/
theorem blocks_fold {α : Type*} [AddCommMonoid α] (T : ℕ → α) (a : ℕ → α) (N : ℕ) (h0 : a 0 = T 0)
    (hs : ∀ n, n + 1 < N → a (n + 1) = a n + T (n + 1)) :
    ∀ n, n < N → a n = ∑ s ∈ Finset.range (n + 1), T s
  | 0, _ => by rw [h0, Finset.sum_range_one]
  | n + 1, h => by
    rw [hs n h, blocks_fold T a N h0 hs n (Nat.lt_of_succ_lt h), Finset.sum_range_succ _ (n + 1)]

end Cert.Bridge

end
-- ==== Proof.BraPay.lean ====
/-
  The accumulated product's step and the transposed clause state, read at an entry.

  One grid step contracts the block's 1000 clause rows: entry (q, p) of the step's product is the sum over the block's rows r of
  c2 (r, q) · g (r, p); changes of format are the identity on the extended reals, and a cast of an array to its own shape
  changes nothing.  The first step stores the product, a later step the accumulator plus the product.  The transposed clause
  state reads at (r, q) the operand at (q, r).
-/
import proofs.«170097_g26499948216398_cont_9to1_1103_19_alg».proof.Proof.Gen.KernelIdeal.Skeleton
import proofs.«170097_g26499948216398_cont_9to1_1103_19_alg».proof.Proof.BraAtb

noncomputable section

open scoped BigOperators

namespace Cert.Bridge

open Cert.KernelIdeal Cert.KernelIdeal.Gen Idealize.ShloMosaic Idealize.ShloMosaic.ValueIdx

/-- The step's product at (q, p): the block's rows contracted. -/
theorem pay11_apply (g : FVec Ideal S1000x4096 .f32) (c2 : FVec Ideal S1000x64 .f32) (q : Fin 64) (p : Fin 4096) :
    k0_pay11 g c2 (ix2 q p) = ∑ r : Fin 1000, c2 (ix2 r q) * g (ix2 r p) := by
  unfold k0_pay11
  exact matmul_aTb_apply (M := 64) (K := 1000) (N := 4096) dot_S1000x64_S1000x4096_S64x4096_0_0_1_1_n_n
    rfl rfl rfl rfl rfl rfl none c2 g q p

/-- The first step's stored value at (q, p). -/
theorem pay12_apply (g : FVec Ideal S1000x4096 .f32) (c2 : FVec Ideal S1000x64 .f32) (q : Fin 64) (p : Fin 4096) :
    k0_pay12 g c2 (ix2 q p) = ∑ r : Fin 1000, c2 (ix2 r q) * g (ix2 r p) := by
  unfold k0_pay12
  rw [shapeCast_self]
  exact pay11_apply g c2 q p

/-- A later step's stored value at (q, p): the accumulator there plus the step's product. -/
theorem pay13_apply (g : FVec Ideal S1000x4096 .f32) (c2 : FVec Ideal S1000x64 .f32) (a : FVec Ideal S64x4096 .f32)
    (q : Fin 64) (p : Fin 4096) :
    k0_pay13 g c2 a (ix2 q p) = a (ix2 q p) + ∑ r : Fin 1000, c2 (ix2 r q) * g (ix2 r p) := by
  unfold k0_pay13
  rw [shapeCast_self]
  exact congrArg (a (ix2 q p) + ·) (pay11_apply g c2 q p)

/-- The transposed clause state at (r, q). -/
theorem pay10_apply (x : FVec Ideal S64x10000 .f32) (r : Fin 10000) (q : Fin 64) :
    k0_pay10 x (ix2 r q) = x (ix2 q r) := by
  unfold k0_pay10
  rw [shapeCast_self, shapeCast_self]
  exact transpose_ix2_apply (a := 64) (b := 10000) x _ r q

end Cert.Bridge

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«170097_g26499948216398_cont_9to1_1103_19_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibAccMatmul.lean ====
/-
  A matrix product accumulated block by block along the contracted axis, on the extended reals, at any extents.

  The vector unit keeps an accumulator between the steps of the contracted axis: a step adds to it the product of a block of
  columns of the left operand with the matching block of rows of the right operand, computed as a plain matmul into a zero
  accumulator (each operand first cast to its own shape, which changes nothing). Read at an entry, a step adds the partial
  dot product of the step's columns. A quantity that restarts from zero at the first step of each run of J steps and adds the
  step's share at the later ones holds, after step j of a run, the sum of the shares of the run's steps 0 … j; and J partial
  dot products over S consecutive positions each make up the dot product over all J·S positions. Only commutativity and
  associativity of addition are used, so nothing here needs finiteness.
-/
import proofs.«170097_g26499948216398_cont_9to1_1103_19_alg».proof.Proof.LibDense
import proofs.«170097_g26499948216398_cont_9to1_1103_19_alg».proof.Proof.LibBiasRow
import proofs.«170097_g26499948216398_cont_9to1_1103_19_alg».proof.Proof.LibFoldSum

noncomputable section

open scoped BigOperators

namespace Cert.AccMatmul

open Idealize.ShloMosaic Idealize.ShloMosaic.ValueIdx Cert.Dense Cert.BiasRow

/-! ### The payloads at an entry -/

/-- ONE STEP: the accumulator plus a plain matmul into a zero accumulator (operands and result cast to their own shapes),
    at entry (p, q): what the accumulator held there plus the partial dot product of the step's blocks. -/
theorem step_apply {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (s : FVec Ideal ⟨2, ![M, N]⟩ .f32)
    (l : FVec Ideal ⟨2, ![M, K]⟩ .f32) (r : FVec Ideal ⟨2, ![K, N]⟩ .f32)
    (hl : (⟨2, ![M, K]⟩ : Shape).ShapeCasts ⟨2, ![M, K]⟩) (hr : (⟨2, ![K, N]⟩ : Shape).ShapeCasts ⟨2, ![K, N]⟩)
    (ho : (⟨2, ![M, N]⟩ : Shape).ShapeCasts ⟨2, ![M, N]⟩) (p : Fin M) (q : Fin N) :
    shapeCast ⟨2, ![M, N]⟩ (addf s (matmul (F := Ideal) D prec (shapeCast ⟨2, ![M, K]⟩ l hl) (shapeCast ⟨2, ![K, N]⟩ r hr)
        (constant ⟨2, ![M, N]⟩ .f32 0x00000000#32))) ho (ix2 p q)
      = s (ix2 p q) + ∑ k : Fin K, l (ix2 p k) * r (ix2 k q) := by
  rw [shapeCast_self, shapeCast_self, shapeCast_self, matmul_zero_eq_mm D h1 h2 h3 h4 h5 h6]
  rfl

/-- THE ZERO BLOCK: a scalar zero broadcast everywhere (cast to its own shape) is zero at every entry. -/
theorem zero_apply {M N : ℕ} (ho : (⟨2, ![M, N]⟩ : Shape).ShapeCasts ⟨2, ![M, N]⟩) (i : (⟨2, ![M, N]⟩ : Shape).Idx) :
    shapeCast ⟨2, ![M, N]⟩ (broadcast ⟨2, ![M, N]⟩ (Scalar.ofBits (F := Ideal) .f32 0x00000000#32)) ho i = 0 := by
  rw [shapeCast_self]
  exact Ideal.ofBits_zero_f32

/-- THE LAST STEP, rectified: the accumulator plus the one-row bias (cast to its own shape) broadcast to every row, and the
    maximum with a zero splat, at entry (p, q). -/
theorem relu_bias_apply {M N : ℕ} (S : FVec Ideal ⟨2, ![M, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (p : Fin M) (q : Fin N) :
    maximumf (addf S (broadcastTo ⟨2, ![M, N]⟩ (shapeCast ⟨2, ![1, N]⟩ b hs) hb))
        (broadcast ⟨2, ![M, N]⟩ (Scalar.ofBits (F := Ideal) .f32 0x00000000#32)) (ix2 p q)
      = max (S (ix2 p q) + b (ix2 (0 : Fin 1) q)) 0 := by
  rw [shapeCast_self, vecReluBias]
  rfl

/-- THE LAST STEP, plain: the accumulator plus the one-row bias (cast to its own shape) broadcast to every row, at entry (p, q). -/
theorem bias_apply {M N : ℕ} (S : FVec Ideal ⟨2, ![M, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (p : Fin M) (q : Fin N) :
    addf S (broadcastTo ⟨2, ![M, N]⟩ (shapeCast ⟨2, ![1, N]⟩ b hs) hb) (ix2 p q) = S (ix2 p q) + b (ix2 (0 : Fin 1) q) := by
  rw [shapeCast_self, vecAddRow]
  rfl

/-! ### Runs of steps -/

/-- A quantity indexed by the points below N that RESTARTS at the multiples of J from zero plus the point's share and at every
    other point ADDS the point's share to what the point before left holds, at point J·q + j with j < J, the sum of the shares
    of the points J·q … J·q + j. -/
theorem run_sum {α : Type*} [AddCommMonoid α] {N : ℕ} (J : ℕ) (f : (n : ℕ) → n < N → α) (T : ℕ → α)
    (h0 : ∀ (n : ℕ) (h : n < N), n % J = 0 → f n h = 0 + T n)
    (hs : ∀ (n : ℕ) (h : n + 1 < N), ¬(n + 1) % J = 0 → f (n + 1) h = f n (Nat.lt_of_succ_lt h) + T (n + 1))
    (q : ℕ) : ∀ (j : ℕ) (_ : j < J) (h : J * q + j < N), f (J * q + j) h = ∑ s ∈ Finset.range (j + 1), T (J * q + s)
  | 0, _, h => by
    rw [h0 _ h (by rw [Nat.add_zero, Nat.mul_mod_right]), Finset.sum_range_one, zero_add]
  | j + 1, hj, h => by
    have hne : ¬(J * q + j + 1) % J = 0 := by
      rw [Nat.add_assoc, Nat.mul_add_mod, Nat.mod_eq_of_lt hj]; exact Nat.succ_ne_zero j
    rw [Finset.sum_range_succ _ (j + 1), ← run_sum J f T h0 hs q j (Nat.lt_of_succ_lt hj) (Nat.lt_of_succ_lt h)]
    exact hs (J * q + j) h hne

/-- J partial sums over S consecutive positions each are the sum over all J·S positions. -/
theorem sum_range_blocks {α : Type*} [AddCommMonoid α] {J S K : ℕ} (hK : K = J * S) (u : ℕ → α) :
    ∑ s ∈ Finset.range J, ∑ k : Fin S, u (S * s + k.val) = ∑ k : Fin K, u k.val := by
  subst hK
  rw [Finset.sum_range fun s => ∑ k : Fin S, u (S * s + k.val), Cert.FoldSum.sum_blocks rfl fun k : Fin (J * S) => u k.val]

/-- A sum over Fin K of a function of the position's value, against the same terms read at the position itself. -/
theorem sum_val_eq {α : Type*} [AddCommMonoid α] {K : ℕ} (u : ℕ → α) (v : Fin K → α) (h : ∀ k : Fin K, u k.val = v k) :
    ∑ k : Fin K, u k.val = ∑ k : Fin K, v k :=
  Finset.sum_congr rfl fun k _ => h k

end Cert.AccMatmul

/-- info: 'Cert.AccMatmul.step_apply' depends on axioms: [propext, Classical.choice, Quot.sound] -/
#guard_msgs in #print axioms Cert.AccMatmul.step_apply

/-- info: 'Cert.AccMatmul.run_sum' depends on axioms: [propext, Classical.choice, Quot.sound] -/
#guard_msgs in #print axioms Cert.AccMatmul.run_sum

/-- info: 'Cert.AccMatmul.sum_range_blocks' depends on axioms: [propext, Classical.choice, Quot.sound] -/
#guard_msgs in #print axioms Cert.AccMatmul.sum_range_blocks

end
-- ==== Proof.BraFold.lean ====
/-
  The product accumulated over the ten blocks of 1000 clauses, read at an entry.

  A family of arrays whose member 0 holds, at every entry (q, p), the partial sum over the clauses 0 … 999 of
  C2 (r, q) · G (r, p), and whose member n + 1 holds member n's entry plus the partial sum over the clauses
  1000 (n + 1) … 1000 (n + 1) + 999, holds at member 9 the sum over all 10000 clauses.  Only commutativity and associativity of
  addition on the extended reals are used.
-/
import proofs.«170097_g26499948216398_cont_9to1_1103_19_alg».proof.Proof.BraAtb
import proofs.«170097_g26499948216398_cont_9to1_1103_19_alg».proof.Proof.LibAccMatmul

noncomputable section

open scoped BigOperators

namespace Cert.Bridge

open Idealize.ShloMosaic Idealize.ShloMosaic.ValueIdx

/-- A sum over the 10000 clauses as ten blocks of 1000 consecutive clauses. -/
theorem sum_blocks10 {α : Type*} [AddCommMonoid α] (f : Fin 10000 → α) :
    (∑ r : Fin 10000, f r) = ∑ t : Fin 10, ∑ r : Fin 1000, f ⟨1000 * t.val + r.val, by
      have h1 := t.isLt
      have h2 := r.isLt
      omega⟩ :=
  Cert.FoldSum.sum_blocks (A := 10) (B := 1000) (C := 10000) (by norm_num) f

/-- The same with the blocks taken over a range of naturals and the terms a function of the clause's position. -/
theorem sum_range_blocks10 {α : Type*} [AddCommMonoid α] (u : ℕ → α) :
    ∑ s ∈ Finset.range 10, ∑ r : Fin 1000, u (1000 * s + r.val) = ∑ k : Fin 10000, u k.val :=
  Cert.AccMatmul.sum_range_blocks (J := 10) (S := 1000) (K := 10000) (by norm_num) u

/-- The accumulator after the last block, at the literal shapes. -/
theorem acc_total_lit (G : (⟨2, ![10000, 4096]⟩ : Shape).Idx → EReal) (C2 : (⟨2, ![10000, 64]⟩ : Shape).Idx → EReal)
    (a : ℕ → (⟨2, ![64, 4096]⟩ : Shape).Idx → EReal)
    (h0 : ∀ (q : Fin 64) (p : Fin 4096), a 0 (ix2 q p)
      = ∑ r : Fin 1000, C2 (ix2 ⟨r.val, by have := r.isLt; omega⟩ q) * G (ix2 ⟨r.val, by have := r.isLt; omega⟩ p))
    (hs : ∀ (n : ℕ) (hn : n + 1 < 10) (q : Fin 64) (p : Fin 4096), a (n + 1) (ix2 q p)
      = a n (ix2 q p) + ∑ r : Fin 1000, C2 (ix2 ⟨1000 * (n + 1) + r.val, by have := r.isLt; omega⟩ q)
          * G (ix2 ⟨1000 * (n + 1) + r.val, by have := r.isLt; omega⟩ p)) :
    ∀ (q : Fin 64) (p : Fin 4096), a 9 (ix2 q p) = ∑ r : Fin 10000, C2 (ix2 r q) * G (ix2 r p) := by
  intro q p
  let u : ℕ → EReal := fun k => if h : k < 10000 then C2 (ix2 ⟨k, h⟩ q) * G (ix2 ⟨k, h⟩ p) else 0
  have hu : ∀ (i : Fin 10000) (k : ℕ), i.val = k → C2 (ix2 i q) * G (ix2 i p) = u k := by
    intro i k hk
    subst hk
    show _ = dite (i.val < 10000) (fun h => C2 (ix2 ⟨i.val, h⟩ q) * G (ix2 ⟨i.val, h⟩ p)) (fun _ => 0)
    rw [dif_pos i.isLt]
  have e0 : a 0 (ix2 q p) = ∑ r : Fin 1000, u (1000 * 0 + r.val) := by
    rw [h0 q p]
    exact Finset.sum_congr rfl fun r _ => hu _ _ (by show r.val = 1000 * 0 + r.val; omega)
  have es : ∀ n, n + 1 < 10 → a (n + 1) (ix2 q p) = a n (ix2 q p) + ∑ r : Fin 1000, u (1000 * (n + 1) + r.val) := by
    intro n hn
    rw [hs n hn q p]
    exact congrArg (a n (ix2 q p) + ·) (Finset.sum_congr rfl fun r _ => hu _ _ rfl)
  have key := blocks_fold (fun s => ∑ r : Fin 1000, u (1000 * s + r.val)) (fun n => a n (ix2 q p)) 10 e0 es 9 (by norm_num)
  refine key.trans ((sum_range_blocks10 u).trans ?_)
  exact Finset.sum_congr rfl fun k _ => (hu k k.val rfl).symm

end Cert.Bridge

end
-- ==== Proof.LibDenseBlocks.lean ====
/-
  A block of rows of a dense layer against the whole layer, on the extended reals, at any extents.

  The vector unit computes one block of rows of `X W + b` as a matrix product into a zero accumulator plus the one-row
  bias broadcast along the rows (the bias first cast to its own shape, which changes nothing): that payload is
  `addRow (mm x w) b` of the loaded blocks. Entry `(a, q)` of it depends on row `a` of the left block, column `q` of the
  right operand and entry `q` of the bias only; so when row `a` of the left block is row `p` of the whole left operand, and
  the right operand and the bias are loaded whole, the block's entry `(a, q)` is entry `(p, q)` of the whole layer.

  The same for the transposed product `Z Zᵀ`: `mmT A B (p, q) = ∑ k, A(p, k) · B(q, k)`; the vector unit's contraction of
  the second axes of both operands into a zero accumulator (each operand first cast to its own shape) is `mmT` of
  the loaded blocks, and its entry `(a, q)` depends on row `a` of the left block and row `q` of the right operand only.
-/
import proofs.«170097_g26499948216398_cont_9to1_1103_19_alg».proof.Proof.LibBiasRow
import proofs.«170097_g26499948216398_cont_9to1_1103_19_alg».proof.Proof.LibRowBlocks

noncomputable section

open scoped BigOperators

namespace Cert.DenseBlocks

open Idealize.ShloMosaic Idealize.ShloMosaic.ValueIdx Cert.Dense Cert.BiasRow

/-- The dense layer with a one-row bias at an entry: the row of the left operand against the column of the right one,
    plus the bias of the column. -/
theorem addRow_mm_apply {M K N : ℕ} (X : Mat M K) (W : Mat K N) (B : Mat 1 N) (p : Fin M) (q : Fin N) :
    addRow (mm X W) B (ix2 p q) = (∑ k : Fin K, X (ix2 p k) * W (ix2 k q)) + B (ix2 (0 : Fin 1) q) := rfl

/-- THE PAYLOAD: a plain matmul into a zero accumulator plus the one-row bias (cast to its own shape) broadcast to every
    row is the dense layer with that bias. -/
theorem matmul_bias_eq {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ .f32) (r : FVec Ideal ⟨2, ![K, N]⟩ .f32)
    (b : FVec Ideal ⟨2, ![1, N]⟩ .f32) (hs : (⟨2, ![1, N]⟩ : Shape).ShapeCasts ⟨2, ![1, N]⟩)
    (hb : (⟨2, ![1, N]⟩ : Shape).Broadcasts ⟨2, ![M, N]⟩) :
    addf (matmul (F := Ideal) D prec l r (constant ⟨2, ![M, N]⟩ .f32 0x00000000#32))
        (broadcastTo ⟨2, ![M, N]⟩ (shapeCast ⟨2, ![1, N]⟩ b hs) hb) = addRow (mm l r) b := by
  rw [shapeCast_self, matmul_zero_eq_mm D h1 h2 h3 h4 h5 h6]
  exact vecAddRow _ _ _

/-- A BLOCK AGAINST THE WHOLE: the block's layer at `y` is the whole layer at `i` when the block's row of `y` is the whole left
    operand's row of `i`, and the right operands' columns and the biases agree there. -/
theorem addRow_mm_block {M Mb K N Nb : ℕ} (X : Mat M K) (W : Mat K N) (B : Mat 1 N)
    (x0 : Mat Mb K) (x1 : Mat K Nb) (x2 : Mat 1 Nb)
    (y : (⟨2, ![Mb, Nb]⟩ : Shape).Idx) (i : (⟨2, ![M, N]⟩ : Shape).Idx)
    (h0 : ∀ k : Fin K, x0 (ix2 (c0 y) k) = X (ix2 (c0 i) k))
    (h1 : ∀ k : Fin K, x1 (ix2 k (c1 y)) = W (ix2 k (c1 i)))
    (h2 : x2 (ix2 (0 : Fin 1) (c1 y)) = B (ix2 (0 : Fin 1) (c1 i))) :
    addRow (mm x0 x1) x2 y = addRow (mm X W) B i :=
  addRow_at (mm X W) B (mm x0 x1) x2 y i (mm_at X W x0 x1 y i h0 h1) h2

/-- The transposed product: rows of the left operand against rows of the right one. -/
def mmT {M K N : ℕ} (A : Mat M K) (B : Mat N K) : Mat M N :=
  fun i => ∑ k : Fin K, A (ix2 (c0 i) k) * B (ix2 (c1 i) k)

theorem mmT_apply {M K N : ℕ} (A : Mat M K) (B : Mat N K) (p : Fin M) (q : Fin N) :
    mmT A B (ix2 p q) = ∑ k : Fin K, A (ix2 p k) * B (ix2 q k) := rfl

/-- THE PAYLOAD, transposed: the contraction of the second axes of both operands (each cast to its own shape) into a zero
    accumulator is the transposed product. -/
theorem matmul_abT_eq {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (hl : (⟨2, ![M, K]⟩ : Shape).ShapeCasts ⟨2, ![M, K]⟩) (hr : (⟨2, ![N, K]⟩ : Shape).ShapeCasts ⟨2, ![N, K]⟩) :
    matmul (F := Ideal) D prec (shapeCast ⟨2, ![M, K]⟩ l hl) (shapeCast ⟨2, ![N, K]⟩ r hr)
        (constant ⟨2, ![M, N]⟩ .f32 0x00000000#32) = mmT l r := by
  rw [shapeCast_self, shapeCast_self]
  funext i
  obtain ⟨p, q, rfl⟩ : ∃ (p : Fin M) (q : Fin N), i = ix2 p q := ⟨i 0, i 1, eq_ix2 i⟩
  exact Cert.RowBlocks.matmul_abT_apply D h1 h2 h3 h4 h5 h6 prec l r p q

/-- A BLOCK AGAINST THE WHOLE, transposed: the block's product at `y` is the whole product at `i` when the left block's row
    of `y` is the whole left operand's row of `i` and the right operands' rows agree there. -/
theorem mmT_block {M Mb K N Nb : ℕ} (A : Mat M K) (B : Mat N K) (a : Mat Mb K) (b : Mat Nb K)
    (y : (⟨2, ![Mb, Nb]⟩ : Shape).Idx) (i : (⟨2, ![M, N]⟩ : Shape).Idx)
    (h0 : ∀ k : Fin K, a (ix2 (c0 y) k) = A (ix2 (c0 i) k))
    (h1 : ∀ k : Fin K, b (ix2 (c1 y) k) = B (ix2 (c1 i) k)) : mmT a b y = mmT A B i :=
  Finset.sum_congr rfl fun k _ => by rw [h0 k, h1 k]

end Cert.DenseBlocks

/-- info: 'Cert.DenseBlocks.matmul_bias_eq' depends on axioms: [propext, Classical.choice, Quot.sound] -/
#guard_msgs in #print axioms Cert.DenseBlocks.matmul_bias_eq

/-- info: 'Cert.DenseBlocks.matmul_abT_eq' depends on axioms: [propext, Classical.choice, Quot.sound] -/
#guard_msgs in #print axioms Cert.DenseBlocks.matmul_abT_eq

end
-- ==== Proof.BraHead.lean ====
/-
  A two-layer head on the extended reals, at any extents: rectified affine layer, then affine layer.

  head2 X w1 b1 w2 b2 = (max (X w1 + b1, 0)) w2 + b2, the biases one-row arrays added to every row.  The vector unit spells it as
  two matrix products into zero accumulators (every operand first changed to a narrower format, which is the identity on the
  extended reals), each bias row cast to its own shape and broadcast along the rows, the rectifier a maximum with a zero splat; the
  host as two dot products, each bias vector broadcast to one row and that row to every row, the rectifier a maximum with a
  broadcast scalar zero.  Both are head2, the host's over the bias vectors laid out as rows.  Row p of the result depends on row p
  of X only.
-/
import proofs.«170097_g26499948216398_cont_9to1_1103_19_alg».proof.Proof.LibDenseBlocks

noncomputable section

open scoped BigOperators

namespace Cert.Bridge

open Idealize.ShloMosaic Idealize.ShloMosaic.ValueIdx Cert.Dense Cert.BiasRow

/-- The two-layer head. -/
def head2 {M K H N : ℕ} (X : Mat M K) (w1 : Mat K H) (b1 : Mat 1 H) (w2 : Mat H N) (b2 : Mat 1 N) : Mat M N :=
  addRow (mm (reluBias (mm X w1) b1) w2) b2

theorem head2_apply {M K H N : ℕ} (X : Mat M K) (w1 : Mat K H) (b1 : Mat 1 H) (w2 : Mat H N) (b2 : Mat 1 N)
    (p : Fin M) (q : Fin N) :
    head2 X w1 b1 w2 b2 (ix2 p q)
      = (∑ k : Fin H, max ((∑ j : Fin K, X (ix2 p j) * w1 (ix2 j k)) + b1 (ix2 (0 : Fin 1) k)) 0 * w2 (ix2 k q))
          + b2 (ix2 (0 : Fin 1) q) := rfl

/-- Row p' of the head over X' is row p of the head over X when the two rows agree. -/
theorem head2_rows {M M' K H N : ℕ} (X : Mat M K) (X' : Mat M' K) (w1 : Mat K H) (b1 : Mat 1 H) (w2 : Mat H N) (b2 : Mat 1 N)
    (p : Fin M) (p' : Fin M') (hX : ∀ k : Fin K, X' (ix2 p' k) = X (ix2 p k)) (q : Fin N) :
    head2 X' w1 b1 w2 b2 (ix2 p' q) = head2 X w1 b1 w2 b2 (ix2 p q) := by
  rw [head2_apply, head2_apply]
  simp only [hX]

/-- The vector unit's form. -/
theorem vec_head2 {M K H N : ℕ}
    (D1 : DotDims ⟨2, ![M, K]⟩ ⟨2, ![K, H]⟩ ⟨2, ![M, H]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![M, H]⟩ ⟨2, ![H, N]⟩ ⟨2, ![M, N]⟩)
    (c1 : D2.lhsContracting = [1]) (c2 : D2.rhsContracting = [0]) (c3 : D2.lhsNonContracting = [0])
    (c4 : D2.rhsNonContracting = [1]) (c5 : D2.lhsBatch = []) (c6 : D2.rhsBatch = [])
    (p1 p2 : Option ContractPrecision) (hbits : FTy.bf16.bits < FTy.f32.bits)
    (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (hs1 : (⟨2, ![1, H]⟩ : Shape).ShapeCasts ⟨2, ![1, H]⟩) (hb1 : (⟨2, ![1, H]⟩ : Shape).Broadcasts ⟨2, ![M, H]⟩)
    (hs2 : (⟨2, ![1, N]⟩ : Shape).ShapeCasts ⟨2, ![1, N]⟩) (hb2 : (⟨2, ![1, N]⟩ : Shape).Broadcasts ⟨2, ![M, N]⟩) :
    addf (matmul (F := Ideal) D2 p2
        (truncf .bf16 (maximumf (addf (matmul (F := Ideal) D1 p1 (truncf .bf16 x hbits) (truncf .bf16 w1 hbits)
              (constant ⟨2, ![M, H]⟩ .f32 0x00000000#32))
            (broadcastTo ⟨2, ![M, H]⟩ (shapeCast ⟨2, ![1, H]⟩ b1 hs1) hb1))
          (broadcast ⟨2, ![M, H]⟩ (Scalar.ofBits (F := Ideal) .f32 0x00000000#32))) hbits)
        (truncf .bf16 w2 hbits) (constant ⟨2, ![M, N]⟩ .f32 0x00000000#32))
      (broadcastTo ⟨2, ![M, N]⟩ (shapeCast ⟨2, ![1, N]⟩ b2 hs2) hb2)
      = head2 x w1 b1 w2 b2 := by
  rw [shapeCast_self, shapeCast_self, matmul_zero_eq_mm D1 a1 a2 a3 a4 a5 a6, vecReluBias,
    matmul_zero_eq_mm D2 c1 c2 c3 c4 c5 c6, vecAddRow]
  rfl

/-- The host's form. -/
theorem host_head2 {M K H N : ℕ}
    (D1 : DotDims ⟨2, ![M, K]⟩ ⟨2, ![K, H]⟩ ⟨2, ![M, H]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![M, H]⟩ ⟨2, ![H, N]⟩ ⟨2, ![M, N]⟩)
    (c1 : D2.lhsContracting = [1]) (c2 : D2.rhsContracting = [0]) (c3 : D2.lhsNonContracting = [0])
    (c4 : D2.rhsNonContracting = [1]) (c5 : D2.lhsBatch = []) (c6 : D2.rhsBatch = [])
    (p1 p2 : Option ContractPrecision)
    (X : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (h1 : (⟨1, ![H]⟩ : Shape).BroadcastsInDim ⟨2, ![1, H]⟩ ![1])
    (h2 : (⟨2, ![1, H]⟩ : Shape).BroadcastsInDim ⟨2, ![M, H]⟩ ![0, 1])
    (h0 : (⟨0, ![]⟩ : Shape).BroadcastsInDim ⟨2, ![M, H]⟩ ![])
    (h3 : (⟨1, ![N]⟩ : Shape).BroadcastsInDim ⟨2, ![1, N]⟩ ![1])
    (h4 : (⟨2, ![1, N]⟩ : Shape).BroadcastsInDim ⟨2, ![M, N]⟩ ![0, 1]) :
    addf (Host.dotGeneral (F := Ideal) D2 p2
        (maximumf (addf (Host.dotGeneral (F := Ideal) D1 p1 X w1)
            (broadcastInDim ⟨2, ![M, H]⟩ ![0, 1] h2 (broadcastInDim ⟨2, ![1, H]⟩ ![1] h1 b1)))
          (broadcastInDim ⟨2, ![M, H]⟩ ![] h0 (constant (F := Ideal) ⟨0, ![]⟩ .f32 0x00000000#32)))
        w2)
      (broadcastInDim ⟨2, ![M, N]⟩ ![0, 1] h4 (broadcastInDim ⟨2, ![1, N]⟩ ![1] h3 b2))
      = head2 X w1 (row b1) w2 (row b2) := by
  rw [hostDot_eq_mm D1 a1 a2 a3 a4 a5 a6, hostReluBias, hostDot_eq_mm D2 c1 c2 c3 c4 c5 c6, hostAddRow]
  rfl

end Cert.Bridge

end
-- ==== Proof.BridgeAcc.lean ====
/-
  The bridge for the accumulated product and the clause score head.

  The accumulated product: a family of accumulators whose member 0 holds the first block's product and whose member n + 1 adds
  block n + 1's product holds, at member 9, at entry (q, p), the sum over all 10000 clauses r of C2 (r, q) · G (r, p).

  The clause score head: the kernel's per-block value and the reference's whole-array value are the same two-layer head
  (max (X w1 + b1, 0)) w2 + b2 — the kernel's over the block's 1000 rows, its bias rows arriving as the bias vectors cast to one
  row, the reference's over all 10000 rows, its bias vectors broadcast to one row and then to every row.  A row of the head depends
  on the same row of X only; so when the block's rows are the rows 1000 t … 1000 t + 999 of the whole clause state, row r of the
  kernel's value is row 1000 t + r of the reference's.
-/
import proofs.«170097_g26499948216398_cont_9to1_1103_19_alg».proof.Proof.Gen.KernelIdeal.Skeleton
import proofs.«170097_g26499948216398_cont_9to1_1103_19_alg».proof.Proof.Spec
import proofs.«170097_g26499948216398_cont_9to1_1103_19_alg».proof.Proof.BraPay
import proofs.«170097_g26499948216398_cont_9to1_1103_19_alg».proof.Proof.BraFold
import proofs.«170097_g26499948216398_cont_9to1_1103_19_alg».proof.Proof.BraHead

noncomputable section

open scoped BigOperators

namespace Cert.Bridge

open Cert.KernelIdeal Cert.KernelIdeal.Gen Idealize.ShloMosaic Idealize.ShloMosaic.ValueIdx Cert.Dense

/-- The accumulator after the last block holds the product over all 10000 clauses. -/
theorem acc_total (G : FVec Ideal S10000x4096 .f32) (C2 : FVec Ideal S10000x64 .f32) (a : ℕ → FVec Ideal S64x4096 .f32)
    (h0 : ∀ (q : Fin 64) (p : Fin 4096), a 0 (ix2 q p)
      = ∑ r : Fin 1000, C2 (ix2 ⟨r.val, by have := r.isLt; omega⟩ q) * G (ix2 ⟨r.val, by have := r.isLt; omega⟩ p))
    (hs : ∀ (n : ℕ) (hn : n + 1 < 10) (q : Fin 64) (p : Fin 4096), a (n + 1) (ix2 q p)
      = a n (ix2 q p) + ∑ r : Fin 1000, C2 (ix2 ⟨1000 * (n + 1) + r.val, by have := r.isLt; omega⟩ q)
          * G (ix2 ⟨1000 * (n + 1) + r.val, by have := r.isLt; omega⟩ p)) :
    ∀ (q : Fin 64) (p : Fin 4096), a 9 (ix2 q p) = ∑ r : Fin 10000, C2 (ix2 r q) * G (ix2 r p) :=
  acc_total_lit G C2 a h0 hs

/-- The kernel's clause head over a block is the two-layer head of the block. -/
theorem pay14_eq (c2 : FVec Ideal S1000x64 .f32) (w1 : FVec Ideal S64x64 .f32) (b1 : FVec Ideal S1x64 .f32)
    (w2 : FVec Ideal S64x1 .f32) (b2 : FVec Ideal S1x1 .f32) :
    k0_pay14 (F := Ideal) c2 w1 b1 w2 b2 = head2 c2 w1 b1 w2 b2 := by
  unfold k0_pay14
  exact vec_head2 (M := 1000) (K := 64) (H := 64) (N := 1)
    dot_S1000x64_S64x64_S1000x64_1_0_0_1_n_n rfl rfl rfl rfl rfl rfl
    dot_S1000x64_S64x1_S1000x1_1_0_0_1_n_n rfl rfl rfl rfl rfl rfl
    none none bitsLt_bf16_f32 c2 w1 b1 w2 b2 _ _ _ _

section

variable [Cert.ReferenceIdeal.Facts]

/-- The reference's clause head is the two-layer head of the whole clause state, the bias vectors laid out as rows. -/
theorem headS_eq (C2 : FVec Ideal S10000x64 .f32) (w1 : FVec Ideal S64x64 .f32) (b1 : FVec Ideal S64 .f32)
    (w2 : FVec Ideal S64x1 .f32) (b2 : FVec Ideal S1 .f32) :
    Cert.Spec.headS (F := Ideal) C2 w1 b1 w2 b2 = head2 C2 w1 (row b1) w2 (row b2) := by
  unfold Cert.Spec.headS
  exact host_head2 (M := 10000) (K := 64) (H := 64) (N := 1)
    Cert.ReferenceIdeal.dot_S10000x64_S64x64_S10000x64_1_0_0_1_n_n rfl rfl rfl rfl rfl rfl
    Cert.ReferenceIdeal.dot_S10000x64_S64x1_S10000x1_1_0_0_1_n_n rfl rfl rfl rfl rfl rfl
    none none C2 w1 b1 w2 b2 _ _ _ _ _

/-- Row r of the kernel's clause head over block t is row 1000 t + r of the reference's. -/
theorem cs_eq (C2 : FVec Ideal S10000x64 .f32) (w1 : FVec Ideal S64x64 .f32) (b1 : FVec Ideal S64 .f32)
    (w2 : FVec Ideal S64x1 .f32) (b2 : FVec Ideal S1 .f32) (t : Fin 10) (c2 : FVec Ideal S1000x64 .f32)
    (hc2 : ∀ (r : Fin 1000) (k : Fin 64),
      c2 (ix2 r k) = C2 (ix2 ⟨1000 * t.val + r.val, by have := t.isLt; have := r.isLt; omega⟩ k))
    (r : Fin 1000) :
    k0_pay14 (F := Ideal) c2 w1 (shapeCast S1x64 b1 shapeCasts_S64_S1x64) w2 (shapeCast S1x1 b2 shapeCasts_S1_S1x1)
        (ix2 r (0 : Fin 1))
      = Cert.Spec.headS (F := Ideal) C2 w1 b1 w2 b2
          (ix2 ⟨1000 * t.val + r.val, by have := t.isLt; have := r.isLt; omega⟩ (0 : Fin 1)) := by
  rw [pay14_eq, headS_eq, shapeCast_row (N := 64), shapeCast_row (N := 1)]
  exact head2_rows C2 c2 w1 (row b1) w2 (row b2) _ r (hc2 r) (0 : Fin 1)

end

end Cert.Bridge

/-- info: 'Cert.Bridge.acc_total' depends on axioms: [propext, Classical.choice, Quot.sound] -/
#guard_msgs in #print axioms Cert.Bridge.acc_total

/-- info: 'Cert.Bridge.cs_eq' depends on axioms: [propext, Classical.choice, Quot.sound] -/
#guard_msgs in #print axioms Cert.Bridge.cs_eq

/-- info: 'Cert.Bridge.pay13_apply' depends on axioms: [propext, Classical.choice, Quot.sound] -/
#guard_msgs in #print axioms Cert.Bridge.pay13_apply

end
-- ==== Proof.KerFinalAcc.lean ====
/-
  The accumulated product read at an index, at the extended reals. The clause scratch holds the clause state C2 of the
  network (the staged array is its transpose); block t of G and rows 1000·t … of C2 give the t-th product, so the
  accumulator after the last point holds, at (q, p), the sum over all ten thousand clauses r of C2(r, q) · G(r, p).
-/
import proofs.«170097_g26499948216398_cont_9to1_1103_19_alg».proof.Proof.Gen.KernelIdeal.Frame
import Idealize.ShloMosaic.Lib.Pipeline.Value
import proofs.«170097_g26499948216398_cont_9to1_1103_19_alg».proof.Proof.KerInv
import proofs.«170097_g26499948216398_cont_9to1_1103_19_alg».proof.Proof.KerBlocks
import proofs.«170097_g26499948216398_cont_9to1_1103_19_alg».proof.Proof.KerHost
import proofs.«170097_g26499948216398_cont_9to1_1103_19_alg».proof.Proof.BridgeAcc
import proofs.«170097_g26499948216398_cont_9to1_1103_19_alg».proof.Proof.Gen.ReferenceIdeal
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open ValueIdx

variable (m : (ℓ : Loc nD τ sig) → Buf (Elt Ideal) ℓ)

/-- The clause scratch holds the network's clause state. -/
theorem c2K_apply (c : Dev nD) (i : Fin 10000) (q : Fin 64) :
    c2K m c (ix2 i q) = Cert.Spec.C2 (KerHost.argsOf m c) (ix2 i q) := by
  unfold c2K
  rw [Cert.Bridge.pay10_apply, iblk1 m c, KerHost.V_v95 m c]
  exact transpose_ix2_apply _ _ q i

/-- The running product after point `n`, total on the naturals. -/
def accT (c : Dev nD) (n : ℕ) : Vec Ideal S64x4096 .f32 :=
  if h : n < cfg0.N then accK m c n h else accK m c 0 N_pos

theorem accT_of_lt (c : Dev nD) (n : ℕ) (h : n < cfg0.N) : accT m c n = accK m c n h := dif_pos h

/-- One block's product at an index: rows 1000·n … of C2 against the same rows of G. -/
theorem block_sum (c : Dev nD) (n : ℕ) (h : n < cfg0.N) (q : Fin 64) (p : Fin 4096) :
    (∑ r : Fin 1000, rowsAt (grid0.coords (⟨n, h⟩ : Fin cfg0.N)) (c2K m c) (ix2 r q) * (iblk m c 0 ⟨n, h⟩ : Vec Ideal S1000x4096 .f32) (ix2 r p))
      = ∑ r : Fin 1000, Cert.Spec.C2 (KerHost.argsOf m c) (ix2 ⟨1000 * n + r.val, by have : cfg0.N = 10 := N_0; omega⟩ q)
          * (KerHost.argsOf m c).a0 (ix2 ⟨1000 * n + r.val, by have : cfg0.N = 10 := N_0; omega⟩ p) := by
  refine Finset.sum_congr rfl fun r _ => ?_
  rw [rowsAt_apply, c2K_apply, iblk0 m c ⟨n, h⟩ r p, V_main_arg0]
  rfl

/-- After the last point the accumulator holds the whole contraction over the clauses. -/
theorem acc_last (c : Dev nD) (h : 9 < cfg0.N) (q : Fin 64) (p : Fin 4096) :
    accK m c 9 h (ix2 q p) = ∑ r : Fin 10000, Cert.Spec.C2 (KerHost.argsOf m c) (ix2 r q) * (KerHost.argsOf m c).a0 (ix2 r p) := by
  have hN : cfg0.N = 10 := N_0
  rw [← accT_of_lt m c 9 h]
  refine Cert.Bridge.acc_total (KerHost.argsOf m c).a0 (Cert.Spec.C2 (KerHost.argsOf m c)) (accT m c) ?_ ?_ q p
  · intro q p
    rw [accT_of_lt m c 0 N_pos]
    show k0_pay12 _ _ (ix2 q p) = _
    rw [Cert.Bridge.pay12_apply, block_sum m c 0 N_pos q p]
    refine Finset.sum_congr rfl fun r _ => ?_
    congr 2 <;> exact congrArg₂ ix2 (Fin.ext (by simp)) rfl
  · intro n hn q p
    have hn' : n + 1 < cfg0.N := by omega
    rw [accT_of_lt m c (n + 1) hn', accT_of_lt m c n (Nat.lt_of_succ_lt hn')]
    show k0_pay13 _ _ _ (ix2 q p) = _
    rw [Cert.Bridge.pay13_apply, block_sum m c (n + 1) hn' q p]

end Cert.KernelIdeal.Gen

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«170097_g26499948216398_cont_9to1_1103_19_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibLayerNorm.lean ====
/-
  Row normalisation on the extended reals, over rank-2 arrays of any extents.

  For an array `X` of `M` rows and a positive count `cnt`, `rowMean X cnt p` is the sum of row `p` divided by `cnt` and
  `rowVar X cnt p` the sum of the squared deviations of row `p` from that mean, divided by `cnt`.  The normalised array
  is written in two ways: `lnK` multiplies the deviation by the reciprocal square root of `rowVar + eps`, `lnH` divides
  it by the square root.  A square is never negative on the extended reals (the square of an infinity is `+∞`), so
  `rowVar` is nonnegative whatever the entries are, `rowVar + eps` is positive for a positive `eps`, and there the
  quotient by a square root IS the product with the reciprocal square root (at `+∞` both are the product with `0`):
  `lnK = lnH` with no finiteness assumption.  `scaleShift Y g b` multiplies every row by the one-row array `g` and adds
  the one-row array `b`.  The vector unit's and the host's spellings of each step are read as these functions, and every
  one of them at an index depends on one row of `X` only.
-/
import proofs.«170097_g26499948216398_cont_9to1_1103_19_alg».proof.Proof.LibDense
import proofs.«170097_g26499948216398_cont_9to1_1103_19_alg».proof.Proof.LibRowBlocks
import proofs.«170097_g26499948216398_cont_9to1_1103_19_alg».proof.Proof.LibHostLayout

noncomputable section

open scoped BigOperators

namespace Cert.LayerNorm

open Idealize.ShloMosaic Idealize.ShloMosaic.ValueIdx Cert.Dense

/-! ## The functions -/

/-- The mean of row `p`: its sum over the count. -/
def rowMean {M N : ℕ} (X : Mat M N) (cnt : EReal) (p : Fin M) : EReal := Ideal.div (∑ k : Fin N, X (ix2 p k)) cnt

/-- The deviation from the row's mean. -/
def centered {M N : ℕ} (X : Mat M N) (cnt : EReal) : Mat M N := fun i => X i - rowMean X cnt (c0 i)

/-- The sum of the squared deviations of row `p`. -/
def sqSum {M N : ℕ} (X : Mat M N) (cnt : EReal) (p : Fin M) : EReal :=
  ∑ k : Fin N, centered X cnt (ix2 p k) * centered X cnt (ix2 p k)

/-- The variance of row `p`. -/
def rowVar {M N : ℕ} (X : Mat M N) (cnt : EReal) (p : Fin M) : EReal := Ideal.div (sqSum X cnt p) cnt

/-- The row means as a column. -/
def meanCol {M N : ℕ} (X : Mat M N) (cnt : EReal) : Mat M 1 := fun i => rowMean X cnt (c0 i)
/-- The squared-deviation sums as a vector. -/
def sqSumVec {M N : ℕ} (X : Mat M N) (cnt : EReal) : Row M := fun i => sqSum X cnt ⟨(i 0).val, (i 0).isLt⟩
/-- The row variances as a column. -/
def varCol {M N : ℕ} (X : Mat M N) (cnt : EReal) : Mat M 1 := fun i => rowVar X cnt (c0 i)

/-- Normalised rows, the deviation TIMES the reciprocal square root. -/
def lnK {M N : ℕ} (X : Mat M N) (cnt eps : EReal) : Mat M N :=
  fun i => centered X cnt i * Ideal.rsqrt (rowVar X cnt (c0 i) + eps)

/-- Normalised rows, the deviation OVER the square root. -/
def lnH {M N : ℕ} (X : Mat M N) (cnt eps : EReal) : Mat M N :=
  fun i => Ideal.div (centered X cnt i) (Ideal.sqrt (rowVar X cnt (c0 i) + eps))

/-- Every row times a one-row array, plus a one-row array. -/
def scaleShift {M N : ℕ} (Y : Mat M N) (g b : Mat 1 N) : Mat M N :=
  fun i => Y i * g (ix2 (0 : Fin 1) (c1 i)) + b (ix2 (0 : Fin 1) (c1 i))

/-! ## The quotient by a square root is the product with the reciprocal square root, above zero -/

theorem div_sqrt_eq_mul_rsqrt (a v : EReal) (hv : 0 < v) : Ideal.div a (Ideal.sqrt v) = a * Ideal.rsqrt v := by
  induction v using EReal.rec with
  | bot => exact absurd hv (by simp)
  | top =>
    show Ideal.div a ⊤ = a * 0
    unfold Ideal.div
    rw [if_neg (by simp), EReal.inv_top]
  | coe r =>
    have hr : 0 < r := by exact_mod_cast hv
    have hs : Real.sqrt r ≠ 0 := (Real.sqrt_pos.mpr hr).ne'
    show Ideal.div a (if r < 0 then (⊥ : EReal) else ((Real.sqrt r : ℝ) : EReal))
      = a * (if r < 0 then (⊥ : EReal) else if r = 0 then (⊤ : EReal) else (((Real.sqrt r)⁻¹ : ℝ) : EReal))
    rw [if_neg (not_lt.mpr hr.le), if_neg (not_lt.mpr hr.le), if_neg hr.ne']
    unfold Ideal.div
    rw [if_neg (by exact_mod_cast hs), EReal.coe_inv]

theorem mul_self_nonneg' (d : EReal) : 0 ≤ d * d := by
  induction d using EReal.rec with
  | bot => simp
  | top => simp
  | coe r => exact_mod_cast mul_self_nonneg r

theorem sqSum_nonneg {M N : ℕ} (X : Mat M N) (cnt : EReal) (p : Fin M) : 0 ≤ sqSum X cnt p :=
  Finset.sum_nonneg fun _ _ => mul_self_nonneg' _

theorem rowVar_nonneg {M N : ℕ} (X : Mat M N) {r : ℝ} (hr : 0 < r) (p : Fin M) : 0 ≤ rowVar X (r : EReal) p := by
  unfold rowVar
  rw [Ideal.div_coe hr.ne']
  exact mul_nonneg (sqSum_nonneg X _ p) (by exact_mod_cast (one_div_pos.mpr hr).le)

/-- The two spellings of the normalisation agree: no finiteness of the entries is needed. -/
theorem lnK_eq_lnH {M N : ℕ} (X : Mat M N) {r : ℝ} (hr : 0 < r) {eps : EReal} (heps : 0 < eps) :
    lnK X (r : EReal) eps = lnH X (r : EReal) eps := by
  funext i
  exact (div_sqrt_eq_mul_rsqrt _ _ (lt_of_lt_of_le heps (le_add_of_nonneg_left (rowVar_nonneg X hr _)))).symm

/-! ## At an index: one row of the array decides -/

theorem rowMean_congr {M M' N : ℕ} (X : Mat M N) (X' : Mat M' N) (cnt : EReal) (p : Fin M) (p' : Fin M')
    (h : ∀ k, X' (ix2 p' k) = X (ix2 p k)) : rowMean X' cnt p' = rowMean X cnt p := by
  unfold rowMean; simp only [h]

theorem centered_congr {M M' N : ℕ} (X : Mat M N) (X' : Mat M' N) (cnt : EReal) (p : Fin M) (p' : Fin M')
    (h : ∀ k, X' (ix2 p' k) = X (ix2 p k)) (q : Fin N) : centered X' cnt (ix2 p' q) = centered X cnt (ix2 p q) := by
  show X' (ix2 p' q) - rowMean X' cnt p' = X (ix2 p q) - rowMean X cnt p
  rw [h q, rowMean_congr X X' cnt p p' h]

theorem rowVar_congr {M M' N : ℕ} (X : Mat M N) (X' : Mat M' N) (cnt : EReal) (p : Fin M) (p' : Fin M')
    (h : ∀ k, X' (ix2 p' k) = X (ix2 p k)) : rowVar X' cnt p' = rowVar X cnt p := by
  unfold rowVar sqSum; simp only [centered_congr X X' cnt p p' h]

theorem lnH_congr {M M' N : ℕ} (X : Mat M N) (X' : Mat M' N) (cnt eps : EReal) (p : Fin M) (p' : Fin M')
    (h : ∀ k, X' (ix2 p' k) = X (ix2 p k)) (q : Fin N) : lnH X' cnt eps (ix2 p' q) = lnH X cnt eps (ix2 p q) := by
  show Ideal.div (centered X' cnt (ix2 p' q)) (Ideal.sqrt (rowVar X' cnt p' + eps))
    = Ideal.div (centered X cnt (ix2 p q)) (Ideal.sqrt (rowVar X cnt p + eps))
  rw [centered_congr X X' cnt p p' h, rowVar_congr X X' cnt p p' h]

theorem scaleShift_apply {M N : ℕ} (Y : Mat M N) (g b : Mat 1 N) (p : Fin M) (q : Fin N) :
    scaleShift Y g b (ix2 p q) = Y (ix2 p q) * g (ix2 (0 : Fin 1) q) + b (ix2 (0 : Fin 1) q) := rfl

/-! ## The vector unit's spelling -/

section Vec

variable {M N : ℕ} (X : FVec Ideal ⟨2, ![M, N]⟩ .f32) (cw ew : BitVec 32)
  (hr : (⟨2, ![M, N]⟩ : Shape).Reduces [1] ⟨1, ![M]⟩) (hφ : FKind.Formats .f32)
  (hacc : (0x00000000#32 : BitVec 32) = 0x00000000#32)
  (hc : (⟨1, ![M]⟩ : Shape).ShapeCasts ⟨2, ![M, 1]⟩) (hb : (⟨2, ![M, 1]⟩ : Shape).Broadcasts ⟨2, ![M, N]⟩)

/-- The row sums cast to a column and divided by the count splat: the column of means. -/
theorem vecMeanCol :
    divf (shapeCast ⟨2, ![M, 1]⟩ (multiReduction .add [1] ⟨1, ![M]⟩ X 0x00000000#32 hr hφ hacc) hc)
        (broadcast ⟨2, ![M, 1]⟩ (Scalar.ofBits (F := Ideal) .f32 cw))
      = meanCol X (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (multiReduction .add [1] ⟨1, ![M]⟩ X 0x00000000#32 hr hφ hacc) hc (ix2 p u))
      (Ideal.ofBits .f32 cw) = rowMean X (Ideal.ofBits .f32 cw) p
  rw [Cert.RowBlocks.shapeCast_col_apply, Cert.RowBlocks.rowSum_apply]
  rfl

/-- The array less the column of means broadcast along the rows: the deviations. -/
theorem vecCentered (cnt : EReal) :
    subf (F := Ideal) (φ := .f32) X (broadcastTo ⟨2, ![M, N]⟩ (meanCol X cnt) hb) = centered X cnt := by
  funext i
  obtain ⟨p, q, rfl⟩ : ∃ (p : Fin M) (q : Fin N), i = ix2 p q := ⟨i 0, i 1, eq_ix2 i⟩
  show X (ix2 p q) - broadcastTo ⟨2, ![M, N]⟩ (meanCol X cnt) hb (ix2 p q) = _
  rw [Cert.RowBlocks.broadcastTo_col_apply]
  rfl

/-- The row sums of the squared deviations. -/
theorem vecSqSum (cnt : EReal) :
    multiReduction (F := Ideal) (φ := .f32) .add [1] ⟨1, ![M]⟩
        (mulf (F := Ideal) (φ := .f32) (centered X cnt) (centered X cnt)) 0x00000000#32 hr hφ hacc
      = sqSumVec X cnt := by
  funext i
  obtain ⟨p, rfl⟩ : ∃ p : Fin M, i = ix1 p := ⟨i 0, eq_ix1 i⟩
  exact Cert.RowBlocks.rowSum_apply (mulf (F := Ideal) (φ := .f32) (centered X cnt) (centered X cnt)) hr hφ hacc p

/-- Those sums cast to a column and divided by the count splat: the column of variances. -/
theorem vecVarCol (cnt : EReal) :
    divf (F := Ideal) (φ := .f32) (shapeCast ⟨2, ![M, 1]⟩ (sqSumVec X cnt) hc) (broadcast ⟨2, ![M, 1]⟩ (Scalar.ofBits (F := Ideal) .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (sqSumVec X cnt) hc (ix2 p u)) (Ideal.ofBits .f32 cw) = _
  rw [Cert.RowBlocks.shapeCast_col_apply]
  rfl

/-- The deviations times the broadcast reciprocal square root of the variance column plus the epsilon splat. -/
theorem vecLnK :
    mulf (F := Ideal) (φ := .f32) (centered X (Ideal.ofBits .f32 cw))
        (broadcastTo ⟨2, ![M, N]⟩
          (rsqrt (F := Ideal) (φ := .f32) (addf (F := Ideal) (φ := .f32)
            (fun i => Ideal.div (sqSum X (Ideal.ofBits .f32 cw) (c0 i)) (Ideal.ofBits .f32 cw))
            (broadcast ⟨2, ![M, 1]⟩ (Scalar.ofBits (F := Ideal) .f32 ew)))) hb)
      = lnK X (Ideal.ofBits .f32 cw) (Ideal.ofBits .f32 ew) := by
  funext i
  obtain ⟨p, q, rfl⟩ : ∃ (p : Fin M) (q : Fin N), i = ix2 p q := ⟨i 0, i 1, eq_ix2 i⟩
  show centered X (Ideal.ofBits .f32 cw) (ix2 p q) * broadcastTo ⟨2, ![M, N]⟩ _ hb (ix2 p q) = _
  rw [Cert.RowBlocks.broadcastTo_col_apply]
  rfl

/-- Every row times the broadcast row `g`, plus the broadcast row `b`. -/
theorem vecScaleShift (Y : FVec Ideal ⟨2, ![M, N]⟩ .f32) (g b : FVec Ideal ⟨2, ![1, N]⟩ .f32)
    (h1 : (⟨2, ![1, N]⟩ : Shape).Broadcasts ⟨2, ![M, N]⟩) :
    addf (mulf Y (broadcastTo ⟨2, ![M, N]⟩ g h1)) (broadcastTo ⟨2, ![M, N]⟩ b h1) = scaleShift Y g b := by
  funext i
  obtain ⟨p, q, rfl⟩ : ∃ (p : Fin M) (q : Fin N), i = ix2 p q := ⟨i 0, i 1, eq_ix2 i⟩
  show Y (ix2 p q) * broadcastTo ⟨2, ![M, N]⟩ g h1 (ix2 p q) + broadcastTo ⟨2, ![M, N]⟩ b h1 (ix2 p q) = _
  rw [broadcastTo_1b_ab_apply, broadcastTo_1b_ab_apply]
  rfl

end Vec

/-! ## The host's spelling -/

section Host

variable {M N : ℕ} (X : FVec Ideal ⟨2, ![M, N]⟩ .f32) (cw ew : BitVec 32)
  (hr' : (⟨2, ![M, N]⟩ : Shape).ReducesTo [1] ⟨1, ![M]⟩)
  (hu : 0 < (⟨0, ![]⟩ : Shape).numel)
  (hv : (⟨1, ![M]⟩ : Shape).BroadcastsInDim ⟨2, ![M, 1]⟩ ![0])
  (h0 : (⟨0, ![]⟩ : Shape).BroadcastsInDim ⟨2, ![M, 1]⟩ ![])
  (hb : (⟨2, ![M, 1]⟩ : Shape).BroadcastsInDim ⟨2, ![M, N]⟩ ![0, 1])

/-- The host's row sums from a zero, broadcast to a column, over the broadcast count: the column of means. -/
theorem hostMeanCol (hr : (⟨2, ![M, N]⟩ : Shape).Reduces [1] ⟨1, ![M]⟩) :
    Host.divf (F := Ideal) (φ := .f32) (broadcastInDim ⟨2, ![M, 1]⟩ ![0] hv (Host.reduceAdd X (constant (F := Ideal) ⟨0, ![]⟩ .f32 0x00000000#32) hr' hu))
        (broadcastInDim ⟨2, ![M, 1]⟩ ![] h0 (constant (F := Ideal) ⟨0, ![]⟩ .f32 cw))
      = meanCol X (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat, Cert.HostLayout.hostRowSum X _ hr' hr hu p]
  show Ideal.div (Ideal.ofBits .f32 0x00000000#32 + _) (Ideal.ofBits .f32 cw) = _
  rw [Ideal.ofBits_zero_f32, zero_add]
  rfl

/-- The array less the column of means broadcast along the rows: the deviations. -/
theorem hostCentered (cnt : EReal) :
    subf (F := Ideal) (φ := .f32) X (broadcastInDim ⟨2, ![M, N]⟩ ![0, 1] hb (meanCol X cnt)) = centered X cnt := by
  funext i
  obtain ⟨p, q, rfl⟩ : ∃ (p : Fin M) (q : Fin N), i = ix2 p q := ⟨i 0, i 1, eq_ix2 i⟩
  show X (ix2 p q) - broadcastInDim ⟨2, ![M, N]⟩ ![0, 1] hb (meanCol X cnt) (ix2 p q) = _
  rw [Cert.HostLayout.bcast_col_mat]
  rfl

/-- The host's row sums of the squared deviations, to a column, over the broadcast count: the column of variances. -/
theorem hostVarCol (hr : (⟨2, ![M, N]⟩ : Shape).Reduces [1] ⟨1, ![M]⟩) (cnt : EReal) :
    Host.divf (F := Ideal) (φ := .f32) (broadcastInDim ⟨2, ![M, 1]⟩ ![0] hv
          (Host.reduceAdd (F := Ideal) (φ := .f32) (mulf (F := Ideal) (φ := .f32) (centered X cnt) (centered X cnt)) (constant (F := Ideal) ⟨0, ![]⟩ .f32 0x00000000#32) hr' hu))
        (broadcastInDim ⟨2, ![M, 1]⟩ ![] h0 (constant (F := Ideal) ⟨0, ![]⟩ .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat,
    Cert.HostLayout.hostRowSum (mulf (F := Ideal) (φ := .f32) (centered X cnt) (centered X cnt)) _ hr' hr hu p]
  show Ideal.div (Ideal.ofBits .f32 0x00000000#32 + _) (Ideal.ofBits .f32 cw) = _
  rw [Ideal.ofBits_zero_f32, zero_add]
  rfl

/-- The deviations over the broadcast square root of the variance column plus the broadcast epsilon. -/
theorem hostLnH :
    Host.divf (F := Ideal) (φ := .f32) (centered X (Ideal.ofBits .f32 cw))
        (broadcastInDim ⟨2, ![M, N]⟩ ![0, 1] hb
          (Host.sqrt (F := Ideal) (φ := .f32) (addf (F := Ideal) (φ := .f32)
            (fun i => Ideal.div (sqSum X (Ideal.ofBits .f32 cw) (c0 i)) (Ideal.ofBits .f32 cw))
            (broadcastInDim ⟨2, ![M, 1]⟩ ![] h0 (constant (F := Ideal) ⟨0, ![]⟩ .f32 ew)))))
      = lnH X (Ideal.ofBits .f32 cw) (Ideal.ofBits .f32 ew) := by
  funext i
  obtain ⟨p, q, rfl⟩ : ∃ (p : Fin M) (q : Fin N), i = ix2 p q := ⟨i 0, i 1, eq_ix2 i⟩
  simp only [Host.divf]
  rw [Cert.HostLayout.bcast_col_mat]
  simp only [Host.sqrt, addf]
  rw [Cert.HostLayout.bcast_scalar_mat]
  rfl

/-- Every row times the vector `g` laid along the rows, plus the vector `b` laid along the rows. -/
theorem hostScaleShift (Y : FVec Ideal ⟨2, ![M, N]⟩ .f32) (g b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) (mulf Y (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 b))
      = scaleShift Y (row g) (row b) := by
  funext i
  obtain ⟨p, q, rfl⟩ : ∃ (p : Fin M) (q : Fin N), i = ix2 p q := ⟨i 0, i 1, eq_ix2 i⟩
  show Y (ix2 p q) * broadcastInDim ⟨2, ![M, N]⟩ ![0, 1] h2 (broadcastInDim ⟨2, ![1, N]⟩ ![1] h1 g) (ix2 p q)
      + broadcastInDim ⟨2, ![M, N]⟩ ![0, 1] h2 (broadcastInDim ⟨2, ![1, N]⟩ ![1] h1 b) (ix2 p q) = _
  rw [Cert.HostLayout.bcast_vec_mat, Cert.HostLayout.bcast_vec_mat]
  rfl

end Host

end Cert.LayerNorm

end
-- ==== Proof.BrhModel.lean ====
/-
  The literal update and the score head on the extended reals, as functions of whole arrays.

  `preLN` is the literal state before the row normalisation: two dense layers on the message (rectified after the
  first, a one-row bias after each) plus a constant times the previous state.  `head` is a two-layer perceptron with
  one-row biases, rectified after the first layer.  `pair` lays the lower half of the rows of a `[4096, 64]` array
  beside the upper half, a `[2048, 128]` array.  The remaining lemmas read the vector unit's spellings of a rectified
  bias and of the quotient by the row's standard deviation as these functions.
-/
import proofs.«170097_g26499948216398_cont_9to1_1103_19_alg».proof.Proof.LibDense
import proofs.«170097_g26499948216398_cont_9to1_1103_19_alg».proof.Proof.LibBiasRow
import proofs.«170097_g26499948216398_cont_9to1_1103_19_alg».proof.Proof.LibLayerNorm

noncomputable section

open scoped BigOperators

namespace Cert.Bridge

open Idealize.ShloMosaic Idealize.ShloMosaic.ValueIdx
open Cert.Dense Cert.BiasRow Cert.LayerNorm

/-- The literal state before the row normalisation. -/
def preLN {M K H N : ℕ} (lm : Mat M K) (w1 : Mat K H) (b1 : Mat 1 H) (w2 : Mat H N) (b2 : Mat 1 N) (c : EReal)
    (L1 : Mat M N) : Mat M N :=
  fun i => addRow (mm (reluBias (mm lm w1) b1) w2) b2 i + c * L1 i

/-- A two-layer perceptron: `(max (P W1 + b1, 0)) W2 + b2`. -/
def head {M K H O : ℕ} (P : Mat M K) (W1 : Mat K H) (b1 : Mat 1 H) (W2 : Mat H O) (b2 : Mat 1 O) : Mat M O :=
  addRow (mm (reluBias (mm P W1) b1) W2) b2

theorem slices_lo : (⟨2, ![4096, 64]⟩ : Shape).Slices ![0, 0] ⟨2, ![2048, 64]⟩ := by decide
theorem slices_hi : (⟨2, ![4096, 64]⟩ : Shape).Slices ![2048, 0] ⟨2, ![2048, 64]⟩ := by decide
theorem concat_halves :
    Shape.Concatenates [(⟨2, ![2048, 64]⟩ : Shape), ⟨2, ![2048, 64]⟩] ⟨2, ![2048, 128]⟩ 1 := by decide

/-- Rows `0 … 2047` beside rows `2048 … 4095`. -/
def pair (Y : Mat 4096 64) : Mat 2048 128 :=
  concatenate ⟨2, ![2048, 128]⟩ 1
    [⟨⟨2, ![2048, 64]⟩, extractStridedSlice ⟨2, ![2048, 64]⟩ ![0, 0] Y slices_lo⟩,
     ⟨⟨2, ![2048, 64]⟩, extractStridedSlice ⟨2, ![2048, 64]⟩ ![2048, 0] Y slices_hi⟩] concat_halves

/-- The maximum of a biased array with a zero splat is the rectified bias layer. -/
theorem vecRelu {M N : ℕ} (X : FVec Ideal ⟨2, ![M, N]⟩ .f32) (b : FVec Ideal ⟨2, ![1, N]⟩ .f32) :
    maximumf (F := Ideal) (φ := .f32) (addRow X b) (broadcast ⟨2, ![M, N]⟩ (Scalar.ofBits (F := Ideal) .f32 0x00000000#32))
      = reluBias X b := by
  funext i
  show max (X i + b (ix2 (0 : Fin 1) (c1 i))) (Ideal.ofBits .f32 0x00000000#32) = max (X i + b (ix2 (0 : Fin 1) (c1 i))) 0
  rw [Ideal.ofBits_zero_f32]

/-- The host's maximum of a biased array with a broadcast scalar zero is the rectified bias layer. -/
theorem hostRelu {M N : ℕ} (X : FVec Ideal ⟨2, ![M, N]⟩ .f32) (b : FVec Ideal ⟨2, ![1, N]⟩ .f32)
    (h0 : (⟨0, ![]⟩ : Shape).BroadcastsInDim ⟨2, ![M, N]⟩ ![]) :
    maximumf (F := Ideal) (φ := .f32) (addRow X b)
        (broadcastInDim ⟨2, ![M, N]⟩ ![] h0 (constant (F := Ideal) ⟨0, ![]⟩ .f32 0x00000000#32))
      = reluBias X b := by
  funext i
  obtain ⟨p, q, rfl⟩ : ∃ (p : Fin M) (q : Fin N), i = ix2 p q := ⟨i 0, i 1, eq_ix2 i⟩
  show max (X (ix2 p q) + b (ix2 (0 : Fin 1) q))
      (broadcastInDim ⟨2, ![M, N]⟩ ![] h0 (constant (F := Ideal) ⟨0, ![]⟩ .f32 0x00000000#32) (ix2 p q)) = _
  rw [Cert.HostLayout.bcast_scalar_mat]
  show max _ (Ideal.ofBits .f32 0x00000000#32) = _
  rw [Ideal.ofBits_zero_f32]
  rfl

/-- A constant splat times an array, in the vector unit's spelling. -/
theorem vecScale {M N : ℕ} (w : BitVec 32) (L : FVec Ideal ⟨2, ![M, N]⟩ .f32) (i : (⟨2, ![M, N]⟩ : Shape).Idx) :
    mulf (F := Ideal) (φ := .f32) (broadcast ⟨2, ![M, N]⟩ (Scalar.ofBits (F := Ideal) .f32 w)) L i
      = Ideal.ofBits .f32 w * L i := rfl

/-- A broadcast scalar constant times an array, in the host's spelling. -/
theorem hostScale {M N : ℕ} (w : BitVec 32) (L : FVec Ideal ⟨2, ![M, N]⟩ .f32)
    (h0 : (⟨0, ![]⟩ : Shape).BroadcastsInDim ⟨2, ![M, N]⟩ ![]) (i : (⟨2, ![M, N]⟩ : Shape).Idx) :
    mulf (F := Ideal) (φ := .f32) (broadcastInDim ⟨2, ![M, N]⟩ ![] h0 (constant (F := Ideal) ⟨0, ![]⟩ .f32 w)) L i
      = Ideal.ofBits .f32 w * L i := by
  obtain ⟨p, q, rfl⟩ : ∃ (p : Fin M) (q : Fin N), i = ix2 p q := ⟨i 0, i 1, eq_ix2 i⟩
  show broadcastInDim ⟨2, ![M, N]⟩ ![] h0 (constant (F := Ideal) ⟨0, ![]⟩ .f32 w) (ix2 p q) * L (ix2 p q) = _
  rw [Cert.HostLayout.bcast_scalar_mat]
  rfl

/-- The deviations over the broadcast square root of the variance column plus the epsilon splat. -/
theorem vecLnH {M N : ℕ} (X : FVec Ideal ⟨2, ![M, N]⟩ .f32) (cw ew : BitVec 32)
    (hb : (⟨2, ![M, 1]⟩ : Shape).Broadcasts ⟨2, ![M, N]⟩) :
    divf (F := Ideal) (φ := .f32) (centered X (Ideal.ofBits .f32 cw))
        (broadcastTo ⟨2, ![M, N]⟩
          (sqrt (F := Ideal) (φ := .f32) (addf (F := Ideal) (φ := .f32)
            (fun i => Ideal.div (sqSum X (Ideal.ofBits .f32 cw) (c0 i)) (Ideal.ofBits .f32 cw))
            (broadcast ⟨2, ![M, 1]⟩ (Scalar.ofBits (F := Ideal) .f32 ew)))) hb)
      = lnH X (Ideal.ofBits .f32 cw) (Ideal.ofBits .f32 ew) := by
  funext i
  obtain ⟨p, q, rfl⟩ : ∃ (p : Fin M) (q : Fin N), i = ix2 p q := ⟨i 0, i 1, eq_ix2 i⟩
  show Ideal.div (centered X (Ideal.ofBits .f32 cw) (ix2 p q)) (broadcastTo ⟨2, ![M, N]⟩ _ hb (ix2 p q)) = _
  rw [Cert.RowBlocks.broadcastTo_col_apply]
  rfl

end Cert.Bridge

end
-- ==== Proof.BrhMlp.lean ====
/-
  The literal stage of the last block, as a function of whole arrays: the transposed accumulator through two dense
  layers (the matrix unit's products into a zero accumulator, one-row biases broadcast along the rows, a maximum with a
  zero splat) plus a constant splat times the transposed previous state.
-/
import proofs.«170097_g26499948216398_cont_9to1_1103_19_alg».proof.Proof.Gen.KernelIdeal.Skeleton
import proofs.«170097_g26499948216398_cont_9to1_1103_19_alg».proof.Proof.BrhModel

noncomputable section

open scoped BigOperators

namespace Cert.Bridge

open Idealize.ShloMosaic Idealize.ShloMosaic.ValueIdx
open Cert.Dense Cert.BiasRow Cert.LayerNorm
open Cert.KernelIdeal

variable [Cert.KernelIdeal.Facts]
open Cert.KernelIdeal.Facts₀ Cert.KernelIdeal.Facts

/-- The vector unit's literal stage is `preLN` of the transposed accumulator and the transposed previous state. -/
theorem pay2_eq (acc L1T : FVec Ideal S64x4096 .f32) (w1 w2 : FVec Ideal S64x64 .f32) (b1r b2r : FVec Ideal S1x64 .f32) :
    Gen.k0_pay2 (F := Ideal) acc L1T w1 b1r w2 b2r
      = preLN (transpose S4096x64 [1, 0] acc transposes_S64x4096_p1_0_S4096x64) w1 b1r w2 b2r
          (Ideal.ofBits .f32 0x3DCCCCCD#32) (transpose S4096x64 [1, 0] L1T transposes_S64x4096_p1_0_S4096x64) := by
  have e1 := matmul_zero_eq_mm (φ₁ := .bf16) (φ₂ := .bf16) dot_S4096x64_S64x64_S4096x64_1_0_0_1_n_n rfl rfl rfl rfl rfl rfl none
  unfold Gen.k0_pay2
  simp only [shapeCast_self, e1, vecAddRow, vecRelu]
  rfl

end Cert.Bridge

end
-- ==== Proof.BrhNorm.lean ====
/-
  The row normalisation of the last block, as functions of whole arrays: the column of row means, the squared
  deviations, and the normalised, scaled and shifted state with its two halves laid side by side.
-/
import proofs.«170097_g26499948216398_cont_9to1_1103_19_alg».proof.Proof.Gen.KernelIdeal.Skeleton
import proofs.«170097_g26499948216398_cont_9to1_1103_19_alg».proof.Proof.BrhModel

noncomputable section

open scoped BigOperators

namespace Cert.Bridge

open Idealize.ShloMosaic Idealize.ShloMosaic.ValueIdx
open Cert.Dense Cert.BiasRow Cert.LayerNorm
open Cert.KernelIdeal

variable [Cert.KernelIdeal.Facts]
open Cert.KernelIdeal.Facts₀ Cert.KernelIdeal.Facts

/-- The count `64` and the epsilon of the normalisation, as the words the programs carry. -/
abbrev cntW : BitVec 32 := 0x42800000#32
abbrev epsW : BitVec 32 := 0x3727C5AC#32

/-- The column of row means of the literal stage. -/
theorem pay5_eq (acc L1T : FVec Ideal S64x4096 .f32) (w1 w2 : FVec Ideal S64x64 .f32) (b1r b2r : FVec Ideal S1x64 .f32) :
    Gen.k0_pay5 (F := Ideal) acc L1T w1 b1r w2 b2r
      = meanCol (Gen.k0_pay2 (F := Ideal) acc L1T w1 b1r w2 b2r) (Ideal.ofBits .f32 cntW) := by
  unfold Gen.k0_pay5
  exact vecMeanCol (Gen.k0_pay2 (F := Ideal) acc L1T w1 b1r w2 b2r) cntW reduces_S4096x64_S4096 (.inl rfl) rfl
    shapeCasts_S4096_S4096x1

/-- The squared deviations of the literal stage from its row means. -/
theorem pay6_eq (acc L1T : FVec Ideal S64x4096 .f32) (w1 w2 : FVec Ideal S64x64 .f32) (b1r b2r : FVec Ideal S1x64 .f32) :
    Gen.k0_pay6 (F := Ideal) acc L1T w1 b1r w2 b2r
      = mulf (F := Ideal) (φ := .f32)
          (centered (Gen.k0_pay2 (F := Ideal) acc L1T w1 b1r w2 b2r) (Ideal.ofBits .f32 cntW))
          (centered (Gen.k0_pay2 (F := Ideal) acc L1T w1 b1r w2 b2r) (Ideal.ofBits .f32 cntW)) := by
  unfold Gen.k0_pay6
  simp only [pay5_eq, vecCentered]

/-- The normalised, scaled and shifted state, its halves side by side. -/
theorem pay7_eq (X : FVec Ideal S4096x64 .f32) (gr br : FVec Ideal S1x64 .f32) :
    Gen.k0_pay7 (F := Ideal) X gr br (meanCol X (Ideal.ofBits .f32 cntW))
        (mulf (F := Ideal) (φ := .f32) (centered X (Ideal.ofBits .f32 cntW)) (centered X (Ideal.ofBits .f32 cntW)))
      = pair (scaleShift (lnH X (Ideal.ofBits .f32 cntW) (Ideal.ofBits .f32 epsW)) gr br) := by
  unfold Gen.k0_pay7
  dsimp only
  rw [vecCentered X broadcasts_S4096x1_S4096x64 (Ideal.ofBits .f32 cntW)]
  rw [vecSqSum X reduces_S4096x64_S4096 (.inl rfl) rfl (Ideal.ofBits .f32 cntW)]
  rw [vecVarCol X cntW shapeCasts_S4096_S4096x1 (Ideal.ofBits .f32 cntW)]
  rw [vecLnH X cntW epsW broadcasts_S4096x1_S4096x64]
  rw [vecScaleShift _ gr br broadcasts_S1x64_S4096x64]
  rfl

end Cert.Bridge

end
-- ==== Proof.BrhHead.lean ====
/-
  The score heads of the last block, as functions of whole arrays: the paired halves through two dense layers (the
  matrix unit's products into a zero accumulator, one-row biases broadcast along the rows, a maximum with a zero splat).
-/
import proofs.«170097_g26499948216398_cont_9to1_1103_19_alg».proof.Proof.Gen.KernelIdeal.Skeleton
import proofs.«170097_g26499948216398_cont_9to1_1103_19_alg».proof.Proof.BrhModel

noncomputable section

open scoped BigOperators

namespace Cert.Bridge

open Idealize.ShloMosaic Idealize.ShloMosaic.ValueIdx
open Cert.Dense Cert.BiasRow Cert.LayerNorm
open Cert.KernelIdeal

variable [Cert.KernelIdeal.Facts]
open Cert.KernelIdeal.Facts₀ Cert.KernelIdeal.Facts

/-- A one-row array cast to its own shape is itself. -/
theorem pay3_eq (x : FVec Ideal S1x64 .f32) : Gen.k0_pay3 (F := Ideal) x = x := by
  unfold Gen.k0_pay3
  exact shapeCast_self x _

theorem pay4_eq (x : FVec Ideal S1x64 .f32) : Gen.k0_pay4 (F := Ideal) x = x := by
  unfold Gen.k0_pay4
  exact shapeCast_self x _

theorem pay9_eq (x : FVec Ideal S1x128 .f32) : Gen.k0_pay9 (F := Ideal) x = x := by
  unfold Gen.k0_pay9
  exact shapeCast_self x _

/-- The second score head of the vector unit is `head` of the paired array. -/
theorem pay1_eq (P : FVec Ideal S2048x128 .f32) (hw1 : FVec Ideal S128x128 .f32) (b1 : FVec Ideal S1x128 .f32)
    (hw2 : FVec Ideal S128x1 .f32) (b2 : FVec Ideal S1x1 .f32) :
    Gen.k0_pay1 (F := Ideal) P hw1 b1 hw2 b2 = head P hw1 b1 hw2 b2 := by
  have e1 := matmul_zero_eq_mm (φ₁ := .bf16) (φ₂ := .bf16) dot_S2048x128_S128x128_S2048x128_1_0_0_1_n_n rfl rfl rfl rfl rfl rfl none
  have e2 := matmul_zero_eq_mm (φ₁ := .bf16) (φ₂ := .bf16) dot_S2048x128_S128x1_S2048x1_1_0_0_1_n_n rfl rfl rfl rfl rfl rfl none
  unfold Gen.k0_pay1
  simp only [shapeCast_self, e1, e2, vecAddRow, vecRelu]
  rfl

/-- The first score head of the vector unit is `head` of the paired array it builds. -/
theorem pay8_eq (X : FVec Ideal S4096x64 .f32) (gr br : FVec Ideal S1x64 .f32) (Mc : FVec Ideal S4096x1 .f32)
    (Q : FVec Ideal S4096x64 .f32) (hw1 : FVec Ideal S128x128 .f32) (b1 : FVec Ideal S1x128 .f32)
    (hw2 : FVec Ideal S128x1 .f32) (b2 : FVec Ideal S1x1 .f32) :
    Gen.k0_pay8 (F := Ideal) X gr br Mc Q hw1 b1 hw2 b2 = head (Gen.k0_pay7 (F := Ideal) X gr br Mc Q) hw1 b1 hw2 b2 := by
  have e1 := matmul_zero_eq_mm (φ₁ := .bf16) (φ₂ := .bf16) dot_S2048x128_S128x128_S2048x128_1_0_0_1_n_n rfl rfl rfl rfl rfl rfl none
  have e2 := matmul_zero_eq_mm (φ₁ := .bf16) (φ₂ := .bf16) dot_S2048x128_S128x1_S2048x1_1_0_0_1_n_n rfl rfl rfl rfl rfl rfl none
  unfold Gen.k0_pay8
  simp only [shapeCast_self, e1, e2, vecAddRow, vecRelu]
  rfl

end Cert.Bridge

end
-- ==== Proof.BrhRef.lean ====
/-
  The reference's literal hop and score heads, as functions of whole arrays: the host's dot products are matrix
  products, its broadcast biases one-row biases, its keepdims reductions the row mean and variance.
-/
import proofs.«170097_g26499948216398_cont_9to1_1103_19_alg».proof.Proof.Spec
import proofs.«170097_g26499948216398_cont_9to1_1103_19_alg».proof.Proof.BrhModel

noncomputable section

open scoped BigOperators

namespace Cert.Bridge

open Idealize.ShloMosaic Idealize.ShloMosaic.ValueIdx
open Cert.Dense Cert.BiasRow Cert.LayerNorm
open Cert.ReferenceIdeal

variable [Cert.ReferenceIdeal.Facts]
open Cert.ReferenceIdeal.Facts₀ Cert.ReferenceIdeal.Facts

theorem reduces_rows : (⟨2, ![4096, 64]⟩ : Shape).Reduces [1] ⟨1, ![4096]⟩ := by decide

/-- The host's sum of the second dense layer and the scaled previous state is `preLN`. -/
theorem hostPreLN {M K H N : ℕ} (lm : Mat M K) (w1 : Mat K H) (b1 : Mat 1 H) (w2 : Mat H N) (b2 : Mat 1 N) (w : BitVec 32)
    (L1 : FVec Ideal ⟨2, ![M, N]⟩ .f32) (h0 : (⟨0, ![]⟩ : Shape).BroadcastsInDim ⟨2, ![M, N]⟩ ![]) :
    addf (F := Ideal) (φ := .f32) (addRow (mm (reluBias (mm lm w1) b1) w2) b2)
        (mulf (F := Ideal) (φ := .f32) (broadcastInDim ⟨2, ![M, N]⟩ ![] h0 (constant (F := Ideal) ⟨0, ![]⟩ .f32 w)) L1)
      = preLN lm w1 b1 w2 b2 (Ideal.ofBits .f32 w) L1 := by
  funext i
  show addRow (mm (reluBias (mm lm w1) b1) w2) b2 i
      + mulf (F := Ideal) (φ := .f32) (broadcastInDim ⟨2, ![M, N]⟩ ![] h0 (constant (F := Ideal) ⟨0, ![]⟩ .f32 w)) L1 i = _
  rw [hostScale]
  rfl

/-- The reference's literal hop: the message through `preLN`, normalised by rows, scaled and shifted. -/
theorem hopL_eq (G : FVec Ideal S10000x4096 .f32) (C2 : FVec Ideal S10000x64 .f32) (w1 : FVec Ideal S64x64 .f32)
    (b1 : FVec Ideal S64 .f32) (w2 : FVec Ideal S64x64 .f32) (b2 : FVec Ideal S64 .f32) (L1 : FVec Ideal S4096x64 .f32)
    (g b : FVec Ideal S64 .f32) :
    Cert.Spec.hopL (F := Ideal) G C2 w1 b1 w2 b2 L1 g b
      = scaleShift
          (lnH (preLN (mm (transpose S4096x10000 [1, 0] G transposes_S10000x4096_S4096x10000_1_0) C2) w1 (row b1) w2
              (row b2) (Ideal.ofBits .f32 0x3DCCCCCD#32) L1)
            (Ideal.ofBits .f32 0x42800000#32) (Ideal.ofBits .f32 0x3727C5AC#32))
          (row g) (row b) := by
  have d1 := hostDot_eq_mm (φ₁ := .f32) (φ₂ := .f32) dot_S4096x10000_S10000x64_S4096x64_1_0_0_1_n_n rfl rfl rfl rfl rfl rfl none
  have d2 := hostDot_eq_mm (φ₁ := .f32) (φ₂ := .f32) dot_S4096x64_S64x64_S4096x64_1_0_0_1_n_n rfl rfl rfl rfl rfl rfl none
  unfold Cert.Spec.hopL
  simp only [d1, d2]
  rw [hostAddRow _ b1 bcast_S64_S1x64_1 bcast_S1x64_S4096x64_0_1]
  rw [hostRelu _ _ bcast_S_S4096x64]
  rw [hostAddRow _ b2 bcast_S64_S1x64_1 bcast_S1x64_S4096x64_0_1]
  rw [hostPreLN _ w1 (row b1) w2 (row b2) 0x3DCCCCCD#32 L1 bcast_S_S4096x64]
  generalize preLN (mm (transpose S4096x10000 [1, 0] G transposes_S10000x4096_S4096x10000_1_0) C2) w1 (row b1) w2
      (row b2) (Ideal.ofBits .f32 0x3DCCCCCD#32) L1 = X
  rw [hostMeanCol X 0x42800000#32 reducesTo_S4096x64_S4096_d1 h_S_ bcast_S4096_S4096x1_0 bcast_S_S4096x1 reduces_rows]
  rw [hostCentered X bcast_S4096x1_S4096x64_0_1 (Ideal.ofBits .f32 0x42800000#32)]
  rw [hostVarCol X 0x42800000#32 reducesTo_S4096x64_S4096_d1 h_S_ bcast_S4096_S4096x1_0 bcast_S_S4096x1 reduces_rows
    (Ideal.ofBits .f32 0x42800000#32)]
  rw [hostLnH X 0x42800000#32 0x3727C5AC#32 bcast_S_S4096x1 bcast_S4096x1_S4096x64_0_1]
  rw [hostScaleShift _ g b bcast_S64_S1x64_1 bcast_S1x64_S4096x64_0_1]

/-- The reference's first score head is `head` of the paired halves. -/
theorem headD_eq (Y : FVec Ideal S4096x64 .f32) (hw1 : FVec Ideal S128x128 .f32) (hb1 : FVec Ideal S128 .f32)
    (hw2 : FVec Ideal S128x1 .f32) (hb2 : FVec Ideal S1 .f32) :
    Cert.Spec.headD (F := Ideal) Y hw1 hb1 hw2 hb2 = head (pair Y) hw1 (row hb1) hw2 (row hb2) := by
  have d1 := hostDot_eq_mm (φ₁ := .f32) (φ₂ := .f32) dot_S2048x128_S128x128_S2048x128_1_0_0_1_n_n rfl rfl rfl rfl rfl rfl none
  have d2 := hostDot_eq_mm (φ₁ := .f32) (φ₂ := .f32) dot_S2048x128_S128x1_S2048x1_1_0_0_1_n_n rfl rfl rfl rfl rfl rfl none
  unfold Cert.Spec.headD
  simp only [d1, d2]
  rw [hostAddRow _ hb1 bcast_S128_S1x128_1 bcast_S1x128_S2048x128_0_1]
  rw [hostRelu _ _ bcast_S_S2048x128]
  rw [hostAddRow _ hb2 bcast_S1_S1x1_1 bcast_S1x1_S2048x1_0_1]
  rfl

/-- The reference's second score head is `head` of the paired halves. -/
theorem headC_eq (Y : FVec Ideal S4096x64 .f32) (hw1 : FVec Ideal S128x128 .f32) (hb1 : FVec Ideal S128 .f32)
    (hw2 : FVec Ideal S128x1 .f32) (hb2 : FVec Ideal S1 .f32) :
    Cert.Spec.headC (F := Ideal) Y hw1 hb1 hw2 hb2 = head (pair Y) hw1 (row hb1) hw2 (row hb2) := by
  have d1 := hostDot_eq_mm (φ₁ := .f32) (φ₂ := .f32) dot_S2048x128_S128x128_S2048x128_1_0_0_1_n_n rfl rfl rfl rfl rfl rfl none
  have d2 := hostDot_eq_mm (φ₁ := .f32) (φ₂ := .f32) dot_S2048x128_S128x1_S2048x1_1_0_0_1_n_n rfl rfl rfl rfl rfl rfl none
  unfold Cert.Spec.headC
  simp only [d1, d2]
  rw [hostAddRow _ hb1 bcast_S128_S1x128_1 bcast_S1x128_S2048x128_0_1]
  rw [hostRelu _ _ bcast_S_S2048x128]
  rw [hostAddRow _ hb2 bcast_S1_S1x1_1 bcast_S1x1_S2048x1_0_1]
  rfl

end Cert.Bridge

end
-- ==== Proof.BridgeHeads.lean ====
/-
  The two score heads: the last block's arithmetic on the accumulated message equals the reference's literal hop
  followed by its score head, as whole arrays on the extended reals.

  The accumulator holds, at `(q, p)`, the sum over the clauses `r` of `C2(r, q) · G(r, p)`; its transpose is the
  reference's product of the transposed adjacency with the clause state, factor by factor commuted.  From there both
  sides apply the same functions of whole arrays: `preLN`, the row normalisation, the scale and shift, the pairing of
  the halves and `head`; a vector cast to one row is the row the reference broadcasts.
-/
import proofs.«170097_g26499948216398_cont_9to1_1103_19_alg».proof.Proof.BrhMlp
import proofs.«170097_g26499948216398_cont_9to1_1103_19_alg».proof.Proof.BrhNorm
import proofs.«170097_g26499948216398_cont_9to1_1103_19_alg».proof.Proof.BrhHead
import proofs.«170097_g26499948216398_cont_9to1_1103_19_alg».proof.Proof.BrhRef

noncomputable section

open scoped BigOperators

namespace Cert.Bridge

open Idealize.ShloMosaic Idealize.ShloMosaic.ValueIdx
open Cert.Dense Cert.BiasRow Cert.LayerNorm
open Cert.KernelIdeal

variable [Cert.KernelIdeal.Facts] [Cert.ReferenceIdeal.Facts]
open Cert.KernelIdeal.Facts₀ Cert.KernelIdeal.Facts

/-- The transposed accumulator is the reference's message: the transposed adjacency times the clause state. -/
theorem lmsg_eq (G : FVec Ideal S10000x4096 .f32) (C2 : FVec Ideal S10000x64 .f32) (acc : FVec Ideal S64x4096 .f32)
    (hacc : ∀ (q : Fin 64) (p : Fin 4096), acc (ix2 q p) = ∑ r : Fin 10000, C2 (ix2 r q) * G (ix2 r p)) :
    transpose S4096x64 [1, 0] acc transposes_S64x4096_p1_0_S4096x64
      = mm (transpose Cert.ReferenceIdeal.S4096x10000 [1, 0] G
          Cert.ReferenceIdeal.Facts₀.transposes_S10000x4096_S4096x10000_1_0) C2 := by
  funext i
  obtain ⟨p, q, rfl⟩ : ∃ (p : Fin 4096) (q : Fin 64), i = ix2 p q := ⟨i 0, i 1, eq_ix2 i⟩
  rw [transpose_ix2_apply acc _ p q, hacc q p, mm_apply]
  refine Finset.sum_congr rfl fun r _ => ?_
  rw [transpose_ix2_apply G _ p r, mul_comm]

/-- A transpose of a transpose is the array. -/
theorem transpose_transpose (L1 : FVec Ideal S4096x64 .f32) :
    transpose S4096x64 [1, 0] (transpose S64x4096 [1, 0] L1 transposes_S4096x64_S64x4096_1_0)
      transposes_S64x4096_p1_0_S4096x64 = L1 := by
  funext i
  obtain ⟨p, q, rfl⟩ : ∃ (p : Fin 4096) (q : Fin 64), i = ix2 p q := ⟨i 0, i 1, eq_ix2 i⟩
  rw [transpose_ix2_apply _ _ p q, transpose_ix2_apply L1 _ q p]

/-- The normalised literal state of the last block is the reference's literal hop. -/
theorem state_eq (G : FVec Ideal S10000x4096 .f32) (C2 : FVec Ideal S10000x64 .f32) (L1 : FVec Ideal S4096x64 .f32)
    (w1 : FVec Ideal S64x64 .f32) (b1 : FVec Ideal S64 .f32) (w2 : FVec Ideal S64x64 .f32) (b2 g b : FVec Ideal S64 .f32)
    (acc : FVec Ideal S64x4096 .f32)
    (hacc : ∀ (q : Fin 64) (p : Fin 4096), acc (ix2 q p) = ∑ r : Fin 10000, C2 (ix2 r q) * G (ix2 r p)) :
    scaleShift
        (lnH (Gen.k0_pay2 (F := Ideal) acc (transpose S64x4096 [1, 0] L1 transposes_S4096x64_S64x4096_1_0) w1
              (shapeCast S1x64 b1 shapeCasts_S64_S1x64) w2 (shapeCast S1x64 b2 shapeCasts_S64_S1x64))
          (Ideal.ofBits .f32 cntW) (Ideal.ofBits .f32 epsW))
        (shapeCast S1x64 g shapeCasts_S64_S1x64) (shapeCast S1x64 b shapeCasts_S64_S1x64)
      = Cert.Spec.hopL (F := Ideal) G C2 w1 b1 w2 b2 L1 g b := by
  rw [pay2_eq, lmsg_eq G C2 acc hacc, transpose_transpose, hopL_eq]
  rw [shapeCast_row b1, shapeCast_row b2, shapeCast_row g, shapeCast_row b]

/-- The first score head. -/
theorem drat_eq (G : FVec Ideal S10000x4096 .f32) (C2 : FVec Ideal S10000x64 .f32) (L1 : FVec Ideal S4096x64 .f32)
    (w1 : FVec Ideal S64x64 .f32) (b1 : FVec Ideal S64 .f32) (w2 : FVec Ideal S64x64 .f32) (b2 g b : FVec Ideal S64 .f32)
    (hw1 : FVec Ideal S128x128 .f32) (hb1 : FVec Ideal S128 .f32) (hw2 : FVec Ideal S128x1 .f32) (hb2 : FVec Ideal S1 .f32)
    (acc : FVec Ideal S64x4096 .f32)
    (hacc : ∀ (q : Fin 64) (p : Fin 4096), acc (ix2 q p) = ∑ r : Fin 10000, C2 (ix2 r q) * G (ix2 r p)) :
    Gen.k0_pay8 (F := Ideal)
        (Gen.k0_pay2 (F := Ideal) acc (transpose S64x4096 [1, 0] L1 transposes_S4096x64_S64x4096_1_0) w1
          (shapeCast S1x64 b1 shapeCasts_S64_S1x64) w2 (shapeCast S1x64 b2 shapeCasts_S64_S1x64))
        (Gen.k0_pay3 (F := Ideal) (shapeCast S1x64 g shapeCasts_S64_S1x64))
        (Gen.k0_pay4 (F := Ideal) (shapeCast S1x64 b shapeCasts_S64_S1x64))
        (Gen.k0_pay5 (F := Ideal) acc (transpose S64x4096 [1, 0] L1 transposes_S4096x64_S64x4096_1_0) w1
          (shapeCast S1x64 b1 shapeCasts_S64_S1x64) w2 (shapeCast S1x64 b2 shapeCasts_S64_S1x64))
        (Gen.k0_pay6 (F := Ideal) acc (transpose S64x4096 [1, 0] L1 transposes_S4096x64_S64x4096_1_0) w1
          (shapeCast S1x64 b1 shapeCasts_S64_S1x64) w2 (shapeCast S1x64 b2 shapeCasts_S64_S1x64))
        hw1 (shapeCast S1x128 hb1 shapeCasts_S128_S1x128) hw2 (shapeCast S1x1 hb2 shapeCasts_S1_S1x1)
      = Cert.Spec.headD (F := Ideal) (Cert.Spec.hopL (F := Ideal) G C2 w1 b1 w2 b2 L1 g b) hw1 hb1 hw2 hb2 := by
  rw [pay8_eq, pay3_eq, pay4_eq, pay5_eq, pay6_eq, pay7_eq, state_eq G C2 L1 w1 b1 w2 b2 g b acc hacc, headD_eq,
    shapeCast_row hb1, shapeCast_row hb2]

/-- The second score head. -/
theorem core_eq (G : FVec Ideal S10000x4096 .f32) (C2 : FVec Ideal S10000x64 .f32) (L1 : FVec Ideal S4096x64 .f32)
    (w1 : FVec Ideal S64x64 .f32) (b1 : FVec Ideal S64 .f32) (w2 : FVec Ideal S64x64 .f32) (b2 g b : FVec Ideal S64 .f32)
    (hw1 : FVec Ideal S128x128 .f32) (hb1 : FVec Ideal S128 .f32) (hw2 : FVec Ideal S128x1 .f32) (hb2 : FVec Ideal S1 .f32)
    (acc : FVec Ideal S64x4096 .f32)
    (hacc : ∀ (q : Fin 64) (p : Fin 4096), acc (ix2 q p) = ∑ r : Fin 10000, C2 (ix2 r q) * G (ix2 r p)) :
    Gen.k0_pay1 (F := Ideal)
        (Gen.k0_pay7 (F := Ideal)
          (Gen.k0_pay2 (F := Ideal) acc (transpose S64x4096 [1, 0] L1 transposes_S4096x64_S64x4096_1_0) w1
            (shapeCast S1x64 b1 shapeCasts_S64_S1x64) w2 (shapeCast S1x64 b2 shapeCasts_S64_S1x64))
          (Gen.k0_pay3 (F := Ideal) (shapeCast S1x64 g shapeCasts_S64_S1x64))
          (Gen.k0_pay4 (F := Ideal) (shapeCast S1x64 b shapeCasts_S64_S1x64))
          (Gen.k0_pay5 (F := Ideal) acc (transpose S64x4096 [1, 0] L1 transposes_S4096x64_S64x4096_1_0) w1
            (shapeCast S1x64 b1 shapeCasts_S64_S1x64) w2 (shapeCast S1x64 b2 shapeCasts_S64_S1x64))
          (Gen.k0_pay6 (F := Ideal) acc (transpose S64x4096 [1, 0] L1 transposes_S4096x64_S64x4096_1_0) w1
            (shapeCast S1x64 b1 shapeCasts_S64_S1x64) w2 (shapeCast S1x64 b2 shapeCasts_S64_S1x64)))
        hw1 (Gen.k0_pay9 (F := Ideal) (shapeCast S1x128 hb1 shapeCasts_S128_S1x128)) hw2
        (shapeCast S1x1 hb2 shapeCasts_S1_S1x1)
      = Cert.Spec.headC (F := Ideal) (Cert.Spec.hopL (F := Ideal) G C2 w1 b1 w2 b2 L1 g b) hw1 hb1 hw2 hb2 := by
  rw [pay1_eq, pay9_eq, pay3_eq, pay4_eq, pay5_eq, pay6_eq, pay7_eq, state_eq G C2 L1 w1 b1 w2 b2 g b acc hacc, headC_eq,
    shapeCast_row hb1, shapeCast_row hb2]

end Cert.Bridge

end
-- ==== Proof.KerFinalHeads.lean ====
/-
  The two score-head arrays after the run. Only the last point writes them back, and its block is the whole
  [2048, 1] array; what it holds there is the head computed from the accumulated product, which is the network's
  head of the second literal state: the literal update and layer-norm of the message G^T·C2 plus a tenth of L1.
-/
import proofs.«170097_g26499948216398_cont_9to1_1103_19_alg».proof.Proof.Gen.KernelIdeal.Frame
import Idealize.ShloMosaic.Lib.Pipeline.Value
import proofs.«170097_g26499948216398_cont_9to1_1103_19_alg».proof.Proof.KerFinalAcc
import proofs.«170097_g26499948216398_cont_9to1_1103_19_alg».proof.Proof.BridgeHeads
import proofs.«170097_g26499948216398_cont_9to1_1103_19_alg».proof.Proof.Gen.KernelIdeal.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open ValueIdx
open Idealize.ShloMosaic.Pipeline (Dat)

variable (m : (ℓ : Loc nD τ sig) → Buf (Elt Ideal) ℓ)

theorem h9 : (9 : ℕ) < cfg0.N := by rw [show cfg0.N = 10 from N_0]; decide

/-- What the last point leaves in the first head's block is the network's first result. -/
theorem drat_last (c : Dev nD) :
    dratK (accK m c (8 + 1) h9) (iblk m c 2 (⟨8 + 1, h9⟩ : Fin cfg0.N)) (iblk m c 3 (⟨8 + 1, h9⟩ : Fin cfg0.N)) (iblk m c 4 (⟨8 + 1, h9⟩ : Fin cfg0.N)) (iblk m c 5 (⟨8 + 1, h9⟩ : Fin cfg0.N)) (iblk m c 6 (⟨8 + 1, h9⟩ : Fin cfg0.N)) (iblk m c 7 (⟨8 + 1, h9⟩ : Fin cfg0.N)) (iblk m c 8 (⟨8 + 1, h9⟩ : Fin cfg0.N)) (iblk m c 9 (⟨8 + 1, h9⟩ : Fin cfg0.N)) (iblk m c 10 (⟨8 + 1, h9⟩ : Fin cfg0.N)) (iblk m c 11 (⟨8 + 1, h9⟩ : Fin cfg0.N)) (iblk m c 12 (⟨8 + 1, h9⟩ : Fin cfg0.N)) = Cert.Spec.out0 (KerHost.argsOf m c) := by
  rw [iblk2 m c, iblk3 m c, iblk4 m c, iblk5 m c, iblk6 m c, iblk7 m c, iblk8 m c, iblk9 m c, iblk10 m c, iblk11 m c, iblk12 m c,
    KerHost.V_v94 m c, V_main_arg8, KerHost.V_v96 m c, V_main_arg10, KerHost.V_v97 m c, KerHost.V_v98 m c, KerHost.V_v99 m c, V_main_arg12, KerHost.V_v100 m c, V_main_arg14, KerHost.V_v101 m c]
  exact Cert.Bridge.drat_eq (KerHost.argsOf m c).a0 (Cert.Spec.C2 (KerHost.argsOf m c)) (Cert.Spec.L1 (KerHost.argsOf m c)) (KerHost.argsOf m c).a8 (KerHost.argsOf m c).a9
    (KerHost.argsOf m c).a10 (KerHost.argsOf m c).a11 (KerHost.argsOf m c).a2 (KerHost.argsOf m c).a3 (KerHost.argsOf m c).a12 (KerHost.argsOf m c).a13 (KerHost.argsOf m c).a14 (KerHost.argsOf m c).a15
    (accK m c (8 + 1) h9) (acc_last m c h9)

/-- What the last point leaves in the second head's block is the network's second result. -/
theorem core_last (c : Dev nD) :
    coreK (accK m c (8 + 1) h9) (iblk m c 2 (⟨8 + 1, h9⟩ : Fin cfg0.N)) (iblk m c 3 (⟨8 + 1, h9⟩ : Fin cfg0.N)) (iblk m c 4 (⟨8 + 1, h9⟩ : Fin cfg0.N)) (iblk m c 5 (⟨8 + 1, h9⟩ : Fin cfg0.N)) (iblk m c 6 (⟨8 + 1, h9⟩ : Fin cfg0.N)) (iblk m c 7 (⟨8 + 1, h9⟩ : Fin cfg0.N)) (iblk m c 8 (⟨8 + 1, h9⟩ : Fin cfg0.N)) (iblk m c 13 (⟨8 + 1, h9⟩ : Fin cfg0.N)) (iblk m c 14 (⟨8 + 1, h9⟩ : Fin cfg0.N)) (iblk m c 15 (⟨8 + 1, h9⟩ : Fin cfg0.N)) (iblk m c 16 (⟨8 + 1, h9⟩ : Fin cfg0.N)) = Cert.Spec.out1 (KerHost.argsOf m c) := by
  rw [iblk2 m c, iblk3 m c, iblk4 m c, iblk5 m c, iblk6 m c, iblk7 m c, iblk8 m c, iblk13 m c, iblk14 m c, iblk15 m c, iblk16 m c,
    KerHost.V_v94 m c, V_main_arg8, KerHost.V_v96 m c, V_main_arg10, KerHost.V_v97 m c, KerHost.V_v98 m c, KerHost.V_v99 m c, V_main_arg16, KerHost.V_v102 m c, V_main_arg18, KerHost.V_v103 m c]
  exact Cert.Bridge.core_eq (KerHost.argsOf m c).a0 (Cert.Spec.C2 (KerHost.argsOf m c)) (Cert.Spec.L1 (KerHost.argsOf m c)) (KerHost.argsOf m c).a8 (KerHost.argsOf m c).a9
    (KerHost.argsOf m c).a10 (KerHost.argsOf m c).a11 (KerHost.argsOf m c).a2 (KerHost.argsOf m c).a3 (KerHost.argsOf m c).a16 (KerHost.argsOf m c).a17 (KerHost.argsOf m c).a18 (KerHost.argsOf m c).a19
    (accK m c (8 + 1) h9) (acc_last m c h9)

/-- The one write-back of the first head, at the last point, writes the network's first result: its block is the array. -/
theorem flushed21_eq (c : Dev nD) (t : Fin cfg0.N) (hf : (cfg0.win 21).flush t = true) :
    (dats m 0 c).flushed 21 t = ((cfg0.win 21).blk t).view.read (Elt Ideal) (Cert.Spec.out0 (KerHost.argsOf m c)) := by
  have hN : cfg0.N = 10 := N_0
  have h3 : t.val = 9 := by have := (flush0_21 t).mp hf; have := t.isLt; omega
  obtain rfl : t = t0_9 := Fin.ext h3
  show (cfg0.win 21).cut (grid0.coords t0_9) ((dats m 0 c).after 21 t0_9) = _
  rw [after0_21]
  have e := out21_eq m c 8 h9 rfl
  rw [show (outsAt0 m c t0_9.val t0_9.isLt).1 = _ from e]
  rw [drat_last m c]
  have hz' : (fun a => win0_21.index t0_9 a * main_v106_0.ty.shape.size a) = fun _ => 0 := funext fun a => by fin_cases a <;> decide
  exact (Memref.read_access_unit_zero (Elt Ideal) main_v106_0 hz' (fun a => by rw [congrFun hz' a]; simp) (Cert.Spec.out0 (KerHost.argsOf m c))).symm

theorem flushed22_eq (c : Dev nD) (t : Fin cfg0.N) (hf : (cfg0.win 22).flush t = true) :
    (dats m 0 c).flushed 22 t = ((cfg0.win 22).blk t).view.read (Elt Ideal) (Cert.Spec.out1 (KerHost.argsOf m c)) := by
  have hN : cfg0.N = 10 := N_0
  have h3 : t.val = 9 := by have := (flush0_22 t).mp hf; have := t.isLt; omega
  obtain rfl : t = t0_9 := Fin.ext h3
  show (cfg0.win 22).cut (grid0.coords t0_9) ((dats m 0 c).after 22 t0_9) = _
  rw [after0_22]
  have e := out22_eq m c 8 h9 rfl
  rw [show (outsAt0 m c t0_9.val t0_9.isLt).2.1 = _ from e]
  rw [core_last m c]
  have hz' : (fun a => win0_22.index t0_9 a * main_v106_1.ty.shape.size a) = fun _ => 0 := funext fun a => by fin_cases a <;> decide
  exact (Memref.read_access_unit_zero (Elt Ideal) main_v106_1 hz' (fun a => by rw [congrFun hz' a]; simp) (Cert.Spec.out1 (KerHost.argsOf m c))).symm

/-- Every index of a head array lies in the last point's block. -/
theorem cover21 (i : S2048x1.Idx) : ∃ t : Fin cfg0.N, (cfg0.win 21).flush t = true ∧ i ∈ ((cfg0.win 21).blk t).view.set :=
  ⟨t0_9, (flush0_21 t0_9).mpr rfl, by
    show i ∈ ((View.whole main_v106_0).slice (win0_21.rect t0_9)).set
    rw [View.set_slice_whole, Rect.mem_set_unit]
    intro a
    have h0 : (i 0 : Nat) < 2048 := (i 0).isLt
    have h1 : (i 1 : Nat) < 1 := (i 1).isLt
    match a with
    | ⟨0, _⟩ => show win0_21.index t0_9 0 * win0_21.size 0 ≤ (i 0 : Nat) ∧ (i 0 : Nat) < win0_21.index t0_9 0 * win0_21.size 0 + win0_21.xsize (grid0.coords t0_9) 0
                rw [show win0_21.index t0_9 0 * win0_21.size 0 = 0 from by decide +kernel, show win0_21.xsize (grid0.coords t0_9) 0 = 2048 from by decide +kernel]; omega
    | ⟨1, _⟩ => show win0_21.index t0_9 1 * win0_21.size 1 ≤ (i 1 : Nat) ∧ (i 1 : Nat) < win0_21.index t0_9 1 * win0_21.size 1 + win0_21.xsize (grid0.coords t0_9) 1
                rw [show win0_21.index t0_9 1 * win0_21.size 1 = 0 from by decide +kernel, show win0_21.xsize (grid0.coords t0_9) 1 = 1 from by decide +kernel]; omega⟩

theorem cover22 (i : S2048x1.Idx) : ∃ t : Fin cfg0.N, (cfg0.win 22).flush t = true ∧ i ∈ ((cfg0.win 22).blk t).view.set :=
  ⟨t0_9, (flush0_22 t0_9).mpr rfl, by
    show i ∈ ((View.whole main_v106_1).slice (win0_22.rect t0_9)).set
    rw [View.set_slice_whole, Rect.mem_set_unit]
    intro a
    have h0 : (i 0 : Nat) < 2048 := (i 0).isLt
    have h1 : (i 1 : Nat) < 1 := (i 1).isLt
    match a with
    | ⟨0, _⟩ => show win0_22.index t0_9 0 * win0_22.size 0 ≤ (i 0 : Nat) ∧ (i 0 : Nat) < win0_22.index t0_9 0 * win0_22.size 0 + win0_22.xsize (grid0.coords t0_9) 0
                rw [show win0_22.index t0_9 0 * win0_22.size 0 = 0 from by decide +kernel, show win0_22.xsize (grid0.coords t0_9) 0 = 2048 from by decide +kernel]; omega
    | ⟨1, _⟩ => show win0_22.index t0_9 1 * win0_22.size 1 ≤ (i 1 : Nat) ∧ (i 1 : Nat) < win0_22.index t0_9 1 * win0_22.size 1 + win0_22.xsize (grid0.coords t0_9) 1
                rw [show win0_22.index t0_9 1 * win0_22.size 1 = 0 from by decide +kernel, show win0_22.xsize (grid0.coords t0_9) 1 = 1 from by decide +kernel]; omega⟩

/-- So the two head arrays end holding the network's first and second results. -/
theorem final21 (c : Dev nD) : (dats m 0 c).arrAt 21 cfg0.N = Cert.Spec.out0 (KerHost.argsOf m c) :=
  (dats m 0 c).arrAt_eq_of_cover 21 (Cert.Spec.out0 (KerHost.argsOf m c)) (flushed21_eq m c) cover21

theorem final22 (c : Dev nD) : (dats m 0 c).arrAt 22 cfg0.N = Cert.Spec.out1 (KerHost.argsOf m c) :=
  (dats m 0 c).arrAt_eq_of_cover 22 (Cert.Spec.out1 (KerHost.argsOf m c)) (flushed22_eq m c) cover22

end Cert.KernelIdeal.Gen

end
-- ==== Proof.KerFinalCs.lean ====
/-
  The clause-score array after the run. Point t writes back rows 1000·t … 1000·t+999, and what it holds there is the
  head applied to those rows of the clause state, which is those rows of the network's third result (a row of the head
  depends only on the same row of its input); the ten blocks tile the ten thousand rows.
-/
import proofs.«170097_g26499948216398_cont_9to1_1103_19_alg».proof.Proof.Gen.KernelIdeal.Frame
import Idealize.ShloMosaic.Lib.Pipeline.Value
import proofs.«170097_g26499948216398_cont_9to1_1103_19_alg».proof.Proof.KerFinalAcc
import proofs.«170097_g26499948216398_cont_9to1_1103_19_alg».proof.Proof.Gen.KernelIdeal.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open ValueIdx
open Idealize.ShloMosaic.Pipeline (Dat)

variable (m : (ℓ : Loc nD τ sig) → Buf (Elt Ideal) ℓ)

/-- An index of the array is in point `t`'s block iff each coordinate is in the block's range on its axis. -/
theorem mem_blk23 (t : Fin cfg0.N) (i : S10000x1.Idx) :
    i ∈ ((cfg0.win 23).blk t).view.set ↔ ∀ a : Fin 2, win0_23.index t a * S1000x1.size a ≤ (i a).val ∧ (i a).val < win0_23.index t a * S1000x1.size a + S1000x1.size a := by
  show i ∈ ((View.whole main_v106_2).slice (win0_23.rect t)).set ↔ _
  rw [View.set_slice_whole, Rect.mem_set_unit]
  exact Iff.rfl

/-- What point `t` writes back is block `t` of the network's third result. -/
theorem flushed23_eq (c : Dev nD) (t : Fin cfg0.N) :
    (dats m 0 c).flushed 23 t = ((cfg0.win 23).blk t).view.read (Elt Ideal) (Cert.Spec.out2 (KerHost.argsOf m c)) := by
  have hN : cfg0.N = 10 := N_0
  show (cfg0.win 23).cut (grid0.coords t) ((dats m 0 c).after 23 t) = _
  rw [after0_23, out23_eq m c t.val t.isLt]
  funext j
  obtain ⟨r, u, rfl⟩ : ∃ (r : Fin 1000) (u : Fin 1), j = ix2 r u := ⟨j 0, j 1, eq_ix2 j⟩
  obtain rfl : u = 0 := Subsingleton.elim _ _
  rw [View.read_apply]
  have hemb : ((cfg0.win 23).blk t).view.emb (ix2 r (0 : Fin 1)) = ix2 ⟨1000 * t.val + r.val, by have := t.isLt; omega⟩ (0 : Fin 1) := by
    funext a; apply Fin.ext
    match a with
    | ⟨0, _⟩ => show win0_23.index t (0 : Fin 2) * 1000 + 1 * r.val = 1000 * t.val + r.val; rw [(idx23 t).1]; omega
    | ⟨1, _⟩ => show win0_23.index t (1 : Fin 2) * 1 + 1 * 0 = 0; rw [(idx23 t).2]
  rw [hemb]
  show k0_pay14 _ _ _ _ _ (ix2 r 0) = _
  rw [iblk17 m c, iblk18 m c, iblk19 m c, iblk20 m c, V_main_arg20, KerHost.V_v104 m c, V_main_arg22, KerHost.V_v105 m c]
  exact Cert.Bridge.cs_eq (Cert.Spec.C2 (KerHost.argsOf m c)) (KerHost.argsOf m c).a20 (KerHost.argsOf m c).a21 (KerHost.argsOf m c).a22 (KerHost.argsOf m c).a23
    ⟨t.val, by have := t.isLt; omega⟩ (rowsAt (grid0.coords t) (c2K m c))
    (fun r k => (rowsAt_apply t (c2K m c) r k).trans (c2K_apply m c _ k)) r

/-- The ten blocks tile the rows. -/
theorem cover23 (i : S10000x1.Idx) : ∃ t : Fin cfg0.N, (cfg0.win 23).flush t = true ∧ i ∈ ((cfg0.win 23).blk t).view.set := by
  have hN : cfg0.N = 10 := N_0
  have hi0 : (i 0).val < 10000 := (i 0).isLt
  have hi1 : (i 1).val < 1 := (i 1).isLt
  refine ⟨⟨(i 0).val / 1000, by omega⟩, flush0_23 _, ?_⟩
  rw [mem_blk23]
  intro a
  match a with
  | ⟨0, _⟩ => show win0_23.index _ (0 : Fin 2) * 1000 ≤ (i 0).val ∧ (i 0).val < win0_23.index _ (0 : Fin 2) * 1000 + 1000
              rw [(idx23 _).1]; dsimp only; omega
  | ⟨1, _⟩ => show win0_23.index _ (1 : Fin 2) * 1 ≤ (i 1).val ∧ (i 1).val < win0_23.index _ (1 : Fin 2) * 1 + 1
              rw [(idx23 _).2]; omega

/-- So the clause-score array ends holding the network's third result. -/
theorem final23 (c : Dev nD) : (dats m 0 c).arrAt 23 cfg0.N = Cert.Spec.out2 (KerHost.argsOf m c) :=
  (dats m 0 c).arrAt_eq_of_cover 23 (Cert.Spec.out2 (KerHost.argsOf m c)) (fun t _ => flushed23_eq m c t) cover23

end Cert.KernelIdeal.Gen

end
-- ==== Proof.KerRun.lean ====
/-
  The idealized kernel's run with its three result arrays named: they end at the network's three results of the
  launch contents of the argument arrays, which end unchanged.
-/
import proofs.«170097_g26499948216398_cont_9to1_1103_19_alg».proof.Proof.Gen.KernelIdeal.Frame
import Idealize.ShloMosaic.Lib.Pipeline.Value
import proofs.«170097_g26499948216398_cont_9to1_1103_19_alg».proof.Proof.KerFinalHeads
import proofs.«170097_g26499948216398_cont_9to1_1103_19_alg».proof.Proof.KerFinalCs
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

theorem run_net : θ_run defs (onTc (τ := τ) (main (F := Ideal))) ⟨m, fun _ => 0, ρ⟩ fun r => ∀ c : Dev nD,
      r.2.mem ((c : Thread nD τ).loc main_v106_0) = Cert.Spec.out0 (KerHost.argsOf m c)
      ∧ r.2.mem ((c : Thread nD τ).loc main_v106_1) = Cert.Spec.out1 (KerHost.argsOf m c)
      ∧ r.2.mem ((c : Thread nD τ).loc main_v106_2) = Cert.Spec.out2 (KerHost.argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(Cert.KernelIdeal.Value.post21 m r h c).trans (final21 m c),
      (Cert.KernelIdeal.Value.post22 m r h c).trans (final22 m c),
      (Cert.KernelIdeal.Value.post23 m r h c).trans (final23 m c),
      Cert.KernelIdeal.Value.kept_main_arg0 m r h c,
      Cert.KernelIdeal.Value.kept_main_arg1 m r h c,
      Cert.KernelIdeal.Value.kept_main_arg2 m r h c,
      Cert.KernelIdeal.Value.kept_main_arg3 m r h c,
      Cert.KernelIdeal.Value.kept_main_arg4 m r h c,
      Cert.KernelIdeal.Value.kept_main_arg5 m r h c,
      Cert.KernelIdeal.Value.kept_main_arg6 m r h c,
      Cert.KernelIdeal.Value.kept_main_arg7 m r h c,
      Cert.KernelIdeal.Value.kept_main_arg8 m r h c,
      Cert.KernelIdeal.Value.kept_main_arg9 m r h c,
      Cert.KernelIdeal.Value.kept_main_arg10 m r h c,
      Cert.KernelIdeal.Value.kept_main_arg11 m r h c,
      Cert.KernelIdeal.Value.kept_main_arg12 m r h c,
      Cert.KernelIdeal.Value.kept_main_arg13 m r h c,
      Cert.KernelIdeal.Value.kept_main_arg14 m r h c,
      Cert.KernelIdeal.Value.kept_main_arg15 m r h c,
      Cert.KernelIdeal.Value.kept_main_arg16 m r h c,
      Cert.KernelIdeal.Value.kept_main_arg17 m r h c,
      Cert.KernelIdeal.Value.kept_main_arg18 m r h c,
      Cert.KernelIdeal.Value.kept_main_arg19 m r h c,
      Cert.KernelIdeal.Value.kept_main_arg20 m r h c,
      Cert.KernelIdeal.Value.kept_main_arg21 m r h c,
      Cert.KernelIdeal.Value.kept_main_arg22 m r h c,
      Cert.KernelIdeal.Value.kept_main_arg23 m r h c⟩)
    (run_main m ρ)

end Cert.KernelIdeal.Gen

end
-- ==== Proof.RefOps.lean ====
/- The reference program's host operations in order, its calls inlined at their records, cut into six stretches:
   the literal tile, clause hop 1, literal hop 1, clause hop 2, literal hop 2, the three heads. -/
import proofs.«170097_g26499948216398_cont_9to1_1103_19_alg».proof.ReferenceIdeal
import Idealize.ShloMosaic.Lib.StableHlo.Run

noncomputable section

namespace Cert.ReferenceIdeal.RefRun

open Idealize.ShloMosaic Idealize.ShloMosaic.StableHlo Idealize.SL.Sem Cert.ReferenceIdeal

variable {F : FTy → Type} [FloatOps F] [Cert.ReferenceIdeal.Facts]

open Cert.ReferenceIdeal.Facts₀ Cert.ReferenceIdeal.Facts

/-- 3 operations. -/
abbrev sTile : List (HloOp τ sig (Elt F)) :=
  [ StableHlo.reshape main_arg1 main_v0 rfl shapeCasts_S1x64_S1x1x1x64,
    StableHlo.unary main_v0 main_v1 (broadcastInDim S4096x1x1x64 ![0, 1, 2, 3] bcast_S1x1x1x64_S4096x1x1x64_0_1_2_3 : (⟨S1x1x1x64, .f32⟩ : BufTy).Contents (Elt F) → (⟨S4096x1x1x64, .f32⟩ : BufTy).Contents (Elt F)),
    StableHlo.reshape main_v1 main_v2 rfl shapeCasts_S4096x1x1x64_S4096x64 ]

/-- 54 operations. -/
abbrev sC1 : List (HloOp τ sig (Elt F)) :=
  [ StableHlo.unary main_v2 main_v3 ((extractStridedSlice S2048x64 ![2048, 0] · slices_S4096x64_S2048x64_2048_0) : (⟨S4096x64, .f32⟩ : BufTy).Contents (Elt F) → (⟨S2048x64, .f32⟩ : BufTy).Contents (Elt F)),
    StableHlo.unary main_v2 main_v4 ((extractStridedSlice S2048x64 ![0, 0] · slices_S4096x64_S2048x64_0_0) : (⟨S4096x64, .f32⟩ : BufTy).Contents (Elt F) → (⟨S2048x64, .f32⟩ : BufTy).Contents (Elt F)),
    StableHlo.binary main_v3 main_v4 main_v5 ((fun a b => concatenate S4096x64 0 [⟨S2048x64, a⟩, ⟨S2048x64, b⟩] concatenates_S2048x64_S2048x64_S4096x64_d0) : (⟨S2048x64, .f32⟩ : BufTy).Contents (Elt F) → (⟨S2048x64, .f32⟩ : BufTy).Contents (Elt F) → (⟨S4096x64, .f32⟩ : BufTy).Contents (Elt F)),
    StableHlo.binary main_v2 main_v5 main_v6 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)),
    StableHlo.binary main_arg0 main_v6 main_v7 ((fun l r => Host.dotGeneral dot_S10000x4096_S4096x128_S10000x128_1_0_0_1_n_n none l r) : (⟨S10000x4096, .f32⟩ : BufTy).Contents (Elt F) → (⟨S4096x128, .f32⟩ : BufTy).Contents (Elt F) → (⟨S10000x128, .f32⟩ : BufTy).Contents (Elt F)),
    StableHlo.binary main_v7 main_arg4 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S10000x128 ![0, 1] bcast_S1x128_S10000x128_0_1 : (⟨S1x128, .f32⟩ : BufTy).Contents (Elt F) → (⟨S10000x128, .f32⟩ : BufTy).Contents (Elt F)),
    StableHlo.binary main_v8 main_v10 main_v11 (addf : (⟨S10000x128, .f32⟩ : BufTy).Contents (Elt F) → (⟨S10000x128, .f32⟩ : BufTy).Contents (Elt F) → (⟨S10000x128, .f32⟩ : BufTy).Contents (Elt F)),
    StableHlo.TRef.nullary main_call0.cst (constant S_ .f32 0x00000000#32),
    StableHlo.TRef.unary main_call0.cst main_call0.v0 (broadcastInDim S10000x128 ![] bcast_S_S10000x128),
    StableHlo.TRef.binary (.of main_v11 : StableHlo.TRef sig ⟨S10000x128, .f32⟩) main_call0.v0 main_call0.v1 maximumf,
    StableHlo.binary main_v12 main_arg6 main_v13 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    StableHlo.unary main_arg7 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S10000x64 ![0, 1] bcast_S1x64_S10000x64_0_1 : (⟨S1x64, .f32⟩ : BufTy).Contents (Elt F) → (⟨S10000x64, .f32⟩ : BufTy).Contents (Elt F)),
    StableHlo.binary main_v13 main_v15 main_v16 (addf : (⟨S10000x64, .f32⟩ : BufTy).Contents (Elt F) → (⟨S10000x64, .f32⟩ : BufTy).Contents (Elt F) → (⟨S10000x64, .f32⟩ : BufTy).Contents (Elt F)),
    StableHlo.nullary main_cst (constant S_ .f32 0x00000000#32),
    StableHlo.binary main_v16 main_cst main_v17 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_0 (constant S_ .f32 0x461C4000#32),
    StableHlo.unary main_cst_0 main_v18 (broadcastInDim S64 ![] bcast_S_S64 : (⟨S_, .f32⟩ : BufTy).Contents (Elt F) → (⟨S64, .f32⟩ : BufTy).Contents (Elt F)),
    StableHlo.binary main_v17 main_v18 main_v19 (Host.divf : (⟨S64, .f32⟩ : BufTy).Contents (Elt F) → (⟨S64, .f32⟩ : BufTy).Contents (Elt F) → (⟨S64, .f32⟩ : BufTy).Contents (Elt F)),
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S10000x64 ![0, 1] bcast_S1x64_S10000x64_0_1 : (⟨S1x64, .f32⟩ : BufTy).Contents (Elt F) → (⟨S10000x64, .f32⟩ : BufTy).Contents (Elt F)),
    StableHlo.binary main_v16 main_v21 main_v22 (subf : (⟨S10000x64, .f32⟩ : BufTy).Contents (Elt F) → (⟨S10000x64, .f32⟩ : BufTy).Contents (Elt F) → (⟨S10000x64, .f32⟩ : BufTy).Contents (Elt F)),
    StableHlo.nullary main_c (constantI S_ 32 1#32),
    StableHlo.TRef.nullary main_call1.call0.cst (constant S_ .f32 0x00000000#32),
    StableHlo.TRef.binary (.of main_v22 : StableHlo.TRef sig ⟨S10000x64, .f32⟩) main_call1.call0.cst main_call1.call0.v0 (fun x v => Host.reduceAdd x v reducesTo_S10000x64_S64_d0 h_S_),
    StableHlo.TRef.unary main_call1.call0.v0 main_call1.call0.v1 (broadcastInDim S1x64 ![1] bcast_S64_S1x64_1),
    StableHlo.TRef.nullary main_call1.call0.cst_0 (constant S_ .f32 0x461C4000#32),
    StableHlo.TRef.unary main_call1.call0.cst_0 main_call1.call0.v2 (broadcastInDim S1x64 ![] bcast_S_S1x64),
    StableHlo.TRef.binary main_call1.call0.v1 main_call1.call0.v2 main_call1.call0.v3 Host.divf,
    StableHlo.TRef.unary main_call1.call0.v3 main_call1.call0.v4 (broadcastInDim S10000x64 ![0, 1] bcast_S1x64_S10000x64_0_1),
    StableHlo.TRef.binary (.of main_v22 : StableHlo.TRef sig ⟨S10000x64, .f32⟩) main_call1.call0.v4 main_call1.call0.v5 subf,
    StableHlo.TRef.binary main_call1.call0.v5 main_call1.call0.v5 main_call1.call0.v6 mulf,
    StableHlo.TRef.unary (.of main_c : StableHlo.TRef sig ⟨S_, .i32⟩) main_call1.call0.v7 (sitofp .f32),
    StableHlo.TRef.nullary main_call1.call0.cst_1 (constant S_ .f32 0x461C4000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S10000x64_S64_d0 h_S_),
    StableHlo.TRef.unary main_call1.call0.v8 main_call1.call0.v10 (broadcastInDim S64 ![] bcast_S_S64),
    StableHlo.TRef.binary main_call1.call0.v9 main_call1.call0.v10 main_call1.call0.v11 Host.divf,
    StableHlo.TRef.nullary main_call1.call0.cst_3 (constant S_ .f32 0x00000000#32),
    StableHlo.TRef.binary main_call1.call0.v8 main_call1.call0.cst_3 main_call1.call0.v12 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S64 ![] bcast_S_S64),
    StableHlo.TRef.ternary main_call1.call0.v12 main_call1.call0.v11 main_call1.call0.call0.v1 main_call1.call0.call0.v2 (fun p a b => select (broadcastInDim S64 ![] bcast_S_S64 p) a b),
    StableHlo.TRef.unary main_call1.call0.call0.v2 main_call1.v1 Host.sqrt,
    StableHlo.nullary main_cst_1 (constant S_ .f32 0x2EDBE6FF#32),
    StableHlo.unary main_cst_1 main_v24 (broadcastInDim S64 ![] bcast_S_S64 : (⟨S_, .f32⟩ : BufTy).Contents (Elt F) → (⟨S64, .f32⟩ : BufTy).Contents (Elt F)),
    StableHlo.binary main_v23 main_v24 main_v25 (addf : (⟨S64, .f32⟩ : BufTy).Contents (Elt F) → (⟨S64, .f32⟩ : BufTy).Contents (Elt F) → (⟨S64, .f32⟩ : BufTy).Contents (Elt F)),
    StableHlo.unary main_v25 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S10000x64 ![0, 1] bcast_S1x64_S10000x64_0_1 : (⟨S1x64, .f32⟩ : BufTy).Contents (Elt F) → (⟨S10000x64, .f32⟩ : BufTy).Contents (Elt F)),
    StableHlo.binary main_v22 main_v27 main_v28 (Host.divf : (⟨S10000x64, .f32⟩ : BufTy).Contents (Elt F) → (⟨S10000x64, .f32⟩ : BufTy).Contents (Elt F) → (⟨S10000x64, .f32⟩ : BufTy).Contents (Elt F)) ]

/-- 46 operations. -/
abbrev sL1 : List (HloOp τ sig (Elt F)) :=
  [ StableHlo.unary main_arg0 main_v29 ((transpose S4096x10000 [1, 0] · transposes_S10000x4096_S4096x10000_1_0) : (⟨S10000x4096, .f32⟩ : BufTy).Contents (Elt F) → (⟨S4096x10000, .f32⟩ : BufTy).Contents (Elt F)),
    StableHlo.binary main_v29 main_v28 main_v30 ((fun l r => Host.dotGeneral dot_S4096x10000_S10000x64_S4096x64_1_0_0_1_n_n none l r) : (⟨S4096x10000, .f32⟩ : BufTy).Contents (Elt F) → (⟨S10000x64, .f32⟩ : BufTy).Contents (Elt F) → (⟨S4096x64, .f32⟩ : BufTy).Contents (Elt F)),
    StableHlo.binary main_v30 main_arg8 main_v31 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg9 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S4096x64 ![0, 1] bcast_S1x64_S4096x64_0_1 : (⟨S1x64, .f32⟩ : BufTy).Contents (Elt F) → (⟨S4096x64, .f32⟩ : BufTy).Contents (Elt F)),
    StableHlo.binary main_v31 main_v33 main_v34 (addf : (⟨S4096x64, .f32⟩ : BufTy).Contents (Elt F) → (⟨S4096x64, .f32⟩ : BufTy).Contents (Elt F) → (⟨S4096x64, .f32⟩ : BufTy).Contents (Elt F)),
    StableHlo.TRef.nullary main_call2.cst (constant S_ .f32 0x00000000#32),
    StableHlo.TRef.unary main_call2.cst main_call2.v0 (broadcastInDim S4096x64 ![] bcast_S_S4096x64),
    StableHlo.TRef.binary (.of main_v34 : StableHlo.TRef sig ⟨S4096x64, .f32⟩) main_call2.v0 main_call2.v1 maximumf,
    StableHlo.binary main_v35 main_arg10 main_v36 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg11 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S4096x64 ![0, 1] bcast_S1x64_S4096x64_0_1 : (⟨S1x64, .f32⟩ : BufTy).Contents (Elt F) → (⟨S4096x64, .f32⟩ : BufTy).Contents (Elt F)),
    StableHlo.binary main_v36 main_v38 main_v39 (addf : (⟨S4096x64, .f32⟩ : BufTy).Contents (Elt F) → (⟨S4096x64, .f32⟩ : BufTy).Contents (Elt F) → (⟨S4096x64, .f32⟩ : BufTy).Contents (Elt F)),
    StableHlo.nullary main_cst_2 (constant S_ .f32 0x3DCCCCCD#32),
    StableHlo.unary main_cst_2 main_v40 (broadcastInDim S4096x64 ![] bcast_S_S4096x64 : (⟨S_, .f32⟩ : BufTy).Contents (Elt F) → (⟨S4096x64, .f32⟩ : BufTy).Contents (Elt F)),
    StableHlo.binary main_v40 main_v2 main_v41 (mulf : (⟨S4096x64, .f32⟩ : BufTy).Contents (Elt F) → (⟨S4096x64, .f32⟩ : BufTy).Contents (Elt F) → (⟨S4096x64, .f32⟩ : BufTy).Contents (Elt F)),
    StableHlo.binary main_v39 main_v41 main_v42 (addf : (⟨S4096x64, .f32⟩ : BufTy).Contents (Elt F) → (⟨S4096x64, .f32⟩ : BufTy).Contents (Elt F) → (⟨S4096x64, .f32⟩ : BufTy).Contents (Elt F)),
    StableHlo.nullary main_cst_3 (constant S_ .f32 0x00000000#32),
    StableHlo.binary main_v42 main_cst_3 main_v43 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v43 main_v44 (broadcastInDim S4096x1 ![0] bcast_S4096_S4096x1_0 : (⟨S4096, .f32⟩ : BufTy).Contents (Elt F) → (⟨S4096x1, .f32⟩ : BufTy).Contents (Elt F)),
    StableHlo.nullary main_cst_4 (constant S_ .f32 0x42800000#32),
    StableHlo.unary main_cst_4 main_v45 (broadcastInDim S4096x1 ![] bcast_S_S4096x1 : (⟨S_, .f32⟩ : BufTy).Contents (Elt F) → (⟨S4096x1, .f32⟩ : BufTy).Contents (Elt F)),
    StableHlo.binary main_v44 main_v45 main_v46 (Host.divf : (⟨S4096x1, .f32⟩ : BufTy).Contents (Elt F) → (⟨S4096x1, .f32⟩ : BufTy).Contents (Elt F) → (⟨S4096x1, .f32⟩ : BufTy).Contents (Elt F)),
    StableHlo.unary main_v46 main_v47 (broadcastInDim S4096x64 ![0, 1] bcast_S4096x1_S4096x64_0_1 : (⟨S4096x1, .f32⟩ : BufTy).Contents (Elt F) → (⟨S4096x64, .f32⟩ : BufTy).Contents (Elt F)),
    StableHlo.binary main_v42 main_v47 main_v48 (subf : (⟨S4096x64, .f32⟩ : BufTy).Contents (Elt F) → (⟨S4096x64, .f32⟩ : BufTy).Contents (Elt F) → (⟨S4096x64, .f32⟩ : BufTy).Contents (Elt F)),
    StableHlo.binary main_v48 main_v48 main_v49 (mulf : (⟨S4096x64, .f32⟩ : BufTy).Contents (Elt F) → (⟨S4096x64, .f32⟩ : BufTy).Contents (Elt F) → (⟨S4096x64, .f32⟩ : BufTy).Contents (Elt F)),
    StableHlo.nullary main_cst_5 (constant S_ .f32 0x00000000#32),
    StableHlo.binary main_v49 main_cst_5 main_v50 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v50 main_v51 (broadcastInDim S4096x1 ![0] bcast_S4096_S4096x1_0 : (⟨S4096, .f32⟩ : BufTy).Contents (Elt F) → (⟨S4096x1, .f32⟩ : BufTy).Contents (Elt F)),
    StableHlo.nullary main_cst_6 (constant S_ .f32 0x42800000#32),
    StableHlo.unary main_cst_6 main_v52 (broadcastInDim S4096x1 ![] bcast_S_S4096x1 : (⟨S_, .f32⟩ : BufTy).Contents (Elt F) → (⟨S4096x1, .f32⟩ : BufTy).Contents (Elt F)),
    StableHlo.binary main_v51 main_v52 main_v53 (Host.divf : (⟨S4096x1, .f32⟩ : BufTy).Contents (Elt F) → (⟨S4096x1, .f32⟩ : BufTy).Contents (Elt F) → (⟨S4096x1, .f32⟩ : BufTy).Contents (Elt F)),
    StableHlo.unary main_v46 main_v54 (broadcastInDim S4096x64 ![0, 1] bcast_S4096x1_S4096x64_0_1 : (⟨S4096x1, .f32⟩ : BufTy).Contents (Elt F) → (⟨S4096x64, .f32⟩ : BufTy).Contents (Elt F)),
    StableHlo.binary main_v42 main_v54 main_v55 (subf : (⟨S4096x64, .f32⟩ : BufTy).Contents (Elt F) → (⟨S4096x64, .f32⟩ : BufTy).Contents (Elt F) → (⟨S4096x64, .f32⟩ : BufTy).Contents (Elt F)),
    StableHlo.nullary main_cst_7 (constant S_ .f32 0x3727C5AC#32),
    StableHlo.unary main_cst_7 main_v56 (broadcastInDim S4096x1 ![] bcast_S_S4096x1 : (⟨S_, .f32⟩ : BufTy).Contents (Elt F) → (⟨S4096x1, .f32⟩ : BufTy).Contents (Elt F)),
    StableHlo.binary main_v53 main_v56 main_v57 (addf : (⟨S4096x1, .f32⟩ : BufTy).Contents (Elt F) → (⟨S4096x1, .f32⟩ : BufTy).Contents (Elt F) → (⟨S4096x1, .f32⟩ : BufTy).Contents (Elt F)),
    StableHlo.unary main_v57 main_v58 (Host.sqrt : (⟨S4096x1, .f32⟩ : BufTy).Contents (Elt F) → (⟨S4096x1, .f32⟩ : BufTy).Contents (Elt F)),
    StableHlo.unary main_v58 main_v59 (broadcastInDim S4096x64 ![0, 1] bcast_S4096x1_S4096x64_0_1 : (⟨S4096x1, .f32⟩ : BufTy).Contents (Elt F) → (⟨S4096x64, .f32⟩ : BufTy).Contents (Elt F)),
    StableHlo.binary main_v55 main_v59 main_v60 (Host.divf : (⟨S4096x64, .f32⟩ : BufTy).Contents (Elt F) → (⟨S4096x64, .f32⟩ : BufTy).Contents (Elt F) → (⟨S4096x64, .f32⟩ : BufTy).Contents (Elt F)),
    StableHlo.unary main_arg2 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S4096x64 ![0, 1] bcast_S1x64_S4096x64_0_1 : (⟨S1x64, .f32⟩ : BufTy).Contents (Elt F) → (⟨S4096x64, .f32⟩ : BufTy).Contents (Elt F)),
    StableHlo.binary main_v60 main_v62 main_v63 (mulf : (⟨S4096x64, .f32⟩ : BufTy).Contents (Elt F) → (⟨S4096x64, .f32⟩ : BufTy).Contents (Elt F) → (⟨S4096x64, .f32⟩ : BufTy).Contents (Elt F)),
    StableHlo.unary main_arg3 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S4096x64 ![0, 1] bcast_S1x64_S4096x64_0_1 : (⟨S1x64, .f32⟩ : BufTy).Contents (Elt F) → (⟨S4096x64, .f32⟩ : BufTy).Contents (Elt F)),
    StableHlo.binary main_v63 main_v65 main_v66 (addf : (⟨S4096x64, .f32⟩ : BufTy).Contents (Elt F) → (⟨S4096x64, .f32⟩ : BufTy).Contents (Elt F) → (⟨S4096x64, .f32⟩ : BufTy).Contents (Elt F)) ]

/-- 54 operations. -/
abbrev sC2 : List (HloOp τ sig (Elt F)) :=
  [ StableHlo.unary main_v66 main_v67 ((extractStridedSlice S2048x64 ![2048, 0] · slices_S4096x64_S2048x64_2048_0) : (⟨S4096x64, .f32⟩ : BufTy).Contents (Elt F) → (⟨S2048x64, .f32⟩ : BufTy).Contents (Elt F)),
    StableHlo.unary main_v66 main_v68 ((extractStridedSlice S2048x64 ![0, 0] · slices_S4096x64_S2048x64_0_0) : (⟨S4096x64, .f32⟩ : BufTy).Contents (Elt F) → (⟨S2048x64, .f32⟩ : BufTy).Contents (Elt F)),
    StableHlo.binary main_v67 main_v68 main_v69 ((fun a b => concatenate S4096x64 0 [⟨S2048x64, a⟩, ⟨S2048x64, b⟩] concatenates_S2048x64_S2048x64_S4096x64_d0) : (⟨S2048x64, .f32⟩ : BufTy).Contents (Elt F) → (⟨S2048x64, .f32⟩ : BufTy).Contents (Elt F) → (⟨S4096x64, .f32⟩ : BufTy).Contents (Elt F)),
    StableHlo.binary main_v66 main_v69 main_v70 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F)),
    StableHlo.binary main_arg0 main_v70 main_v71 ((fun l r => Host.dotGeneral dot_S10000x4096_S4096x128_S10000x128_1_0_0_1_n_n none l r) : (⟨S10000x4096, .f32⟩ : BufTy).Contents (Elt F) → (⟨S4096x128, .f32⟩ : BufTy).Contents (Elt F) → (⟨S10000x128, .f32⟩ : BufTy).Contents (Elt F)),
    StableHlo.binary main_v71 main_arg4 main_v72 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg5 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S10000x128 ![0, 1] bcast_S1x128_S10000x128_0_1 : (⟨S1x128, .f32⟩ : BufTy).Contents (Elt F) → (⟨S10000x128, .f32⟩ : BufTy).Contents (Elt F)),
    StableHlo.binary main_v72 main_v74 main_v75 (addf : (⟨S10000x128, .f32⟩ : BufTy).Contents (Elt F) → (⟨S10000x128, .f32⟩ : BufTy).Contents (Elt F) → (⟨S10000x128, .f32⟩ : BufTy).Contents (Elt F)),
    StableHlo.TRef.nullary main_call3.cst (constant S_ .f32 0x00000000#32),
    StableHlo.TRef.unary main_call3.cst main_call3.v0 (broadcastInDim S10000x128 ![] bcast_S_S10000x128),
    StableHlo.TRef.binary (.of main_v75 : StableHlo.TRef sig ⟨S10000x128, .f32⟩) main_call3.v0 main_call3.v1 maximumf,
    StableHlo.binary main_v76 main_arg6 main_v77 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    StableHlo.unary main_arg7 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S10000x64 ![0, 1] bcast_S1x64_S10000x64_0_1 : (⟨S1x64, .f32⟩ : BufTy).Contents (Elt F) → (⟨S10000x64, .f32⟩ : BufTy).Contents (Elt F)),
    StableHlo.binary main_v77 main_v79 main_v80 (addf : (⟨S10000x64, .f32⟩ : BufTy).Contents (Elt F) → (⟨S10000x64, .f32⟩ : BufTy).Contents (Elt F) → (⟨S10000x64, .f32⟩ : BufTy).Contents (Elt F)),
    StableHlo.nullary main_cst_8 (constant S_ .f32 0x00000000#32),
    StableHlo.binary main_v80 main_cst_8 main_v81 ((fun x v => Host.reduceAdd x v reducesTo_S10000x64_S64_d0 h_S_) : (⟨S10000x64, .f32⟩ : BufTy).Contents (Elt F) → (⟨S_, .f32⟩ : BufTy).Contents (Elt F) → (⟨S64, .f32⟩ : BufTy).Contents (Elt F)),
    StableHlo.nullary main_cst_9 (constant S_ .f32 0x461C4000#32),
    StableHlo.unary main_cst_9 main_v82 (broadcastInDim S64 ![] bcast_S_S64 : (⟨S_, .f32⟩ : BufTy).Contents (Elt F) → (⟨S64, .f32⟩ : BufTy).Contents (Elt F)),
    StableHlo.binary main_v81 main_v82 main_v83 (Host.divf : (⟨S64, .f32⟩ : BufTy).Contents (Elt F) → (⟨S64, .f32⟩ : BufTy).Contents (Elt F) → (⟨S64, .f32⟩ : BufTy).Contents (Elt F)),
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S10000x64 ![0, 1] bcast_S1x64_S10000x64_0_1 : (⟨S1x64, .f32⟩ : BufTy).Contents (Elt F) → (⟨S10000x64, .f32⟩ : BufTy).Contents (Elt F)),
    StableHlo.binary main_v80 main_v85 main_v86 (subf : (⟨S10000x64, .f32⟩ : BufTy).Contents (Elt F) → (⟨S10000x64, .f32⟩ : BufTy).Contents (Elt F) → (⟨S10000x64, .f32⟩ : BufTy).Contents (Elt F)),
    StableHlo.nullary main_c_10 (constantI S_ 32 1#32),
    StableHlo.TRef.nullary main_call4.call0.cst (constant S_ .f32 0x00000000#32),
    StableHlo.TRef.binary (.of main_v86 : StableHlo.TRef sig ⟨S10000x64, .f32⟩) main_call4.call0.cst main_call4.call0.v0 (fun x v => Host.reduceAdd x v reducesTo_S10000x64_S64_d0 h_S_),
    StableHlo.TRef.unary main_call4.call0.v0 main_call4.call0.v1 (broadcastInDim S1x64 ![1] bcast_S64_S1x64_1),
    StableHlo.TRef.nullary main_call4.call0.cst_0 (constant S_ .f32 0x461C4000#32),
    StableHlo.TRef.unary main_call4.call0.cst_0 main_call4.call0.v2 (broadcastInDim S1x64 ![] bcast_S_S1x64),
    StableHlo.TRef.binary main_call4.call0.v1 main_call4.call0.v2 main_call4.call0.v3 Host.divf,
    StableHlo.TRef.unary main_call4.call0.v3 main_call4.call0.v4 (broadcastInDim S10000x64 ![0, 1] bcast_S1x64_S10000x64_0_1),
    StableHlo.TRef.binary (.of main_v86 : StableHlo.TRef sig ⟨S10000x64, .f32⟩) main_call4.call0.v4 main_call4.call0.v5 subf,
    StableHlo.TRef.binary main_call4.call0.v5 main_call4.call0.v5 main_call4.call0.v6 mulf,
    StableHlo.TRef.unary (.of main_c_10 : StableHlo.TRef sig ⟨S_, .i32⟩) main_call4.call0.v7 (sitofp .f32),
    StableHlo.TRef.nullary main_call4.call0.cst_1 (constant S_ .f32 0x461C4000#32),
    StableHlo.TRef.binary main_call4.call0.cst_1 main_call4.call0.v7 main_call4.call0.v8 subf,
    StableHlo.TRef.nullary main_call4.call0.cst_2 (constant S_ .f32 0x00000000#32),
    StableHlo.TRef.binary main_call4.call0.v6 main_call4.call0.cst_2 main_call4.call0.v9 (fun x v => Host.reduceAdd x v reducesTo_S10000x64_S64_d0 h_S_),
    StableHlo.TRef.unary main_call4.call0.v8 main_call4.call0.v10 (broadcastInDim S64 ![] bcast_S_S64),
    StableHlo.TRef.binary main_call4.call0.v9 main_call4.call0.v10 main_call4.call0.v11 Host.divf,
    StableHlo.TRef.nullary main_call4.call0.cst_3 (constant S_ .f32 0x00000000#32),
    StableHlo.TRef.binary main_call4.call0.v8 main_call4.call0.cst_3 main_call4.call0.v12 (cmpf .ogt),
    StableHlo.TRef.nullary main_call4.call0.cst_4 (constant S_ .f32 0x7FC00000#32),
    StableHlo.TRef.unary main_call4.call0.cst_4 main_call4.call0.call0.v0 id,
    StableHlo.TRef.unary main_call4.call0.call0.v0 main_call4.call0.call0.v1 (broadcastInDim S64 ![] bcast_S_S64),
    StableHlo.TRef.ternary main_call4.call0.v12 main_call4.call0.v11 main_call4.call0.call0.v1 main_call4.call0.call0.v2 (fun p a b => select (broadcastInDim S64 ![] bcast_S_S64 p) a b),
    StableHlo.TRef.unary main_call4.call0.call0.v2 main_call4.v1 Host.sqrt,
    StableHlo.nullary main_cst_11 (constant S_ .f32 0x2EDBE6FF#32),
    StableHlo.unary main_cst_11 main_v88 (broadcastInDim S64 ![] bcast_S_S64 : (⟨S_, .f32⟩ : BufTy).Contents (Elt F) → (⟨S64, .f32⟩ : BufTy).Contents (Elt F)),
    StableHlo.binary main_v87 main_v88 main_v89 (addf : (⟨S64, .f32⟩ : BufTy).Contents (Elt F) → (⟨S64, .f32⟩ : BufTy).Contents (Elt F) → (⟨S64, .f32⟩ : BufTy).Contents (Elt F)),
    StableHlo.unary main_v89 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S10000x64 ![0, 1] bcast_S1x64_S10000x64_0_1 : (⟨S1x64, .f32⟩ : BufTy).Contents (Elt F) → (⟨S10000x64, .f32⟩ : BufTy).Contents (Elt F)),
    StableHlo.binary main_v86 main_v91 main_v92 (Host.divf : (⟨S10000x64, .f32⟩ : BufTy).Contents (Elt F) → (⟨S10000x64, .f32⟩ : BufTy).Contents (Elt F) → (⟨S10000x64, .f32⟩ : BufTy).Contents (Elt F)) ]

/-- 46 operations. -/
abbrev sL2 : List (HloOp τ sig (Elt F)) :=
  [ StableHlo.unary main_arg0 main_v93 ((transpose S4096x10000 [1, 0] · transposes_S10000x4096_S4096x10000_1_0) : (⟨S10000x4096, .f32⟩ : BufTy).Contents (Elt F) → (⟨S4096x10000, .f32⟩ : BufTy).Contents (Elt F)),
    StableHlo.binary main_v93 main_v92 main_v94 ((fun l r => Host.dotGeneral dot_S4096x10000_S10000x64_S4096x64_1_0_0_1_n_n none l r) : (⟨S4096x10000, .f32⟩ : BufTy).Contents (Elt F) → (⟨S10000x64, .f32⟩ : BufTy).Contents (Elt F) → (⟨S4096x64, .f32⟩ : BufTy).Contents (Elt F)),
    StableHlo.binary main_v94 main_arg8 main_v95 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg9 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S4096x64 ![0, 1] bcast_S1x64_S4096x64_0_1 : (⟨S1x64, .f32⟩ : BufTy).Contents (Elt F) → (⟨S4096x64, .f32⟩ : BufTy).Contents (Elt F)),
    StableHlo.binary main_v95 main_v97 main_v98 (addf : (⟨S4096x64, .f32⟩ : BufTy).Contents (Elt F) → (⟨S4096x64, .f32⟩ : BufTy).Contents (Elt F) → (⟨S4096x64, .f32⟩ : BufTy).Contents (Elt F)),
    StableHlo.TRef.nullary main_call5.cst (constant S_ .f32 0x00000000#32),
    StableHlo.TRef.unary main_call5.cst main_call5.v0 (broadcastInDim S4096x64 ![] bcast_S_S4096x64),
    StableHlo.TRef.binary (.of main_v98 : StableHlo.TRef sig ⟨S4096x64, .f32⟩) main_call5.v0 main_call5.v1 maximumf,
    StableHlo.binary main_v99 main_arg10 main_v100 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg11 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S4096x64 ![0, 1] bcast_S1x64_S4096x64_0_1 : (⟨S1x64, .f32⟩ : BufTy).Contents (Elt F) → (⟨S4096x64, .f32⟩ : BufTy).Contents (Elt F)),
    StableHlo.binary main_v100 main_v102 main_v103 (addf : (⟨S4096x64, .f32⟩ : BufTy).Contents (Elt F) → (⟨S4096x64, .f32⟩ : BufTy).Contents (Elt F) → (⟨S4096x64, .f32⟩ : BufTy).Contents (Elt F)),
    StableHlo.nullary main_cst_12 (constant S_ .f32 0x3DCCCCCD#32),
    StableHlo.unary main_cst_12 main_v104 (broadcastInDim S4096x64 ![] bcast_S_S4096x64 : (⟨S_, .f32⟩ : BufTy).Contents (Elt F) → (⟨S4096x64, .f32⟩ : BufTy).Contents (Elt F)),
    StableHlo.binary main_v104 main_v66 main_v105 (mulf : (⟨S4096x64, .f32⟩ : BufTy).Contents (Elt F) → (⟨S4096x64, .f32⟩ : BufTy).Contents (Elt F) → (⟨S4096x64, .f32⟩ : BufTy).Contents (Elt F)),
    StableHlo.binary main_v103 main_v105 main_v106 (addf : (⟨S4096x64, .f32⟩ : BufTy).Contents (Elt F) → (⟨S4096x64, .f32⟩ : BufTy).Contents (Elt F) → (⟨S4096x64, .f32⟩ : BufTy).Contents (Elt F)),
    StableHlo.nullary main_cst_13 (constant S_ .f32 0x00000000#32),
    StableHlo.binary main_v106 main_cst_13 main_v107 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v107 main_v108 (broadcastInDim S4096x1 ![0] bcast_S4096_S4096x1_0 : (⟨S4096, .f32⟩ : BufTy).Contents (Elt F) → (⟨S4096x1, .f32⟩ : BufTy).Contents (Elt F)),
    StableHlo.nullary main_cst_14 (constant S_ .f32 0x42800000#32),
    StableHlo.unary main_cst_14 main_v109 (broadcastInDim S4096x1 ![] bcast_S_S4096x1 : (⟨S_, .f32⟩ : BufTy).Contents (Elt F) → (⟨S4096x1, .f32⟩ : BufTy).Contents (Elt F)),
    StableHlo.binary main_v108 main_v109 main_v110 (Host.divf : (⟨S4096x1, .f32⟩ : BufTy).Contents (Elt F) → (⟨S4096x1, .f32⟩ : BufTy).Contents (Elt F) → (⟨S4096x1, .f32⟩ : BufTy).Contents (Elt F)),
    StableHlo.unary main_v110 main_v111 (broadcastInDim S4096x64 ![0, 1] bcast_S4096x1_S4096x64_0_1 : (⟨S4096x1, .f32⟩ : BufTy).Contents (Elt F) → (⟨S4096x64, .f32⟩ : BufTy).Contents (Elt F)),
    StableHlo.binary main_v106 main_v111 main_v112 (subf : (⟨S4096x64, .f32⟩ : BufTy).Contents (Elt F) → (⟨S4096x64, .f32⟩ : BufTy).Contents (Elt F) → (⟨S4096x64, .f32⟩ : BufTy).Contents (Elt F)),
    StableHlo.binary main_v112 main_v112 main_v113 (mulf : (⟨S4096x64, .f32⟩ : BufTy).Contents (Elt F) → (⟨S4096x64, .f32⟩ : BufTy).Contents (Elt F) → (⟨S4096x64, .f32⟩ : BufTy).Contents (Elt F)),
    StableHlo.nullary main_cst_15 (constant S_ .f32 0x00000000#32),
    StableHlo.binary main_v113 main_cst_15 main_v114 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v114 main_v115 (broadcastInDim S4096x1 ![0] bcast_S4096_S4096x1_0 : (⟨S4096, .f32⟩ : BufTy).Contents (Elt F) → (⟨S4096x1, .f32⟩ : BufTy).Contents (Elt F)),
    StableHlo.nullary main_cst_16 (constant S_ .f32 0x42800000#32),
    StableHlo.unary main_cst_16 main_v116 (broadcastInDim S4096x1 ![] bcast_S_S4096x1 : (⟨S_, .f32⟩ : BufTy).Contents (Elt F) → (⟨S4096x1, .f32⟩ : BufTy).Contents (Elt F)),
    StableHlo.binary main_v115 main_v116 main_v117 (Host.divf : (⟨S4096x1, .f32⟩ : BufTy).Contents (Elt F) → (⟨S4096x1, .f32⟩ : BufTy).Contents (Elt F) → (⟨S4096x1, .f32⟩ : BufTy).Contents (Elt F)),
    StableHlo.unary main_v110 main_v118 (broadcastInDim S4096x64 ![0, 1] bcast_S4096x1_S4096x64_0_1 : (⟨S4096x1, .f32⟩ : BufTy).Contents (Elt F) → (⟨S4096x64, .f32⟩ : BufTy).Contents (Elt F)),
    StableHlo.binary main_v106 main_v118 main_v119 (subf : (⟨S4096x64, .f32⟩ : BufTy).Contents (Elt F) → (⟨S4096x64, .f32⟩ : BufTy).Contents (Elt F) → (⟨S4096x64, .f32⟩ : BufTy).Contents (Elt F)),
    StableHlo.nullary main_cst_17 (constant S_ .f32 0x3727C5AC#32),
    StableHlo.unary main_cst_17 main_v120 (broadcastInDim S4096x1 ![] bcast_S_S4096x1 : (⟨S_, .f32⟩ : BufTy).Contents (Elt F) → (⟨S4096x1, .f32⟩ : BufTy).Contents (Elt F)),
    StableHlo.binary main_v117 main_v120 main_v121 (addf : (⟨S4096x1, .f32⟩ : BufTy).Contents (Elt F) → (⟨S4096x1, .f32⟩ : BufTy).Contents (Elt F) → (⟨S4096x1, .f32⟩ : BufTy).Contents (Elt F)),
    StableHlo.unary main_v121 main_v122 (Host.sqrt : (⟨S4096x1, .f32⟩ : BufTy).Contents (Elt F) → (⟨S4096x1, .f32⟩ : BufTy).Contents (Elt F)),
    StableHlo.unary main_v122 main_v123 (broadcastInDim S4096x64 ![0, 1] bcast_S4096x1_S4096x64_0_1 : (⟨S4096x1, .f32⟩ : BufTy).Contents (Elt F) → (⟨S4096x64, .f32⟩ : BufTy).Contents (Elt F)),
    StableHlo.binary main_v119 main_v123 main_v124 (Host.divf : (⟨S4096x64, .f32⟩ : BufTy).Contents (Elt F) → (⟨S4096x64, .f32⟩ : BufTy).Contents (Elt F) → (⟨S4096x64, .f32⟩ : BufTy).Contents (Elt F)),
    StableHlo.unary main_arg2 main_v125 (broadcastInDim S1x64 ![1] bcast_S64_S1x64_1 : (⟨S64, .f32⟩ : BufTy).Contents (Elt F) → (⟨S1x64, .f32⟩ : BufTy).Contents (Elt F)),
    StableHlo.unary main_v125 main_v126 (broadcastInDim S4096x64 ![0, 1] bcast_S1x64_S4096x64_0_1 : (⟨S1x64, .f32⟩ : BufTy).Contents (Elt F) → (⟨S4096x64, .f32⟩ : BufTy).Contents (Elt F)),
    StableHlo.binary main_v124 main_v126 main_v127 (mulf : (⟨S4096x64, .f32⟩ : BufTy).Contents (Elt F) → (⟨S4096x64, .f32⟩ : BufTy).Contents (Elt F) → (⟨S4096x64, .f32⟩ : BufTy).Contents (Elt F)),
    StableHlo.unary main_arg3 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S4096x64 ![0, 1] bcast_S1x64_S4096x64_0_1 : (⟨S1x64, .f32⟩ : BufTy).Contents (Elt F) → (⟨S4096x64, .f32⟩ : BufTy).Contents (Elt F)),
    StableHlo.binary main_v127 main_v129 main_v130 (addf : (⟨S4096x64, .f32⟩ : BufTy).Contents (Elt F) → (⟨S4096x64, .f32⟩ : BufTy).Contents (Elt F) → (⟨S4096x64, .f32⟩ : BufTy).Contents (Elt F)) ]

/-- 36 operations. -/
abbrev sHd : List (HloOp τ sig (Elt F)) :=
  [ StableHlo.unary main_v130 main_v131 ((extractStridedSlice S2048x64 ![0, 0] · slices_S4096x64_S2048x64_0_0) : (⟨S4096x64, .f32⟩ : BufTy).Contents (Elt F) → (⟨S2048x64, .f32⟩ : BufTy).Contents (Elt F)),
    StableHlo.unary main_v130 main_v132 ((extractStridedSlice S2048x64 ![2048, 0] · slices_S4096x64_S2048x64_2048_0) : (⟨S4096x64, .f32⟩ : BufTy).Contents (Elt F) → (⟨S2048x64, .f32⟩ : BufTy).Contents (Elt F)),
    StableHlo.binary main_v131 main_v132 main_v133 ((fun a b => concatenate S2048x128 1 [⟨S2048x64, a⟩, ⟨S2048x64, b⟩] concatenates_S2048x64_S2048x64_S2048x128_d1) : (⟨S2048x64, .f32⟩ : BufTy).Contents (Elt F) → (⟨S2048x64, .f32⟩ : BufTy).Contents (Elt F) → (⟨S2048x128, .f32⟩ : BufTy).Contents (Elt F)),
    StableHlo.binary main_v133 main_arg12 main_v134 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg13 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S2048x128 ![0, 1] bcast_S1x128_S2048x128_0_1 : (⟨S1x128, .f32⟩ : BufTy).Contents (Elt F) → (⟨S2048x128, .f32⟩ : BufTy).Contents (Elt F)),
    StableHlo.binary main_v134 main_v136 main_v137 (addf : (⟨S2048x128, .f32⟩ : BufTy).Contents (Elt F) → (⟨S2048x128, .f32⟩ : BufTy).Contents (Elt F) → (⟨S2048x128, .f32⟩ : BufTy).Contents (Elt F)),
    StableHlo.TRef.nullary main_call6.cst (constant S_ .f32 0x00000000#32),
    StableHlo.TRef.unary main_call6.cst main_call6.v0 (broadcastInDim S2048x128 ![] bcast_S_S2048x128),
    StableHlo.TRef.binary (.of main_v137 : StableHlo.TRef sig ⟨S2048x128, .f32⟩) main_call6.v0 main_call6.v1 maximumf,
    StableHlo.binary main_v138 main_arg14 main_v139 ((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F)),
    StableHlo.unary main_arg15 main_v140 (broadcastInDim S1x1 ![1] bcast_S1_S1x1_1 : (⟨S1, .f32⟩ : BufTy).Contents (Elt F) → (⟨S1x1, .f32⟩ : BufTy).Contents (Elt F)),
    StableHlo.unary main_v140 main_v141 (broadcastInDim S2048x1 ![0, 1] bcast_S1x1_S2048x1_0_1 : (⟨S1x1, .f32⟩ : BufTy).Contents (Elt F) → (⟨S2048x1, .f32⟩ : BufTy).Contents (Elt F)),
    StableHlo.binary main_v139 main_v141 main_v142 (addf : (⟨S2048x1, .f32⟩ : BufTy).Contents (Elt F) → (⟨S2048x1, .f32⟩ : BufTy).Contents (Elt F) → (⟨S2048x1, .f32⟩ : BufTy).Contents (Elt F)),
    StableHlo.binary main_v133 main_arg16 main_v143 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg17 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S2048x128 ![0, 1] bcast_S1x128_S2048x128_0_1 : (⟨S1x128, .f32⟩ : BufTy).Contents (Elt F) → (⟨S2048x128, .f32⟩ : BufTy).Contents (Elt F)),
    StableHlo.binary main_v143 main_v145 main_v146 (addf : (⟨S2048x128, .f32⟩ : BufTy).Contents (Elt F) → (⟨S2048x128, .f32⟩ : BufTy).Contents (Elt F) → (⟨S2048x128, .f32⟩ : BufTy).Contents (Elt F)),
    StableHlo.TRef.nullary main_call7.cst (constant S_ .f32 0x00000000#32),
    StableHlo.TRef.unary main_call7.cst main_call7.v0 (broadcastInDim S2048x128 ![] bcast_S_S2048x128),
    StableHlo.TRef.binary (.of main_v146 : StableHlo.TRef sig ⟨S2048x128, .f32⟩) main_call7.v0 main_call7.v1 maximumf,
    StableHlo.binary main_v147 main_arg18 main_v148 ((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F)),
    StableHlo.unary main_arg19 main_v149 (broadcastInDim S1x1 ![1] bcast_S1_S1x1_1 : (⟨S1, .f32⟩ : BufTy).Contents (Elt F) → (⟨S1x1, .f32⟩ : BufTy).Contents (Elt F)),
    StableHlo.unary main_v149 main_v150 (broadcastInDim S2048x1 ![0, 1] bcast_S1x1_S2048x1_0_1 : (⟨S1x1, .f32⟩ : BufTy).Contents (Elt F) → (⟨S2048x1, .f32⟩ : BufTy).Contents (Elt F)),
    StableHlo.binary main_v148 main_v150 main_v151 (addf : (⟨S2048x1, .f32⟩ : BufTy).Contents (Elt F) → (⟨S2048x1, .f32⟩ : BufTy).Contents (Elt F) → (⟨S2048x1, .f32⟩ : BufTy).Contents (Elt F)),
    StableHlo.binary main_v92 main_arg20 main_v152 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.unary main_arg21 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S10000x64 ![0, 1] bcast_S1x64_S10000x64_0_1 : (⟨S1x64, .f32⟩ : BufTy).Contents (Elt F) → (⟨S10000x64, .f32⟩ : BufTy).Contents (Elt F)),
    StableHlo.binary main_v152 main_v154 main_v155 (addf : (⟨S10000x64, .f32⟩ : BufTy).Contents (Elt F) → (⟨S10000x64, .f32⟩ : BufTy).Contents (Elt F) → (⟨S10000x64, .f32⟩ : BufTy).Contents (Elt F)),
    StableHlo.TRef.nullary main_call8.cst (constant S_ .f32 0x00000000#32),
    StableHlo.TRef.unary main_call8.cst main_call8.v0 (broadcastInDim S10000x64 ![] bcast_S_S10000x64),
    StableHlo.TRef.binary (.of main_v155 : StableHlo.TRef sig ⟨S10000x64, .f32⟩) main_call8.v0 main_call8.v1 maximumf,
    StableHlo.binary main_v156 main_arg22 main_v157 ((fun l r => Host.dotGeneral dot_S10000x64_S64x1_S10000x1_1_0_0_1_n_n none l r) : (⟨S10000x64, .f32⟩ : BufTy).Contents (Elt F) → (⟨S64x1, .f32⟩ : BufTy).Contents (Elt F) → (⟨S10000x1, .f32⟩ : BufTy).Contents (Elt F)),
    StableHlo.unary main_arg23 main_v158 (broadcastInDim S1x1 ![1] bcast_S1_S1x1_1 : (⟨S1, .f32⟩ : BufTy).Contents (Elt F) → (⟨S1x1, .f32⟩ : BufTy).Contents (Elt F)),
    StableHlo.unary main_v158 main_v159 (broadcastInDim S10000x1 ![0, 1] bcast_S1x1_S10000x1_0_1 : (⟨S1x1, .f32⟩ : BufTy).Contents (Elt F) → (⟨S10000x1, .f32⟩ : BufTy).Contents (Elt F)),
    StableHlo.binary main_v157 main_v159 main_v160 (addf : (⟨S10000x1, .f32⟩ : BufTy).Contents (Elt F) → (⟨S10000x1, .f32⟩ : BufTy).Contents (Elt F) → (⟨S10000x1, .f32⟩ : BufTy).Contents (Elt F)) ]

/-- All 239 operations of the reference, in order. -/
abbrev ops : List (HloOp τ sig (Elt F)) := sTile ++ (sC1 ++ (sL1 ++ (sC2 ++ (sL2 ++ sHd))))

end Cert.ReferenceIdeal.RefRun

end
-- ==== Proof.RefRun.lean ====
/-
  The run of the reference program: its @main is the straight line of its host operations (the calls of the
  module's private functions unfolded at their records), so every weakly fair execution terminates with each
  buffer at the fold of the operations' results over the launch contents.
-/
import proofs.«170097_g26499948216398_cont_9to1_1103_19_alg».proof.Proof.RefOps
import Idealize.ShloMosaic.Lib.StableHlo.Run

noncomputable section

namespace Cert.ReferenceIdeal.RefRun

open Idealize.ShloMosaic Idealize.ShloMosaic.StableHlo Idealize.ShloMosaic.TcCoe Idealize.SL.Sem Cert.ReferenceIdeal

variable {F : FTy → Type} [FloatOps F] [Cert.ReferenceIdeal.Facts]

open Cert.ReferenceIdeal.Facts₀ Cert.ReferenceIdeal.Facts

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-! ## Every operation touches TensorCore references only, and determines its results -/

theorem sTile_sub : (sTile : List (HloOp τ sig (Elt F))).Forall fun op => op.bufs ⊆ tcRefs τ sig :=
  ⟨reshape_bufs_sub .., unary_bufs_sub .., reshape_bufs_sub ..⟩

theorem sTile_fresh : (sTile : List (HloOp τ sig (Elt F))).Forall fun op => op.fresh = ∅ :=
  ⟨rfl, rfl, rfl⟩

theorem sC1_sub : (sC1 : List (HloOp τ sig (Elt F))).Forall fun op => op.bufs ⊆ tcRefs τ sig :=
  ⟨unary_bufs_sub .., unary_bufs_sub .., binary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    nullary_bufs_sub .., unary_bufs_sub .., binary_bufs_sub .., unary_bufs_sub .., unary_bufs_sub .., binary_bufs_sub ..⟩

theorem sC1_fresh : (sC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem sL1_sub : (sL1 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

theorem sL1_fresh : (sL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

theorem sC2_sub : (sC2 : List (HloOp τ sig (Elt F))).Forall fun op => op.bufs ⊆ tcRefs τ sig :=
  ⟨unary_bufs_sub .., unary_bufs_sub .., binary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    nullary_bufs_sub .., unary_bufs_sub .., binary_bufs_sub .., unary_bufs_sub .., unary_bufs_sub .., binary_bufs_sub ..⟩

theorem sC2_fresh : (sC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem sL2_sub : (sL2 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

theorem sL2_fresh : (sL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

theorem sHd_sub : (sHd : List (HloOp τ sig (Elt F))).Forall fun op => op.bufs ⊆ tcRefs τ sig :=
  ⟨unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

theorem sHd_fresh : (sHd : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  forall_append sTile_sub (forall_append sC1_sub (forall_append sL1_sub (forall_append sC2_sub (forall_append sL2_sub sHd_sub))))

theorem ops_fresh : (ops : List (HloOp τ sig (Elt F))).Forall fun op => op.fresh = ∅ :=
  forall_append sTile_fresh (forall_append sC1_fresh (forall_append sL1_fresh (forall_append sC2_fresh (forall_append sL2_fresh sHd_fresh))))

/-! ## @main is the straight line -/

set_option maxRecDepth 8192 in
set_option maxHeartbeats 4000000 in
/-- @main is the line of its operations: the four windows in order, the functions' definitions unfolded at their
    calls and the records at their fields; both sides are one chain of host steps once sequencing is
    reassociated. -/
theorem main_eq (c : Dev nD) : main (F := F) c = seq ops := by
  simp only [main, main_part0, main_part1, main_part2, main_part3, fn_relu.body, fn_relu_0.body, fn_relu_1.body,
    fn_relu_2.body, fn_std.body, fn_var.body, fn_where.body, ops, sTile, sC1, sL1, sC2, sL2, sHd,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters, for any float values: every weakly fair execution of @main on the TensorCore
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ
    (fun _ => List.forall_iff_forall_mem.1 ops_fresh)

end Cert.ReferenceIdeal.RefRun

end
-- ==== Proof.RefValue.lean ====
/-
  The value of the reference program: what its line of host operations leaves in the three result buffers is the
  network of Net.lean at the arguments' contents, and the arguments are unchanged. The line is read stretch by
  stretch, each over an arbitrary starting valuation: a stretch's result buffer holds the stretch's composed term of
  the buffers it reads, and every buffer it does not write is as it was.
-/
import proofs.«170097_g26499948216398_cont_9to1_1103_19_alg».proof.Proof.RefOps
import proofs.«170097_g26499948216398_cont_9to1_1103_19_alg».proof.Proof.Net
import proofs.«170097_g26499948216398_cont_9to1_1103_19_alg».proof.Proof.LibTypedRef
import proofs.«170097_g26499948216398_cont_9to1_1103_19_alg».proof.Proof.LibPadSplit

noncomputable section

namespace Cert.ReferenceIdeal.RefValue

open Idealize.ShloMosaic Idealize.ShloMosaic.StableHlo Idealize.ShloMosaic.TcCoe Idealize.SL.Sem Cert.ReferenceIdeal
open Cert.ReferenceIdeal.RefRun

variable {F : FTy → Type} [FloatOps F] [Cert.ReferenceIdeal.Facts]

open Cert.ReferenceIdeal.Facts₀ Cert.ReferenceIdeal.Facts

/-- The argument arrays a valuation holds. -/
def argsOf (W : Valuation τ sig (Elt F)) : Cert.Spec.Args F :=
  ⟨W (main_arg0 : DevRef τ sig), W (main_arg1 : DevRef τ sig), W (main_arg2 : DevRef τ sig), W (main_arg3 : DevRef τ sig),
   W (main_arg4 : DevRef τ sig), W (main_arg5 : DevRef τ sig), W (main_arg6 : DevRef τ sig), W (main_arg7 : DevRef τ sig),
   W (main_arg8 : DevRef τ sig), W (main_arg9 : DevRef τ sig), W (main_arg10 : DevRef τ sig), W (main_arg11 : DevRef τ sig),
   W (main_arg12 : DevRef τ sig), W (main_arg13 : DevRef τ sig), W (main_arg14 : DevRef τ sig), W (main_arg15 : DevRef τ sig),
   W (main_arg16 : DevRef τ sig), W (main_arg17 : DevRef τ sig), W (main_arg18 : DevRef τ sig), W (main_arg19 : DevRef τ sig),
   W (main_arg20 : DevRef τ sig), W (main_arg21 : DevRef τ sig), W (main_arg22 : DevRef τ sig), W (main_arg23 : DevRef τ sig)⟩

/-! ## What each stretch writes, and that it keeps the rest -/

/-- An operation whose one written buffer is among a list of references writes inside the list. -/
theorem written {Wl : List (Ref sig .tc)} {op : HloOp τ sig (Elt F)} {y : Ref sig .tc}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map.2 ⟨y, hy, rfl⟩

/-- The references the stretch writes, in order. -/
abbrev sTile_W : List (Ref sig .tc) :=
  [ main_v0, main_v1, main_v2 ]

theorem sTile_writes : (sTile : List (HloOp τ sig (Elt F))).Forall fun op => op.writes ⊆ (sTile_W.map (Proc.devRef (τ := τ) .tc)).toFinset :=
  ⟨written (y := main_v0) rfl (by decide), written (y := main_v1) rfl (by decide),
    written (y := main_v2) rfl (by decide)⟩

/-- The stretch leaves every buffer it does not write as it was. -/
theorem sTile_kept (W : Valuation τ sig (Elt F)) {r : Ref sig .tc} (hr : r ∉ sTile_W) :
    after sTile W (Proc.devRef .tc r) = W (Proc.devRef .tc r) :=
  after_of_writes_sub sTile W sTile_writes hr

/-- The stretch leaves the arguments as they were. -/
theorem argsOf_sTile (W : Valuation τ sig (Elt F)) : argsOf (after sTile W) = argsOf W := by
  unfold argsOf
  congr 1 <;> exact sTile_kept W (by decide)

/-- The references the stretch writes, in order. -/
abbrev sC1_W : List (Ref sig .tc) :=
  [ main_v3, main_v4, main_v5, main_v6, main_v7, main_v8,
    main_v9, main_v10, main_v11, main_call0.cst.ref, main_call0.v0.ref, main_call0.v1.ref,
    main_v13, main_v14, main_v15, main_v16, main_cst, main_v17,
    main_cst_0, main_v18, main_v19, main_v20, main_v21, main_v22,
    main_c, main_call1.call0.cst.ref, main_call1.call0.v0.ref, main_call1.call0.v1.ref, main_call1.call0.cst_0.ref, main_call1.call0.v2.ref,
    main_call1.call0.v3.ref, main_call1.call0.v4.ref, main_call1.call0.v5.ref, main_call1.call0.v6.ref, main_call1.call0.v7.ref, main_call1.call0.cst_1.ref,
    main_call1.call0.v8.ref, main_call1.call0.cst_2.ref, main_call1.call0.v9.ref, main_call1.call0.v10.ref, main_call1.call0.v11.ref, main_call1.call0.cst_3.ref,
    main_call1.call0.v12.ref, main_call1.call0.cst_4.ref, main_call1.call0.call0.v0.ref, main_call1.call0.call0.v1.ref, main_call1.call0.call0.v2.ref, main_call1.v1.ref,
    main_cst_1, main_v24, main_v25, main_v26, main_v27, main_v28 ]

theorem sC1_writes : (sC1 : List (HloOp τ sig (Elt F))).Forall fun op => op.writes ⊆ (sC1_W.map (Proc.devRef (τ := τ) .tc)).toFinset :=
  ⟨written (y := main_v3) rfl (by decide), written (y := main_v4) rfl (by decide),
    written (y := main_v5) rfl (by decide), written (y := main_v6) rfl (by decide),
    written (y := main_v7) rfl (by decide), written (y := main_v8) rfl (by decide),
    written (y := main_v9) rfl (by decide), written (y := main_v10) rfl (by decide),
    written (y := main_v11) rfl (by decide), written (y := main_call0.cst.ref) rfl (by decide),
    written (y := main_call0.v0.ref) rfl (by decide), written (y := main_call0.v1.ref) rfl (by decide),
    written (y := main_v13) rfl (by decide), written (y := main_v14) rfl (by decide),
    written (y := main_v15) rfl (by decide), written (y := main_v16) rfl (by decide),
    written (y := main_cst) rfl (by decide), written (y := main_v17) rfl (by decide),
    written (y := main_cst_0) rfl (by decide), written (y := main_v18) rfl (by decide),
    written (y := main_v19) rfl (by decide), written (y := main_v20) rfl (by decide),
    written (y := main_v21) rfl (by decide), written (y := main_v22) rfl (by decide),
    written (y := main_c) rfl (by decide), written (y := main_call1.call0.cst.ref) rfl (by decide),
    written (y := main_call1.call0.v0.ref) rfl (by decide), written (y := main_call1.call0.v1.ref) rfl (by decide),
    written (y := main_call1.call0.cst_0.ref) rfl (by decide), written (y := main_call1.call0.v2.ref) rfl (by decide),
    written (y := main_call1.call0.v3.ref) rfl (by decide), written (y := main_call1.call0.v4.ref) rfl (by decide),
    written (y := main_call1.call0.v5.ref) rfl (by decide), written (y := main_call1.call0.v6.ref) rfl (by decide),
    written (y := main_call1.call0.v7.ref) rfl (by decide), written (y := main_call1.call0.cst_1.ref) rfl (by decide),
    written (y := main_call1.call0.v8.ref) rfl (by decide), written (y := main_call1.call0.cst_2.ref) rfl (by decide),
    written (y := main_call1.call0.v9.ref) rfl (by decide), written (y := main_call1.call0.v10.ref) rfl (by decide),
    written (y := main_call1.call0.v11.ref) rfl (by decide), written (y := main_call1.call0.cst_3.ref) rfl (by decide),
    written (y := main_call1.call0.v12.ref) rfl (by decide), written (y := main_call1.call0.cst_4.ref) rfl (by decide),
    written (y := main_call1.call0.call0.v0.ref) rfl (by decide), written (y := main_call1.call0.call0.v1.ref) rfl (by decide),
    written (y := main_call1.call0.call0.v2.ref) rfl (by decide), written (y := main_call1.v1.ref) rfl (by decide),
    written (y := main_cst_1) rfl (by decide), written (y := main_v24) rfl (by decide),
    written (y := main_v25) rfl (by decide), written (y := main_v26) rfl (by decide),
    written (y := main_v27) rfl (by decide), written (y := main_v28) rfl (by decide)⟩

/-- The stretch leaves every buffer it does not write as it was. -/
theorem sC1_kept (W : Valuation τ sig (Elt F)) {r : Ref sig .tc} (hr : r ∉ sC1_W) :
    after sC1 W (Proc.devRef .tc r) = W (Proc.devRef .tc r) :=
  after_of_writes_sub sC1 W sC1_writes hr

/-- The stretch leaves the arguments as they were. -/
theorem argsOf_sC1 (W : Valuation τ sig (Elt F)) : argsOf (after sC1 W) = argsOf W := by
  unfold argsOf
  congr 1 <;> exact sC1_kept W (by decide)

/-- The references the stretch writes, in order. -/
abbrev sL1_W : List (Ref sig .tc) :=
  [ main_v29, main_v30, main_v31, main_v32, main_v33, main_v34,
    main_call2.cst.ref, main_call2.v0.ref, main_call2.v1.ref, main_v36, main_v37, main_v38,
    main_v39, main_cst_2, main_v40, main_v41, main_v42, main_cst_3,
    main_v43, main_v44, main_cst_4, main_v45, main_v46, main_v47,
    main_v48, main_v49, main_cst_5, main_v50, main_v51, main_cst_6,
    main_v52, main_v53, main_v54, main_v55, main_cst_7, main_v56,
    main_v57, main_v58, main_v59, main_v60, main_v61, main_v62,
    main_v63, main_v64, main_v65, main_v66 ]

theorem sL1_writes : (sL1 : List (HloOp τ sig (Elt F))).Forall fun op => op.writes ⊆ (sL1_W.map (Proc.devRef (τ := τ) .tc)).toFinset :=
  ⟨written (y := main_v29) rfl (by decide), written (y := main_v30) rfl (by decide),
    written (y := main_v31) rfl (by decide), written (y := main_v32) rfl (by decide),
    written (y := main_v33) rfl (by decide), written (y := main_v34) rfl (by decide),
    written (y := main_call2.cst.ref) rfl (by decide), written (y := main_call2.v0.ref) rfl (by decide),
    written (y := main_call2.v1.ref) rfl (by decide), written (y := main_v36) rfl (by decide),
    written (y := main_v37) rfl (by decide), written (y := main_v38) rfl (by decide),
    written (y := main_v39) rfl (by decide), written (y := main_cst_2) rfl (by decide),
    written (y := main_v40) rfl (by decide), written (y := main_v41) rfl (by decide),
    written (y := main_v42) rfl (by decide), written (y := main_cst_3) rfl (by decide),
    written (y := main_v43) rfl (by decide), written (y := main_v44) rfl (by decide),
    written (y := main_cst_4) rfl (by decide), written (y := main_v45) rfl (by decide),
    written (y := main_v46) rfl (by decide), written (y := main_v47) rfl (by decide),
    written (y := main_v48) rfl (by decide), written (y := main_v49) rfl (by decide),
    written (y := main_cst_5) rfl (by decide), written (y := main_v50) rfl (by decide),
    written (y := main_v51) rfl (by decide), written (y := main_cst_6) rfl (by decide),
    written (y := main_v52) rfl (by decide), written (y := main_v53) rfl (by decide),
    written (y := main_v54) rfl (by decide), written (y := main_v55) rfl (by decide),
    written (y := main_cst_7) rfl (by decide), written (y := main_v56) rfl (by decide),
    written (y := main_v57) rfl (by decide), written (y := main_v58) rfl (by decide),
    written (y := main_v59) rfl (by decide), written (y := main_v60) rfl (by decide),
    written (y := main_v61) rfl (by decide), written (y := main_v62) rfl (by decide),
    written (y := main_v63) rfl (by decide), written (y := main_v64) rfl (by decide),
    written (y := main_v65) rfl (by decide), written (y := main_v66) rfl (by decide)⟩

/-- The stretch leaves every buffer it does not write as it was. -/
theorem sL1_kept (W : Valuation τ sig (Elt F)) {r : Ref sig .tc} (hr : r ∉ sL1_W) :
    after sL1 W (Proc.devRef .tc r) = W (Proc.devRef .tc r) :=
  after_of_writes_sub sL1 W sL1_writes hr

/-- The stretch leaves the arguments as they were. -/
theorem argsOf_sL1 (W : Valuation τ sig (Elt F)) : argsOf (after sL1 W) = argsOf W := by
  unfold argsOf
  congr 1 <;> exact sL1_kept W (by decide)

/-- The references the stretch writes, in order. -/
abbrev sC2_W : List (Ref sig .tc) :=
  [ main_v67, main_v68, main_v69, main_v70, main_v71, main_v72,
    main_v73, main_v74, main_v75, main_call3.cst.ref, main_call3.v0.ref, main_call3.v1.ref,
    main_v77, main_v78, main_v79, main_v80, main_cst_8, main_v81,
    main_cst_9, main_v82, main_v83, main_v84, main_v85, main_v86,
    main_c_10, main_call4.call0.cst.ref, main_call4.call0.v0.ref, main_call4.call0.v1.ref, main_call4.call0.cst_0.ref, main_call4.call0.v2.ref,
    main_call4.call0.v3.ref, main_call4.call0.v4.ref, main_call4.call0.v5.ref, main_call4.call0.v6.ref, main_call4.call0.v7.ref, main_call4.call0.cst_1.ref,
    main_call4.call0.v8.ref, main_call4.call0.cst_2.ref, main_call4.call0.v9.ref, main_call4.call0.v10.ref, main_call4.call0.v11.ref, main_call4.call0.cst_3.ref,
    main_call4.call0.v12.ref, main_call4.call0.cst_4.ref, main_call4.call0.call0.v0.ref, main_call4.call0.call0.v1.ref, main_call4.call0.call0.v2.ref, main_call4.v1.ref,
    main_cst_11, main_v88, main_v89, main_v90, main_v91, main_v92 ]

theorem sC2_writes : (sC2 : List (HloOp τ sig (Elt F))).Forall fun op => op.writes ⊆ (sC2_W.map (Proc.devRef (τ := τ) .tc)).toFinset :=
  ⟨written (y := main_v67) rfl (by decide), written (y := main_v68) rfl (by decide),
    written (y := main_v69) rfl (by decide), written (y := main_v70) rfl (by decide),
    written (y := main_v71) rfl (by decide), written (y := main_v72) rfl (by decide),
    written (y := main_v73) rfl (by decide), written (y := main_v74) rfl (by decide),
    written (y := main_v75) rfl (by decide), written (y := main_call3.cst.ref) rfl (by decide),
    written (y := main_call3.v0.ref) rfl (by decide), written (y := main_call3.v1.ref) rfl (by decide),
    written (y := main_v77) rfl (by decide), written (y := main_v78) rfl (by decide),
    written (y := main_v79) rfl (by decide), written (y := main_v80) rfl (by decide),
    written (y := main_cst_8) rfl (by decide), written (y := main_v81) rfl (by decide),
    written (y := main_cst_9) rfl (by decide), written (y := main_v82) rfl (by decide),
    written (y := main_v83) rfl (by decide), written (y := main_v84) rfl (by decide),
    written (y := main_v85) rfl (by decide), written (y := main_v86) rfl (by decide),
    written (y := main_c_10) rfl (by decide), written (y := main_call4.call0.cst.ref) rfl (by decide),
    written (y := main_call4.call0.v0.ref) rfl (by decide), written (y := main_call4.call0.v1.ref) rfl (by decide),
    written (y := main_call4.call0.cst_0.ref) rfl (by decide), written (y := main_call4.call0.v2.ref) rfl (by decide),
    written (y := main_call4.call0.v3.ref) rfl (by decide), written (y := main_call4.call0.v4.ref) rfl (by decide),
    written (y := main_call4.call0.v5.ref) rfl (by decide), written (y := main_call4.call0.v6.ref) rfl (by decide),
    written (y := main_call4.call0.v7.ref) rfl (by decide), written (y := main_call4.call0.cst_1.ref) rfl (by decide),
    written (y := main_call4.call0.v8.ref) rfl (by decide), written (y := main_call4.call0.cst_2.ref) rfl (by decide),
    written (y := main_call4.call0.v9.ref) rfl (by decide), written (y := main_call4.call0.v10.ref) rfl (by decide),
    written (y := main_call4.call0.v11.ref) rfl (by decide), written (y := main_call4.call0.cst_3.ref) rfl (by decide),
    written (y := main_call4.call0.v12.ref) rfl (by decide), written (y := main_call4.call0.cst_4.ref) rfl (by decide),
    written (y := main_call4.call0.call0.v0.ref) rfl (by decide), written (y := main_call4.call0.call0.v1.ref) rfl (by decide),
    written (y := main_call4.call0.call0.v2.ref) rfl (by decide), written (y := main_call4.v1.ref) rfl (by decide),
    written (y := main_cst_11) rfl (by decide), written (y := main_v88) rfl (by decide),
    written (y := main_v89) rfl (by decide), written (y := main_v90) rfl (by decide),
    written (y := main_v91) rfl (by decide), written (y := main_v92) rfl (by decide)⟩

/-- The stretch leaves every buffer it does not write as it was. -/
theorem sC2_kept (W : Valuation τ sig (Elt F)) {r : Ref sig .tc} (hr : r ∉ sC2_W) :
    after sC2 W (Proc.devRef .tc r) = W (Proc.devRef .tc r) :=
  after_of_writes_sub sC2 W sC2_writes hr

/-- The stretch leaves the arguments as they were. -/
theorem argsOf_sC2 (W : Valuation τ sig (Elt F)) : argsOf (after sC2 W) = argsOf W := by
  unfold argsOf
  congr 1 <;> exact sC2_kept W (by decide)

/-- The references the stretch writes, in order. -/
abbrev sL2_W : List (Ref sig .tc) :=
  [ main_v93, main_v94, main_v95, main_v96, main_v97, main_v98,
    main_call5.cst.ref, main_call5.v0.ref, main_call5.v1.ref, main_v100, main_v101, main_v102,
    main_v103, main_cst_12, main_v104, main_v105, main_v106, main_cst_13,
    main_v107, main_v108, main_cst_14, main_v109, main_v110, main_v111,
    main_v112, main_v113, main_cst_15, main_v114, main_v115, main_cst_16,
    main_v116, main_v117, main_v118, main_v119, main_cst_17, main_v120,
    main_v121, main_v122, main_v123, main_v124, main_v125, main_v126,
    main_v127, main_v128, main_v129, main_v130 ]

theorem sL2_writes : (sL2 : List (HloOp τ sig (Elt F))).Forall fun op => op.writes ⊆ (sL2_W.map (Proc.devRef (τ := τ) .tc)).toFinset :=
  ⟨written (y := main_v93) rfl (by decide), written (y := main_v94) rfl (by decide),
    written (y := main_v95) rfl (by decide), written (y := main_v96) rfl (by decide),
    written (y := main_v97) rfl (by decide), written (y := main_v98) rfl (by decide),
    written (y := main_call5.cst.ref) rfl (by decide), written (y := main_call5.v0.ref) rfl (by decide),
    written (y := main_call5.v1.ref) rfl (by decide), written (y := main_v100) rfl (by decide),
    written (y := main_v101) rfl (by decide), written (y := main_v102) rfl (by decide),
    written (y := main_v103) rfl (by decide), written (y := main_cst_12) rfl (by decide),
    written (y := main_v104) rfl (by decide), written (y := main_v105) rfl (by decide),
    written (y := main_v106) rfl (by decide), written (y := main_cst_13) rfl (by decide),
    written (y := main_v107) rfl (by decide), written (y := main_v108) rfl (by decide),
    written (y := main_cst_14) rfl (by decide), written (y := main_v109) rfl (by decide),
    written (y := main_v110) rfl (by decide), written (y := main_v111) rfl (by decide),
    written (y := main_v112) rfl (by decide), written (y := main_v113) rfl (by decide),
    written (y := main_cst_15) rfl (by decide), written (y := main_v114) rfl (by decide),
    written (y := main_v115) rfl (by decide), written (y := main_cst_16) rfl (by decide),
    written (y := main_v116) rfl (by decide), written (y := main_v117) rfl (by decide),
    written (y := main_v118) rfl (by decide), written (y := main_v119) rfl (by decide),
    written (y := main_cst_17) rfl (by decide), written (y := main_v120) rfl (by decide),
    written (y := main_v121) rfl (by decide), written (y := main_v122) rfl (by decide),
    written (y := main_v123) rfl (by decide), written (y := main_v124) rfl (by decide),
    written (y := main_v125) rfl (by decide), written (y := main_v126) rfl (by decide),
    written (y := main_v127) rfl (by decide), written (y := main_v128) rfl (by decide),
    written (y := main_v129) rfl (by decide), written (y := main_v130) rfl (by decide)⟩

/-- The stretch leaves every buffer it does not write as it was. -/
theorem sL2_kept (W : Valuation τ sig (Elt F)) {r : Ref sig .tc} (hr : r ∉ sL2_W) :
    after sL2 W (Proc.devRef .tc r) = W (Proc.devRef .tc r) :=
  after_of_writes_sub sL2 W sL2_writes hr

/-- The stretch leaves the arguments as they were. -/
theorem argsOf_sL2 (W : Valuation τ sig (Elt F)) : argsOf (after sL2 W) = argsOf W := by
  unfold argsOf
  congr 1 <;> exact sL2_kept W (by decide)

/-- The references the stretch writes, in order. -/
abbrev sHd_W : List (Ref sig .tc) :=
  [ main_v131, main_v132, main_v133, main_v134, main_v135, main_v136,
    main_v137, main_call6.cst.ref, main_call6.v0.ref, main_call6.v1.ref, main_v139, main_v140,
    main_v141, main_v142, main_v143, main_v144, main_v145, main_v146,
    main_call7.cst.ref, main_call7.v0.ref, main_call7.v1.ref, main_v148, main_v149, main_v150,
    main_v151, main_v152, main_v153, main_v154, main_v155, main_call8.cst.ref,
    main_call8.v0.ref, main_call8.v1.ref, main_v157, main_v158, main_v159, main_v160 ]

theorem sHd_writes : (sHd : List (HloOp τ sig (Elt F))).Forall fun op => op.writes ⊆ (sHd_W.map (Proc.devRef (τ := τ) .tc)).toFinset :=
  ⟨written (y := main_v131) rfl (by decide), written (y := main_v132) rfl (by decide),
    written (y := main_v133) rfl (by decide), written (y := main_v134) rfl (by decide),
    written (y := main_v135) rfl (by decide), written (y := main_v136) rfl (by decide),
    written (y := main_v137) rfl (by decide), written (y := main_call6.cst.ref) rfl (by decide),
    written (y := main_call6.v0.ref) rfl (by decide), written (y := main_call6.v1.ref) rfl (by decide),
    written (y := main_v139) rfl (by decide), written (y := main_v140) rfl (by decide),
    written (y := main_v141) rfl (by decide), written (y := main_v142) rfl (by decide),
    written (y := main_v143) rfl (by decide), written (y := main_v144) rfl (by decide),
    written (y := main_v145) rfl (by decide), written (y := main_v146) rfl (by decide),
    written (y := main_call7.cst.ref) rfl (by decide), written (y := main_call7.v0.ref) rfl (by decide),
    written (y := main_call7.v1.ref) rfl (by decide), written (y := main_v148) rfl (by decide),
    written (y := main_v149) rfl (by decide), written (y := main_v150) rfl (by decide),
    written (y := main_v151) rfl (by decide), written (y := main_v152) rfl (by decide),
    written (y := main_v153) rfl (by decide), written (y := main_v154) rfl (by decide),
    written (y := main_v155) rfl (by decide), written (y := main_call8.cst.ref) rfl (by decide),
    written (y := main_call8.v0.ref) rfl (by decide), written (y := main_call8.v1.ref) rfl (by decide),
    written (y := main_v157) rfl (by decide), written (y := main_v158) rfl (by decide),
    written (y := main_v159) rfl (by decide), written (y := main_v160) rfl (by decide)⟩

/-- The stretch leaves every buffer it does not write as it was. -/
theorem sHd_kept (W : Valuation τ sig (Elt F)) {r : Ref sig .tc} (hr : r ∉ sHd_W) :
    after sHd W (Proc.devRef .tc r) = W (Proc.devRef .tc r) :=
  after_of_writes_sub sHd W sHd_writes hr

/-- The stretch leaves the arguments as they were. -/
theorem argsOf_sHd (W : Valuation τ sig (Elt F)) : argsOf (after sHd W) = argsOf W := by
  unfold argsOf
  congr 1 <;> exact sHd_kept W (by decide)

/-! ## Each stretch's result is its composed term -/

set_option maxRecDepth 8192 in
set_option maxHeartbeats 2000000 in
theorem sTile_v2 (W : Valuation τ sig (Elt F)) :
    after sTile W (main_v2 : DevRef τ sig) = Cert.Spec.tile (argsOf W).a1 := by
  simp only [sTile]
  after_results_simp
  rfl

set_option maxRecDepth 8192 in
set_option maxHeartbeats 2000000 in
theorem sC1_v28 (W : Valuation τ sig (Elt F)) :
    after sC1 W (main_v28 : DevRef τ sig) = Cert.Spec.hopC (W (main_v2 : DevRef τ sig)) (argsOf W).a0 (argsOf W).a4 (argsOf W).a5 (argsOf W).a6 (argsOf W).a7 := by
  simp only [sC1]
  after_results_simp
  simp only [Cert.TypedRef.ofBuf_toBuf]
  rfl

set_option maxRecDepth 8192 in
set_option maxHeartbeats 2000000 in
theorem sL1_v66 (W : Valuation τ sig (Elt F)) :
    after sL1 W (main_v66 : DevRef τ sig) = Cert.Spec.hopL (argsOf W).a0 (W (main_v28 : DevRef τ sig)) (argsOf W).a8 (argsOf W).a9 (argsOf W).a10 (argsOf W).a11 (W (main_v2 : DevRef τ sig)) (argsOf W).a2 (argsOf W).a3 := by
  simp only [sL1]
  after_results_simp
  simp only [Cert.TypedRef.ofBuf_toBuf]
  rfl

set_option maxRecDepth 8192 in
set_option maxHeartbeats 2000000 in
theorem sC2_v92 (W : Valuation τ sig (Elt F)) :
    after sC2 W (main_v92 : DevRef τ sig) = Cert.Spec.hopC (W (main_v66 : DevRef τ sig)) (argsOf W).a0 (argsOf W).a4 (argsOf W).a5 (argsOf W).a6 (argsOf W).a7 := by
  simp only [sC2]
  after_results_simp
  simp only [Cert.TypedRef.ofBuf_toBuf]
  rfl

set_option maxRecDepth 8192 in
set_option maxHeartbeats 2000000 in
theorem sL2_v130 (W : Valuation τ sig (Elt F)) :
    after sL2 W (main_v130 : DevRef τ sig) = Cert.Spec.hopL (argsOf W).a0 (W (main_v92 : DevRef τ sig)) (argsOf W).a8 (argsOf W).a9 (argsOf W).a10 (argsOf W).a11 (W (main_v66 : DevRef τ sig)) (argsOf W).a2 (argsOf W).a3 := by
  simp only [sL2]
  after_results_simp
  simp only [Cert.TypedRef.ofBuf_toBuf]
  rfl

set_option maxRecDepth 8192 in
set_option maxHeartbeats 2000000 in
theorem sHd_v142 (W : Valuation τ sig (Elt F)) :
    after sHd W (main_v142 : DevRef τ sig) = Cert.Spec.headD (W (main_v130 : DevRef τ sig)) (argsOf W).a12 (argsOf W).a13 (argsOf W).a14 (argsOf W).a15 := by
  simp only [sHd]
  after_results_simp
  simp only [Cert.TypedRef.ofBuf_toBuf]
  rfl

set_option maxRecDepth 8192 in
set_option maxHeartbeats 2000000 in
theorem sHd_v151 (W : Valuation τ sig (Elt F)) :
    after sHd W (main_v151 : DevRef τ sig) = Cert.Spec.headC (W (main_v130 : DevRef τ sig)) (argsOf W).a16 (argsOf W).a17 (argsOf W).a18 (argsOf W).a19 := by
  simp only [sHd]
  after_results_simp
  simp only [Cert.TypedRef.ofBuf_toBuf]
  rfl

set_option maxRecDepth 8192 in
set_option maxHeartbeats 2000000 in
theorem sHd_v160 (W : Valuation τ sig (Elt F)) :
    after sHd W (main_v160 : DevRef τ sig) = Cert.Spec.headS (W (main_v92 : DevRef τ sig)) (argsOf W).a20 (argsOf W).a21 (argsOf W).a22 (argsOf W).a23 := by
  simp only [sHd]
  after_results_simp
  simp only [Cert.TypedRef.ofBuf_toBuf]
  rfl

/-! ## The stretches composed -/

/-- The contents after the tile. -/
def V1 (W : Valuation τ sig (Elt F)) : Valuation τ sig (Elt F) := after sTile W
/-- The contents after the first clause hop. -/
def V2 (W : Valuation τ sig (Elt F)) : Valuation τ sig (Elt F) := after sC1 (V1 W)
/-- The contents after the first literal hop. -/
def V3 (W : Valuation τ sig (Elt F)) : Valuation τ sig (Elt F) := after sL1 (V2 W)
/-- The contents after the second clause hop. -/
def V4 (W : Valuation τ sig (Elt F)) : Valuation τ sig (Elt F) := after sC2 (V3 W)
/-- The contents after the second literal hop. -/
def V5 (W : Valuation τ sig (Elt F)) : Valuation τ sig (Elt F) := after sL2 (V4 W)

/-- The whole line is the heads' stretch from the contents after the two hops. -/
theorem after_ops (W : Valuation τ sig (Elt F)) : after ops W = after sHd (V5 W) := by
  simp only [ops, Cert.PadSplit.after_append]
  rfl

theorem V1_args (W : Valuation τ sig (Elt F)) : argsOf (V1 W) = argsOf W := argsOf_sTile W
theorem V1_v2 (W : Valuation τ sig (Elt F)) : V1 W (main_v2 : DevRef τ sig) = Cert.Spec.L0 (argsOf W) := by
  unfold V1; rw [sTile_v2]; rfl

theorem V2_args (W : Valuation τ sig (Elt F)) : argsOf (V2 W) = argsOf W := by
  unfold V2; rw [argsOf_sC1, V1_args]
theorem V2_v2 (W : Valuation τ sig (Elt F)) : V2 W (main_v2 : DevRef τ sig) = Cert.Spec.L0 (argsOf W) := by
  unfold V2; rw [sC1_kept (r := main_v2) _ (by decide)]; exact V1_v2 W
theorem V2_v28 (W : Valuation τ sig (Elt F)) : V2 W (main_v28 : DevRef τ sig) = Cert.Spec.C1 (argsOf W) := by
  unfold V2; rw [sC1_v28, V1_v2, V1_args]; rfl

theorem V3_args (W : Valuation τ sig (Elt F)) : argsOf (V3 W) = argsOf W := by
  unfold V3; rw [argsOf_sL1, V2_args]
theorem V3_v66 (W : Valuation τ sig (Elt F)) : V3 W (main_v66 : DevRef τ sig) = Cert.Spec.L1 (argsOf W) := by
  unfold V3; rw [sL1_v66, V2_v28, V2_v2, V2_args]; rfl

theorem V4_args (W : Valuation τ sig (Elt F)) : argsOf (V4 W) = argsOf W := by
  unfold V4; rw [argsOf_sC2, V3_args]
theorem V4_v66 (W : Valuation τ sig (Elt F)) : V4 W (main_v66 : DevRef τ sig) = Cert.Spec.L1 (argsOf W) := by
  unfold V4; rw [sC2_kept (r := main_v66) _ (by decide)]; exact V3_v66 W
theorem V4_v92 (W : Valuation τ sig (Elt F)) : V4 W (main_v92 : DevRef τ sig) = Cert.Spec.C2 (argsOf W) := by
  unfold V4; rw [sC2_v92, V3_v66, V3_args]; rfl

theorem V5_args (W : Valuation τ sig (Elt F)) : argsOf (V5 W) = argsOf W := by
  unfold V5; rw [argsOf_sL2, V4_args]
theorem V5_v92 (W : Valuation τ sig (Elt F)) : V5 W (main_v92 : DevRef τ sig) = Cert.Spec.C2 (argsOf W) := by
  unfold V5; rw [sL2_kept (r := main_v92) _ (by decide)]; exact V4_v92 W
theorem V5_v130 (W : Valuation τ sig (Elt F)) : V5 W (main_v130 : DevRef τ sig) = Cert.Spec.L2 (argsOf W) := by
  unfold V5; rw [sL2_v130, V4_v92, V4_v66, V4_args]; rfl

/-! ## The results and the arguments after the whole line -/

theorem out0_eq (W : Valuation τ sig (Elt F)) :
    after ops W (main_v142 : DevRef τ sig) = Cert.Spec.out0 (argsOf W) := by
  rw [after_ops, sHd_v142, V5_v130, V5_args]; rfl

theorem out1_eq (W : Valuation τ sig (Elt F)) :
    after ops W (main_v151 : DevRef τ sig) = Cert.Spec.out1 (argsOf W) := by
  rw [after_ops, sHd_v151, V5_v130, V5_args]; rfl

theorem out2_eq (W : Valuation τ sig (Elt F)) :
    after ops W (main_v160 : DevRef τ sig) = Cert.Spec.out2 (argsOf W) := by
  rw [after_ops, sHd_v160, V5_v92, V5_args]; rfl

/-- The whole line leaves the arguments as they were. -/
theorem args_kept (W : Valuation τ sig (Elt F)) : argsOf (after ops W) = argsOf W := by
  rw [after_ops, argsOf_sHd, V5_args]

theorem arg0_kept (W : Valuation τ sig (Elt F)) : after ops W (main_arg0 : DevRef τ sig) = W (main_arg0 : DevRef τ sig) :=
  congrArg Cert.Spec.Args.a0 (args_kept W)
theorem arg1_kept (W : Valuation τ sig (Elt F)) : after ops W (main_arg1 : DevRef τ sig) = W (main_arg1 : DevRef τ sig) :=
  congrArg Cert.Spec.Args.a1 (args_kept W)
theorem arg2_kept (W : Valuation τ sig (Elt F)) : after ops W (main_arg2 : DevRef τ sig) = W (main_arg2 : DevRef τ sig) :=
  congrArg Cert.Spec.Args.a2 (args_kept W)
theorem arg3_kept (W : Valuation τ sig (Elt F)) : after ops W (main_arg3 : DevRef τ sig) = W (main_arg3 : DevRef τ sig) :=
  congrArg Cert.Spec.Args.a3 (args_kept W)
theorem arg4_kept (W : Valuation τ sig (Elt F)) : after ops W (main_arg4 : DevRef τ sig) = W (main_arg4 : DevRef τ sig) :=
  congrArg Cert.Spec.Args.a4 (args_kept W)
theorem arg5_kept (W : Valuation τ sig (Elt F)) : after ops W (main_arg5 : DevRef τ sig) = W (main_arg5 : DevRef τ sig) :=
  congrArg Cert.Spec.Args.a5 (args_kept W)
theorem arg6_kept (W : Valuation τ sig (Elt F)) : after ops W (main_arg6 : DevRef τ sig) = W (main_arg6 : DevRef τ sig) :=
  congrArg Cert.Spec.Args.a6 (args_kept W)
theorem arg7_kept (W : Valuation τ sig (Elt F)) : after ops W (main_arg7 : DevRef τ sig) = W (main_arg7 : DevRef τ sig) :=
  congrArg Cert.Spec.Args.a7 (args_kept W)
theorem arg8_kept (W : Valuation τ sig (Elt F)) : after ops W (main_arg8 : DevRef τ sig) = W (main_arg8 : DevRef τ sig) :=
  congrArg Cert.Spec.Args.a8 (args_kept W)
theorem arg9_kept (W : Valuation τ sig (Elt F)) : after ops W (main_arg9 : DevRef τ sig) = W (main_arg9 : DevRef τ sig) :=
  congrArg Cert.Spec.Args.a9 (args_kept W)
theorem arg10_kept (W : Valuation τ sig (Elt F)) : after ops W (main_arg10 : DevRef τ sig) = W (main_arg10 : DevRef τ sig) :=
  congrArg Cert.Spec.Args.a10 (args_kept W)
theorem arg11_kept (W : Valuation τ sig (Elt F)) : after ops W (main_arg11 : DevRef τ sig) = W (main_arg11 : DevRef τ sig) :=
  congrArg Cert.Spec.Args.a11 (args_kept W)
theorem arg12_kept (W : Valuation τ sig (Elt F)) : after ops W (main_arg12 : DevRef τ sig) = W (main_arg12 : DevRef τ sig) :=
  congrArg Cert.Spec.Args.a12 (args_kept W)
theorem arg13_kept (W : Valuation τ sig (Elt F)) : after ops W (main_arg13 : DevRef τ sig) = W (main_arg13 : DevRef τ sig) :=
  congrArg Cert.Spec.Args.a13 (args_kept W)
theorem arg14_kept (W : Valuation τ sig (Elt F)) : after ops W (main_arg14 : DevRef τ sig) = W (main_arg14 : DevRef τ sig) :=
  congrArg Cert.Spec.Args.a14 (args_kept W)
theorem arg15_kept (W : Valuation τ sig (Elt F)) : after ops W (main_arg15 : DevRef τ sig) = W (main_arg15 : DevRef τ sig) :=
  congrArg Cert.Spec.Args.a15 (args_kept W)
theorem arg16_kept (W : Valuation τ sig (Elt F)) : after ops W (main_arg16 : DevRef τ sig) = W (main_arg16 : DevRef τ sig) :=
  congrArg Cert.Spec.Args.a16 (args_kept W)
theorem arg17_kept (W : Valuation τ sig (Elt F)) : after ops W (main_arg17 : DevRef τ sig) = W (main_arg17 : DevRef τ sig) :=
  congrArg Cert.Spec.Args.a17 (args_kept W)
theorem arg18_kept (W : Valuation τ sig (Elt F)) : after ops W (main_arg18 : DevRef τ sig) = W (main_arg18 : DevRef τ sig) :=
  congrArg Cert.Spec.Args.a18 (args_kept W)
theorem arg19_kept (W : Valuation τ sig (Elt F)) : after ops W (main_arg19 : DevRef τ sig) = W (main_arg19 : DevRef τ sig) :=
  congrArg Cert.Spec.Args.a19 (args_kept W)
theorem arg20_kept (W : Valuation τ sig (Elt F)) : after ops W (main_arg20 : DevRef τ sig) = W (main_arg20 : DevRef τ sig) :=
  congrArg Cert.Spec.Args.a20 (args_kept W)
theorem arg21_kept (W : Valuation τ sig (Elt F)) : after ops W (main_arg21 : DevRef τ sig) = W (main_arg21 : DevRef τ sig) :=
  congrArg Cert.Spec.Args.a21 (args_kept W)
theorem arg22_kept (W : Valuation τ sig (Elt F)) : after ops W (main_arg22 : DevRef τ sig) = W (main_arg22 : DevRef τ sig) :=
  congrArg Cert.Spec.Args.a22 (args_kept W)
theorem arg23_kept (W : Valuation τ sig (Elt F)) : after ops W (main_arg23 : DevRef τ sig) = W (main_arg23 : DevRef τ sig) :=
  congrArg Cert.Spec.Args.a23 (args_kept W)

end Cert.ReferenceIdeal.RefValue

end
-- ==== Proof.RefClaims.lean ====
/-
  The reference's half of the claims, at the extended reals: the reference terminates with its arguments unchanged,
  and its three results are the network of Net.lean at the arguments' launch contents.
-/
import proofs.«170097_g26499948216398_cont_9to1_1103_19_alg».proof.Defs
import proofs.«170097_g26499948216398_cont_9to1_1103_19_alg».proof.Proof.Gen.ReferenceIdeal
import proofs.«170097_g26499948216398_cont_9to1_1103_19_alg».proof.Proof.Gen.Pre_finite_inputs
import proofs.«170097_g26499948216398_cont_9to1_1103_19_alg».proof.Proof.RefRun
import proofs.«170097_g26499948216398_cont_9to1_1103_19_alg».proof.Proof.RefValue

noncomputable section

namespace Cert.Proof.RefClaims

open Idealize.ShloMosaic Idealize.ShloMosaic.TcCoe Idealize.SL.Sem
open Cert.ReferenceIdeal

/-- The reference terminates and its arguments end unchanged: no operation writes an argument. -/
theorem frame_ri : Cert.frame_ReferenceIdeal := fun m ρ _ =>
  (θ_run Cert.ReferenceIdeal.defs _ _).mono (fun r h c => ⟨
      (h c main_arg0).trans (RefValue.arg0_kept _),
      (h c main_arg1).trans (RefValue.arg1_kept _),
      (h c main_arg2).trans (RefValue.arg2_kept _),
      (h c main_arg3).trans (RefValue.arg3_kept _),
      (h c main_arg4).trans (RefValue.arg4_kept _),
      (h c main_arg5).trans (RefValue.arg5_kept _),
      (h c main_arg6).trans (RefValue.arg6_kept _),
      (h c main_arg7).trans (RefValue.arg7_kept _),
      (h c main_arg8).trans (RefValue.arg8_kept _),
      (h c main_arg9).trans (RefValue.arg9_kept _),
      (h c main_arg10).trans (RefValue.arg10_kept _),
      (h c main_arg11).trans (RefValue.arg11_kept _),
      (h c main_arg12).trans (RefValue.arg12_kept _),
      (h c main_arg13).trans (RefValue.arg13_kept _),
      (h c main_arg14).trans (RefValue.arg14_kept _),
      (h c main_arg15).trans (RefValue.arg15_kept _),
      (h c main_arg16).trans (RefValue.arg16_kept _),
      (h c main_arg17).trans (RefValue.arg17_kept _),
      (h c main_arg18).trans (RefValue.arg18_kept _),
      (h c main_arg19).trans (RefValue.arg19_kept _),
      (h c main_arg20).trans (RefValue.arg20_kept _),
      (h c main_arg21).trans (RefValue.arg21_kept _),
      (h c main_arg22).trans (RefValue.arg22_kept _),
      (h c main_arg23).trans (RefValue.arg23_kept _)⟩)
    (RefRun.run (F := Ideal) m ρ)

/-- The reference terminates with its three results at the network of the arguments' launch contents, and its
    arguments unchanged. -/
theorem ref_net (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v142) = Cert.Spec.out0 (RefValue.argsOf (StableHlo.launchContents m' c))
      ∧ r.2.mem ((c.tc : Thread nD τ).loc main_v151) = Cert.Spec.out1 (RefValue.argsOf (StableHlo.launchContents m' c))
      ∧ r.2.mem ((c.tc : Thread nD τ).loc main_v160) = Cert.Spec.out2 (RefValue.argsOf (StableHlo.launchContents m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)) :=
  (θ_run Cert.ReferenceIdeal.defs _ _).mono (fun r h c => ⟨
      (h c main_v142).trans (RefValue.out0_eq _),
      (h c main_v151).trans (RefValue.out1_eq _),
      (h c main_v160).trans (RefValue.out2_eq _),
      (h c main_arg0).trans (RefValue.arg0_kept _),
      (h c main_arg1).trans (RefValue.arg1_kept _),
      (h c main_arg2).trans (RefValue.arg2_kept _),
      (h c main_arg3).trans (RefValue.arg3_kept _),
      (h c main_arg4).trans (RefValue.arg4_kept _),
      (h c main_arg5).trans (RefValue.arg5_kept _),
      (h c main_arg6).trans (RefValue.arg6_kept _),
      (h c main_arg7).trans (RefValue.arg7_kept _),
      (h c main_arg8).trans (RefValue.arg8_kept _),
      (h c main_arg9).trans (RefValue.arg9_kept _),
      (h c main_arg10).trans (RefValue.arg10_kept _),
      (h c main_arg11).trans (RefValue.arg11_kept _),
      (h c main_arg12).trans (RefValue.arg12_kept _),
      (h c main_arg13).trans (RefValue.arg13_kept _),
      (h c main_arg14).trans (RefValue.arg14_kept _),
      (h c main_arg15).trans (RefValue.arg15_kept _),
      (h c main_arg16).trans (RefValue.arg16_kept _),
      (h c main_arg17).trans (RefValue.arg17_kept _),
      (h c main_arg18).trans (RefValue.arg18_kept _),
      (h c main_arg19).trans (RefValue.arg19_kept _),
      (h c main_arg20).trans (RefValue.arg20_kept _),
      (h c main_arg21).trans (RefValue.arg21_kept _),
      (h c main_arg22).trans (RefValue.arg22_kept _),
      (h c main_arg23).trans (RefValue.arg23_kept _)⟩)
    (RefRun.run (F := Ideal) m' ρ')

end Cert.Proof.RefClaims

end
-- ==== Proof.lean ====
/-
  The certificate's five claims.

  Both programs compute one network of the twenty-four argument arrays (Proof/Net.lean): the literal state starts as one
  row repeated; twice, a clause hop (messages G·[L, flipped L], a two-layer update, a per-feature normalisation over the
  ten thousand clauses) and a literal hop (messages G^T·C, a two-layer update plus a tenth of the previous state, a row
  layer-norm); then two score heads over the paired halves of the literal state and one over the clause state.

  The reference runs all of it as host operations; its run and value are read in Proof/RefRun.lean and Proof/RefValue.lean.
  The kernel program runs the same host operations up to the second clause state, and one kernel over ten blocks of a
  thousand clauses for the rest: the clause message G^T·C2 is accumulated block by block (the sum over the clauses taken
  in ten runs: addition of extended reals is associative and commutative, so no finiteness is needed), the last block
  applies the literal update, the layer-norm and the two heads, and every block applies the clause head to its own rows
  (a row of that head depends on the same row of the clause state only). At the extended reals a matrix-unit product into
  a zero accumulator and a host dot_general are the same finite sum, a change of float format is the identity, and the
  kernel's lane reductions, column broadcasts and transposes are the host's reductions, broadcasts and transposes read at
  an index; nothing else differs, so the law joining the two sides is the re-association of one sum.
-/
import proofs.«170097_g26499948216398_cont_9to1_1103_19_alg».proof.Defs
import proofs.«170097_g26499948216398_cont_9to1_1103_19_alg».proof.Proof.Gen.Kernel
import proofs.«170097_g26499948216398_cont_9to1_1103_19_alg».proof.Proof.Gen.Kernel.Frame
import proofs.«170097_g26499948216398_cont_9to1_1103_19_alg».proof.Proof.Gen.KernelIdeal
import proofs.«170097_g26499948216398_cont_9to1_1103_19_alg».proof.Proof.Gen.KernelIdeal.Frame
import proofs.«170097_g26499948216398_cont_9to1_1103_19_alg».proof.Proof.Gen.ReferenceIdeal
import proofs.«170097_g26499948216398_cont_9to1_1103_19_alg».proof.Proof.Gen.Pre_finite_inputs
import proofs.«170097_g26499948216398_cont_9to1_1103_19_alg».proof.Proof.KerRun
import proofs.«170097_g26499948216398_cont_9to1_1103_19_alg».proof.Proof.RefClaims
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates and its arguments end unchanged: no operation writes an argument. -/
theorem frame_ri : Cert.frame_ReferenceIdeal := Cert.Proof.RefClaims.frame_ri

theorem preserves : Cert.preserves_Kernel_KernelIdeal := trivial

/-- Memories agreeing on the arguments give the two programs the same twenty-four arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.RefValue.argsOf (StableHlo.launchContents m' c) = Cert.KernelIdeal.KerHost.argsOf m c := by
  obtain ⟨e0, e1, e2, e3, e4, e5, e6, e7, e8, e9, e10, e11, e12, e13, e14, e15, e16, e17, e18, e19, e20, e21, e22, e23⟩ := h
  unfold Cert.ReferenceIdeal.RefValue.argsOf Cert.KernelIdeal.KerHost.argsOf
  exact (Cert.Spec.Args.mk.injEq ..).mpr ⟨e0, e1, e2, e3, e4, e5, e6, e7, e8, e9, e10, e11, e12, e13, e14, e15, e16, e17, e18, e19, e20, e21, e22, e23⟩

open Cert.ReferenceIdeal in
/-- Both programs end with the network's three results of the shared argument arrays. -/
theorem algebraic : Cert.algebraic_KernelIdeal_ReferenceIdeal := by
  intro m ρ m' ρ' _ hagree
  refine ⟨fun c => Cert.Spec.out0 (Cert.KernelIdeal.KerHost.argsOf m c), fun c => Cert.Spec.out1 (Cert.KernelIdeal.KerHost.argsOf m c),
    fun c => Cert.Spec.out2 (Cert.KernelIdeal.KerHost.argsOf m c), Cert.KernelIdeal.Gen.run_net m ρ, ?_⟩
  refine (θ_run Cert.ReferenceIdeal.defs _ _).mono (fun r h c => ⟨
      (h c).1.trans (congrArg Cert.Spec.out0 (args_agree m m' c (hagree c))),
      (h c).2.1.trans (congrArg Cert.Spec.out1 (args_agree m m' c (hagree c))),
      (h c).2.2.1.trans (congrArg Cert.Spec.out2 (args_agree m m' c (hagree c))),
      (h c).2.2.2⟩)
    (Cert.Proof.RefClaims.ref_net m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
